-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x5 : Shape := ⟨2, ![500000, 5]⟩
abbrev S2x8000000 : Shape := ⟨2, ![2, 8000000]⟩
abbrev S500000 : Shape := ⟨1, ![500000]⟩
abbrev S8192x10 : Shape := ⟨2, ![8192, 10]⟩
abbrev S5x5 : Shape := ⟨2, ![5, 5]⟩
abbrev S5 : Shape := ⟨1, ![5]⟩
abbrev S5x10 : Shape := ⟨2, ![5, 10]⟩
abbrev S10 : Shape := ⟨1, ![10]⟩
abbrev S10x10 : Shape := ⟨2, ![10, 10]⟩
abbrev S20x128 : Shape := ⟨2, ![20, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S500000x5 : S_.BroadcastsInDim S500000x5 (![] : Fin 0 → Fin S500000x5.rank)
  reducesTo_S500000x5_S_d0_1 : S500000x5.ReducesTo [0, 1] S_
  h_S_ : 0 < S_.numel
  bcast_S_S8192x10 : S_.BroadcastsInDim S8192x10 (![] : Fin 0 → Fin S8192x10.rank)
  reducesTo_S8192x10_S_d0_1 : S8192x10.ReducesTo [0, 1] S_
  bcast_S_S5x5 : S_.BroadcastsInDim S5x5 (![] : Fin 0 → Fin S5x5.rank)
  reducesTo_S5x5_S_d0_1 : S5x5.ReducesTo [0, 1] S_
  bcast_S_S5 : S_.BroadcastsInDim S5 (![] : Fin 0 → Fin S5.rank)
  reducesTo_S5_S_d0 : S5.ReducesTo [0] S_
  bcast_S_S5x10 : S_.BroadcastsInDim S5x10 (![] : Fin 0 → Fin S5x10.rank)
  reducesTo_S5x10_S_d0_1 : S5x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S20x128 : S_.BroadcastsInDim S20x128 (![] : Fin 0 → Fin S20x128.rank)
  reducesTo_S20x128_S_d0_1 : S20x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg27 : FVec F S1 .f32) (main_v118 : IVec S_ 1) (main_v119 : FVec F S64x1 .f32) : IVec S_ 1 :=
  let main_cst_46 : FVec F S_ .f32 := constant S_ .f32 0x7F800000#32
  let main_v120 : FVec F S64x1 .f32 := broadcastInDim S64x1 ![] bcast_S_S64x1 main_cst_46
  let main_v121 : IVec S64x1 1 := cmpf .olt main_v119 main_v120
  let main_c_47 : IVec S_ 1 := constantI S_ 1 1#1
  let main_v122 : IVec S_ 1 := (fun x v => Host.reduce IntOp.andi x v reducesTo_S64x1_S_d0_1 h_S_) main_v121 main_c_47
  let main_v123 : IVec S_ 1 := andi main_v118 main_v122
  let main_v124 : FVec F S1 .f32 := Host.absf main_arg27
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  main_v128

def fn_part6 {F : FTy → Type} [FloatOps F] (main_arg23 : FVec F S128 .f32) (main_arg24 : FVec F S128x64 .f32) (main_arg25 : FVec F S64 .f32) (main_arg26 : FVec F S64x1 .f32) (main_arg27 : FVec F S1 .f32) (main_v98 : IVec S_ 1) (main_v101 : IVec S20x128 1) (main_c_39 : IVec S_ 1) : IVec S_ 1 :=
  let main_v102 : IVec S_ 1 := (fun x v => Host.reduce IntOp.andi x v reducesTo_S20x128_S_d0_1 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x64 .f32 := Host.absf main_arg24
  let main_cst_42 : FVec F S_ .f32 := constant S_ .f32 0x7F800000#32
  let main_v110 : FVec F S128x64 .f32 := broadcastInDim S128x64 ![] bcast_S_S128x64 main_cst_42
  let main_v111 : IVec S128x64 1 := cmpf .olt main_v109 main_v110
  let main_c_43 : IVec S_ 1 := constantI S_ 1 1#1
  let main_v112 : IVec S_ 1 := (fun x v => Host.reduce IntOp.andi x v reducesTo_S128x64_S_d0_1 h_S_) main_v111 main_c_43
  let main_v113 : IVec S_ 1 := andi main_v108 main_v112
  let main_v114 : FVec F S64 .f32 := Host.absf main_arg25
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x1 .f32 := Host.absf main_arg26
  fn_part7 (F := F) main_arg27 main_v118 main_v119

def fn_part5 {F : FTy → Type} [FloatOps F] (main_arg20 : FVec F S10 .f32) (main_arg21 : FVec F S10 .f32) (main_arg22 : FVec F S20x128 .f32) (main_arg23 : FVec F S128 .f32) (main_arg24 : FVec F S128x64 .f32) (main_arg25 : FVec F S64 .f32) (main_arg26 : FVec F S64x1 .f32) (main_arg27 : FVec F S1 .f32) (main_v83 : IVec S_ 1) (main_v84 : FVec F S10 .f32) (main_cst_32 : FVec F S_ .f32) : IVec S_ 1 :=
  let main_v85 : FVec F S10 .f32 := broadcastInDim S10 ![] bcast_S_S10 main_cst_32
  let main_v86 : IVec S10 1 := cmpf .olt main_v84 main_v85
  let main_c_33 : IVec S_ 1 := constantI S_ 1 1#1
  let main_v87 : IVec S_ 1 := (fun x v => Host.reduce IntOp.andi x v reducesTo_S10_S_d0 h_S_) main_v86 main_c_33
  let main_v88 : IVec S_ 1 := andi main_v83 main_v87
  let main_v89 : FVec F S10 .f32 := Host.absf main_arg20
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  let main_v94 : FVec F S10 .f32 := Host.absf main_arg21
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  let main_v99 : FVec F S20x128 .f32 := Host.absf main_arg22
  let main_cst_38 : FVec F S_ .f32 := constant S_ .f32 0x7F800000#32
  let main_v100 : FVec F S20x128 .f32 := broadcastInDim S20x128 ![] bcast_S_S20x128 main_cst_38
  let main_v101 : IVec S20x128 1 := cmpf .olt main_v99 main_v100
  let main_c_39 : IVec S_ 1 := constantI S_ 1 1#1
  fn_part6 (F := F) main_arg23 main_arg24 main_arg25 main_arg26 main_arg27 main_v98 main_v101 main_c_39

def fn_part4 {F : FTy → Type} [FloatOps F] (main_arg16 : FVec F S5 .f32) (main_arg17 : FVec F S5 .f32) (main_arg18 : FVec F S10 .f32) (main_arg19 : FVec F S10 .f32) (main_arg20 : FVec F S10 .f32) (main_arg21 : FVec F S10 .f32) (main_arg22 : FVec F S20x128 .f32) (main_arg23 : FVec F S128 .f32) (main_arg24 : FVec F S128x64 .f32) (main_arg25 : FVec F S64 .f32) (main_arg26 : FVec F S64x1 .f32) (main_arg27 : FVec F S1 .f32) (main_v63 : IVec S_ 1) (main_v67 : IVec S_ 1) : IVec S_ 1 :=
  let main_v68 : IVec S_ 1 := andi main_v63 main_v67
  let main_v69 : FVec F S5 .f32 := Host.absf main_arg16
  let main_cst_26 : FVec F S_ .f32 := constant S_ .f32 0x7F800000#32
  let main_v70 : FVec F S5 .f32 := broadcastInDim S5 ![] bcast_S_S5 main_cst_26
  let main_v71 : IVec S5 1 := cmpf .olt main_v69 main_v70
  let main_c_27 : IVec S_ 1 := constantI S_ 1 1#1
  let main_v72 : IVec S_ 1 := (fun x v => Host.reduce IntOp.andi x v reducesTo_S5_S_d0 h_S_) main_v71 main_c_27
  let main_v73 : IVec S_ 1 := andi main_v68 main_v72
  let main_v74 : FVec F S5 .f32 := Host.absf main_arg17
  let main_cst_28 : FVec F S_ .f32 := constant S_ .f32 0x7F800000#32
  let main_v75 : FVec F S5 .f32 := broadcastInDim S5 ![] bcast_S_S5 main_cst_28
  let main_v76 : IVec S5 1 := cmpf .olt main_v74 main_v75
  let main_c_29 : IVec S_ 1 := constantI S_ 1 1#1
  let main_v77 : IVec S_ 1 := (fun x v => Host.reduce IntOp.andi x v reducesTo_S5_S_d0 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  let main_v84 : FVec F S10 .f32 := Host.absf main_arg19
  let main_cst_32 : FVec F S_ .f32 := constant S_ .f32 0x7F800000#32
  fn_part5 (F := F) main_arg20 main_arg21 main_arg22 main_arg23 main_arg24 main_arg25 main_arg26 main_arg27 main_v83 main_v84 main_cst_32

def fn_part3 {F : FTy → Type} [FloatOps F] (main_arg13 : FVec F S10 .f32) (main_arg14 : FVec F S10x10 .f32) (main_arg15 : FVec F S10 .f32) (main_arg16 : FVec F S5 .f32) (main_arg17 : FVec F S5 .f32) (main_arg18 : FVec F S10 .f32) (main_arg19 : FVec F S10 .f32) (main_arg20 : FVec F S10 .f32) (main_arg21 : FVec F S10 .f32) (main_arg22 : FVec F S20x128 .f32) (main_arg23 : FVec F S128 .f32) (main_arg24 : FVec F S128x64 .f32) (main_arg25 : FVec F S64 .f32) (main_arg26 : FVec F S64x1 .f32) (main_arg27 : FVec F S1 .f32) (main_v48 : IVec S_ 1) (main_v49 : FVec F S10x10 .f32) (main_v50 : FVec F S10x10 .f32) : IVec S_ 1 :=
  let main_v51 : IVec S10x10 1 := cmpf .olt main_v49 main_v50
  let main_c_19 : IVec S_ 1 := constantI S_ 1 1#1
  let main_v52 : IVec S_ 1 := (fun x v => Host.reduce IntOp.andi x v reducesTo_S10x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S10x10 .f32 := Host.absf main_arg14
  let main_cst_22 : FVec F S_ .f32 := constant S_ .f32 0x7F800000#32
  let main_v60 : FVec F S10x10 .f32 := broadcastInDim S10x10 ![] bcast_S_S10x10 main_cst_22
  let main_v61 : IVec S10x10 1 := cmpf .olt main_v59 main_v60
  let main_c_23 : IVec S_ 1 := constantI S_ 1 1#1
  let main_v62 : IVec S_ 1 := (fun x v => Host.reduce IntOp.andi x v reducesTo_S10x10_S_d0_1 h_S_) main_v61 main_c_23
  let main_v63 : IVec S_ 1 := andi main_v58 main_v62
  let main_v64 : FVec F S10 .f32 := Host.absf main_arg15
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_arg16 main_arg17 main_arg18 main_arg19 main_arg20 main_arg21 main_arg22 main_arg23 main_arg24 main_arg25 main_arg26 main_arg27 main_v63 main_v67

def fn_part2 {F : FTy → Type} [FloatOps F] (main_arg9 : FVec F S10 .f32) (main_arg10 : FVec F S10x10 .f32) (main_arg11 : FVec F S10 .f32) (main_arg12 : FVec F S10x10 .f32) (main_arg13 : FVec F S10 .f32) (main_arg14 : FVec F S10x10 .f32) (main_arg15 : FVec F S10 .f32) (main_arg16 : FVec F S5 .f32) (main_arg17 : FVec F S5 .f32) (main_arg18 : FVec F S10 .f32) (main_arg19 : FVec F S10 .f32) (main_arg20 : FVec F S10 .f32) (main_arg21 : FVec F S10 .f32) (main_arg22 : FVec F S20x128 .f32) (main_arg23 : FVec F S128 .f32) (main_arg24 : FVec F S128x64 .f32) (main_arg25 : FVec F S64 .f32) (main_arg26 : FVec F S64x1 .f32) (main_arg27 : FVec F S1 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S10x10 .f32 := Host.absf main_arg10
  let main_cst_14 : FVec F S_ .f32 := constant S_ .f32 0x7F800000#32
  let main_v40 : FVec F S10x10 .f32 := broadcastInDim S10x10 ![] bcast_S_S10x10 main_cst_14
  let main_v41 : IVec S10x10 1 := cmpf .olt main_v39 main_v40
  let main_c_15 : IVec S_ 1 := constantI S_ 1 1#1
  let main_v42 : IVec S_ 1 := (fun x v => Host.reduce IntOp.andi x v reducesTo_S10x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S10x10 .f32 := Host.absf main_arg12
  let main_cst_18 : FVec F S_ .f32 := constant S_ .f32 0x7F800000#32
  let main_v50 : FVec F S10x10 .f32 := broadcastInDim S10x10 ![] bcast_S_S10x10 main_cst_18
  fn_part3 (F := F) main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg6 : FVec F S5x5 .f32) (main_arg7 : FVec F S5 .f32) (main_arg8 : FVec F S5x10 .f32) (main_arg9 : FVec F S10 .f32) (main_arg10 : FVec F S10x10 .f32) (main_arg11 : FVec F S10 .f32) (main_arg12 : FVec F S10x10 .f32) (main_arg13 : FVec F S10 .f32) (main_arg14 : FVec F S10x10 .f32) (main_arg15 : FVec F S10 .f32) (main_arg16 : FVec F S5 .f32) (main_arg17 : FVec F S5 .f32) (main_arg18 : FVec F S10 .f32) (main_arg19 : FVec F S10 .f32) (main_arg20 : FVec F S10 .f32) (main_arg21 : FVec F S10 .f32) (main_arg22 : FVec F S20x128 .f32) (main_arg23 : FVec F S128 .f32) (main_arg24 : FVec F S128x64 .f32) (main_arg25 : FVec F S64 .f32) (main_arg26 : FVec F S64x1 .f32) (main_arg27 : FVec F S1 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5x5 .f32 := Host.absf main_arg6
  let main_cst_6 : FVec F S_ .f32 := constant S_ .f32 0x7F800000#32
  let main_v20 : FVec F S5x5 .f32 := broadcastInDim S5x5 ![] bcast_S_S5x5 main_cst_6
  let main_v21 : IVec S5x5 1 := cmpf .olt main_v19 main_v20
  let main_c_7 : IVec S_ 1 := constantI S_ 1 1#1
  let main_v22 : IVec S_ 1 := (fun x v => Host.reduce IntOp.andi x v reducesTo_S5x5_S_d0_1 h_S_) main_v21 main_c_7
  let main_v23 : IVec S_ 1 := andi main_v18 main_v22
  let main_v24 : FVec F S5 .f32 := Host.absf main_arg7
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  let main_v29 : FVec F S5x10 .f32 := Host.absf main_arg8
  let main_cst_10 : FVec F S_ .f32 := constant S_ .f32 0x7F800000#32
  let main_v30 : FVec F S5x10 .f32 := broadcastInDim S5x10 ![] bcast_S_S5x10 main_cst_10
  let main_v31 : IVec S5x10 1 := cmpf .olt main_v29 main_v30
  let main_c_11 : IVec S_ 1 := constantI S_ 1 1#1
  let main_v32 : IVec S_ 1 := (fun x v => Host.reduce IntOp.andi x v reducesTo_S5x10_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S500000x5 .f32) (main_arg1 : IVec S2x8000000 32) (main_arg2 : IVec S500000 32) (main_arg3 : FVec F S8192x10 .f32) (main_arg4 : FVec F S5x5 .f32) (main_arg5 : FVec F S5 .f32) (main_arg6 : FVec F S5x5 .f32) (main_arg7 : FVec F S5 .f32) (main_arg8 : FVec F S5x10 .f32) (main_arg9 : FVec F S10 .f32) (main_arg10 : FVec F S10x10 .f32) (main_arg11 : FVec F S10 .f32) (main_arg12 : FVec F S10x10 .f32) (main_arg13 : FVec F S10 .f32) (main_arg14 : FVec F S10x10 .f32) (main_arg15 : FVec F S10 .f32) (main_arg16 : FVec F S5 .f32) (main_arg17 : FVec F S5 .f32) (main_arg18 : FVec F S10 .f32) (main_arg19 : FVec F S10 .f32) (main_arg20 : FVec F S10 .f32) (main_arg21 : FVec F S10 .f32) (main_arg22 : FVec F S20x128 .f32) (main_arg23 : FVec F S128 .f32) (main_arg24 : FVec F S128x64 .f32) (main_arg25 : FVec F S64 .f32) (main_arg26 : FVec F S64x1 .f32) (main_arg27 : FVec F S1 .f32) : IVec S_ 1 :=
  let main_v0 : FVec F S500000x5 .f32 := Host.absf main_arg0
  let main_cst : FVec F S_ .f32 := constant S_ .f32 0x7F800000#32
  let main_v1 : FVec F S500000x5 .f32 := broadcastInDim S500000x5 ![] bcast_S_S500000x5 main_cst
  let main_v2 : IVec S500000x5 1 := cmpf .olt main_v0 main_v1
  let main_c : IVec S_ 1 := constantI S_ 1 1#1
  let main_v3 : IVec S_ 1 := (fun x v => Host.reduce IntOp.andi x v reducesTo_S500000x5_S_d0_1 h_S_) main_v2 main_c
  let main_v4 : FVec F S8192x10 .f32 := Host.absf main_arg3
  let main_cst_0 : FVec F S_ .f32 := constant S_ .f32 0x7F800000#32
  let main_v5 : FVec F S8192x10 .f32 := broadcastInDim S8192x10 ![] bcast_S_S8192x10 main_cst_0
  let main_v6 : IVec S8192x10 1 := cmpf .olt main_v4 main_v5
  let main_c_1 : IVec S_ 1 := constantI S_ 1 1#1
  let main_v7 : IVec S_ 1 := (fun x v => Host.reduce IntOp.andi x v reducesTo_S8192x10_S_d0_1 h_S_) main_v6 main_c_1
  let main_v8 : IVec S_ 1 := andi main_v3 main_v7
  let main_v9 : FVec F S5x5 .f32 := Host.absf main_arg4
  let main_cst_2 : FVec F S_ .f32 := constant S_ .f32 0x7F800000#32
  let main_v10 : FVec F S5x5 .f32 := broadcastInDim S5x5 ![] bcast_S_S5x5 main_cst_2
  let main_v11 : IVec S5x5 1 := cmpf .olt main_v9 main_v10
  let main_c_3 : IVec S_ 1 := constantI S_ 1 1#1
  let main_v12 : IVec S_ 1 := (fun x v => Host.reduce IntOp.andi x v reducesTo_S5x5_S_d0_1 h_S_) main_v11 main_c_3
  let main_v13 : IVec S_ 1 := andi main_v8 main_v12
  let main_v14 : FVec F S5 .f32 := Host.absf main_arg5
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S500000x5 : Shape := ⟨2, ![500000, 5]⟩
abbrev S2x8000000 : Shape := ⟨2, ![2, 8000000]⟩
abbrev S500000 : Shape := ⟨1, ![500000]⟩
abbrev S8192x10 : Shape := ⟨2, ![8192, 10]⟩
abbrev S5x5 : Shape := ⟨2, ![5, 5]⟩
abbrev S5 : Shape := ⟨1, ![5]⟩
abbrev S5x10 : Shape := ⟨2, ![5, 10]⟩
abbrev S10 : Shape := ⟨1, ![10]⟩
abbrev S10x10 : Shape := ⟨2, ![10, 10]⟩
abbrev S20x128 : Shape := ⟨2, ![20, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x8000000 : Shape := ⟨2, ![1, 8000000]⟩
abbrev S8000000 : Shape := ⟨1, ![8000000]⟩
abbrev S_ : Shape := ⟨0, ![]⟩
abbrev S8000000x1 : Shape := ⟨2, ![8000000, 1]⟩
abbrev S8000000x5 : Shape := ⟨2, ![8000000, 5]⟩
abbrev S1x5 : Shape := ⟨2, ![1, 5]⟩
abbrev S5000x5 : Shape := ⟨2, ![5000, 5]⟩
abbrev S1x10 : Shape := ⟨2, ![1, 10]⟩
abbrev S500000x10 : Shape := ⟨2, ![500000, 10]⟩
abbrev S5000x10 : Shape := ⟨2, ![5000, 10]⟩
abbrev S8000000x10 : Shape := ⟨2, ![8000000, 10]⟩
abbrev S500000x1 : Shape := ⟨2, ![500000, 1]⟩
abbrev S8192 : Shape := ⟨1, ![8192]⟩
abbrev S8192x1 : Shape := ⟨2, ![8192, 1]⟩
abbrev S8192x20 : Shape := ⟨2, ![8192, 20]⟩
abbrev S1x128 : Shape := ⟨2, ![1, 128]⟩
abbrev S1x64 : Shape := ⟨2, ![1, 64]⟩
abbrev S1x1 : Shape := ⟨2, ![1, 1]⟩
abbrev S1024x20 : Shape := ⟨2, ![1024, 20]⟩
abbrev S1024x1 : Shape := ⟨2, ![1024, 1]⟩
abbrev S1024x128 : Shape := ⟨2, ![1024, 128]⟩
abbrev S1024x64 : Shape := ⟨2, ![1024, 64]⟩

abbrev nBuf : Space → Nat
  | .hbm => 161
  | .vmem => 70
  | .smem => 0
  | _ => 0

abbrev hbmTy0_0 (i : Nat) : BufTy := match i % 128 with
  | 0 => ⟨S500000x5, .f32⟩
  | 1 => ⟨S2x8000000, .i32⟩
  | 2 => ⟨S500000, .i32⟩
  | 3 => ⟨S8192x10, .f32⟩
  | 4 => ⟨S5x5, .f32⟩
  | 5 => ⟨S5, .f32⟩
  | 6 => ⟨S5x5, .f32⟩
  | 7 => ⟨S5, .f32⟩
  | 8 => ⟨S5x10, .f32⟩
  | 9 => ⟨S10, .f32⟩
  | 10 => ⟨S10x10, .f32⟩
  | 11 => ⟨S10, .f32⟩
  | 12 => ⟨S10x10, .f32⟩
  | 13 => ⟨S10, .f32⟩
  | 14 => ⟨S10x10, .f32⟩
  | 15 => ⟨S10, .f32⟩
  | 16 => ⟨S5, .f32⟩
  | 17 => ⟨S5, .f32⟩
  | 18 => ⟨S10, .f32⟩
  | 19 => ⟨S10, .f32⟩
  | 20 => ⟨S10, .f32⟩
  | 21 => ⟨S10, .f32⟩
  | 22 => ⟨S20x128, .f32⟩
  | 23 => ⟨S128, .f32⟩
  | 24 => ⟨S128x64, .f32⟩
  | 25 => ⟨S64, .f32⟩
  | 26 => ⟨S64x1, .f32⟩
  | 27 => ⟨S1, .f32⟩
  | 28 => ⟨S1x8000000, .i32⟩
  | 29 => ⟨S8000000, .i32⟩
  | 30 => ⟨S1x8000000, .i32⟩
  | 31 => ⟨S8000000, .i32⟩
  | 32 => ⟨S_, .i32⟩
  | 33 => ⟨S8000000, .i32⟩
  | 34 => ⟨S8000000, .i1⟩
  | 35 => ⟨S_, .i32⟩
  | 36 => ⟨S8000000, .i32⟩
  | 37 => ⟨S8000000, .i32⟩
  | 38 => ⟨S8000000, .i32⟩
  | 39 => ⟨S8000000x1, .i32⟩
  | 40 => ⟨S8000000x5, .f32⟩
  | 41 => ⟨S_, .f32⟩
  | 42 => ⟨S500000x5, .f32⟩
  | 43 => ⟨S8000000x1, .i32⟩
  | 44 => ⟨S500000x5, .f32⟩
  | 45 => ⟨S1x5, .f32⟩
  | 46 => ⟨S1x5, .f32⟩
  | 47 => ⟨S500000x5, .f32⟩
  | 48 => ⟨S1x5, .f32⟩
  | 49 => ⟨S1x5, .f32⟩
  | 50 => ⟨S_, .f32⟩
  | 51 => ⟨S1x5, .f32⟩
  | 52 => ⟨S1x5, .f32⟩
  | 53 => ⟨S_, .f32⟩
  | 54 => ⟨S1x5, .f32⟩
  | 55 => ⟨S1x5, .f32⟩
  | 56 => ⟨S1x5, .f32⟩
  | 57 => ⟨S1x5, .f32⟩
  | 58 => ⟨S_, .f32⟩
  | 59 => ⟨S1x5, .f32⟩
  | 60 => ⟨S1x5, .f32⟩
  | 61 => ⟨S_, .f32⟩
  | 62 => ⟨S1x5, .f32⟩
  | 63 => ⟨S1x5, .f32⟩
  | 64 => ⟨S1x5, .f32⟩
  | 65 => ⟨S1x5, .f32⟩
  | 66 => ⟨S1x5, .f32⟩
  | 67 => ⟨S500000x5, .f32⟩
  | 68 => ⟨S_, .i32⟩
  | 69 => ⟨S8000000, .i32⟩
  | 70 => ⟨S8000000, .i1⟩
  | 71 => ⟨S_, .i32⟩
  | 72 => ⟨S8000000, .i32⟩
  | 73 => ⟨S8000000, .i32⟩
  | 74 => ⟨S8000000, .i32⟩
  | 75 => ⟨S8000000x1, .i32⟩
  | 76 => ⟨S8000000x5, .f32⟩
  | 77 => ⟨S_, .f32⟩
  | 78 => ⟨S500000x5, .f32⟩
  | 79 => ⟨S8000000x1, .i32⟩
  | 80 => ⟨S500000x5, .f32⟩
  | 81 => ⟨S1x10, .f32⟩
  | 82 => ⟨S1x10, .f32⟩
  | 83 => ⟨S500000x10, .f32⟩
  | 84 => ⟨S1x10, .f32⟩
  | 85 => ⟨S1x10, .f32⟩
  | 86 => ⟨S_, .f32⟩
  | 87 => ⟨S1x10, .f32⟩
  | 88 => ⟨S1x10, .f32⟩
  | 89 => ⟨S_, .f32⟩
  | 90 => ⟨S1x10, .f32⟩
  | 91 => ⟨S1x10, .f32⟩
  | 92 => ⟨S1x10, .f32⟩
  | 93 => ⟨S1x10, .f32⟩
  | 94 => ⟨S_, .f32⟩
  | 95 => ⟨S1x10, .f32⟩
  | 96 => ⟨S1x10, .f32⟩
  | 97 => ⟨S_, .f32⟩
  | 98 => ⟨S1x10, .f32⟩
  | 99 => ⟨S1x10, .f32⟩
  | 100 => ⟨S1x10, .f32⟩
  | 101 => ⟨S1x10, .f32⟩
  | 102 => ⟨S1x10, .f32⟩
  | 103 => ⟨S500000x10, .f32⟩
  | 104 => ⟨S_, .i32⟩
  | 105 => ⟨S8000000, .i32⟩
  | 106 => ⟨S8000000, .i1⟩
  | 107 => ⟨S_, .i32⟩
  | 108 => ⟨S8000000, .i32⟩
  | 109 => ⟨S8000000, .i32⟩
  | 110 => ⟨S8000000, .i32⟩
  | 111 => ⟨S8000000x1, .i32⟩
  | 112 => ⟨S8000000x10, .f32⟩
  | 113 => ⟨S_, .f32⟩
  | 114 => ⟨S500000x10, .f32⟩
  | 115 => ⟨S8000000x1, .i32⟩
  | 116 => ⟨S500000x10, .f32⟩
  | 117 => ⟨S1x10, .f32⟩
  | 118 => ⟨S1x10, .f32⟩
  | 119 => ⟨S500000x10, .f32⟩
  | 120 => ⟨S1x10, .f32⟩
  | 121 => ⟨S1x10, .f32⟩
  | 122 => ⟨S_, .f32⟩
  | 123 => ⟨S1x10, .f32⟩
  | 124 => ⟨S1x10, .f32⟩
  | 125 => ⟨S_, .f32⟩
  | 126 => ⟨S1x10, .f32⟩
  | 127 => ⟨S1x10, .f32⟩
  | _ => ⟨S500000x5, .f32⟩

abbrev hbmTy0_1 (i : Nat) : BufTy := match i % 128 with
  | 0 => ⟨S1x10, .f32⟩
  | 1 => ⟨S1x10, .f32⟩
  | 2 => ⟨S_, .f32⟩
  | 3 => ⟨S1x10, .f32⟩
  | 4 => ⟨S1x10, .f32⟩
  | 5 => ⟨S_, .f32⟩
  | 6 => ⟨S1x10, .f32⟩
  | 7 => ⟨S1x10, .f32⟩
  | 8 => ⟨S1x10, .f32⟩
  | 9 => ⟨S1x10, .f32⟩
  | 10 => ⟨S1x10, .f32⟩
  | 11 => ⟨S500000x10, .f32⟩
  | 12 => ⟨S_, .f32⟩
  | 13 => ⟨S8192x10, .f32⟩
  | 14 => ⟨S500000x1, .i32⟩
  | 15 => ⟨S8192x10, .f32⟩
  | 16 => ⟨S_, .f32⟩
  | 17 => ⟨S500000, .f32⟩
  | 18 => ⟨S_, .f32⟩
  | 19 => ⟨S8192, .f32⟩
  | 20 => ⟨S500000x1, .i32⟩
  | 21 => ⟨S8192, .f32⟩
  | 22 => ⟨S_, .f32⟩
  | 23 => ⟨S8192, .f32⟩
  | 24 => ⟨S8192, .f32⟩
  | 25 => ⟨S8192x1, .f32⟩
  | 26 => ⟨S8192x10, .f32⟩
  | 27 => ⟨S8192x10, .f32⟩
  | 28 => ⟨S8192x20, .f32⟩
  | 29 => ⟨S1x128, .f32⟩
  | 30 => ⟨S1x64, .f32⟩
  | 31 => ⟨S1x1, .f32⟩
  | 32 => ⟨S8192x1, .f32⟩
  | _ => ⟨S500000x5, .f32⟩

abbrev hbmTy (i : Nat) : BufTy := match i / 128 with
  | 0 => hbmTy0_0 i
  | 1 => hbmTy0_1 i
  | _ => ⟨S500000x5, .f32⟩

abbrev bufTy : (tb : Table) → Fin (tcTables nBuf tb) → BufTy
  | .hbm, ⟨i, _⟩ => hbmTy i
  | .local _ .vmem, ⟨0, _⟩ => ⟨S5000x5, .f32⟩
  | .local _ .vmem, ⟨1, _⟩ => ⟨S5000x5, .f32⟩
  | .local _ .vmem, ⟨2, _⟩ => ⟨S5000x5, .f32⟩
  | .local _ .vmem, ⟨3, _⟩ => ⟨S5000x5, .f32⟩
  | .local _ .vmem, ⟨4, _⟩ => ⟨S5x5, .f32⟩
  | .local _ .vmem, ⟨5, _⟩ => ⟨S1x5, .f32⟩
  | .local _ .vmem, ⟨6, _⟩ => ⟨S5x5, .f32⟩
  | .local _ .vmem, ⟨7, _⟩ => ⟨S1x5, .f32⟩
  | .local _ .vmem, ⟨8, _⟩ => ⟨S5000x5, .f32⟩
  | .local _ .vmem, ⟨9, _⟩ => ⟨S5000x5, .f32⟩
  | .local _ .vmem, ⟨10, _⟩ => ⟨S1x5, .f32⟩
  | .local _ .vmem, ⟨11, _⟩ => ⟨S1x5, .f32⟩
  | .local _ .vmem, ⟨12, _⟩ => ⟨S5000x5, .f32⟩
  | .local _ .vmem, ⟨13, _⟩ => ⟨S5000x5, .f32⟩
  | .local _ .vmem, ⟨14, _⟩ => ⟨S1x5, .f32⟩
  | .local _ .vmem, ⟨15, _⟩ => ⟨S1x5, .f32⟩
  | .local _ .vmem, ⟨16, _⟩ => ⟨S1x5, .f32⟩
  | .local _ .vmem, ⟨17, _⟩ => ⟨S1x5, .f32⟩
  | .local _ .vmem, ⟨18, _⟩ => ⟨S5000x5, .f32⟩
  | .local _ .vmem, ⟨19, _⟩ => ⟨S5000x5, .f32⟩
  | .local _ .vmem, ⟨20, _⟩ => ⟨S5000x5, .f32⟩
  | .local _ .vmem, ⟨21, _⟩ => ⟨S5000x5, .f32⟩
  | .local _ .vmem, ⟨22, _⟩ => ⟨S5000x5, .f32⟩
  | .local _ .vmem, ⟨23, _⟩ => ⟨S5000x5, .f32⟩
  | .local _ .vmem, ⟨24, _⟩ => ⟨S5x10, .f32⟩
  | .local _ .vmem, ⟨25, _⟩ => ⟨S1x10, .f32⟩
  | .local _ .vmem, ⟨26, _⟩ => ⟨S10x10, .f32⟩
  | .local _ .vmem, ⟨27, _⟩ => ⟨S1x10, .f32⟩
  | .local _ .vmem, ⟨28, _⟩ => ⟨S5000x10, .f32⟩
  | .local _ .vmem, ⟨29, _⟩ => ⟨S5000x10, .f32⟩
  | .local _ .vmem, ⟨30, _⟩ => ⟨S1x10, .f32⟩
  | .local _ .vmem, ⟨31, _⟩ => ⟨S1x10, .f32⟩
  | .local _ .vmem, ⟨32, _⟩ => ⟨S5000x10, .f32⟩
  | .local _ .vmem, ⟨33, _⟩ => ⟨S5000x10, .f32⟩
  | .local _ .vmem, ⟨34, _⟩ => ⟨S1x10, .f32⟩
  | .local _ .vmem, ⟨35, _⟩ => ⟨S1x10, .f32⟩
  | .local _ .vmem, ⟨36, _⟩ => ⟨S1x10, .f32⟩
  | .local _ .vmem, ⟨37, _⟩ => ⟨S1x10, .f32⟩
  | .local _ .vmem, ⟨38, _⟩ => ⟨S5000x10, .f32⟩
  | .local _ .vmem, ⟨39, _⟩ => ⟨S5000x10, .f32⟩
  | .local _ .vmem, ⟨40, _⟩ => ⟨S5000x10, .f32⟩
  | .local _ .vmem, ⟨41, _⟩ => ⟨S5000x10, .f32⟩
  | .local _ .vmem, ⟨42, _⟩ => ⟨S5000x10, .f32⟩
  | .local _ .vmem, ⟨43, _⟩ => ⟨S5000x10, .f32⟩
  | .local _ .vmem, ⟨44, _⟩ => ⟨S10x10, .f32⟩
  | .local _ .vmem, ⟨45, _⟩ => ⟨S1x10, .f32⟩
  | .local _ .vmem, ⟨46, _⟩ => ⟨S10x10, .f32⟩
  | .local _ .vmem, ⟨47, _⟩ => ⟨S1x10, .f32⟩
  | .local _ .vmem, ⟨48, _⟩ => ⟨S5000x10, .f32⟩
  | .local _ .vmem, ⟨49, _⟩ => ⟨S5000x10, .f32⟩
  | .local _ .vmem, ⟨50, _⟩ => ⟨S1x10, .f32⟩
  | .local _ .vmem, ⟨51, _⟩ => ⟨S1x10, .f32⟩
  | .local _ .vmem, ⟨52, _⟩ => ⟨S5000x10, .f32⟩
  | .local _ .vmem, ⟨53, _⟩ => ⟨S5000x10, .f32⟩
  | .local _ .vmem, ⟨54, _⟩ => ⟨S1x10, .f32⟩
  | .local _ .vmem, ⟨55, _⟩ => ⟨S1x10, .f32⟩
  | .local _ .vmem, ⟨56, _⟩ => ⟨S1x10, .f32⟩
  | .local _ .vmem, ⟨57, _⟩ => ⟨S1x10, .f32⟩
  | .local _ .vmem, ⟨58, _⟩ => ⟨S5000x10, .f32⟩
  | .local _ .vmem, ⟨59, _⟩ => ⟨S5000x10, .f32⟩
  | .local _ .vmem, ⟨60, _⟩ => ⟨S1024x20, .f32⟩
  | .local _ .vmem, ⟨61, _⟩ => ⟨S1024x20, .f32⟩
  | .local _ .vmem, ⟨62, _⟩ => ⟨S20x128, .f32⟩
  | .local _ .vmem, ⟨63, _⟩ => ⟨S1x128, .f32⟩
  | .local _ .vmem, ⟨64, _⟩ => ⟨S128x64, .f32⟩
  | .local _ .vmem, ⟨65, _⟩ => ⟨S1x64, .f32⟩
  | .local _ .vmem, ⟨66, _⟩ => ⟨S64x1, .f32⟩
  | .local _ .vmem, ⟨67, _⟩ => ⟨S1x1, .f32⟩
  | .local _ .vmem, ⟨68, _⟩ => ⟨S1024x1, .f32⟩
  | .local _ .vmem, ⟨69, _⟩ => ⟨S1024x1, .f32⟩
  | _, _ => ⟨S500000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16_0 : Ref sig .tc := ⟨.hbm, 47, rfl⟩
abbrev main_v16_1 : Ref sig .tc := ⟨.hbm, 48, rfl⟩
abbrev main_v16_2 : Ref sig .tc := ⟨.hbm, 49, rfl⟩
abbrev main_cst_1 : Ref sig .tc := ⟨.hbm, 50, rfl⟩
abbrev main_v17 : Ref sig .tc := ⟨.hbm, 51, rfl⟩
abbrev main_v18 : Ref sig .tc := ⟨.hbm, 52, rfl⟩
abbrev main_cst_2 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_3 : Ref sig .tc := ⟨.hbm, 58, rfl⟩
abbrev main_v23 : Ref sig .tc := ⟨.hbm, 59, rfl⟩
abbrev main_v24 : Ref sig .tc := ⟨.hbm, 60, rfl⟩
abbrev main_cst_4 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_c_5 : Ref sig .tc := ⟨.hbm, 68, rfl⟩
abbrev main_v31 : Ref sig .tc := ⟨.hbm, 69, rfl⟩
abbrev main_v32 : Ref sig .tc := ⟨.hbm, 70, rfl⟩
abbrev main_c_6 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_7 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43_0 : Ref sig .tc := ⟨.hbm, 83, rfl⟩
abbrev main_v43_1 : Ref sig .tc := ⟨.hbm, 84, rfl⟩
abbrev main_v43_2 : Ref sig .tc := ⟨.hbm, 85, rfl⟩
abbrev main_cst_8 : Ref sig .tc := ⟨.hbm, 86, rfl⟩
abbrev main_v44 : Ref sig .tc := ⟨.hbm, 87, rfl⟩
abbrev main_v45 : Ref sig .tc := ⟨.hbm, 88, rfl⟩
abbrev main_cst_9 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_10 : Ref sig .tc := ⟨.hbm, 94, rfl⟩
abbrev main_v50 : Ref sig .tc := ⟨.hbm, 95, rfl⟩
abbrev main_v51 : Ref sig .tc := ⟨.hbm, 96, rfl⟩
abbrev main_cst_11 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_c_12 : Ref sig .tc := ⟨.hbm, 104, rfl⟩
abbrev main_v58 : Ref sig .tc := ⟨.hbm, 105, rfl⟩
abbrev main_v59 : Ref sig .tc := ⟨.hbm, 106, rfl⟩
abbrev main_c_13 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_14 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70_0 : Ref sig .tc := ⟨.hbm, 119, rfl⟩
abbrev main_v70_1 : Ref sig .tc := ⟨.hbm, 120, rfl⟩
abbrev main_v70_2 : Ref sig .tc := ⟨.hbm, 121, rfl⟩
abbrev main_cst_15 : Ref sig .tc := ⟨.hbm, 122, rfl⟩
abbrev main_v71 : Ref sig .tc := ⟨.hbm, 123, rfl⟩
abbrev main_v72 : Ref sig .tc := ⟨.hbm, 124, rfl⟩
abbrev main_cst_16 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_17 : Ref sig .tc := ⟨.hbm, 130, rfl⟩
abbrev main_v77 : Ref sig .tc := ⟨.hbm, 131, rfl⟩
abbrev main_v78 : Ref sig .tc := ⟨.hbm, 132, rfl⟩
abbrev main_cst_18 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_19 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_20 : Ref sig .tc := ⟨.hbm, 144, rfl⟩
abbrev main_v88 : Ref sig .tc := ⟨.hbm, 145, rfl⟩
abbrev main_cst_21 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_cst_22 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg6_0 : Ref sig .tc := ⟨.vmem, 67, rfl⟩
abbrev cc6_stg7_0 : Ref sig .tc := ⟨.vmem, 68, rfl⟩
abbrev cc6_stg7_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem6_0 : DmaSem sig := 67
abbrev cc6_sem7_0 : DmaSem sig := 68
abbrev cc6_sem7_1 : DmaSem sig := 69

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x5 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x5 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x5 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x5 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x5 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S5x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S10x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x10 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x10 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x10 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x10 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x10 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x10 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S10x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S10x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x10 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x10 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x10 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x10 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x10 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x20 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S20x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S1024x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S500000x5 : S_.BroadcastsInDim S500000x5 (![] : Fin 0 → Fin S500000x5.rank)
  shapeCasts_S5_S1x5 : S5.ShapeCasts S1x5
  inb_S1x5_S1x5_0_0 : ∀ a, (![0, 0] : Fin 2 → Nat) a + S1x5.size a ≤ S1x5.size a
  h_S1x5 : 0 < S1x5.numel
  inb_S5000x5_S5000x5_0_0 : ∀ a, (![0, 0] : Fin 2 → Nat) a + S5000x5.size a ≤ S5000x5.size a
  h_S5000x5 : 0 < S5000x5.numel
  shapeCasts_S5000x5_S5000x5 : S5000x5.ShapeCasts S5000x5
  bitsLt_bf16_f32 : FTy.bits .bf16 < FTy.bits .f32
  inb_S5x5_S5x5_0_0 : ∀ a, (![0, 0] : Fin 2 → Nat) a + S5x5.size a ≤ S5x5.size a
  h_S5x5 : 0 < S5x5.numel
  shapeCasts_S1x5_S1x5 : S1x5.ShapeCasts S1x5
  broadcasts_S1x5_S5000x5 : S1x5.Broadcasts S5000x5
  reduces_S5000x5_S5 : S5000x5.Reduces [0] S5
  bcast_S_S1x5 : S_.BroadcastsInDim S1x5 (![] : Fin 0 → Fin S1x5.rank)
  shapeCasts_S10_S1x10 : S10.ShapeCasts S1x10
  inb_S1x10_S1x10_0_0 : ∀ a, (![0, 0] : Fin 2 → Nat) a + S1x10.size a ≤ S1x10.size a
  h_S1x10 : 0 < S1x10.numel
  inb_S5x10_S5x10_0_0 : ∀ a, (![0, 0] : Fin 2 → Nat) a + S5x10.size a ≤ S5x10.size a
  h_S5x10 : 0 < S5x10.numel
  shapeCasts_S1x10_S1x10 : S1x10.ShapeCasts S1x10
  broadcasts_S1x10_S5000x10 : S1x10.Broadcasts S5000x10
  inb_S10x10_S10x10_0_0 : ∀ a, (![0, 0] : Fin 2 → Nat) a + S10x10.size a ≤ S10x10.size a
  h_S10x10 : 0 < S10x10.numel
  inb_S5000x10_S5000x10_0_0 : ∀ a, (![0, 0] : Fin 2 → Nat) a + S5000x10.size a ≤ S5000x10.size a
  h_S5000x10 : 0 < S5000x10.numel
  reduces_S5000x10_S10 : S5000x10.Reduces [0] S10
  bcast_S_S1x10 : S_.BroadcastsInDim S1x10 (![] : Fin 0 → Fin S1x10.rank)
  shapeCasts_S5000x10_S5000x10 : S5000x10.ShapeCasts S5000x10
  bcast_S_S500000x10 : S_.BroadcastsInDim S500000x10 (![] : Fin 0 → Fin S500000x10.rank)
  bcast_S_S8192x10 : S_.BroadcastsInDim S8192x10 (![] : Fin 0 → Fin S8192x10.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  concatenates_S8192x10_S8192x10_S8192x20_d1 : Shape.Concatenates [S8192x10, S8192x10] S8192x20 1
  shapeCasts_S128_S1x128 : S128.ShapeCasts S1x128
  shapeCasts_S64_S1x64 : S64.ShapeCasts S1x64
  shapeCasts_S1_S1x1 : S1.ShapeCasts S1x1
  inb_S1024x20_S1024x20_0_0 : ∀ a, (![0, 0] : Fin 2 → Nat) a + S1024x20.size a ≤ S1024x20.size a
  h_S1024x20 : 0 < S1024x20.numel
  shapeCasts_S1024x20_S1024x20 : S1024x20.ShapeCasts S1024x20
  inb_S20x128_S20x128_0_0 : ∀ a, (![0, 0] : Fin 2 → Nat) a + S20x128.size a ≤ S20x128.size a
  h_S20x128 : 0 < S20x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  gather_S500000x5_S8000000x1_S8000000x5_1_0_n_n_0_1_15_wf : GatherDims.WF S500000x5 S8000000x1 S8000000x5 [1] [0] [] [0] [] 1 ![1, 5]
  scatter_S500000x5_S8000000x1_S8000000x5_1_0_0_1_wf : ScatterDims.WF S500000x5 S8000000x1 S8000000x5 [1] [0] [0] 1
  dot_S5000x5_S5x5_S5000x5_1_0_0_1_n_n_wf : DotDims.WF S5000x5 S5x5 S5000x5 [1] [0] [0] [1] [] []
  dot_S5000x5_S5x10_S5000x10_1_0_0_1_n_n_wf : DotDims.WF S5000x5 S5x10 S5000x10 [1] [0] [0] [1] [] []
  dot_S5000x10_S10x10_S5000x10_1_0_0_1_n_n_wf : DotDims.WF S5000x10 S10x10 S5000x10 [1] [0] [0] [1] [] []
  gather_S500000x10_S8000000x1_S8000000x10_1_0_n_n_0_1_110_wf : GatherDims.WF S500000x10 S8000000x1 S8000000x10 [1] [0] [] [0] [] 1 ![1, 10]
  scatter_S500000x10_S8000000x1_S8000000x10_1_0_0_1_wf : ScatterDims.WF S500000x10 S8000000x1 S8000000x10 [1] [0] [0] 1
  scatter_S8192x10_S500000x1_S500000x10_1_0_0_1_wf : ScatterDims.WF S8192x10 S500000x1 S500000x10 [1] [0] [0] 1
  scatter_S8192_S500000x1_S500000_n_0_0_1_wf : ScatterDims.WF S8192 S500000x1 S500000 [] [0] [0] 1
  dot_S1024x20_S20x128_S1024x128_1_0_0_1_n_n_wf : DotDims.WF S1024x20 S20x128 S1024x128 [1] [0] [0] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S500000x5.size a
  hwx0_0 : ∀ i : grid0.Coords, EltTy.bits .f32 = 32 ∨ (Rect.block (s := S500000x5) S5000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x5.size a ≤ S500000x5.size a
  hwx0_1 : ∀ i : grid0.Coords, EltTy.bits .f32 = 32 ∨ (Rect.block (s := S500000x5) S5000x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x5.size a ≤ S5x5.size a
  hwx0_2 : ∀ i : grid0.Coords, EltTy.bits .f32 = 32 ∨ (Rect.block (s := S5x5) S5x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x5.size a ≤ S1x5.size a
  hwx0_3 : ∀ i : grid0.Coords, EltTy.bits .f32 = 32 ∨ (Rect.block (s := S1x5) S1x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x5.size a ≤ S5x5.size a
  hwx0_4 : ∀ i : grid0.Coords, EltTy.bits .f32 = 32 ∨ (Rect.block (s := S5x5) S5x5.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x5.size a ≤ S1x5.size a
  hwx0_5 : ∀ i : grid0.Coords, EltTy.bits .f32 = 32 ∨ (Rect.block (s := S1x5) S1x5.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x5.size a ≤ S500000x5.size a
  hwx0_6 : ∀ i : grid0.Coords, EltTy.bits .f32 = 32 ∨ (Rect.block (s := S500000x5) S5000x5.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x5.size a ≤ S1x5.size a
  hwx0_7 : ∀ i : grid0.Coords, EltTy.bits .f32 = 32 ∨ (Rect.block (s := S1x5) S1x5.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x5.size a ≤ S1x5.size a
  hwx0_8 : ∀ i : grid0.Coords, EltTy.bits .f32 = 32 ∨ (Rect.block (s := S1x5) S1x5.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x5.size a ≤ S500000x5.size a
  hwx1_0 : ∀ i : grid1.Coords, EltTy.bits .f32 = 32 ∨ (Rect.block (s := S500000x5) S5000x5.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x5.size a ≤ S1x5.size a
  hwx1_1 : ∀ i : grid1.Coords, EltTy.bits .f32 = 32 ∨ (Rect.block (s := S1x5) S1x5.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x5.size a ≤ S1x5.size a
  hwx1_2 : ∀ i : grid1.Coords, EltTy.bits .f32 = 32 ∨ (Rect.block (s := S1x5) S1x5.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x5.size a ≤ S1x5.size a
  hwx1_3 : ∀ i : grid1.Coords, EltTy.bits .f32 = 32 ∨ (Rect.block (s := S1x5) S1x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x5.size a ≤ S1x5.size a
  hwx1_4 : ∀ i : grid1.Coords, EltTy.bits .f32 = 32 ∨ (Rect.block (s := S1x5) S1x5.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x5.size a ≤ S500000x5.size a
  hwx1_5 : ∀ i : grid1.Coords, EltTy.bits .f32 = 32 ∨ (Rect.block (s := S500000x5) S5000x5.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x5.size a ≤ S500000x5.size a
  hwx2_0 : ∀ i : grid2.Coords, EltTy.bits .f32 = 32 ∨ (Rect.block (s := S500000x5) S5000x5.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x5.size a ≤ S500000x5.size a
  hwx2_1 : ∀ i : grid2.Coords, EltTy.bits .f32 = 32 ∨ (Rect.block (s := S500000x5) S5000x5.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S5x10.size a ≤ S5x10.size a
  hwx2_2 : ∀ i : grid2.Coords, EltTy.bits .f32 = 32 ∨ (Rect.block (s := S5x10) S5x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S10x10.size a ≤ S10x10.size a
  hwx2_4 : ∀ i : grid2.Coords, EltTy.bits .f32 = 32 ∨ (Rect.block (s := S10x10) S10x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x10.size a ≤ S1x10.size a
  hwx2_5 : ∀ i : grid2.Coords, EltTy.bits .f32 = 32 ∨ (Rect.block (s := S1x10) S1x10.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x10.size a ≤ S500000x10.size a
  hwx2_6 : ∀ i : grid2.Coords, EltTy.bits .f32 = 32 ∨ (Rect.block (s := S500000x10) S5000x10.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x10.size a ≤ S1x10.size a
  hwx2_7 : ∀ i : grid2.Coords, EltTy.bits .f32 = 32 ∨ (Rect.block (s := S1x10) S1x10.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x10.size a ≤ S1x10.size a
  hwx2_8 : ∀ i : grid2.Coords, EltTy.bits .f32 = 32 ∨ (Rect.block (s := S1x10) S1x10.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x10.size a ≤ S500000x10.size a
  hwx3_0 : ∀ i : grid3.Coords, EltTy.bits .f32 = 32 ∨ (Rect.block (s := S500000x10) S5000x10.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x10.size a ≤ S1x10.size a
  hwx3_1 : ∀ i : grid3.Coords, EltTy.bits .f32 = 32 ∨ (Rect.block (s := S1x10) S1x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x10.size a ≤ S1x10.size a
  hwx3_3 : ∀ i : grid3.Coords, EltTy.bits .f32 = 32 ∨ (Rect.block (s := S1x10) S1x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x10.size a ≤ S500000x10.size a
  hwx3_5 : ∀ i : grid3.Coords, EltTy.bits .f32 = 32 ∨ (Rect.block (s := S500000x10) S5000x10.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x10.size a ≤ S500000x10.size a
  hwx4_0 : ∀ i : grid4.Coords, EltTy.bits .f32 = 32 ∨ (Rect.block (s := S500000x10) S5000x10.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x10.size a ≤ S500000x10.size a
  hwx4_1 : ∀ i : grid4.Coords, EltTy.bits .f32 = 32 ∨ (Rect.block (s := S500000x10) S5000x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S10x10.size a ≤ S10x10.size a
  hwx4_2 : ∀ i : grid4.Coords, EltTy.bits .f32 = 32 ∨ (Rect.block (s := S10x10) S10x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x10.size a ≤ S1x10.size a
  hwx4_3 : ∀ i : grid4.Coords, EltTy.bits .f32 = 32 ∨ (Rect.block (s := S1x10) S1x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S10x10.size a ≤ S10x10.size a
  hwx4_4 : ∀ i : grid4.Coords, EltTy.bits .f32 = 32 ∨ (Rect.block (s := S10x10) S10x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x10.size a ≤ S1x10.size a
  hwx4_5 : ∀ i : grid4.Coords, EltTy.bits .f32 = 32 ∨ (Rect.block (s := S1x10) S1x10.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x10.size a ≤ S500000x10.size a
  hwx4_6 : ∀ i : grid4.Coords, EltTy.bits .f32 = 32 ∨ (Rect.block (s := S500000x10) S5000x10.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x10.size a ≤ S1x10.size a
  hwx4_7 : ∀ i : grid4.Coords, EltTy.bits .f32 = 32 ∨ (Rect.block (s := S1x10) S1x10.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x10.size a ≤ S1x10.size a
  hwx4_8 : ∀ i : grid4.Coords, EltTy.bits .f32 = 32 ∨ (Rect.block (s := S1x10) S1x10.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x10.size a ≤ S500000x10.size a
  hwx5_0 : ∀ i : grid5.Coords, EltTy.bits .f32 = 32 ∨ (Rect.block (s := S500000x10) S5000x10.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x10.size a ≤ S1x10.size a
  hwx5_1 : ∀ i : grid5.Coords, EltTy.bits .f32 = 32 ∨ (Rect.block (s := S1x10) S1x10.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x10.size a ≤ S1x10.size a
  hwx5_2 : ∀ i : grid5.Coords, EltTy.bits .f32 = 32 ∨ (Rect.block (s := S1x10) S1x10.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x10.size a ≤ S1x10.size a
  hwx5_3 : ∀ i : grid5.Coords, EltTy.bits .f32 = 32 ∨ (Rect.block (s := S1x10) S1x10.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x10.size a ≤ S1x10.size a
  hwx5_4 : ∀ i : grid5.Coords, EltTy.bits .f32 = 32 ∨ (Rect.block (s := S1x10) S1x10.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x10.size a ≤ S500000x10.size a
  hwx5_5 : ∀ i : grid5.Coords, EltTy.bits .f32 = 32 ∨ (Rect.block (s := S500000x10) S5000x10.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x20.size a ≤ S8192x20.size a
  hwx6_0 : ∀ i : grid6.Coords, EltTy.bits .f32 = 32 ∨ (Rect.block (s := S8192x20) S1024x20.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S20x128.size a ≤ S20x128.size a
  hwx6_1 : ∀ i : grid6.Coords, EltTy.bits .f32 = 32 ∨ (Rect.block (s := S20x128) S20x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x1.size a ≤ S64x1.size a
  hwx6_5 : ∀ i : grid6.Coords, EltTy.bits .f32 = 32 ∨ (Rect.block (s := S64x1) S64x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1024x1.size a ≤ S8192x1.size a
  hwx6_7 : ∀ i : grid6.Coords, EltTy.bits .f32 = 32 ∨ (Rect.block (s := S8192x1) S1024x1.size (cc6_transform_7 i) (hinb6_7 i)).WholeWords (EltTy.packing .f32)

variable [Facts₀]

def gather_S500000x5_S8000000x1_S8000000x5_1_0_n_n_0_1_15 : GatherDims S500000x5 S8000000x1 S8000000x5 where
  offsetDims := [1]
  collapsedSliceDims := [0]
  operandBatchingDims := []
  startIndicesBatchingDims := []
  startIndexMap := [0]
  indexVectorDim := 1
  sliceSizes := ![1, 5]
  wf := gather_S500000x5_S8000000x1_S8000000x5_1_0_n_n_0_1_15_wf
def scatter_S500000x5_S8000000x1_S8000000x5_1_0_0_1 : ScatterDims S500000x5 S8000000x1 S8000000x5 where
  updateWindowDims := [1]
  insertedWindowDims := [0]
  scatterDimsToOperandDims := [0]
  indexVectorDim := 1
  wf := scatter_S500000x5_S8000000x1_S8000000x5_1_0_0_1_wf
def dot_S5000x5_S5x5_S5000x5_1_0_0_1_n_n : DotDims S5000x5 S5x5 S5000x5 where
  lhsContracting := [1]
  rhsContracting := [0]
  lhsNonContracting := [0]
  rhsNonContracting := [1]
  lhsBatch := []
  rhsBatch := []
  wf := dot_S5000x5_S5x5_S5000x5_1_0_0_1_n_n_wf
def dot_S5000x5_S5x10_S5000x10_1_0_0_1_n_n : DotDims S5000x5 S5x10 S5000x10 where
  lhsContracting := [1]
  rhsContracting := [0]
  lhsNonContracting := [0]
  rhsNonContracting := [1]
  lhsBatch := []
  rhsBatch := []
  wf := dot_S5000x5_S5x10_S5000x10_1_0_0_1_n_n_wf
def dot_S5000x10_S10x10_S5000x10_1_0_0_1_n_n : DotDims S5000x10 S10x10 S5000x10 where
  lhsContracting := [1]
  rhsContracting := [0]
  lhsNonContracting := [0]
  rhsNonContracting := [1]
  lhsBatch := []
  rhsBatch := []
  wf := dot_S5000x10_S10x10_S5000x10_1_0_0_1_n_n_wf
def gather_S500000x10_S8000000x1_S8000000x10_1_0_n_n_0_1_110 : GatherDims S500000x10 S8000000x1 S8000000x10 where
  offsetDims := [1]
  collapsedSliceDims := [0]
  operandBatchingDims := []
  startIndicesBatchingDims := []
  startIndexMap := [0]
  indexVectorDim := 1
  sliceSizes := ![1, 10]
  wf := gather_S500000x10_S8000000x1_S8000000x10_1_0_n_n_0_1_110_wf
def scatter_S500000x10_S8000000x1_S8000000x10_1_0_0_1 : ScatterDims S500000x10 S8000000x1 S8000000x10 where
  updateWindowDims := [1]
  insertedWindowDims := [0]
  scatterDimsToOperandDims := [0]
  indexVectorDim := 1
  wf := scatter_S500000x10_S8000000x1_S8000000x10_1_0_0_1_wf
def scatter_S8192x10_S500000x1_S500000x10_1_0_0_1 : ScatterDims S8192x10 S500000x1 S500000x10 where
  updateWindowDims := [1]
  insertedWindowDims := [0]
  scatterDimsToOperandDims := [0]
  indexVectorDim := 1
  wf := scatter_S8192x10_S500000x1_S500000x10_1_0_0_1_wf
def scatter_S8192_S500000x1_S500000_n_0_0_1 : ScatterDims S8192 S500000x1 S500000 where
  updateWindowDims := []
  insertedWindowDims := [0]
  scatterDimsToOperandDims := [0]
  indexVectorDim := 1
  wf := scatter_S8192_S500000x1_S500000_n_0_0_1_wf
def dot_S1024x20_S20x128_S1024x128_1_0_0_1_n_n : DotDims S1024x20 S20x128 S1024x128 where
  lhsContracting := [1]
  rhsContracting := [0]
  lhsNonContracting := [0]
  rhsNonContracting := [1]
  lhsBatch := []
  rhsBatch := []
  wf := dot_S1024x20_S20x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S5x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S5x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S5000x5.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x5.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x5.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16_0) S5000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x5.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x5.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v30) S5000x5.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x5.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S5x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S10x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43_0) S5000x10.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v43_1) S1x10.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v43_2) S1x10.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v43_0) S5000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S1x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S5000x10.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v57) S5000x10.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S5000x10.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S10x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S1x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S10x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v69) S1x10.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v70_0) S5000x10.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v70_1) S1x10.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v70_2) S1x10.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v70_0) S5000x10.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S1x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1x10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x10.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x10.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S5000x10.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v97) S1024x20.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg22) S20x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v98) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg24) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v99) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg26) S64x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v100) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v101) S1024x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S500000x5 : Shape := ⟨2, ![500000, 5]⟩
abbrev S2x8000000 : Shape := ⟨2, ![2, 8000000]⟩
abbrev S500000 : Shape := ⟨1, ![500000]⟩
abbrev S8192x10 : Shape := ⟨2, ![8192, 10]⟩
abbrev S5x5 : Shape := ⟨2, ![5, 5]⟩
abbrev S5 : Shape := ⟨1, ![5]⟩
abbrev S5x10 : Shape := ⟨2, ![5, 10]⟩
abbrev S10 : Shape := ⟨1, ![10]⟩
abbrev S10x10 : Shape := ⟨2, ![10, 10]⟩
abbrev S20x128 : Shape := ⟨2, ![20, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x8000000 : Shape := ⟨2, ![1, 8000000]⟩
abbrev S8000000 : Shape := ⟨1, ![8000000]⟩
abbrev S_ : Shape := ⟨0, ![]⟩
abbrev S8000000x1 : Shape := ⟨2, ![8000000, 1]⟩
abbrev S8000000x5 : Shape := ⟨2, ![8000000, 5]⟩
abbrev S1x5 : Shape := ⟨2, ![1, 5]⟩
abbrev S500000x10 : Shape := ⟨2, ![500000, 10]⟩
abbrev S1x10 : Shape := ⟨2, ![1, 10]⟩
abbrev S8000000x10 : Shape := ⟨2, ![8000000, 10]⟩
abbrev S500000x1 : Shape := ⟨2, ![500000, 1]⟩
abbrev S8192 : Shape := ⟨1, ![8192]⟩
abbrev S8192x1 : Shape := ⟨2, ![8192, 1]⟩
abbrev S8192x20 : Shape := ⟨2, ![8192, 20]⟩
abbrev S8192x128 : Shape := ⟨2, ![8192, 128]⟩
abbrev S1x128 : Shape := ⟨2, ![1, 128]⟩
abbrev S8192x64 : Shape := ⟨2, ![8192, 64]⟩
abbrev S1x64 : Shape := ⟨2, ![1, 64]⟩
abbrev S1x1 : Shape := ⟨2, ![1, 1]⟩

abbrev nBuf : Space → Nat
  | .hbm => 241
  | .vmem => 0
  | .smem => 0
  | _ => 0

abbrev hbmTy0_0 (i : Nat) : BufTy := match i % 128 with
  | 0 => ⟨S500000x5, .f32⟩
  | 1 => ⟨S2x8000000, .i32⟩
  | 2 => ⟨S500000, .i32⟩
  | 3 => ⟨S8192x10, .f32⟩
  | 4 => ⟨S5x5, .f32⟩
  | 5 => ⟨S5, .f32⟩
  | 6 => ⟨S5x5, .f32⟩
  | 7 => ⟨S5, .f32⟩
  | 8 => ⟨S5x10, .f32⟩
  | 9 => ⟨S10, .f32⟩
  | 10 => ⟨S10x10, .f32⟩
  | 11 => ⟨S10, .f32⟩
  | 12 => ⟨S10x10, .f32⟩
  | 13 => ⟨S10, .f32⟩
  | 14 => ⟨S10x10, .f32⟩
  | 15 => ⟨S10, .f32⟩
  | 16 => ⟨S5, .f32⟩
  | 17 => ⟨S5, .f32⟩
  | 18 => ⟨S10, .f32⟩
  | 19 => ⟨S10, .f32⟩
  | 20 => ⟨S10, .f32⟩
  | 21 => ⟨S10, .f32⟩
  | 22 => ⟨S20x128, .f32⟩
  | 23 => ⟨S128, .f32⟩
  | 24 => ⟨S128x64, .f32⟩
  | 25 => ⟨S64, .f32⟩
  | 26 => ⟨S64x1, .f32⟩
  | 27 => ⟨S1, .f32⟩
  | 28 => ⟨S1x8000000, .i32⟩
  | 29 => ⟨S8000000, .i32⟩
  | 30 => ⟨S1x8000000, .i32⟩
  | 31 => ⟨S8000000, .i32⟩
  | 32 => ⟨S_, .i32⟩
  | 33 => ⟨S8000000, .i32⟩
  | 34 => ⟨S8000000, .i1⟩
  | 35 => ⟨S_, .i32⟩
  | 36 => ⟨S8000000, .i32⟩
  | 37 => ⟨S8000000, .i32⟩
  | 38 => ⟨S8000000, .i32⟩
  | 39 => ⟨S8000000x1, .i32⟩
  | 40 => ⟨S8000000x5, .f32⟩
  | 41 => ⟨S_, .f32⟩
  | 42 => ⟨S500000x5, .f32⟩
  | 43 => ⟨S8000000x1, .i32⟩
  | 44 => ⟨S500000x5, .f32⟩
  | 45 => ⟨S500000x5, .f32⟩
  | 46 => ⟨S500000x5, .f32⟩
  | 47 => ⟨S1x5, .f32⟩
  | 48 => ⟨S500000x5, .f32⟩
  | 49 => ⟨S500000x5, .f32⟩
  | 50 => ⟨S_, .f32⟩
  | 51 => ⟨S500000x5, .f32⟩
  | 52 => ⟨S500000x5, .f32⟩
  | 53 => ⟨S500000x5, .f32⟩
  | 54 => ⟨S1x5, .f32⟩
  | 55 => ⟨S500000x5, .f32⟩
  | 56 => ⟨S500000x5, .f32⟩
  | 57 => ⟨S_, .f32⟩
  | 58 => ⟨S500000x5, .f32⟩
  | 59 => ⟨S500000x5, .f32⟩
  | 60 => ⟨S_, .f32⟩
  | 61 => ⟨S5, .f32⟩
  | 62 => ⟨S_, .f32⟩
  | 63 => ⟨S5, .f32⟩
  | 64 => ⟨S5, .f32⟩
  | 65 => ⟨S1x5, .f32⟩
  | 66 => ⟨S500000x5, .f32⟩
  | 67 => ⟨S500000x5, .f32⟩
  | 68 => ⟨S500000x5, .f32⟩
  | 69 => ⟨S_, .f32⟩
  | 70 => ⟨S5, .f32⟩
  | 71 => ⟨S_, .f32⟩
  | 72 => ⟨S5, .f32⟩
  | 73 => ⟨S5, .f32⟩
  | 74 => ⟨S1x5, .f32⟩
  | 75 => ⟨S500000x5, .f32⟩
  | 76 => ⟨S500000x5, .f32⟩
  | 77 => ⟨S_, .f32⟩
  | 78 => ⟨S5, .f32⟩
  | 79 => ⟨S5, .f32⟩
  | 80 => ⟨S5, .f32⟩
  | 81 => ⟨S1x5, .f32⟩
  | 82 => ⟨S500000x5, .f32⟩
  | 83 => ⟨S500000x5, .f32⟩
  | 84 => ⟨S1x5, .f32⟩
  | 85 => ⟨S500000x5, .f32⟩
  | 86 => ⟨S500000x5, .f32⟩
  | 87 => ⟨S1x5, .f32⟩
  | 88 => ⟨S500000x5, .f32⟩
  | 89 => ⟨S500000x5, .f32⟩
  | 90 => ⟨S_, .i32⟩
  | 91 => ⟨S8000000, .i32⟩
  | 92 => ⟨S8000000, .i1⟩
  | 93 => ⟨S_, .i32⟩
  | 94 => ⟨S8000000, .i32⟩
  | 95 => ⟨S8000000, .i32⟩
  | 96 => ⟨S8000000, .i32⟩
  | 97 => ⟨S8000000x1, .i32⟩
  | 98 => ⟨S8000000x5, .f32⟩
  | 99 => ⟨S_, .f32⟩
  | 100 => ⟨S500000x5, .f32⟩
  | 101 => ⟨S8000000x1, .i32⟩
  | 102 => ⟨S500000x5, .f32⟩
  | 103 => ⟨S500000x5, .f32⟩
  | 104 => ⟨S500000x10, .f32⟩
  | 105 => ⟨S1x10, .f32⟩
  | 106 => ⟨S500000x10, .f32⟩
  | 107 => ⟨S500000x10, .f32⟩
  | 108 => ⟨S_, .f32⟩
  | 109 => ⟨S500000x10, .f32⟩
  | 110 => ⟨S500000x10, .f32⟩
  | 111 => ⟨S500000x10, .f32⟩
  | 112 => ⟨S1x10, .f32⟩
  | 113 => ⟨S500000x10, .f32⟩
  | 114 => ⟨S500000x10, .f32⟩
  | 115 => ⟨S_, .f32⟩
  | 116 => ⟨S500000x10, .f32⟩
  | 117 => ⟨S500000x10, .f32⟩
  | 118 => ⟨S_, .f32⟩
  | 119 => ⟨S10, .f32⟩
  | 120 => ⟨S_, .f32⟩
  | 121 => ⟨S10, .f32⟩
  | 122 => ⟨S10, .f32⟩
  | 123 => ⟨S1x10, .f32⟩
  | 124 => ⟨S500000x10, .f32⟩
  | 125 => ⟨S500000x10, .f32⟩
  | 126 => ⟨S500000x10, .f32⟩
  | 127 => ⟨S_, .f32⟩
  | _ => ⟨S500000x5, .f32⟩

abbrev hbmTy0_1 (i : Nat) : BufTy := match i % 128 with
  | 0 => ⟨S10, .f32⟩
  | 1 => ⟨S_, .f32⟩
  | 2 => ⟨S10, .f32⟩
  | 3 => ⟨S10, .f32⟩
  | 4 => ⟨S1x10, .f32⟩
  | 5 => ⟨S500000x10, .f32⟩
  | 6 => ⟨S500000x10, .f32⟩
  | 7 => ⟨S_, .f32⟩
  | 8 => ⟨S10, .f32⟩
  | 9 => ⟨S10, .f32⟩
  | 10 => ⟨S10, .f32⟩
  | 11 => ⟨S1x10, .f32⟩
  | 12 => ⟨S500000x10, .f32⟩
  | 13 => ⟨S500000x10, .f32⟩
  | 14 => ⟨S1x10, .f32⟩
  | 15 => ⟨S500000x10, .f32⟩
  | 16 => ⟨S500000x10, .f32⟩
  | 17 => ⟨S1x10, .f32⟩
  | 18 => ⟨S500000x10, .f32⟩
  | 19 => ⟨S500000x10, .f32⟩
  | 20 => ⟨S_, .i32⟩
  | 21 => ⟨S8000000, .i32⟩
  | 22 => ⟨S8000000, .i1⟩
  | 23 => ⟨S_, .i32⟩
  | 24 => ⟨S8000000, .i32⟩
  | 25 => ⟨S8000000, .i32⟩
  | 26 => ⟨S8000000, .i32⟩
  | 27 => ⟨S8000000x1, .i32⟩
  | 28 => ⟨S8000000x10, .f32⟩
  | 29 => ⟨S_, .f32⟩
  | 30 => ⟨S500000x10, .f32⟩
  | 31 => ⟨S8000000x1, .i32⟩
  | 32 => ⟨S500000x10, .f32⟩
  | 33 => ⟨S500000x10, .f32⟩
  | 34 => ⟨S500000x10, .f32⟩
  | 35 => ⟨S1x10, .f32⟩
  | 36 => ⟨S500000x10, .f32⟩
  | 37 => ⟨S500000x10, .f32⟩
  | 38 => ⟨S_, .f32⟩
  | 39 => ⟨S500000x10, .f32⟩
  | 40 => ⟨S500000x10, .f32⟩
  | 41 => ⟨S500000x10, .f32⟩
  | 42 => ⟨S1x10, .f32⟩
  | 43 => ⟨S500000x10, .f32⟩
  | 44 => ⟨S500000x10, .f32⟩
  | 45 => ⟨S_, .f32⟩
  | 46 => ⟨S500000x10, .f32⟩
  | 47 => ⟨S500000x10, .f32⟩
  | 48 => ⟨S_, .f32⟩
  | 49 => ⟨S10, .f32⟩
  | 50 => ⟨S_, .f32⟩
  | 51 => ⟨S10, .f32⟩
  | 52 => ⟨S10, .f32⟩
  | 53 => ⟨S1x10, .f32⟩
  | 54 => ⟨S500000x10, .f32⟩
  | 55 => ⟨S500000x10, .f32⟩
  | 56 => ⟨S500000x10, .f32⟩
  | 57 => ⟨S_, .f32⟩
  | 58 => ⟨S10, .f32⟩
  | 59 => ⟨S_, .f32⟩
  | 60 => ⟨S10, .f32⟩
  | 61 => ⟨S10, .f32⟩
  | 62 => ⟨S1x10, .f32⟩
  | 63 => ⟨S500000x10, .f32⟩
  | 64 => ⟨S500000x10, .f32⟩
  | 65 => ⟨S_, .f32⟩
  | 66 => ⟨S10, .f32⟩
  | 67 => ⟨S10, .f32⟩
  | 68 => ⟨S10, .f32⟩
  | 69 => ⟨S1x10, .f32⟩
  | 70 => ⟨S500000x10, .f32⟩
  | 71 => ⟨S500000x10, .f32⟩
  | 72 => ⟨S1x10, .f32⟩
  | 73 => ⟨S500000x10, .f32⟩
  | 74 => ⟨S500000x10, .f32⟩
  | 75 => ⟨S1x10, .f32⟩
  | 76 => ⟨S500000x10, .f32⟩
  | 77 => ⟨S500000x10, .f32⟩
  | 78 => ⟨S_, .f32⟩
  | 79 => ⟨S8192x10, .f32⟩
  | 80 => ⟨S500000x1, .i32⟩
  | 81 => ⟨S8192x10, .f32⟩
  | 82 => ⟨S_, .f32⟩
  | 83 => ⟨S500000, .f32⟩
  | 84 => ⟨S_, .f32⟩
  | 85 => ⟨S8192, .f32⟩
  | 86 => ⟨S500000x1, .i32⟩
  | 87 => ⟨S8192, .f32⟩
  | 88 => ⟨S_, .f32⟩
  | 89 => ⟨S8192, .f32⟩
  | 90 => ⟨S8192, .f32⟩
  | 91 => ⟨S8192x1, .f32⟩
  | 92 => ⟨S8192x10, .f32⟩
  | 93 => ⟨S8192x10, .f32⟩
  | 94 => ⟨S8192x20, .f32⟩
  | 95 => ⟨S8192x128, .f32⟩
  | 96 => ⟨S1x128, .f32⟩
  | 97 => ⟨S8192x128, .f32⟩
  | 98 => ⟨S8192x128, .f32⟩
  | 99 => ⟨S_, .f32⟩
  | 100 => ⟨S8192x128, .f32⟩
  | 101 => ⟨S8192x128, .f32⟩
  | 102 => ⟨S8192x64, .f32⟩
  | 103 => ⟨S1x64, .f32⟩
  | 104 => ⟨S8192x64, .f32⟩
  | 105 => ⟨S8192x64, .f32⟩
  | 106 => ⟨S_, .f32⟩
  | 107 => ⟨S8192x64, .f32⟩
  | 108 => ⟨S8192x64, .f32⟩
  | 109 => ⟨S8192x1, .f32⟩
  | 110 => ⟨S1x1, .f32⟩
  | 111 => ⟨S8192x1, .f32⟩
  | 112 => ⟨S8192x1, .f32⟩
  | _ => ⟨S500000x5, .f32⟩

abbrev hbmTy (i : Nat) : BufTy := match i / 128 with
  | 0 => hbmTy0_0 i
  | 1 => hbmTy0_1 i
  | _ => ⟨S500000x5, .f32⟩

abbrev bufTy : (tb : Table) → Fin (tcTables nBuf tb) → BufTy
  | .hbm, ⟨i, _⟩ => hbmTy i
  | _, _ => ⟨S500000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_call0_cst : Ref sig .tc := ⟨.hbm, 50, rfl⟩
abbrev main_call0_v0 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_call1_cst : Ref sig .tc := ⟨.hbm, 57, rfl⟩
abbrev main_call1_v0 : Ref sig .tc := ⟨.hbm, 58, rfl⟩
abbrev main_v24 : Ref sig .tc := ⟨.hbm, 59, rfl⟩
abbrev main_cst_1 : Ref sig .tc := ⟨.hbm, 60, rfl⟩
abbrev main_v25 : Ref sig .tc := ⟨.hbm, 61, rfl⟩
abbrev main_cst_2 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_3 : Ref sig .tc := ⟨.hbm, 69, rfl⟩
abbrev main_v32 : Ref sig .tc := ⟨.hbm, 70, rfl⟩
abbrev main_cst_4 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_5 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_6 : Ref sig .tc := ⟨.hbm, 90, rfl⟩
abbrev main_v50 : Ref sig .tc := ⟨.hbm, 91, rfl⟩
abbrev main_v51 : Ref sig .tc := ⟨.hbm, 92, rfl⟩
abbrev main_c_7 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_8 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_call2_cst : Ref sig .tc := ⟨.hbm, 108, rfl⟩
abbrev main_call2_v0 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_call3_cst : Ref sig .tc := ⟨.hbm, 115, rfl⟩
abbrev main_call3_v0 : Ref sig .tc := ⟨.hbm, 116, rfl⟩
abbrev main_v70 : Ref sig .tc := ⟨.hbm, 117, rfl⟩
abbrev main_cst_9 : Ref sig .tc := ⟨.hbm, 118, rfl⟩
abbrev main_v71 : Ref sig .tc := ⟨.hbm, 119, rfl⟩
abbrev main_cst_10 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_11 : Ref sig .tc := ⟨.hbm, 127, rfl⟩
abbrev main_v78 : Ref sig .tc := ⟨.hbm, 128, rfl⟩
abbrev main_cst_12 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_13 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_c_14 : Ref sig .tc := ⟨.hbm, 148, rfl⟩
abbrev main_v96 : Ref sig .tc := ⟨.hbm, 149, rfl⟩
abbrev main_v97 : Ref sig .tc := ⟨.hbm, 150, rfl⟩
abbrev main_c_15 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_16 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_call4_cst : Ref sig .tc := ⟨.hbm, 166, rfl⟩
abbrev main_call4_v0 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_call5_cst : Ref sig .tc := ⟨.hbm, 173, rfl⟩
abbrev main_call5_v0 : Ref sig .tc := ⟨.hbm, 174, rfl⟩
abbrev main_v116 : Ref sig .tc := ⟨.hbm, 175, rfl⟩
abbrev main_cst_17 : Ref sig .tc := ⟨.hbm, 176, rfl⟩
abbrev main_v117 : Ref sig .tc := ⟨.hbm, 177, rfl⟩
abbrev main_cst_18 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_cst_19 : Ref sig .tc := ⟨.hbm, 185, rfl⟩
abbrev main_v124 : Ref sig .tc := ⟨.hbm, 186, rfl⟩
abbrev main_cst_20 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_cst_21 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_cst_22 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_cst_23 : Ref sig .tc := ⟨.hbm, 210, rfl⟩
abbrev main_v145 : Ref sig .tc := ⟨.hbm, 211, rfl⟩
abbrev main_cst_24 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_cst_25 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_call6_cst : Ref sig .tc := ⟨.hbm, 227, rfl⟩
abbrev main_call6_v0 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_call7_cst : Ref sig .tc := ⟨.hbm, 234, rfl⟩
abbrev main_call7_v0 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩

abbrev nD : Nat := 1
abbrev τ : Topo := Topo.v7x

variable {F : FTy → Type} [FloatOps F]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S500000x5 : S_.BroadcastsInDim S500000x5 (![] : Fin 0 → Fin S500000x5.rank)
  bcast_S5_S1x5_1 : S5.BroadcastsInDim S1x5 (![1] : Fin 1 → Fin S1x5.rank)
  bcast_S1x5_S500000x5_0_1 : S1x5.BroadcastsInDim S500000x5 (![0, 1] : Fin 2 → Fin S500000x5.rank)
  reducesTo_S500000x5_S5_d0 : S500000x5.ReducesTo [0] S5
  h_S_ : 0 < S_.numel
  bcast_S_S5 : S_.BroadcastsInDim S5 (![] : Fin 0 → Fin S5.rank)
  bcast_S10_S1x10_1 : S10.BroadcastsInDim S1x10 (![1] : Fin 1 → Fin S1x10.rank)
  bcast_S1x10_S500000x10_0_1 : S1x10.BroadcastsInDim S500000x10 (![0, 1] : Fin 2 → Fin S500000x10.rank)
  bcast_S_S500000x10 : S_.BroadcastsInDim S500000x10 (![] : Fin 0 → Fin S500000x10.rank)
  reducesTo_S500000x10_S10_d0 : S500000x10.ReducesTo [0] S10
  bcast_S_S10 : S_.BroadcastsInDim S10 (![] : Fin 0 → Fin S10.rank)
  bcast_S_S8192x10 : S_.BroadcastsInDim S8192x10 (![] : Fin 0 → Fin S8192x10.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  concatenates_S8192x10_S8192x10_S8192x20_d1 : Shape.Concatenates [S8192x10, S8192x10] S8192x20 1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  gather_S500000x5_S8000000x1_S8000000x5_1_0_n_n_0_1_15_wf : GatherDims.WF S500000x5 S8000000x1 S8000000x5 [1] [0] [] [0] [] 1 ![1, 5]
  scatter_S500000x5_S8000000x1_S8000000x5_1_0_0_1_wf : ScatterDims.WF S500000x5 S8000000x1 S8000000x5 [1] [0] [0] 1
  dot_S500000x5_S5x5_S500000x5_1_0_0_1_n_n_wf : DotDims.WF S500000x5 S5x5 S500000x5 [1] [0] [0] [1] [] []
  dot_S500000x5_S5x10_S500000x10_1_0_0_1_n_n_wf : DotDims.WF S500000x5 S5x10 S500000x10 [1] [0] [0] [1] [] []
  dot_S500000x10_S10x10_S500000x10_1_0_0_1_n_n_wf : DotDims.WF S500000x10 S10x10 S500000x10 [1] [0] [0] [1] [] []
  gather_S500000x10_S8000000x1_S8000000x10_1_0_n_n_0_1_110_wf : GatherDims.WF S500000x10 S8000000x1 S8000000x10 [1] [0] [] [0] [] 1 ![1, 10]
  scatter_S500000x10_S8000000x1_S8000000x10_1_0_0_1_wf : ScatterDims.WF S500000x10 S8000000x1 S8000000x10 [1] [0] [0] 1
  scatter_S8192x10_S500000x1_S500000x10_1_0_0_1_wf : ScatterDims.WF S8192x10 S500000x1 S500000x10 [1] [0] [0] 1
  scatter_S8192_S500000x1_S500000_n_0_0_1_wf : ScatterDims.WF S8192 S500000x1 S500000 [] [0] [0] 1
  dot_S8192x20_S20x128_S8192x128_1_0_0_1_n_n_wf : DotDims.WF S8192x20 S20x128 S8192x128 [1] [0] [0] [1] [] []
  dot_S8192x128_S128x64_S8192x64_1_0_0_1_n_n_wf : DotDims.WF S8192x128 S128x64 S8192x64 [1] [0] [0] [1] [] []
  dot_S8192x64_S64x1_S8192x1_1_0_0_1_n_n_wf : DotDims.WF S8192x64 S64x1 S8192x1 [1] [0] [0] [1] [] []

variable [Facts₀]

def gather_S500000x5_S8000000x1_S8000000x5_1_0_n_n_0_1_15 : GatherDims S500000x5 S8000000x1 S8000000x5 where
  offsetDims := [1]
  collapsedSliceDims := [0]
  operandBatchingDims := []
  startIndicesBatchingDims := []
  startIndexMap := [0]
  indexVectorDim := 1
  sliceSizes := ![1, 5]
  wf := gather_S500000x5_S8000000x1_S8000000x5_1_0_n_n_0_1_15_wf
def scatter_S500000x5_S8000000x1_S8000000x5_1_0_0_1 : ScatterDims S500000x5 S8000000x1 S8000000x5 where
  updateWindowDims := [1]
  insertedWindowDims := [0]
  scatterDimsToOperandDims := [0]
  indexVectorDim := 1
  wf := scatter_S500000x5_S8000000x1_S8000000x5_1_0_0_1_wf
def dot_S500000x5_S5x5_S500000x5_1_0_0_1_n_n : DotDims S500000x5 S5x5 S500000x5 where
  lhsContracting := [1]
  rhsContracting := [0]
  lhsNonContracting := [0]
  rhsNonContracting := [1]
  lhsBatch := []
  rhsBatch := []
  wf := dot_S500000x5_S5x5_S500000x5_1_0_0_1_n_n_wf
def dot_S500000x5_S5x10_S500000x10_1_0_0_1_n_n : DotDims S500000x5 S5x10 S500000x10 where
  lhsContracting := [1]
  rhsContracting := [0]
  lhsNonContracting := [0]
  rhsNonContracting := [1]
  lhsBatch := []
  rhsBatch := []
  wf := dot_S500000x5_S5x10_S500000x10_1_0_0_1_n_n_wf
def dot_S500000x10_S10x10_S500000x10_1_0_0_1_n_n : DotDims S500000x10 S10x10 S500000x10 where
  lhsContracting := [1]
  rhsContracting := [0]
  lhsNonContracting := [0]
  rhsNonContracting := [1]
  lhsBatch := []
  rhsBatch := []
  wf := dot_S500000x10_S10x10_S500000x10_1_0_0_1_n_n_wf
def gather_S500000x10_S8000000x1_S8000000x10_1_0_n_n_0_1_110 : GatherDims S500000x10 S8000000x1 S8000000x10 where
  offsetDims := [1]
  collapsedSliceDims := [0]
  operandBatchingDims := []
  startIndicesBatchingDims := []
  startIndexMap := [0]
  indexVectorDim := 1
  sliceSizes := ![1, 10]
  wf := gather_S500000x10_S8000000x1_S8000000x10_1_0_n_n_0_1_110_wf
def scatter_S500000x10_S8000000x1_S8000000x10_1_0_0_1 : ScatterDims S500000x10 S8000000x1 S8000000x10 where
  updateWindowDims := [1]
  insertedWindowDims := [0]
  scatterDimsToOperandDims := [0]
  indexVectorDim := 1
  wf := scatter_S500000x10_S8000000x1_S8000000x10_1_0_0_1_wf
def scatter_S8192x10_S500000x1_S500000x10_1_0_0_1 : ScatterDims S8192x10 S500000x1 S500000x10 where
  updateWindowDims := [1]
  insertedWindowDims := [0]
  scatterDimsToOperandDims := [0]
  indexVectorDim := 1
  wf := scatter_S8192x10_S500000x1_S500000x10_1_0_0_1_wf
def scatter_S8192_S500000x1_S500000_n_0_0_1 : ScatterDims S8192 S500000x1 S500000 where
  updateWindowDims := []
  insertedWindowDims := [0]
  scatterDimsToOperandDims := [0]
  indexVectorDim := 1
  wf := scatter_S8192_S500000x1_S500000_n_0_0_1_wf
def dot_S8192x20_S20x128_S8192x128_1_0_0_1_n_n : DotDims S8192x20 S20x128 S8192x128 where
  lhsContracting := [1]
  rhsContracting := [0]
  lhsNonContracting := [0]
  rhsNonContracting := [1]
  lhsBatch := []
  rhsBatch := []
  wf := dot_S8192x20_S20x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

class Facts : Prop extends Facts₀ where

variable [Facts]
-- ==== Proof.RunOut.lean ====
import proofs.«132165_j27702539059447_2_alg».proof.Proof.Gen.KernelIdeal.Frame

/-!
The run of the idealized kernel program with its result named: every weakly fair execution terminates, nothing
faults, the result buffer ends at the last boundary's contents `W14` and the arguments end as launched.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
theorem run_out : θ_run defs (onTc (τ := τ) (main (F := F))) ⟨m, fun _ => 0, ρ⟩ (fun r => ∀ c : Dev nD,
      r.2.mem ((c.tc : Thread nD τ).loc main_v101) = W14 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v101 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c),
       (h c _ (mem_uc main_arg24 (by decide))).trans (W14_main_arg24 m ρ c),
       (h c _ (mem_uc main_arg25 (by decide))).trans (W14_main_arg25 m ρ c),
       (h c _ (mem_uc main_arg26 (by decide))).trans (W14_main_arg26 m ρ c),
       (h c _ (mem_uc main_arg27 (by decide))).trans (W14_main_arg27 m ρ c)⟩)

end Cert.KernelIdeal.Gen

end
-- ==== Proof.RefRunDefs.lean ====
import proofs.«132165_j27702539059447_2_alg».proof.Proof.RunP
import Idealize.ShloMosaic.PureOps.Ideal

/-!
# The reference's operations in eight stretches

What the buffers hold after a list of operations is a fold, so the fold over a concatenation is the fold over the
second list from the fold over the first. The reference's operations are cut where a layer, a normalisation, the
pooled means and the head end; the whole list is the eight stretches one after another.
-/

set_option maxRecDepth 16384

noncomputable section

namespace Cert.ReferenceIdeal.RefRun

open Cert.ReferenceIdeal Cert.ReferenceIdeal.Gen Cert.ReferenceIdeal.Value Idealize.ShloMosaic Idealize.ShloMosaic.TcCoe Idealize.SL.Sem Idealize.ShloMosaic.StableHlo

/-- The fold over a concatenation is the fold over the second list from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

variable {F : FTy → Type} [FloatOps F]

/-- The operations of the first layer before its normalisation. -/
abbrev opsA : List (HloOp τ sig (Elt F)) :=
  [ unary main_arg1 main_v0 ((extractStridedSlice S1x8000000 ![0, 0] · slices_S2x8000000_S1x8000000_0_0) : (⟨S2x8000000, .i32⟩ : BufTy).Contents (Elt F) → (⟨S1x8000000, .i32⟩ : BufTy).Contents (Elt F)),
    reshape main_v0 main_v1 rfl shapeCasts_S1x8000000_S8000000,
    unary main_arg1 main_v2 ((extractStridedSlice S1x8000000 ![1, 0] · slices_S2x8000000_S1x8000000_1_0) : (⟨S2x8000000, .i32⟩ : BufTy).Contents (Elt F) → (⟨S1x8000000, .i32⟩ : BufTy).Contents (Elt F)),
    reshape main_v2 main_v3 rfl shapeCasts_S1x8000000_S8000000,
    nullary main_c (constantI S_ 32 0#32),
    unary main_c main_v4 (broadcastInDim S8000000 ![] bcast_S_S8000000 : (⟨S_, .i32⟩ : BufTy).Contents (Elt F) → (⟨S8000000, .i32⟩ : BufTy).Contents (Elt F)),
    binary main_v1 main_v4 main_v5 (cmpi .slt : (⟨S8000000, .i32⟩ : BufTy).Contents (Elt F) → (⟨S8000000, .i32⟩ : BufTy).Contents (Elt F) → (⟨S8000000, .i1⟩ : BufTy).Contents (Elt F)),
    nullary main_c_0 (constantI S_ 32 500000#32),
    unary main_c_0 main_v6 (broadcastInDim S8000000 ![] bcast_S_S8000000 : (⟨S_, .i32⟩ : BufTy).Contents (Elt F) → (⟨S8000000, .i32⟩ : BufTy).Contents (Elt F)),
    binary main_v1 main_v6 main_v7 (addi : (⟨S8000000, .i32⟩ : BufTy).Contents (Elt F) → (⟨S8000000, .i32⟩ : BufTy).Contents (Elt F) → (⟨S8000000, .i32⟩ : BufTy).Contents (Elt F)),
    ternary main_v5 main_v7 main_v1 main_v8 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    unary main_v8 main_v9 (broadcastInDim S8000000x1 ![0] bcast_S8000000_S8000000x1_0 : (⟨S8000000, .i32⟩ : BufTy).Contents (Elt F) → (⟨S8000000x1, .i32⟩ : BufTy).Contents (Elt F)),
    binary main_arg0 main_v9 main_v10 ((fun x i => Host.gather gather_S500000x5_S8000000x1_S8000000x5_1_0_n_n_0_1_15 x i) : (⟨S500000x5, .f32⟩ : BufTy).Contents (Elt F) → (⟨S8000000x1, .i32⟩ : BufTy).Contents (Elt F) → (⟨S8000000x5, .f32⟩ : BufTy).Contents (Elt F)),
    nullary main_cst (constant S_ .f32 0x00000000#32),
    unary main_cst main_v11 (broadcastInDim S500000x5 ![] bcast_S_S500000x5 : (⟨S_, .f32⟩ : BufTy).Contents (Elt F) → (⟨S500000x5, .f32⟩ : BufTy).Contents (Elt F)),
    unary main_v3 main_v12 (broadcastInDim S8000000x1 ![0] bcast_S8000000_S8000000x1_0 : (⟨S8000000, .i32⟩ : BufTy).Contents (Elt F) → (⟨S8000000x1, .i32⟩ : BufTy).Contents (Elt F)),
    ternary main_v11 main_v12 main_v10 main_v13 ((fun x i u => Host.scatterAdd scatter_S500000x5_S8000000x1_S8000000x5_1_0_0_1 x i u) : (⟨S500000x5, .f32⟩ : BufTy).Contents (Elt F) → (⟨S8000000x1, .i32⟩ : BufTy).Contents (Elt F) → (⟨S8000000x5, .f32⟩ : BufTy).Contents (Elt F) → (⟨S500000x5, .f32⟩ : BufTy).Contents (Elt F)),
    binary main_arg0 main_v13 main_v14 (addf : (⟨S500000x5, .f32⟩ : BufTy).Contents (Elt F) → (⟨S500000x5, .f32⟩ : BufTy).Contents (Elt F) → (⟨S500000x5, .f32⟩ : BufTy).Contents (Elt F)),
    binary main_v14 main_arg4 main_v15 ((fun l r => Host.dotGeneral dot_S500000x5_S5x5_S500000x5_1_0_0_1_n_n none l r) : (⟨S500000x5, .f32⟩ : BufTy).Contents (Elt F) → (⟨S5x5, .f32⟩ : BufTy).Contents (Elt F) → (⟨S500000x5, .f32⟩ : BufTy).Contents (Elt F)),
    unary main_arg5 main_v16 (broadcastInDim S1x5 ![1] bcast_S5_S1x5_1 : (⟨S5, .f32⟩ : BufTy).Contents (Elt F) → (⟨S1x5, .f32⟩ : BufTy).Contents (Elt F)),
    unary main_v16 main_v17 (broadcastInDim S500000x5 ![0, 1] bcast_S1x5_S500000x5_0_1 : (⟨S1x5, .f32⟩ : BufTy).Contents (Elt F) → (⟨S500000x5, .f32⟩ : BufTy).Contents (Elt F)),
    binary main_v15 main_v17 main_v18 (addf : (⟨S500000x5, .f32⟩ : BufTy).Contents (Elt F) → (⟨S500000x5, .f32⟩ : BufTy).Contents (Elt F) → (⟨S500000x5, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S500000x5, .f32⟩) main_call0_v0) (broadcastInDim S500000x5 ![] bcast_S_S500000x5),
    TRef.binary (TRef.of (T := ⟨S500000x5, .f32⟩) main_v18) (TRef.of (T := ⟨S500000x5, .f32⟩) main_call0_v0) (TRef.of (T := ⟨S500000x5, .f32⟩) main_v19) maximumf,
    binary main_v19 main_arg6 main_v20 ((fun l r => Host.dotGeneral dot_S500000x5_S5x5_S500000x5_1_0_0_1_n_n none l r) : (⟨S500000x5, .f32⟩ : BufTy).Contents (Elt F) → (⟨S5x5, .f32⟩ : BufTy).Contents (Elt F) → (⟨S500000x5, .f32⟩ : BufTy).Contents (Elt F)),
    unary main_arg7 main_v21 (broadcastInDim S1x5 ![1] bcast_S5_S1x5_1 : (⟨S5, .f32⟩ : BufTy).Contents (Elt F) → (⟨S1x5, .f32⟩ : BufTy).Contents (Elt F)),
    unary main_v21 main_v22 (broadcastInDim S500000x5 ![0, 1] bcast_S1x5_S500000x5_0_1 : (⟨S1x5, .f32⟩ : BufTy).Contents (Elt F) → (⟨S500000x5, .f32⟩ : BufTy).Contents (Elt F)),
    binary main_v20 main_v22 main_v23 (addf : (⟨S500000x5, .f32⟩ : BufTy).Contents (Elt F) → (⟨S500000x5, .f32⟩ : BufTy).Contents (Elt F) → (⟨S500000x5, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S500000x5, .f32⟩) main_call1_v0) (broadcastInDim S500000x5 ![] bcast_S_S500000x5),
    TRef.binary (TRef.of (T := ⟨S500000x5, .f32⟩) main_v23) (TRef.of (T := ⟨S500000x5, .f32⟩) main_call1_v0) (TRef.of (T := ⟨S500000x5, .f32⟩) main_v24) maximumf ]

/-- The operations of the first layer normalised. -/
abbrev opsB : List (HloOp τ sig (Elt F)) :=
  [ nullary main_cst_1 (constant S_ .f32 0x00000000#32),
    binary main_v24 main_cst_1 main_v25 ((fun x v => Host.reduceAdd x v reducesTo_S500000x5_S5_d0 h_S_) : (⟨S500000x5, .f32⟩ : BufTy).Contents (Elt F) → (⟨S_, .f32⟩ : BufTy).Contents (Elt F) → (⟨S5, .f32⟩ : BufTy).Contents (Elt F)),
    nullary main_cst_2 (constant S_ .f32 0x48F42400#32),
    unary main_cst_2 main_v26 (broadcastInDim S5 ![] bcast_S_S5 : (⟨S_, .f32⟩ : BufTy).Contents (Elt F) → (⟨S5, .f32⟩ : BufTy).Contents (Elt F)),
    binary main_v25 main_v26 main_v27 (Host.divf : (⟨S5, .f32⟩ : BufTy).Contents (Elt F) → (⟨S5, .f32⟩ : BufTy).Contents (Elt F) → (⟨S5, .f32⟩ : BufTy).Contents (Elt F)),
    unary main_v27 main_v28 (broadcastInDim S1x5 ![1] bcast_S5_S1x5_1 : (⟨S5, .f32⟩ : BufTy).Contents (Elt F) → (⟨S1x5, .f32⟩ : BufTy).Contents (Elt F)),
    unary main_v28 main_v29 (broadcastInDim S500000x5 ![0, 1] bcast_S1x5_S500000x5_0_1 : (⟨S1x5, .f32⟩ : BufTy).Contents (Elt F) → (⟨S500000x5, .f32⟩ : BufTy).Contents (Elt F)),
    binary main_v24 main_v29 main_v30 (subf : (⟨S500000x5, .f32⟩ : BufTy).Contents (Elt F) → (⟨S500000x5, .f32⟩ : BufTy).Contents (Elt F) → (⟨S500000x5, .f32⟩ : BufTy).Contents (Elt F)),
    binary main_v30 main_v30 main_v31 (mulf : (⟨S500000x5, .f32⟩ : BufTy).Contents (Elt F) → (⟨S500000x5, .f32⟩ : BufTy).Contents (Elt F) → (⟨S500000x5, .f32⟩ : BufTy).Contents (Elt F)),
    nullary main_cst_3 (constant S_ .f32 0x00000000#32),
    binary main_v31 main_cst_3 main_v32 ((fun x v => Host.reduceAdd x v reducesTo_S500000x5_S5_d0 h_S_) : (⟨S500000x5, .f32⟩ : BufTy).Contents (Elt F) → (⟨S_, .f32⟩ : BufTy).Contents (Elt F) → (⟨S5, .f32⟩ : BufTy).Contents (Elt F)),
    nullary main_cst_4 (constant S_ .f32 0x48F42400#32),
    unary main_cst_4 main_v33 (broadcastInDim S5 ![] bcast_S_S5 : (⟨S_, .f32⟩ : BufTy).Contents (Elt F) → (⟨S5, .f32⟩ : BufTy).Contents (Elt F)),
    binary main_v32 main_v33 main_v34 (Host.divf : (⟨S5, .f32⟩ : BufTy).Contents (Elt F) → (⟨S5, .f32⟩ : BufTy).Contents (Elt F) → (⟨S5, .f32⟩ : BufTy).Contents (Elt F)),
    unary main_v27 main_v35 (broadcastInDim S1x5 ![1] bcast_S5_S1x5_1 : (⟨S5, .f32⟩ : BufTy).Contents (Elt F) → (⟨S1x5, .f32⟩ : BufTy).Contents (Elt F)),
    unary main_v35 main_v36 (broadcastInDim S500000x5 ![0, 1] bcast_S1x5_S500000x5_0_1 : (⟨S1x5, .f32⟩ : BufTy).Contents (Elt F) → (⟨S500000x5, .f32⟩ : BufTy).Contents (Elt F)),
    binary main_v24 main_v36 main_v37 (subf : (⟨S500000x5, .f32⟩ : BufTy).Contents (Elt F) → (⟨S500000x5, .f32⟩ : BufTy).Contents (Elt F) → (⟨S500000x5, .f32⟩ : BufTy).Contents (Elt F)),
    nullary main_cst_5 (constant S_ .f32 0x3727C5AC#32),
    unary main_cst_5 main_v38 (broadcastInDim S5 ![] bcast_S_S5 : (⟨S_, .f32⟩ : BufTy).Contents (Elt F) → (⟨S5, .f32⟩ : BufTy).Contents (Elt F)),
    binary main_v34 main_v38 main_v39 (addf : (⟨S5, .f32⟩ : BufTy).Contents (Elt F) → (⟨S5, .f32⟩ : BufTy).Contents (Elt F) → (⟨S5, .f32⟩ : BufTy).Contents (Elt F)),
    unary main_v39 main_v40 (Host.rsqrt : (⟨S5, .f32⟩ : BufTy).Contents (Elt F) → (⟨S5, .f32⟩ : BufTy).Contents (Elt F)),
    unary main_v40 main_v41 (broadcastInDim S1x5 ![1] bcast_S5_S1x5_1 : (⟨S5, .f32⟩ : BufTy).Contents (Elt F) → (⟨S1x5, .f32⟩ : BufTy).Contents (Elt F)),
    unary main_v41 main_v42 (broadcastInDim S500000x5 ![0, 1] bcast_S1x5_S500000x5_0_1 : (⟨S1x5, .f32⟩ : BufTy).Contents (Elt F) → (⟨S500000x5, .f32⟩ : BufTy).Contents (Elt F)),
    binary main_v37 main_v42 main_v43 (mulf : (⟨S500000x5, .f32⟩ : BufTy).Contents (Elt F) → (⟨S500000x5, .f32⟩ : BufTy).Contents (Elt F) → (⟨S500000x5, .f32⟩ : BufTy).Contents (Elt F)),
    unary main_arg16 main_v44 (broadcastInDim S1x5 ![1] bcast_S5_S1x5_1 : (⟨S5, .f32⟩ : BufTy).Contents (Elt F) → (⟨S1x5, .f32⟩ : BufTy).Contents (Elt F)),
    unary main_v44 main_v45 (broadcastInDim S500000x5 ![0, 1] bcast_S1x5_S500000x5_0_1 : (⟨S1x5, .f32⟩ : BufTy).Contents (Elt F) → (⟨S500000x5, .f32⟩ : BufTy).Contents (Elt F)),
    binary main_v43 main_v45 main_v46 (mulf : (⟨S500000x5, .f32⟩ : BufTy).Contents (Elt F) → (⟨S500000x5, .f32⟩ : BufTy).Contents (Elt F) → (⟨S500000x5, .f32⟩ : BufTy).Contents (Elt F)),
    unary main_arg17 main_v47 (broadcastInDim S1x5 ![1] bcast_S5_S1x5_1 : (⟨S5, .f32⟩ : BufTy).Contents (Elt F) → (⟨S1x5, .f32⟩ : BufTy).Contents (Elt F)),
    unary main_v47 main_v48 (broadcastInDim S500000x5 ![0, 1] bcast_S1x5_S500000x5_0_1 : (⟨S1x5, .f32⟩ : BufTy).Contents (Elt F) → (⟨S500000x5, .f32⟩ : BufTy).Contents (Elt F)),
    binary main_v46 main_v48 main_v49 (addf : (⟨S500000x5, .f32⟩ : BufTy).Contents (Elt F) → (⟨S500000x5, .f32⟩ : BufTy).Contents (Elt F) → (⟨S500000x5, .f32⟩ : BufTy).Contents (Elt F)) ]

/-- The operations of the second layer before its normalisation. -/
abbrev opsC : List (HloOp τ sig (Elt F)) :=
  [ nullary main_c_6 (constantI S_ 32 0#32),
    unary main_c_6 main_v50 (broadcastInDim S8000000 ![] bcast_S_S8000000 : (⟨S_, .i32⟩ : BufTy).Contents (Elt F) → (⟨S8000000, .i32⟩ : BufTy).Contents (Elt F)),
    binary main_v1 main_v50 main_v51 (cmpi .slt : (⟨S8000000, .i32⟩ : BufTy).Contents (Elt F) → (⟨S8000000, .i32⟩ : BufTy).Contents (Elt F) → (⟨S8000000, .i1⟩ : BufTy).Contents (Elt F)),
    nullary main_c_7 (constantI S_ 32 500000#32),
    unary main_c_7 main_v52 (broadcastInDim S8000000 ![] bcast_S_S8000000 : (⟨S_, .i32⟩ : BufTy).Contents (Elt F) → (⟨S8000000, .i32⟩ : BufTy).Contents (Elt F)),
    binary main_v1 main_v52 main_v53 (addi : (⟨S8000000, .i32⟩ : BufTy).Contents (Elt F) → (⟨S8000000, .i32⟩ : BufTy).Contents (Elt F) → (⟨S8000000, .i32⟩ : BufTy).Contents (Elt F)),
    ternary main_v51 main_v53 main_v1 main_v54 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    unary main_v54 main_v55 (broadcastInDim S8000000x1 ![0] bcast_S8000000_S8000000x1_0 : (⟨S8000000, .i32⟩ : BufTy).Contents (Elt F) → (⟨S8000000x1, .i32⟩ : BufTy).Contents (Elt F)),
    binary main_v49 main_v55 main_v56 ((fun x i => Host.gather gather_S500000x5_S8000000x1_S8000000x5_1_0_n_n_0_1_15 x i) : (⟨S500000x5, .f32⟩ : BufTy).Contents (Elt F) → (⟨S8000000x1, .i32⟩ : BufTy).Contents (Elt F) → (⟨S8000000x5, .f32⟩ : BufTy).Contents (Elt F)),
    nullary main_cst_8 (constant S_ .f32 0x00000000#32),
    unary main_cst_8 main_v57 (broadcastInDim S500000x5 ![] bcast_S_S500000x5 : (⟨S_, .f32⟩ : BufTy).Contents (Elt F) → (⟨S500000x5, .f32⟩ : BufTy).Contents (Elt F)),
    unary main_v3 main_v58 (broadcastInDim S8000000x1 ![0] bcast_S8000000_S8000000x1_0 : (⟨S8000000, .i32⟩ : BufTy).Contents (Elt F) → (⟨S8000000x1, .i32⟩ : BufTy).Contents (Elt F)),
    ternary main_v57 main_v58 main_v56 main_v59 ((fun x i u => Host.scatterAdd scatter_S500000x5_S8000000x1_S8000000x5_1_0_0_1 x i u) : (⟨S500000x5, .f32⟩ : BufTy).Contents (Elt F) → (⟨S8000000x1, .i32⟩ : BufTy).Contents (Elt F) → (⟨S8000000x5, .f32⟩ : BufTy).Contents (Elt F) → (⟨S500000x5, .f32⟩ : BufTy).Contents (Elt F)),
    binary main_v49 main_v59 main_v60 (addf : (⟨S500000x5, .f32⟩ : BufTy).Contents (Elt F) → (⟨S500000x5, .f32⟩ : BufTy).Contents (Elt F) → (⟨S500000x5, .f32⟩ : BufTy).Contents (Elt F)),
    binary main_v60 main_arg8 main_v61 ((fun l r => Host.dotGeneral dot_S500000x5_S5x10_S500000x10_1_0_0_1_n_n none l r) : (⟨S500000x5, .f32⟩ : BufTy).Contents (Elt F) → (⟨S5x10, .f32⟩ : BufTy).Contents (Elt F) → (⟨S500000x10, .f32⟩ : BufTy).Contents (Elt F)),
    unary main_arg9 main_v62 (broadcastInDim S1x10 ![1] bcast_S10_S1x10_1 : (⟨S10, .f32⟩ : BufTy).Contents (Elt F) → (⟨S1x10, .f32⟩ : BufTy).Contents (Elt F)),
    unary main_v62 main_v63 (broadcastInDim S500000x10 ![0, 1] bcast_S1x10_S500000x10_0_1 : (⟨S1x10, .f32⟩ : BufTy).Contents (Elt F) → (⟨S500000x10, .f32⟩ : BufTy).Contents (Elt F)),
    binary main_v61 main_v63 main_v64 (addf : (⟨S500000x10, .f32⟩ : BufTy).Contents (Elt F) → (⟨S500000x10, .f32⟩ : BufTy).Contents (Elt F) → (⟨S500000x10, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S500000x10, .f32⟩) main_call2_v0) (broadcastInDim S500000x10 ![] bcast_S_S500000x10),
    TRef.binary (TRef.of (T := ⟨S500000x10, .f32⟩) main_v64) (TRef.of (T := ⟨S500000x10, .f32⟩) main_call2_v0) (TRef.of (T := ⟨S500000x10, .f32⟩) main_v65) maximumf,
    binary main_v65 main_arg10 main_v66 ((fun l r => Host.dotGeneral dot_S500000x10_S10x10_S500000x10_1_0_0_1_n_n none l r) : (⟨S500000x10, .f32⟩ : BufTy).Contents (Elt F) → (⟨S10x10, .f32⟩ : BufTy).Contents (Elt F) → (⟨S500000x10, .f32⟩ : BufTy).Contents (Elt F)),
    unary main_arg11 main_v67 (broadcastInDim S1x10 ![1] bcast_S10_S1x10_1 : (⟨S10, .f32⟩ : BufTy).Contents (Elt F) → (⟨S1x10, .f32⟩ : BufTy).Contents (Elt F)),
    unary main_v67 main_v68 (broadcastInDim S500000x10 ![0, 1] bcast_S1x10_S500000x10_0_1 : (⟨S1x10, .f32⟩ : BufTy).Contents (Elt F) → (⟨S500000x10, .f32⟩ : BufTy).Contents (Elt F)),
    binary main_v66 main_v68 main_v69 (addf : (⟨S500000x10, .f32⟩ : BufTy).Contents (Elt F) → (⟨S500000x10, .f32⟩ : BufTy).Contents (Elt F) → (⟨S500000x10, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S500000x10, .f32⟩) main_call3_v0) (broadcastInDim S500000x10 ![] bcast_S_S500000x10),
    TRef.binary (TRef.of (T := ⟨S500000x10, .f32⟩) main_v69) (TRef.of (T := ⟨S500000x10, .f32⟩) main_call3_v0) (TRef.of (T := ⟨S500000x10, .f32⟩) main_v70) maximumf ]

/-- The operations of the second layer normalised. -/
abbrev opsD : List (HloOp τ sig (Elt F)) :=
  [ nullary main_cst_9 (constant S_ .f32 0x00000000#32),
    binary main_v70 main_cst_9 main_v71 ((fun x v => Host.reduceAdd x v reducesTo_S500000x10_S10_d0 h_S_) : (⟨S500000x10, .f32⟩ : BufTy).Contents (Elt F) → (⟨S_, .f32⟩ : BufTy).Contents (Elt F) → (⟨S10, .f32⟩ : BufTy).Contents (Elt F)),
    nullary main_cst_10 (constant S_ .f32 0x48F42400#32),
    unary main_cst_10 main_v72 (broadcastInDim S10 ![] bcast_S_S10 : (⟨S_, .f32⟩ : BufTy).Contents (Elt F) → (⟨S10, .f32⟩ : BufTy).Contents (Elt F)),
    binary main_v71 main_v72 main_v73 (Host.divf : (⟨S10, .f32⟩ : BufTy).Contents (Elt F) → (⟨S10, .f32⟩ : BufTy).Contents (Elt F) → (⟨S10, .f32⟩ : BufTy).Contents (Elt F)),
    unary main_v73 main_v74 (broadcastInDim S1x10 ![1] bcast_S10_S1x10_1 : (⟨S10, .f32⟩ : BufTy).Contents (Elt F) → (⟨S1x10, .f32⟩ : BufTy).Contents (Elt F)),
    unary main_v74 main_v75 (broadcastInDim S500000x10 ![0, 1] bcast_S1x10_S500000x10_0_1 : (⟨S1x10, .f32⟩ : BufTy).Contents (Elt F) → (⟨S500000x10, .f32⟩ : BufTy).Contents (Elt F)),
    binary main_v70 main_v75 main_v76 (subf : (⟨S500000x10, .f32⟩ : BufTy).Contents (Elt F) → (⟨S500000x10, .f32⟩ : BufTy).Contents (Elt F) → (⟨S500000x10, .f32⟩ : BufTy).Contents (Elt F)),
    binary main_v76 main_v76 main_v77 (mulf : (⟨S500000x10, .f32⟩ : BufTy).Contents (Elt F) → (⟨S500000x10, .f32⟩ : BufTy).Contents (Elt F) → (⟨S500000x10, .f32⟩ : BufTy).Contents (Elt F)),
    nullary main_cst_11 (constant S_ .f32 0x00000000#32),
    binary main_v77 main_cst_11 main_v78 ((fun x v => Host.reduceAdd x v reducesTo_S500000x10_S10_d0 h_S_) : (⟨S500000x10, .f32⟩ : BufTy).Contents (Elt F) → (⟨S_, .f32⟩ : BufTy).Contents (Elt F) → (⟨S10, .f32⟩ : BufTy).Contents (Elt F)),
    nullary main_cst_12 (constant S_ .f32 0x48F42400#32),
    unary main_cst_12 main_v79 (broadcastInDim S10 ![] bcast_S_S10 : (⟨S_, .f32⟩ : BufTy).Contents (Elt F) → (⟨S10, .f32⟩ : BufTy).Contents (Elt F)),
    binary main_v78 main_v79 main_v80 (Host.divf : (⟨S10, .f32⟩ : BufTy).Contents (Elt F) → (⟨S10, .f32⟩ : BufTy).Contents (Elt F) → (⟨S10, .f32⟩ : BufTy).Contents (Elt F)),
    unary main_v73 main_v81 (broadcastInDim S1x10 ![1] bcast_S10_S1x10_1 : (⟨S10, .f32⟩ : BufTy).Contents (Elt F) → (⟨S1x10, .f32⟩ : BufTy).Contents (Elt F)),
    unary main_v81 main_v82 (broadcastInDim S500000x10 ![0, 1] bcast_S1x10_S500000x10_0_1 : (⟨S1x10, .f32⟩ : BufTy).Contents (Elt F) → (⟨S500000x10, .f32⟩ : BufTy).Contents (Elt F)),
    binary main_v70 main_v82 main_v83 (subf : (⟨S500000x10, .f32⟩ : BufTy).Contents (Elt F) → (⟨S500000x10, .f32⟩ : BufTy).Contents (Elt F) → (⟨S500000x10, .f32⟩ : BufTy).Contents (Elt F)),
    nullary main_cst_13 (constant S_ .f32 0x3727C5AC#32),
    unary main_cst_13 main_v84 (broadcastInDim S10 ![] bcast_S_S10 : (⟨S_, .f32⟩ : BufTy).Contents (Elt F) → (⟨S10, .f32⟩ : BufTy).Contents (Elt F)),
    binary main_v80 main_v84 main_v85 (addf : (⟨S10, .f32⟩ : BufTy).Contents (Elt F) → (⟨S10, .f32⟩ : BufTy).Contents (Elt F) → (⟨S10, .f32⟩ : BufTy).Contents (Elt F)),
    unary main_v85 main_v86 (Host.rsqrt : (⟨S10, .f32⟩ : BufTy).Contents (Elt F) → (⟨S10, .f32⟩ : BufTy).Contents (Elt F)),
    unary main_v86 main_v87 (broadcastInDim S1x10 ![1] bcast_S10_S1x10_1 : (⟨S10, .f32⟩ : BufTy).Contents (Elt F) → (⟨S1x10, .f32⟩ : BufTy).Contents (Elt F)),
    unary main_v87 main_v88 (broadcastInDim S500000x10 ![0, 1] bcast_S1x10_S500000x10_0_1 : (⟨S1x10, .f32⟩ : BufTy).Contents (Elt F) → (⟨S500000x10, .f32⟩ : BufTy).Contents (Elt F)),
    binary main_v83 main_v88 main_v89 (mulf : (⟨S500000x10, .f32⟩ : BufTy).Contents (Elt F) → (⟨S500000x10, .f32⟩ : BufTy).Contents (Elt F) → (⟨S500000x10, .f32⟩ : BufTy).Contents (Elt F)),
    unary main_arg18 main_v90 (broadcastInDim S1x10 ![1] bcast_S10_S1x10_1 : (⟨S10, .f32⟩ : BufTy).Contents (Elt F) → (⟨S1x10, .f32⟩ : BufTy).Contents (Elt F)),
    unary main_v90 main_v91 (broadcastInDim S500000x10 ![0, 1] bcast_S1x10_S500000x10_0_1 : (⟨S1x10, .f32⟩ : BufTy).Contents (Elt F) → (⟨S500000x10, .f32⟩ : BufTy).Contents (Elt F)),
    binary main_v89 main_v91 main_v92 (mulf : (⟨S500000x10, .f32⟩ : BufTy).Contents (Elt F) → (⟨S500000x10, .f32⟩ : BufTy).Contents (Elt F) → (⟨S500000x10, .f32⟩ : BufTy).Contents (Elt F)),
    unary main_arg19 main_v93 (broadcastInDim S1x10 ![1] bcast_S10_S1x10_1 : (⟨S10, .f32⟩ : BufTy).Contents (Elt F) → (⟨S1x10, .f32⟩ : BufTy).Contents (Elt F)),
    unary main_v93 main_v94 (broadcastInDim S500000x10 ![0, 1] bcast_S1x10_S500000x10_0_1 : (⟨S1x10, .f32⟩ : BufTy).Contents (Elt F) → (⟨S500000x10, .f32⟩ : BufTy).Contents (Elt F)),
    binary main_v92 main_v94 main_v95 (addf : (⟨S500000x10, .f32⟩ : BufTy).Contents (Elt F) → (⟨S500000x10, .f32⟩ : BufTy).Contents (Elt F) → (⟨S500000x10, .f32⟩ : BufTy).Contents (Elt F)) ]

/-- The operations of the third layer before its normalisation. -/
abbrev opsE : List (HloOp τ sig (Elt F)) :=
  [ nullary main_c_14 (constantI S_ 32 0#32),
    unary main_c_14 main_v96 (broadcastInDim S8000000 ![] bcast_S_S8000000 : (⟨S_, .i32⟩ : BufTy).Contents (Elt F) → (⟨S8000000, .i32⟩ : BufTy).Contents (Elt F)),
    binary main_v1 main_v96 main_v97 (cmpi .slt : (⟨S8000000, .i32⟩ : BufTy).Contents (Elt F) → (⟨S8000000, .i32⟩ : BufTy).Contents (Elt F) → (⟨S8000000, .i1⟩ : BufTy).Contents (Elt F)),
    nullary main_c_15 (constantI S_ 32 500000#32),
    unary main_c_15 main_v98 (broadcastInDim S8000000 ![] bcast_S_S8000000 : (⟨S_, .i32⟩ : BufTy).Contents (Elt F) → (⟨S8000000, .i32⟩ : BufTy).Contents (Elt F)),
    binary main_v1 main_v98 main_v99 (addi : (⟨S8000000, .i32⟩ : BufTy).Contents (Elt F) → (⟨S8000000, .i32⟩ : BufTy).Contents (Elt F) → (⟨S8000000, .i32⟩ : BufTy).Contents (Elt F)),
    ternary main_v97 main_v99 main_v1 main_v100 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    unary main_v100 main_v101 (broadcastInDim S8000000x1 ![0] bcast_S8000000_S8000000x1_0 : (⟨S8000000, .i32⟩ : BufTy).Contents (Elt F) → (⟨S8000000x1, .i32⟩ : BufTy).Contents (Elt F)),
    binary main_v95 main_v101 main_v102 ((fun x i => Host.gather gather_S500000x10_S8000000x1_S8000000x10_1_0_n_n_0_1_110 x i) : (⟨S500000x10, .f32⟩ : BufTy).Contents (Elt F) → (⟨S8000000x1, .i32⟩ : BufTy).Contents (Elt F) → (⟨S8000000x10, .f32⟩ : BufTy).Contents (Elt F)),
    nullary main_cst_16 (constant S_ .f32 0x00000000#32),
    unary main_cst_16 main_v103 (broadcastInDim S500000x10 ![] bcast_S_S500000x10 : (⟨S_, .f32⟩ : BufTy).Contents (Elt F) → (⟨S500000x10, .f32⟩ : BufTy).Contents (Elt F)),
    unary main_v3 main_v104 (broadcastInDim S8000000x1 ![0] bcast_S8000000_S8000000x1_0 : (⟨S8000000, .i32⟩ : BufTy).Contents (Elt F) → (⟨S8000000x1, .i32⟩ : BufTy).Contents (Elt F)),
    ternary main_v103 main_v104 main_v102 main_v105 ((fun x i u => Host.scatterAdd scatter_S500000x10_S8000000x1_S8000000x10_1_0_0_1 x i u) : (⟨S500000x10, .f32⟩ : BufTy).Contents (Elt F) → (⟨S8000000x1, .i32⟩ : BufTy).Contents (Elt F) → (⟨S8000000x10, .f32⟩ : BufTy).Contents (Elt F) → (⟨S500000x10, .f32⟩ : BufTy).Contents (Elt F)),
    binary main_v95 main_v105 main_v106 (addf : (⟨S500000x10, .f32⟩ : BufTy).Contents (Elt F) → (⟨S500000x10, .f32⟩ : BufTy).Contents (Elt F) → (⟨S500000x10, .f32⟩ : BufTy).Contents (Elt F)),
    binary main_v106 main_arg12 main_v107 ((fun l r => Host.dotGeneral dot_S500000x10_S10x10_S500000x10_1_0_0_1_n_n none l r) : (⟨S500000x10, .f32⟩ : BufTy).Contents (Elt F) → (⟨S10x10, .f32⟩ : BufTy).Contents (Elt F) → (⟨S500000x10, .f32⟩ : BufTy).Contents (Elt F)),
    unary main_arg13 main_v108 (broadcastInDim S1x10 ![1] bcast_S10_S1x10_1 : (⟨S10, .f32⟩ : BufTy).Contents (Elt F) → (⟨S1x10, .f32⟩ : BufTy).Contents (Elt F)),
    unary main_v108 main_v109 (broadcastInDim S500000x10 ![0, 1] bcast_S1x10_S500000x10_0_1 : (⟨S1x10, .f32⟩ : BufTy).Contents (Elt F) → (⟨S500000x10, .f32⟩ : BufTy).Contents (Elt F)),
    binary main_v107 main_v109 main_v110 (addf : (⟨S500000x10, .f32⟩ : BufTy).Contents (Elt F) → (⟨S500000x10, .f32⟩ : BufTy).Contents (Elt F) → (⟨S500000x10, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S500000x10, .f32⟩) main_call4_v0) (broadcastInDim S500000x10 ![] bcast_S_S500000x10),
    TRef.binary (TRef.of (T := ⟨S500000x10, .f32⟩) main_v110) (TRef.of (T := ⟨S500000x10, .f32⟩) main_call4_v0) (TRef.of (T := ⟨S500000x10, .f32⟩) main_v111) maximumf,
    binary main_v111 main_arg14 main_v112 ((fun l r => Host.dotGeneral dot_S500000x10_S10x10_S500000x10_1_0_0_1_n_n none l r) : (⟨S500000x10, .f32⟩ : BufTy).Contents (Elt F) → (⟨S10x10, .f32⟩ : BufTy).Contents (Elt F) → (⟨S500000x10, .f32⟩ : BufTy).Contents (Elt F)),
    unary main_arg15 main_v113 (broadcastInDim S1x10 ![1] bcast_S10_S1x10_1 : (⟨S10, .f32⟩ : BufTy).Contents (Elt F) → (⟨S1x10, .f32⟩ : BufTy).Contents (Elt F)),
    unary main_v113 main_v114 (broadcastInDim S500000x10 ![0, 1] bcast_S1x10_S500000x10_0_1 : (⟨S1x10, .f32⟩ : BufTy).Contents (Elt F) → (⟨S500000x10, .f32⟩ : BufTy).Contents (Elt F)),
    binary main_v112 main_v114 main_v115 (addf : (⟨S500000x10, .f32⟩ : BufTy).Contents (Elt F) → (⟨S500000x10, .f32⟩ : BufTy).Contents (Elt F) → (⟨S500000x10, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S500000x10, .f32⟩) main_call5_v0) (broadcastInDim S500000x10 ![] bcast_S_S500000x10),
    TRef.binary (TRef.of (T := ⟨S500000x10, .f32⟩) main_v115) (TRef.of (T := ⟨S500000x10, .f32⟩) main_call5_v0) (TRef.of (T := ⟨S500000x10, .f32⟩) main_v116) maximumf ]

/-- The operations of the third layer normalised. -/
abbrev opsF : List (HloOp τ sig (Elt F)) :=
  [ nullary main_cst_17 (constant S_ .f32 0x00000000#32),
    binary main_v116 main_cst_17 main_v117 ((fun x v => Host.reduceAdd x v reducesTo_S500000x10_S10_d0 h_S_) : (⟨S500000x10, .f32⟩ : BufTy).Contents (Elt F) → (⟨S_, .f32⟩ : BufTy).Contents (Elt F) → (⟨S10, .f32⟩ : BufTy).Contents (Elt F)),
    nullary main_cst_18 (constant S_ .f32 0x48F42400#32),
    unary main_cst_18 main_v118 (broadcastInDim S10 ![] bcast_S_S10 : (⟨S_, .f32⟩ : BufTy).Contents (Elt F) → (⟨S10, .f32⟩ : BufTy).Contents (Elt F)),
    binary main_v117 main_v118 main_v119 (Host.divf : (⟨S10, .f32⟩ : BufTy).Contents (Elt F) → (⟨S10, .f32⟩ : BufTy).Contents (Elt F) → (⟨S10, .f32⟩ : BufTy).Contents (Elt F)),
    unary main_v119 main_v120 (broadcastInDim S1x10 ![1] bcast_S10_S1x10_1 : (⟨S10, .f32⟩ : BufTy).Contents (Elt F) → (⟨S1x10, .f32⟩ : BufTy).Contents (Elt F)),
    unary main_v120 main_v121 (broadcastInDim S500000x10 ![0, 1] bcast_S1x10_S500000x10_0_1 : (⟨S1x10, .f32⟩ : BufTy).Contents (Elt F) → (⟨S500000x10, .f32⟩ : BufTy).Contents (Elt F)),
    binary main_v116 main_v121 main_v122 (subf : (⟨S500000x10, .f32⟩ : BufTy).Contents (Elt F) → (⟨S500000x10, .f32⟩ : BufTy).Contents (Elt F) → (⟨S500000x10, .f32⟩ : BufTy).Contents (Elt F)),
    binary main_v122 main_v122 main_v123 (mulf : (⟨S500000x10, .f32⟩ : BufTy).Contents (Elt F) → (⟨S500000x10, .f32⟩ : BufTy).Contents (Elt F) → (⟨S500000x10, .f32⟩ : BufTy).Contents (Elt F)),
    nullary main_cst_19 (constant S_ .f32 0x00000000#32),
    binary main_v123 main_cst_19 main_v124 ((fun x v => Host.reduceAdd x v reducesTo_S500000x10_S10_d0 h_S_) : (⟨S500000x10, .f32⟩ : BufTy).Contents (Elt F) → (⟨S_, .f32⟩ : BufTy).Contents (Elt F) → (⟨S10, .f32⟩ : BufTy).Contents (Elt F)),
    nullary main_cst_20 (constant S_ .f32 0x48F42400#32),
    unary main_cst_20 main_v125 (broadcastInDim S10 ![] bcast_S_S10 : (⟨S_, .f32⟩ : BufTy).Contents (Elt F) → (⟨S10, .f32⟩ : BufTy).Contents (Elt F)),
    binary main_v124 main_v125 main_v126 (Host.divf : (⟨S10, .f32⟩ : BufTy).Contents (Elt F) → (⟨S10, .f32⟩ : BufTy).Contents (Elt F) → (⟨S10, .f32⟩ : BufTy).Contents (Elt F)),
    unary main_v119 main_v127 (broadcastInDim S1x10 ![1] bcast_S10_S1x10_1 : (⟨S10, .f32⟩ : BufTy).Contents (Elt F) → (⟨S1x10, .f32⟩ : BufTy).Contents (Elt F)),
    unary main_v127 main_v128 (broadcastInDim S500000x10 ![0, 1] bcast_S1x10_S500000x10_0_1 : (⟨S1x10, .f32⟩ : BufTy).Contents (Elt F) → (⟨S500000x10, .f32⟩ : BufTy).Contents (Elt F)),
    binary main_v116 main_v128 main_v129 (subf : (⟨S500000x10, .f32⟩ : BufTy).Contents (Elt F) → (⟨S500000x10, .f32⟩ : BufTy).Contents (Elt F) → (⟨S500000x10, .f32⟩ : BufTy).Contents (Elt F)),
    nullary main_cst_21 (constant S_ .f32 0x3727C5AC#32),
    unary main_cst_21 main_v130 (broadcastInDim S10 ![] bcast_S_S10 : (⟨S_, .f32⟩ : BufTy).Contents (Elt F) → (⟨S10, .f32⟩ : BufTy).Contents (Elt F)),
    binary main_v126 main_v130 main_v131 (addf : (⟨S10, .f32⟩ : BufTy).Contents (Elt F) → (⟨S10, .f32⟩ : BufTy).Contents (Elt F) → (⟨S10, .f32⟩ : BufTy).Contents (Elt F)),
    unary main_v131 main_v132 (Host.rsqrt : (⟨S10, .f32⟩ : BufTy).Contents (Elt F) → (⟨S10, .f32⟩ : BufTy).Contents (Elt F)),
    unary main_v132 main_v133 (broadcastInDim S1x10 ![1] bcast_S10_S1x10_1 : (⟨S10, .f32⟩ : BufTy).Contents (Elt F) → (⟨S1x10, .f32⟩ : BufTy).Contents (Elt F)),
    unary main_v133 main_v134 (broadcastInDim S500000x10 ![0, 1] bcast_S1x10_S500000x10_0_1 : (⟨S1x10, .f32⟩ : BufTy).Contents (Elt F) → (⟨S500000x10, .f32⟩ : BufTy).Contents (Elt F)),
    binary main_v129 main_v134 main_v135 (mulf : (⟨S500000x10, .f32⟩ : BufTy).Contents (Elt F) → (⟨S500000x10, .f32⟩ : BufTy).Contents (Elt F) → (⟨S500000x10, .f32⟩ : BufTy).Contents (Elt F)),
    unary main_arg20 main_v136 (broadcastInDim S1x10 ![1] bcast_S10_S1x10_1 : (⟨S10, .f32⟩ : BufTy).Contents (Elt F) → (⟨S1x10, .f32⟩ : BufTy).Contents (Elt F)),
    unary main_v136 main_v137 (broadcastInDim S500000x10 ![0, 1] bcast_S1x10_S500000x10_0_1 : (⟨S1x10, .f32⟩ : BufTy).Contents (Elt F) → (⟨S500000x10, .f32⟩ : BufTy).Contents (Elt F)),
    binary main_v135 main_v137 main_v138 (mulf : (⟨S500000x10, .f32⟩ : BufTy).Contents (Elt F) → (⟨S500000x10, .f32⟩ : BufTy).Contents (Elt F) → (⟨S500000x10, .f32⟩ : BufTy).Contents (Elt F)),
    unary main_arg21 main_v139 (broadcastInDim S1x10 ![1] bcast_S10_S1x10_1 : (⟨S10, .f32⟩ : BufTy).Contents (Elt F) → (⟨S1x10, .f32⟩ : BufTy).Contents (Elt F)),
    unary main_v139 main_v140 (broadcastInDim S500000x10 ![0, 1] bcast_S1x10_S500000x10_0_1 : (⟨S1x10, .f32⟩ : BufTy).Contents (Elt F) → (⟨S500000x10, .f32⟩ : BufTy).Contents (Elt F)),
    binary main_v138 main_v140 main_v141 (addf : (⟨S500000x10, .f32⟩ : BufTy).Contents (Elt F) → (⟨S500000x10, .f32⟩ : BufTy).Contents (Elt F) → (⟨S500000x10, .f32⟩ : BufTy).Contents (Elt F)) ]

/-- The operations of the pooled graph means. -/
abbrev opsG : List (HloOp τ sig (Elt F)) :=
  [ nullary main_cst_22 (constant S_ .f32 0x00000000#32),
    unary main_cst_22 main_v142 (broadcastInDim S8192x10 ![] bcast_S_S8192x10 : (⟨S_, .f32⟩ : BufTy).Contents (Elt F) → (⟨S8192x10, .f32⟩ : BufTy).Contents (Elt F)),
    unary main_arg2 main_v143 (broadcastInDim S500000x1 ![0] bcast_S500000_S500000x1_0 : (⟨S500000, .i32⟩ : BufTy).Contents (Elt F) → (⟨S500000x1, .i32⟩ : BufTy).Contents (Elt F)),
    ternary main_v142 main_v143 main_v141 main_v144 ((fun x i u => Host.scatterAdd scatter_S8192x10_S500000x1_S500000x10_1_0_0_1 x i u) : (⟨S8192x10, .f32⟩ : BufTy).Contents (Elt F) → (⟨S500000x1, .i32⟩ : BufTy).Contents (Elt F) → (⟨S500000x10, .f32⟩ : BufTy).Contents (Elt F) → (⟨S8192x10, .f32⟩ : BufTy).Contents (Elt F)),
    nullary main_cst_23 (constant S_ .f32 0x3F800000#32),
    unary main_cst_23 main_v145 (broadcastInDim S500000 ![] bcast_S_S500000 : (⟨S_, .f32⟩ : BufTy).Contents (Elt F) → (⟨S500000, .f32⟩ : BufTy).Contents (Elt F)),
    nullary main_cst_24 (constant S_ .f32 0x00000000#32),
    unary main_cst_24 main_v146 (broadcastInDim S8192 ![] bcast_S_S8192 : (⟨S_, .f32⟩ : BufTy).Contents (Elt F) → (⟨S8192, .f32⟩ : BufTy).Contents (Elt F)),
    unary main_arg2 main_v147 (broadcastInDim S500000x1 ![0] bcast_S500000_S500000x1_0 : (⟨S500000, .i32⟩ : BufTy).Contents (Elt F) → (⟨S500000x1, .i32⟩ : BufTy).Contents (Elt F)),
    ternary main_v146 main_v147 main_v145 main_v148 ((fun x i u => Host.scatterAdd scatter_S8192_S500000x1_S500000_n_0_0_1 x i u) : (⟨S8192, .f32⟩ : BufTy).Contents (Elt F) → (⟨S500000x1, .i32⟩ : BufTy).Contents (Elt F) → (⟨S500000, .f32⟩ : BufTy).Contents (Elt F) → (⟨S8192, .f32⟩ : BufTy).Contents (Elt F)),
    nullary main_cst_25 (constant S_ .f32 0x3F800000#32),
    unary main_cst_25 main_v149 (broadcastInDim S8192 ![] bcast_S_S8192 : (⟨S_, .f32⟩ : BufTy).Contents (Elt F) → (⟨S8192, .f32⟩ : BufTy).Contents (Elt F)),
    binary main_v148 main_v149 main_v150 (maximumf : (⟨S8192, .f32⟩ : BufTy).Contents (Elt F) → (⟨S8192, .f32⟩ : BufTy).Contents (Elt F) → (⟨S8192, .f32⟩ : BufTy).Contents (Elt F)),
    unary main_v150 main_v151 (broadcastInDim S8192x1 ![0] bcast_S8192_S8192x1_0 : (⟨S8192, .f32⟩ : BufTy).Contents (Elt F) → (⟨S8192x1, .f32⟩ : BufTy).Contents (Elt F)),
    unary main_v151 main_v152 (broadcastInDim S8192x10 ![0, 1] bcast_S8192x1_S8192x10_0_1 : (⟨S8192x1, .f32⟩ : BufTy).Contents (Elt F) → (⟨S8192x10, .f32⟩ : BufTy).Contents (Elt F)),
    binary main_v144 main_v152 main_v153 (Host.divf : (⟨S8192x10, .f32⟩ : BufTy).Contents (Elt F) → (⟨S8192x10, .f32⟩ : BufTy).Contents (Elt F) → (⟨S8192x10, .f32⟩ : BufTy).Contents (Elt F)) ]

/-- The operations of the head's result. -/
abbrev opsH : List (HloOp τ sig (Elt F)) :=
  [ binary main_v153 main_arg3 main_v154 ((fun a b => concatenate S8192x20 1 [⟨S8192x10, a⟩, ⟨S8192x10, b⟩] concatenates_S8192x10_S8192x10_S8192x20_d1) : (⟨S8192x10, .f32⟩ : BufTy).Contents (Elt F) → (⟨S8192x10, .f32⟩ : BufTy).Contents (Elt F) → (⟨S8192x20, .f32⟩ : BufTy).Contents (Elt F)),
    binary main_v154 main_arg22 main_v155 ((fun l r => Host.dotGeneral dot_S8192x20_S20x128_S8192x128_1_0_0_1_n_n none l r) : (⟨S8192x20, .f32⟩ : BufTy).Contents (Elt F) → (⟨S20x128, .f32⟩ : BufTy).Contents (Elt F) → (⟨S8192x128, .f32⟩ : BufTy).Contents (Elt F)),
    unary main_arg23 main_v156 (broadcastInDim S1x128 ![1] bcast_S128_S1x128_1 : (⟨S128, .f32⟩ : BufTy).Contents (Elt F) → (⟨S1x128, .f32⟩ : BufTy).Contents (Elt F)),
    unary main_v156 main_v157 (broadcastInDim S8192x128 ![0, 1] bcast_S1x128_S8192x128_0_1 : (⟨S1x128, .f32⟩ : BufTy).Contents (Elt F) → (⟨S8192x128, .f32⟩ : BufTy).Contents (Elt F)),
    binary main_v155 main_v157 main_v158 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8192x128, .f32⟩) main_call6_v0) (broadcastInDim S8192x128 ![] bcast_S_S8192x128),
    TRef.binary (TRef.of (T := ⟨S8192x128, .f32⟩) main_v158) (TRef.of (T := ⟨S8192x128, .f32⟩) main_call6_v0) (TRef.of (T := ⟨S8192x128, .f32⟩) main_v159) maximumf,
    binary main_v159 main_arg24 main_v160 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    unary main_arg25 main_v161 (broadcastInDim S1x64 ![1] bcast_S64_S1x64_1 : (⟨S64, .f32⟩ : BufTy).Contents (Elt F) → (⟨S1x64, .f32⟩ : BufTy).Contents (Elt F)),
    unary main_v161 main_v162 (broadcastInDim S8192x64 ![0, 1] bcast_S1x64_S8192x64_0_1 : (⟨S1x64, .f32⟩ : BufTy).Contents (Elt F) → (⟨S8192x64, .f32⟩ : BufTy).Contents (Elt F)),
    binary main_v160 main_v162 main_v163 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8192x64, .f32⟩) main_call7_v0) (broadcastInDim S8192x64 ![] bcast_S_S8192x64),
    TRef.binary (TRef.of (T := ⟨S8192x64, .f32⟩) main_v163) (TRef.of (T := ⟨S8192x64, .f32⟩) main_call7_v0) (TRef.of (T := ⟨S8192x64, .f32⟩) main_v164) maximumf,
    binary main_v164 main_arg26 main_v165 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_arg27 main_v166 (broadcastInDim S1x1 ![1] bcast_S1_S1x1_1 : (⟨S1, .f32⟩ : BufTy).Contents (Elt F) → (⟨S1x1, .f32⟩ : BufTy).Contents (Elt F)),
    unary main_v166 main_v167 (broadcastInDim S8192x1 ![0, 1] bcast_S1x1_S8192x1_0_1 : (⟨S1x1, .f32⟩ : BufTy).Contents (Elt F) → (⟨S8192x1, .f32⟩ : BufTy).Contents (Elt F)),
    binary main_v165 main_v167 main_v168 (addf : (⟨S8192x1, .f32⟩ : BufTy).Contents (Elt F) → (⟨S8192x1, .f32⟩ : BufTy).Contents (Elt F) → (⟨S8192x1, .f32⟩ : BufTy).Contents (Elt F)) ]

set_option maxHeartbeats 4000000 in
/-- The reference's operations are the eight stretches, one after another. -/
theorem ops_eq : (ops : List (HloOp τ sig (Elt F))) = opsA ++ (opsB ++ (opsC ++ (opsD ++ (opsE ++ (opsF ++ (opsG ++ (opsH))))))) := rfl

end Cert.ReferenceIdeal.RefRun

end
-- ==== Proof.RefRunA.lean ====
import proofs.«132165_j27702539059447_2_alg».proof.Proof.RefRunDefs
import proofs.«132165_j27702539059447_2_alg».proof.Proof.ReadP

/-!
# The stretch of the first layer before its normalisation

From buffer contents that hold the stretch's inputs — the stage before it and the arguments it reads — the stretch's
operations leave its last buffer at the next stage of the arguments, and leave every buffer they do not write as it
was.
-/

set_option maxRecDepth 16384

noncomputable section

namespace Cert.ReferenceIdeal.RefRun

open Cert.ReferenceIdeal Cert.ReferenceIdeal.Gen Cert.ReferenceIdeal.Value Idealize.ShloMosaic Idealize.ShloMosaic.TcCoe Idealize.SL.Sem Idealize.ShloMosaic.StableHlo

/-- From contents that hold the stretch's inputs, the stretch leaves `main_v24` at its stage of the arguments. -/
theorem stageA (V : Valuation τ sig (Elt Ideal))
    (x0 : (⟨S500000x5, .f32⟩ : BufTy).Contents (Elt Ideal))
    (x1 : (⟨S2x8000000, .i32⟩ : BufTy).Contents (Elt Ideal))
    (x4 : (⟨S5x5, .f32⟩ : BufTy).Contents (Elt Ideal))
    (x5 : (⟨S5, .f32⟩ : BufTy).Contents (Elt Ideal))
    (x6 : (⟨S5x5, .f32⟩ : BufTy).Contents (Elt Ideal))
    (x7 : (⟨S5, .f32⟩ : BufTy).Contents (Elt Ideal))
    (h_main_arg1 : V (Proc.devRef .tc main_arg1) = x1)
    (h_main_arg0 : V (Proc.devRef .tc main_arg0) = x0)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7) :
    after (opsA (F := Ideal)) V (Proc.devRef .tc main_v24) = Read.val_main_v24 (F := Ideal) x0 x1 x4 x5 x6 x7 := by
  after_results_simp
  rw [h_main_arg1, h_main_arg0, h_main_arg4, h_main_arg5, h_main_arg6, h_main_arg7]
  rfl

/-- From contents that hold the stretch's inputs, the stretch leaves `main_v1` at its stage of the arguments. -/
theorem stageA_v1 (V : Valuation τ sig (Elt Ideal))
    (x1 : (⟨S2x8000000, .i32⟩ : BufTy).Contents (Elt Ideal))
    (h_main_arg1 : V (Proc.devRef .tc main_arg1) = x1) :
    after (opsA (F := Ideal)) V (Proc.devRef .tc main_v1) = Read.val_main_v1 (F := Ideal) x1 := by
  after_results_simp
  rw [h_main_arg1]
  rfl

/-- From contents that hold the stretch's inputs, the stretch leaves `main_v3` at its stage of the arguments. -/
theorem stageA_v3 (V : Valuation τ sig (Elt Ideal))
    (x1 : (⟨S2x8000000, .i32⟩ : BufTy).Contents (Elt Ideal))
    (h_main_arg1 : V (Proc.devRef .tc main_arg1) = x1) :
    after (opsA (F := Ideal)) V (Proc.devRef .tc main_v3) = Read.val_main_v3 (F := Ideal) x1 := by
  after_results_simp
  rw [h_main_arg1]
  rfl

/-! ## Buffers the stretch does not write -/

theorem keepA_main_arg16 (V : Valuation τ sig (Elt Ideal)) :
    after (opsA (F := Ideal)) V (Proc.devRef .tc main_arg16) = V (Proc.devRef .tc main_arg16) := by
  after_results_simp <;> rfl

theorem keepA_main_arg17 (V : Valuation τ sig (Elt Ideal)) :
    after (opsA (F := Ideal)) V (Proc.devRef .tc main_arg17) = V (Proc.devRef .tc main_arg17) := by
  after_results_simp <;> rfl

theorem keepA_main_arg8 (V : Valuation τ sig (Elt Ideal)) :
    after (opsA (F := Ideal)) V (Proc.devRef .tc main_arg8) = V (Proc.devRef .tc main_arg8) := by
  after_results_simp <;> rfl

theorem keepA_main_arg9 (V : Valuation τ sig (Elt Ideal)) :
    after (opsA (F := Ideal)) V (Proc.devRef .tc main_arg9) = V (Proc.devRef .tc main_arg9) := by
  after_results_simp <;> rfl

theorem keepA_main_arg10 (V : Valuation τ sig (Elt Ideal)) :
    after (opsA (F := Ideal)) V (Proc.devRef .tc main_arg10) = V (Proc.devRef .tc main_arg10) := by
  after_results_simp <;> rfl

theorem keepA_main_arg11 (V : Valuation τ sig (Elt Ideal)) :
    after (opsA (F := Ideal)) V (Proc.devRef .tc main_arg11) = V (Proc.devRef .tc main_arg11) := by
  after_results_simp <;> rfl

theorem keepA_main_arg18 (V : Valuation τ sig (Elt Ideal)) :
    after (opsA (F := Ideal)) V (Proc.devRef .tc main_arg18) = V (Proc.devRef .tc main_arg18) := by
  after_results_simp <;> rfl

theorem keepA_main_arg19 (V : Valuation τ sig (Elt Ideal)) :
    after (opsA (F := Ideal)) V (Proc.devRef .tc main_arg19) = V (Proc.devRef .tc main_arg19) := by
  after_results_simp <;> rfl

theorem keepA_main_arg12 (V : Valuation τ sig (Elt Ideal)) :
    after (opsA (F := Ideal)) V (Proc.devRef .tc main_arg12) = V (Proc.devRef .tc main_arg12) := by
  after_results_simp <;> rfl

theorem keepA_main_arg13 (V : Valuation τ sig (Elt Ideal)) :
    after (opsA (F := Ideal)) V (Proc.devRef .tc main_arg13) = V (Proc.devRef .tc main_arg13) := by
  after_results_simp <;> rfl

theorem keepA_main_arg14 (V : Valuation τ sig (Elt Ideal)) :
    after (opsA (F := Ideal)) V (Proc.devRef .tc main_arg14) = V (Proc.devRef .tc main_arg14) := by
  after_results_simp <;> rfl

theorem keepA_main_arg15 (V : Valuation τ sig (Elt Ideal)) :
    after (opsA (F := Ideal)) V (Proc.devRef .tc main_arg15) = V (Proc.devRef .tc main_arg15) := by
  after_results_simp <;> rfl

theorem keepA_main_arg20 (V : Valuation τ sig (Elt Ideal)) :
    after (opsA (F := Ideal)) V (Proc.devRef .tc main_arg20) = V (Proc.devRef .tc main_arg20) := by
  after_results_simp <;> rfl

theorem keepA_main_arg21 (V : Valuation τ sig (Elt Ideal)) :
    after (opsA (F := Ideal)) V (Proc.devRef .tc main_arg21) = V (Proc.devRef .tc main_arg21) := by
  after_results_simp <;> rfl

theorem keepA_main_arg2 (V : Valuation τ sig (Elt Ideal)) :
    after (opsA (F := Ideal)) V (Proc.devRef .tc main_arg2) = V (Proc.devRef .tc main_arg2) := by
  after_results_simp <;> rfl

theorem keepA_main_arg3 (V : Valuation τ sig (Elt Ideal)) :
    after (opsA (F := Ideal)) V (Proc.devRef .tc main_arg3) = V (Proc.devRef .tc main_arg3) := by
  after_results_simp <;> rfl

theorem keepA_main_arg22 (V : Valuation τ sig (Elt Ideal)) :
    after (opsA (F := Ideal)) V (Proc.devRef .tc main_arg22) = V (Proc.devRef .tc main_arg22) := by
  after_results_simp <;> rfl

theorem keepA_main_arg23 (V : Valuation τ sig (Elt Ideal)) :
    after (opsA (F := Ideal)) V (Proc.devRef .tc main_arg23) = V (Proc.devRef .tc main_arg23) := by
  after_results_simp <;> rfl

theorem keepA_main_arg24 (V : Valuation τ sig (Elt Ideal)) :
    after (opsA (F := Ideal)) V (Proc.devRef .tc main_arg24) = V (Proc.devRef .tc main_arg24) := by
  after_results_simp <;> rfl

theorem keepA_main_arg25 (V : Valuation τ sig (Elt Ideal)) :
    after (opsA (F := Ideal)) V (Proc.devRef .tc main_arg25) = V (Proc.devRef .tc main_arg25) := by
  after_results_simp <;> rfl

theorem keepA_main_arg26 (V : Valuation τ sig (Elt Ideal)) :
    after (opsA (F := Ideal)) V (Proc.devRef .tc main_arg26) = V (Proc.devRef .tc main_arg26) := by
  after_results_simp <;> rfl

theorem keepA_main_arg27 (V : Valuation τ sig (Elt Ideal)) :
    after (opsA (F := Ideal)) V (Proc.devRef .tc main_arg27) = V (Proc.devRef .tc main_arg27) := by
  after_results_simp <;> rfl

end Cert.ReferenceIdeal.RefRun

end
-- ==== Proof.RefRunB.lean ====
import proofs.«132165_j27702539059447_2_alg».proof.Proof.RefRunDefs
import proofs.«132165_j27702539059447_2_alg».proof.Proof.ReadP

/-!
# The stretch of the first layer normalised

From buffer contents that hold the stretch's inputs — the stage before it and the arguments it reads — the stretch's
operations leave its last buffer at the next stage of the arguments, and leave every buffer they do not write as it
was.
-/

set_option maxRecDepth 16384

noncomputable section

namespace Cert.ReferenceIdeal.RefRun

open Cert.ReferenceIdeal Cert.ReferenceIdeal.Gen Cert.ReferenceIdeal.Value Idealize.ShloMosaic Idealize.ShloMosaic.TcCoe Idealize.SL.Sem Idealize.ShloMosaic.StableHlo

/-- From contents that hold the stretch's inputs, the stretch leaves `main_v49` at its stage of the arguments. -/
theorem stageB (V : Valuation τ sig (Elt Ideal))
    (x0 : (⟨S500000x5, .f32⟩ : BufTy).Contents (Elt Ideal))
    (x1 : (⟨S2x8000000, .i32⟩ : BufTy).Contents (Elt Ideal))
    (x4 : (⟨S5x5, .f32⟩ : BufTy).Contents (Elt Ideal))
    (x5 : (⟨S5, .f32⟩ : BufTy).Contents (Elt Ideal))
    (x6 : (⟨S5x5, .f32⟩ : BufTy).Contents (Elt Ideal))
    (x7 : (⟨S5, .f32⟩ : BufTy).Contents (Elt Ideal))
    (x16 : (⟨S5, .f32⟩ : BufTy).Contents (Elt Ideal))
    (x17 : (⟨S5, .f32⟩ : BufTy).Contents (Elt Ideal))
    (h_main_v24 : V (Proc.devRef .tc main_v24) = Read.val_main_v24 (F := Ideal) x0 x1 x4 x5 x6 x7)
    (h_main_arg16 : V (Proc.devRef .tc main_arg16) = x16)
    (h_main_arg17 : V (Proc.devRef .tc main_arg17) = x17) :
    after (opsB (F := Ideal)) V (Proc.devRef .tc main_v49) = Read.val_main_v49 (F := Ideal) x0 x1 x4 x5 x6 x7 x16 x17 := by
  after_results_simp
  rw [h_main_v24, h_main_arg16, h_main_arg17]
  rfl

/-! ## Buffers the stretch does not write -/

theorem keepB_main_v1 (V : Valuation τ sig (Elt Ideal)) :
    after (opsB (F := Ideal)) V (Proc.devRef .tc main_v1) = V (Proc.devRef .tc main_v1) := by
  after_results_simp <;> rfl

theorem keepB_main_v3 (V : Valuation τ sig (Elt Ideal)) :
    after (opsB (F := Ideal)) V (Proc.devRef .tc main_v3) = V (Proc.devRef .tc main_v3) := by
  after_results_simp <;> rfl

theorem keepB_main_arg8 (V : Valuation τ sig (Elt Ideal)) :
    after (opsB (F := Ideal)) V (Proc.devRef .tc main_arg8) = V (Proc.devRef .tc main_arg8) := by
  after_results_simp <;> rfl

theorem keepB_main_arg9 (V : Valuation τ sig (Elt Ideal)) :
    after (opsB (F := Ideal)) V (Proc.devRef .tc main_arg9) = V (Proc.devRef .tc main_arg9) := by
  after_results_simp <;> rfl

theorem keepB_main_arg10 (V : Valuation τ sig (Elt Ideal)) :
    after (opsB (F := Ideal)) V (Proc.devRef .tc main_arg10) = V (Proc.devRef .tc main_arg10) := by
  after_results_simp <;> rfl

theorem keepB_main_arg11 (V : Valuation τ sig (Elt Ideal)) :
    after (opsB (F := Ideal)) V (Proc.devRef .tc main_arg11) = V (Proc.devRef .tc main_arg11) := by
  after_results_simp <;> rfl

theorem keepB_main_arg18 (V : Valuation τ sig (Elt Ideal)) :
    after (opsB (F := Ideal)) V (Proc.devRef .tc main_arg18) = V (Proc.devRef .tc main_arg18) := by
  after_results_simp <;> rfl

theorem keepB_main_arg19 (V : Valuation τ sig (Elt Ideal)) :
    after (opsB (F := Ideal)) V (Proc.devRef .tc main_arg19) = V (Proc.devRef .tc main_arg19) := by
  after_results_simp <;> rfl

theorem keepB_main_arg12 (V : Valuation τ sig (Elt Ideal)) :
    after (opsB (F := Ideal)) V (Proc.devRef .tc main_arg12) = V (Proc.devRef .tc main_arg12) := by
  after_results_simp <;> rfl

theorem keepB_main_arg13 (V : Valuation τ sig (Elt Ideal)) :
    after (opsB (F := Ideal)) V (Proc.devRef .tc main_arg13) = V (Proc.devRef .tc main_arg13) := by
  after_results_simp <;> rfl

theorem keepB_main_arg14 (V : Valuation τ sig (Elt Ideal)) :
    after (opsB (F := Ideal)) V (Proc.devRef .tc main_arg14) = V (Proc.devRef .tc main_arg14) := by
  after_results_simp <;> rfl

theorem keepB_main_arg15 (V : Valuation τ sig (Elt Ideal)) :
    after (opsB (F := Ideal)) V (Proc.devRef .tc main_arg15) = V (Proc.devRef .tc main_arg15) := by
  after_results_simp <;> rfl

theorem keepB_main_arg20 (V : Valuation τ sig (Elt Ideal)) :
    after (opsB (F := Ideal)) V (Proc.devRef .tc main_arg20) = V (Proc.devRef .tc main_arg20) := by
  after_results_simp <;> rfl

theorem keepB_main_arg21 (V : Valuation τ sig (Elt Ideal)) :
    after (opsB (F := Ideal)) V (Proc.devRef .tc main_arg21) = V (Proc.devRef .tc main_arg21) := by
  after_results_simp <;> rfl

theorem keepB_main_arg2 (V : Valuation τ sig (Elt Ideal)) :
    after (opsB (F := Ideal)) V (Proc.devRef .tc main_arg2) = V (Proc.devRef .tc main_arg2) := by
  after_results_simp <;> rfl

theorem keepB_main_arg3 (V : Valuation τ sig (Elt Ideal)) :
    after (opsB (F := Ideal)) V (Proc.devRef .tc main_arg3) = V (Proc.devRef .tc main_arg3) := by
  after_results_simp <;> rfl

theorem keepB_main_arg22 (V : Valuation τ sig (Elt Ideal)) :
    after (opsB (F := Ideal)) V (Proc.devRef .tc main_arg22) = V (Proc.devRef .tc main_arg22) := by
  after_results_simp <;> rfl

theorem keepB_main_arg23 (V : Valuation τ sig (Elt Ideal)) :
    after (opsB (F := Ideal)) V (Proc.devRef .tc main_arg23) = V (Proc.devRef .tc main_arg23) := by
  after_results_simp <;> rfl

theorem keepB_main_arg24 (V : Valuation τ sig (Elt Ideal)) :
    after (opsB (F := Ideal)) V (Proc.devRef .tc main_arg24) = V (Proc.devRef .tc main_arg24) := by
  after_results_simp <;> rfl

theorem keepB_main_arg25 (V : Valuation τ sig (Elt Ideal)) :
    after (opsB (F := Ideal)) V (Proc.devRef .tc main_arg25) = V (Proc.devRef .tc main_arg25) := by
  after_results_simp <;> rfl

theorem keepB_main_arg26 (V : Valuation τ sig (Elt Ideal)) :
    after (opsB (F := Ideal)) V (Proc.devRef .tc main_arg26) = V (Proc.devRef .tc main_arg26) := by
  after_results_simp <;> rfl

theorem keepB_main_arg27 (V : Valuation τ sig (Elt Ideal)) :
    after (opsB (F := Ideal)) V (Proc.devRef .tc main_arg27) = V (Proc.devRef .tc main_arg27) := by
  after_results_simp <;> rfl

end Cert.ReferenceIdeal.RefRun

end
-- ==== Proof.RefRunC.lean ====
import proofs.«132165_j27702539059447_2_alg».proof.Proof.RefRunDefs
import proofs.«132165_j27702539059447_2_alg».proof.Proof.ReadP

/-!
# The stretch of the second layer before its normalisation

From buffer contents that hold the stretch's inputs — the stage before it and the arguments it reads — the stretch's
operations leave its last buffer at the next stage of the arguments, and leave every buffer they do not write as it
was.
-/

set_option maxRecDepth 16384

noncomputable section

namespace Cert.ReferenceIdeal.RefRun

open Cert.ReferenceIdeal Cert.ReferenceIdeal.Gen Cert.ReferenceIdeal.Value Idealize.ShloMosaic Idealize.ShloMosaic.TcCoe Idealize.SL.Sem Idealize.ShloMosaic.StableHlo

/-- From contents that hold the stretch's inputs, the stretch leaves `main_v70` at its stage of the arguments. -/
theorem stageC (V : Valuation τ sig (Elt Ideal))
    (x0 : (⟨S500000x5, .f32⟩ : BufTy).Contents (Elt Ideal))
    (x1 : (⟨S2x8000000, .i32⟩ : BufTy).Contents (Elt Ideal))
    (x4 : (⟨S5x5, .f32⟩ : BufTy).Contents (Elt Ideal))
    (x5 : (⟨S5, .f32⟩ : BufTy).Contents (Elt Ideal))
    (x6 : (⟨S5x5, .f32⟩ : BufTy).Contents (Elt Ideal))
    (x7 : (⟨S5, .f32⟩ : BufTy).Contents (Elt Ideal))
    (x8 : (⟨S5x10, .f32⟩ : BufTy).Contents (Elt Ideal))
    (x9 : (⟨S10, .f32⟩ : BufTy).Contents (Elt Ideal))
    (x10 : (⟨S10x10, .f32⟩ : BufTy).Contents (Elt Ideal))
    (x11 : (⟨S10, .f32⟩ : BufTy).Contents (Elt Ideal))
    (x16 : (⟨S5, .f32⟩ : BufTy).Contents (Elt Ideal))
    (x17 : (⟨S5, .f32⟩ : BufTy).Contents (Elt Ideal))
    (h_main_v1 : V (Proc.devRef .tc main_v1) = Read.val_main_v1 (F := Ideal) x1)
    (h_main_v49 : V (Proc.devRef .tc main_v49) = Read.val_main_v49 (F := Ideal) x0 x1 x4 x5 x6 x7 x16 x17)
    (h_main_v3 : V (Proc.devRef .tc main_v3) = Read.val_main_v3 (F := Ideal) x1)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11) :
    after (opsC (F := Ideal)) V (Proc.devRef .tc main_v70) = Read.val_main_v70 (F := Ideal) x0 x1 x4 x5 x6 x7 x8 x9 x10 x11 x16 x17 := by
  after_results_simp
  rw [h_main_v1, h_main_v49, h_main_v3, h_main_arg8, h_main_arg9, h_main_arg10, h_main_arg11]
  rfl

/-! ## Buffers the stretch does not write -/

theorem keepC_main_arg18 (V : Valuation τ sig (Elt Ideal)) :
    after (opsC (F := Ideal)) V (Proc.devRef .tc main_arg18) = V (Proc.devRef .tc main_arg18) := by
  after_results_simp <;> rfl

theorem keepC_main_arg19 (V : Valuation τ sig (Elt Ideal)) :
    after (opsC (F := Ideal)) V (Proc.devRef .tc main_arg19) = V (Proc.devRef .tc main_arg19) := by
  after_results_simp <;> rfl

theorem keepC_main_v1 (V : Valuation τ sig (Elt Ideal)) :
    after (opsC (F := Ideal)) V (Proc.devRef .tc main_v1) = V (Proc.devRef .tc main_v1) := by
  after_results_simp <;> rfl

theorem keepC_main_v3 (V : Valuation τ sig (Elt Ideal)) :
    after (opsC (F := Ideal)) V (Proc.devRef .tc main_v3) = V (Proc.devRef .tc main_v3) := by
  after_results_simp <;> rfl

theorem keepC_main_arg12 (V : Valuation τ sig (Elt Ideal)) :
    after (opsC (F := Ideal)) V (Proc.devRef .tc main_arg12) = V (Proc.devRef .tc main_arg12) := by
  after_results_simp <;> rfl

theorem keepC_main_arg13 (V : Valuation τ sig (Elt Ideal)) :
    after (opsC (F := Ideal)) V (Proc.devRef .tc main_arg13) = V (Proc.devRef .tc main_arg13) := by
  after_results_simp <;> rfl

theorem keepC_main_arg14 (V : Valuation τ sig (Elt Ideal)) :
    after (opsC (F := Ideal)) V (Proc.devRef .tc main_arg14) = V (Proc.devRef .tc main_arg14) := by
  after_results_simp <;> rfl

theorem keepC_main_arg15 (V : Valuation τ sig (Elt Ideal)) :
    after (opsC (F := Ideal)) V (Proc.devRef .tc main_arg15) = V (Proc.devRef .tc main_arg15) := by
  after_results_simp <;> rfl

theorem keepC_main_arg20 (V : Valuation τ sig (Elt Ideal)) :
    after (opsC (F := Ideal)) V (Proc.devRef .tc main_arg20) = V (Proc.devRef .tc main_arg20) := by
  after_results_simp <;> rfl

theorem keepC_main_arg21 (V : Valuation τ sig (Elt Ideal)) :
    after (opsC (F := Ideal)) V (Proc.devRef .tc main_arg21) = V (Proc.devRef .tc main_arg21) := by
  after_results_simp <;> rfl

theorem keepC_main_arg2 (V : Valuation τ sig (Elt Ideal)) :
    after (opsC (F := Ideal)) V (Proc.devRef .tc main_arg2) = V (Proc.devRef .tc main_arg2) := by
  after_results_simp <;> rfl

theorem keepC_main_arg3 (V : Valuation τ sig (Elt Ideal)) :
    after (opsC (F := Ideal)) V (Proc.devRef .tc main_arg3) = V (Proc.devRef .tc main_arg3) := by
  after_results_simp <;> rfl

theorem keepC_main_arg22 (V : Valuation τ sig (Elt Ideal)) :
    after (opsC (F := Ideal)) V (Proc.devRef .tc main_arg22) = V (Proc.devRef .tc main_arg22) := by
  after_results_simp <;> rfl

theorem keepC_main_arg23 (V : Valuation τ sig (Elt Ideal)) :
    after (opsC (F := Ideal)) V (Proc.devRef .tc main_arg23) = V (Proc.devRef .tc main_arg23) := by
  after_results_simp <;> rfl

theorem keepC_main_arg24 (V : Valuation τ sig (Elt Ideal)) :
    after (opsC (F := Ideal)) V (Proc.devRef .tc main_arg24) = V (Proc.devRef .tc main_arg24) := by
  after_results_simp <;> rfl

theorem keepC_main_arg25 (V : Valuation τ sig (Elt Ideal)) :
    after (opsC (F := Ideal)) V (Proc.devRef .tc main_arg25) = V (Proc.devRef .tc main_arg25) := by
  after_results_simp <;> rfl

theorem keepC_main_arg26 (V : Valuation τ sig (Elt Ideal)) :
    after (opsC (F := Ideal)) V (Proc.devRef .tc main_arg26) = V (Proc.devRef .tc main_arg26) := by
  after_results_simp <;> rfl

theorem keepC_main_arg27 (V : Valuation τ sig (Elt Ideal)) :
    after (opsC (F := Ideal)) V (Proc.devRef .tc main_arg27) = V (Proc.devRef .tc main_arg27) := by
  after_results_simp <;> rfl

end Cert.ReferenceIdeal.RefRun

end
-- ==== Proof.RefRunD.lean ====
import proofs.«132165_j27702539059447_2_alg».proof.Proof.RefRunDefs
import proofs.«132165_j27702539059447_2_alg».proof.Proof.ReadP

/-!
# The stretch of the second layer normalised

From buffer contents that hold the stretch's inputs — the stage before it and the arguments it reads — the stretch's
operations leave its last buffer at the next stage of the arguments, and leave every buffer they do not write as it
was.
-/

set_option maxRecDepth 16384

noncomputable section

namespace Cert.ReferenceIdeal.RefRun

open Cert.ReferenceIdeal Cert.ReferenceIdeal.Gen Cert.ReferenceIdeal.Value Idealize.ShloMosaic Idealize.ShloMosaic.TcCoe Idealize.SL.Sem Idealize.ShloMosaic.StableHlo

/-- From contents that hold the stretch's inputs, the stretch leaves `main_v95` at its stage of the arguments. -/
theorem stageD (V : Valuation τ sig (Elt Ideal))
    (x0 : (⟨S500000x5, .f32⟩ : BufTy).Contents (Elt Ideal))
    (x1 : (⟨S2x8000000, .i32⟩ : BufTy).Contents (Elt Ideal))
    (x4 : (⟨S5x5, .f32⟩ : BufTy).Contents (Elt Ideal))
    (x5 : (⟨S5, .f32⟩ : BufTy).Contents (Elt Ideal))
    (x6 : (⟨S5x5, .f32⟩ : BufTy).Contents (Elt Ideal))
    (x7 : (⟨S5, .f32⟩ : BufTy).Contents (Elt Ideal))
    (x8 : (⟨S5x10, .f32⟩ : BufTy).Contents (Elt Ideal))
    (x9 : (⟨S10, .f32⟩ : BufTy).Contents (Elt Ideal))
    (x10 : (⟨S10x10, .f32⟩ : BufTy).Contents (Elt Ideal))
    (x11 : (⟨S10, .f32⟩ : BufTy).Contents (Elt Ideal))
    (x16 : (⟨S5, .f32⟩ : BufTy).Contents (Elt Ideal))
    (x17 : (⟨S5, .f32⟩ : BufTy).Contents (Elt Ideal))
    (x18 : (⟨S10, .f32⟩ : BufTy).Contents (Elt Ideal))
    (x19 : (⟨S10, .f32⟩ : BufTy).Contents (Elt Ideal))
    (h_main_v70 : V (Proc.devRef .tc main_v70) = Read.val_main_v70 (F := Ideal) x0 x1 x4 x5 x6 x7 x8 x9 x10 x11 x16 x17)
    (h_main_arg18 : V (Proc.devRef .tc main_arg18) = x18)
    (h_main_arg19 : V (Proc.devRef .tc main_arg19) = x19) :
    after (opsD (F := Ideal)) V (Proc.devRef .tc main_v95) = Read.val_main_v95 (F := Ideal) x0 x1 x4 x5 x6 x7 x8 x9 x10 x11 x16 x17 x18 x19 := by
  after_results_simp
  rw [h_main_v70, h_main_arg18, h_main_arg19]
  rfl

/-! ## Buffers the stretch does not write -/

theorem keepD_main_v1 (V : Valuation τ sig (Elt Ideal)) :
    after (opsD (F := Ideal)) V (Proc.devRef .tc main_v1) = V (Proc.devRef .tc main_v1) := by
  after_results_simp <;> rfl

theorem keepD_main_v3 (V : Valuation τ sig (Elt Ideal)) :
    after (opsD (F := Ideal)) V (Proc.devRef .tc main_v3) = V (Proc.devRef .tc main_v3) := by
  after_results_simp <;> rfl

theorem keepD_main_arg12 (V : Valuation τ sig (Elt Ideal)) :
    after (opsD (F := Ideal)) V (Proc.devRef .tc main_arg12) = V (Proc.devRef .tc main_arg12) := by
  after_results_simp <;> rfl

theorem keepD_main_arg13 (V : Valuation τ sig (Elt Ideal)) :
    after (opsD (F := Ideal)) V (Proc.devRef .tc main_arg13) = V (Proc.devRef .tc main_arg13) := by
  after_results_simp <;> rfl

theorem keepD_main_arg14 (V : Valuation τ sig (Elt Ideal)) :
    after (opsD (F := Ideal)) V (Proc.devRef .tc main_arg14) = V (Proc.devRef .tc main_arg14) := by
  after_results_simp <;> rfl

theorem keepD_main_arg15 (V : Valuation τ sig (Elt Ideal)) :
    after (opsD (F := Ideal)) V (Proc.devRef .tc main_arg15) = V (Proc.devRef .tc main_arg15) := by
  after_results_simp <;> rfl

theorem keepD_main_arg20 (V : Valuation τ sig (Elt Ideal)) :
    after (opsD (F := Ideal)) V (Proc.devRef .tc main_arg20) = V (Proc.devRef .tc main_arg20) := by
  after_results_simp <;> rfl

theorem keepD_main_arg21 (V : Valuation τ sig (Elt Ideal)) :
    after (opsD (F := Ideal)) V (Proc.devRef .tc main_arg21) = V (Proc.devRef .tc main_arg21) := by
  after_results_simp <;> rfl

theorem keepD_main_arg2 (V : Valuation τ sig (Elt Ideal)) :
    after (opsD (F := Ideal)) V (Proc.devRef .tc main_arg2) = V (Proc.devRef .tc main_arg2) := by
  after_results_simp <;> rfl

theorem keepD_main_arg3 (V : Valuation τ sig (Elt Ideal)) :
    after (opsD (F := Ideal)) V (Proc.devRef .tc main_arg3) = V (Proc.devRef .tc main_arg3) := by
  after_results_simp <;> rfl

theorem keepD_main_arg22 (V : Valuation τ sig (Elt Ideal)) :
    after (opsD (F := Ideal)) V (Proc.devRef .tc main_arg22) = V (Proc.devRef .tc main_arg22) := by
  after_results_simp <;> rfl

theorem keepD_main_arg23 (V : Valuation τ sig (Elt Ideal)) :
    after (opsD (F := Ideal)) V (Proc.devRef .tc main_arg23) = V (Proc.devRef .tc main_arg23) := by
  after_results_simp <;> rfl

theorem keepD_main_arg24 (V : Valuation τ sig (Elt Ideal)) :
    after (opsD (F := Ideal)) V (Proc.devRef .tc main_arg24) = V (Proc.devRef .tc main_arg24) := by
  after_results_simp <;> rfl

theorem keepD_main_arg25 (V : Valuation τ sig (Elt Ideal)) :
    after (opsD (F := Ideal)) V (Proc.devRef .tc main_arg25) = V (Proc.devRef .tc main_arg25) := by
  after_results_simp <;> rfl

theorem keepD_main_arg26 (V : Valuation τ sig (Elt Ideal)) :
    after (opsD (F := Ideal)) V (Proc.devRef .tc main_arg26) = V (Proc.devRef .tc main_arg26) := by
  after_results_simp <;> rfl

theorem keepD_main_arg27 (V : Valuation τ sig (Elt Ideal)) :
    after (opsD (F := Ideal)) V (Proc.devRef .tc main_arg27) = V (Proc.devRef .tc main_arg27) := by
  after_results_simp <;> rfl

end Cert.ReferenceIdeal.RefRun

end
-- ==== Proof.RefRunE.lean ====
import proofs.«132165_j27702539059447_2_alg».proof.Proof.RefRunDefs
import proofs.«132165_j27702539059447_2_alg».proof.Proof.ReadP

/-!
# The stretch of the third layer before its normalisation

From buffer contents that hold the stretch's inputs — the stage before it and the arguments it reads — the stretch's
operations leave its last buffer at the next stage of the arguments, and leave every buffer they do not write as it
was.
-/

set_option maxRecDepth 16384

noncomputable section

namespace Cert.ReferenceIdeal.RefRun

open Cert.ReferenceIdeal Cert.ReferenceIdeal.Gen Cert.ReferenceIdeal.Value Idealize.ShloMosaic Idealize.ShloMosaic.TcCoe Idealize.SL.Sem Idealize.ShloMosaic.StableHlo

/-- From contents that hold the stretch's inputs, the stretch leaves `main_v116` at its stage of the arguments. -/
theorem stageE (V : Valuation τ sig (Elt Ideal))
    (x0 : (⟨S500000x5, .f32⟩ : BufTy).Contents (Elt Ideal))
    (x1 : (⟨S2x8000000, .i32⟩ : BufTy).Contents (Elt Ideal))
    (x4 : (⟨S5x5, .f32⟩ : BufTy).Contents (Elt Ideal))
    (x5 : (⟨S5, .f32⟩ : BufTy).Contents (Elt Ideal))
    (x6 : (⟨S5x5, .f32⟩ : BufTy).Contents (Elt Ideal))
    (x7 : (⟨S5, .f32⟩ : BufTy).Contents (Elt Ideal))
    (x8 : (⟨S5x10, .f32⟩ : BufTy).Contents (Elt Ideal))
    (x9 : (⟨S10, .f32⟩ : BufTy).Contents (Elt Ideal))
    (x10 : (⟨S10x10, .f32⟩ : BufTy).Contents (Elt Ideal))
    (x11 : (⟨S10, .f32⟩ : BufTy).Contents (Elt Ideal))
    (x12 : (⟨S10x10, .f32⟩ : BufTy).Contents (Elt Ideal))
    (x13 : (⟨S10, .f32⟩ : BufTy).Contents (Elt Ideal))
    (x14 : (⟨S10x10, .f32⟩ : BufTy).Contents (Elt Ideal))
    (x15 : (⟨S10, .f32⟩ : BufTy).Contents (Elt Ideal))
    (x16 : (⟨S5, .f32⟩ : BufTy).Contents (Elt Ideal))
    (x17 : (⟨S5, .f32⟩ : BufTy).Contents (Elt Ideal))
    (x18 : (⟨S10, .f32⟩ : BufTy).Contents (Elt Ideal))
    (x19 : (⟨S10, .f32⟩ : BufTy).Contents (Elt Ideal))
    (h_main_v1 : V (Proc.devRef .tc main_v1) = Read.val_main_v1 (F := Ideal) x1)
    (h_main_v95 : V (Proc.devRef .tc main_v95) = Read.val_main_v95 (F := Ideal) x0 x1 x4 x5 x6 x7 x8 x9 x10 x11 x16 x17 x18 x19)
    (h_main_v3 : V (Proc.devRef .tc main_v3) = Read.val_main_v3 (F := Ideal) x1)
    (h_main_arg12 : V (Proc.devRef .tc main_arg12) = x12)
    (h_main_arg13 : V (Proc.devRef .tc main_arg13) = x13)
    (h_main_arg14 : V (Proc.devRef .tc main_arg14) = x14)
    (h_main_arg15 : V (Proc.devRef .tc main_arg15) = x15) :
    after (opsE (F := Ideal)) V (Proc.devRef .tc main_v116) = Read.val_main_v116 (F := Ideal) x0 x1 x4 x5 x6 x7 x8 x9 x10 x11 x12 x13 x14 x15 x16 x17 x18 x19 := by
  after_results_simp
  rw [h_main_v1, h_main_v95, h_main_v3, h_main_arg12, h_main_arg13, h_main_arg14, h_main_arg15]
  rfl

/-! ## Buffers the stretch does not write -/

theorem keepE_main_arg20 (V : Valuation τ sig (Elt Ideal)) :
    after (opsE (F := Ideal)) V (Proc.devRef .tc main_arg20) = V (Proc.devRef .tc main_arg20) := by
  after_results_simp <;> rfl

theorem keepE_main_arg21 (V : Valuation τ sig (Elt Ideal)) :
    after (opsE (F := Ideal)) V (Proc.devRef .tc main_arg21) = V (Proc.devRef .tc main_arg21) := by
  after_results_simp <;> rfl

theorem keepE_main_arg2 (V : Valuation τ sig (Elt Ideal)) :
    after (opsE (F := Ideal)) V (Proc.devRef .tc main_arg2) = V (Proc.devRef .tc main_arg2) := by
  after_results_simp <;> rfl

theorem keepE_main_arg3 (V : Valuation τ sig (Elt Ideal)) :
    after (opsE (F := Ideal)) V (Proc.devRef .tc main_arg3) = V (Proc.devRef .tc main_arg3) := by
  after_results_simp <;> rfl

theorem keepE_main_arg22 (V : Valuation τ sig (Elt Ideal)) :
    after (opsE (F := Ideal)) V (Proc.devRef .tc main_arg22) = V (Proc.devRef .tc main_arg22) := by
  after_results_simp <;> rfl

theorem keepE_main_arg23 (V : Valuation τ sig (Elt Ideal)) :
    after (opsE (F := Ideal)) V (Proc.devRef .tc main_arg23) = V (Proc.devRef .tc main_arg23) := by
  after_results_simp <;> rfl

theorem keepE_main_arg24 (V : Valuation τ sig (Elt Ideal)) :
    after (opsE (F := Ideal)) V (Proc.devRef .tc main_arg24) = V (Proc.devRef .tc main_arg24) := by
  after_results_simp <;> rfl

theorem keepE_main_arg25 (V : Valuation τ sig (Elt Ideal)) :
    after (opsE (F := Ideal)) V (Proc.devRef .tc main_arg25) = V (Proc.devRef .tc main_arg25) := by
  after_results_simp <;> rfl

theorem keepE_main_arg26 (V : Valuation τ sig (Elt Ideal)) :
    after (opsE (F := Ideal)) V (Proc.devRef .tc main_arg26) = V (Proc.devRef .tc main_arg26) := by
  after_results_simp <;> rfl

theorem keepE_main_arg27 (V : Valuation τ sig (Elt Ideal)) :
    after (opsE (F := Ideal)) V (Proc.devRef .tc main_arg27) = V (Proc.devRef .tc main_arg27) := by
  after_results_simp <;> rfl

end Cert.ReferenceIdeal.RefRun

end
-- ==== Proof.RefRunF.lean ====
import proofs.«132165_j27702539059447_2_alg».proof.Proof.RefRunDefs
import proofs.«132165_j27702539059447_2_alg».proof.Proof.ReadP

/-!
# The stretch of the third layer normalised

From buffer contents that hold the stretch's inputs — the stage before it and the arguments it reads — the stretch's
operations leave its last buffer at the next stage of the arguments, and leave every buffer they do not write as it
was.
-/

set_option maxRecDepth 16384

noncomputable section

namespace Cert.ReferenceIdeal.RefRun

open Cert.ReferenceIdeal Cert.ReferenceIdeal.Gen Cert.ReferenceIdeal.Value Idealize.ShloMosaic Idealize.ShloMosaic.TcCoe Idealize.SL.Sem Idealize.ShloMosaic.StableHlo

/-- From contents that hold the stretch's inputs, the stretch leaves `main_v141` at its stage of the arguments. -/
theorem stageF (V : Valuation τ sig (Elt Ideal))
    (x0 : (⟨S500000x5, .f32⟩ : BufTy).Contents (Elt Ideal))
    (x1 : (⟨S2x8000000, .i32⟩ : BufTy).Contents (Elt Ideal))
    (x4 : (⟨S5x5, .f32⟩ : BufTy).Contents (Elt Ideal))
    (x5 : (⟨S5, .f32⟩ : BufTy).Contents (Elt Ideal))
    (x6 : (⟨S5x5, .f32⟩ : BufTy).Contents (Elt Ideal))
    (x7 : (⟨S5, .f32⟩ : BufTy).Contents (Elt Ideal))
    (x8 : (⟨S5x10, .f32⟩ : BufTy).Contents (Elt Ideal))
    (x9 : (⟨S10, .f32⟩ : BufTy).Contents (Elt Ideal))
    (x10 : (⟨S10x10, .f32⟩ : BufTy).Contents (Elt Ideal))
    (x11 : (⟨S10, .f32⟩ : BufTy).Contents (Elt Ideal))
    (x12 : (⟨S10x10, .f32⟩ : BufTy).Contents (Elt Ideal))
    (x13 : (⟨S10, .f32⟩ : BufTy).Contents (Elt Ideal))
    (x14 : (⟨S10x10, .f32⟩ : BufTy).Contents (Elt Ideal))
    (x15 : (⟨S10, .f32⟩ : BufTy).Contents (Elt Ideal))
    (x16 : (⟨S5, .f32⟩ : BufTy).Contents (Elt Ideal))
    (x17 : (⟨S5, .f32⟩ : BufTy).Contents (Elt Ideal))
    (x18 : (⟨S10, .f32⟩ : BufTy).Contents (Elt Ideal))
    (x19 : (⟨S10, .f32⟩ : BufTy).Contents (Elt Ideal))
    (x20 : (⟨S10, .f32⟩ : BufTy).Contents (Elt Ideal))
    (x21 : (⟨S10, .f32⟩ : BufTy).Contents (Elt Ideal))
    (h_main_v116 : V (Proc.devRef .tc main_v116) = Read.val_main_v116 (F := Ideal) x0 x1 x4 x5 x6 x7 x8 x9 x10 x11 x12 x13 x14 x15 x16 x17 x18 x19)
    (h_main_arg20 : V (Proc.devRef .tc main_arg20) = x20)
    (h_main_arg21 : V (Proc.devRef .tc main_arg21) = x21) :
    after (opsF (F := Ideal)) V (Proc.devRef .tc main_v141) = Read.val_main_v141 (F := Ideal) x0 x1 x4 x5 x6 x7 x8 x9 x10 x11 x12 x13 x14 x15 x16 x17 x18 x19 x20 x21 := by
  after_results_simp
  rw [h_main_v116, h_main_arg20, h_main_arg21]
  rfl

/-! ## Buffers the stretch does not write -/

theorem keepF_main_arg2 (V : Valuation τ sig (Elt Ideal)) :
    after (opsF (F := Ideal)) V (Proc.devRef .tc main_arg2) = V (Proc.devRef .tc main_arg2) := by
  after_results_simp <;> rfl

theorem keepF_main_arg3 (V : Valuation τ sig (Elt Ideal)) :
    after (opsF (F := Ideal)) V (Proc.devRef .tc main_arg3) = V (Proc.devRef .tc main_arg3) := by
  after_results_simp <;> rfl

theorem keepF_main_arg22 (V : Valuation τ sig (Elt Ideal)) :
    after (opsF (F := Ideal)) V (Proc.devRef .tc main_arg22) = V (Proc.devRef .tc main_arg22) := by
  after_results_simp <;> rfl

theorem keepF_main_arg23 (V : Valuation τ sig (Elt Ideal)) :
    after (opsF (F := Ideal)) V (Proc.devRef .tc main_arg23) = V (Proc.devRef .tc main_arg23) := by
  after_results_simp <;> rfl

theorem keepF_main_arg24 (V : Valuation τ sig (Elt Ideal)) :
    after (opsF (F := Ideal)) V (Proc.devRef .tc main_arg24) = V (Proc.devRef .tc main_arg24) := by
  after_results_simp <;> rfl

theorem keepF_main_arg25 (V : Valuation τ sig (Elt Ideal)) :
    after (opsF (F := Ideal)) V (Proc.devRef .tc main_arg25) = V (Proc.devRef .tc main_arg25) := by
  after_results_simp <;> rfl

theorem keepF_main_arg26 (V : Valuation τ sig (Elt Ideal)) :
    after (opsF (F := Ideal)) V (Proc.devRef .tc main_arg26) = V (Proc.devRef .tc main_arg26) := by
  after_results_simp <;> rfl

theorem keepF_main_arg27 (V : Valuation τ sig (Elt Ideal)) :
    after (opsF (F := Ideal)) V (Proc.devRef .tc main_arg27) = V (Proc.devRef .tc main_arg27) := by
  after_results_simp <;> rfl

end Cert.ReferenceIdeal.RefRun

end
-- ==== Proof.RefRunG.lean ====
import proofs.«132165_j27702539059447_2_alg».proof.Proof.RefRunDefs
import proofs.«132165_j27702539059447_2_alg».proof.Proof.ReadP

/-!
# The stretch of the pooled graph means

From buffer contents that hold the stretch's inputs — the stage before it and the arguments it reads — the stretch's
operations leave its last buffer at the next stage of the arguments, and leave every buffer they do not write as it
was.
-/

set_option maxRecDepth 16384

noncomputable section

namespace Cert.ReferenceIdeal.RefRun

open Cert.ReferenceIdeal Cert.ReferenceIdeal.Gen Cert.ReferenceIdeal.Value Idealize.ShloMosaic Idealize.ShloMosaic.TcCoe Idealize.SL.Sem Idealize.ShloMosaic.StableHlo

/-- From contents that hold the stretch's inputs, the stretch leaves `main_v153` at its stage of the arguments. -/
theorem stageG (V : Valuation τ sig (Elt Ideal))
    (x0 : (⟨S500000x5, .f32⟩ : BufTy).Contents (Elt Ideal))
    (x1 : (⟨S2x8000000, .i32⟩ : BufTy).Contents (Elt Ideal))
    (x2 : (⟨S500000, .i32⟩ : BufTy).Contents (Elt Ideal))
    (x4 : (⟨S5x5, .f32⟩ : BufTy).Contents (Elt Ideal))
    (x5 : (⟨S5, .f32⟩ : BufTy).Contents (Elt Ideal))
    (x6 : (⟨S5x5, .f32⟩ : BufTy).Contents (Elt Ideal))
    (x7 : (⟨S5, .f32⟩ : BufTy).Contents (Elt Ideal))
    (x8 : (⟨S5x10, .f32⟩ : BufTy).Contents (Elt Ideal))
    (x9 : (⟨S10, .f32⟩ : BufTy).Contents (Elt Ideal))
    (x10 : (⟨S10x10, .f32⟩ : BufTy).Contents (Elt Ideal))
    (x11 : (⟨S10, .f32⟩ : BufTy).Contents (Elt Ideal))
    (x12 : (⟨S10x10, .f32⟩ : BufTy).Contents (Elt Ideal))
    (x13 : (⟨S10, .f32⟩ : BufTy).Contents (Elt Ideal))
    (x14 : (⟨S10x10, .f32⟩ : BufTy).Contents (Elt Ideal))
    (x15 : (⟨S10, .f32⟩ : BufTy).Contents (Elt Ideal))
    (x16 : (⟨S5, .f32⟩ : BufTy).Contents (Elt Ideal))
    (x17 : (⟨S5, .f32⟩ : BufTy).Contents (Elt Ideal))
    (x18 : (⟨S10, .f32⟩ : BufTy).Contents (Elt Ideal))
    (x19 : (⟨S10, .f32⟩ : BufTy).Contents (Elt Ideal))
    (x20 : (⟨S10, .f32⟩ : BufTy).Contents (Elt Ideal))
    (x21 : (⟨S10, .f32⟩ : BufTy).Contents (Elt Ideal))
    (h_main_arg2 : V (Proc.devRef .tc main_arg2) = x2)
    (h_main_v141 : V (Proc.devRef .tc main_v141) = Read.val_main_v141 (F := Ideal) x0 x1 x4 x5 x6 x7 x8 x9 x10 x11 x12 x13 x14 x15 x16 x17 x18 x19 x20 x21) :
    after (opsG (F := Ideal)) V (Proc.devRef .tc main_v153) = Read.val_main_v153 (F := Ideal) x0 x1 x2 x4 x5 x6 x7 x8 x9 x10 x11 x12 x13 x14 x15 x16 x17 x18 x19 x20 x21 := by
  after_results_simp
  rw [h_main_arg2, h_main_v141]
  rfl

/-! ## Buffers the stretch does not write -/

theorem keepG_main_arg3 (V : Valuation τ sig (Elt Ideal)) :
    after (opsG (F := Ideal)) V (Proc.devRef .tc main_arg3) = V (Proc.devRef .tc main_arg3) := by
  after_results_simp <;> rfl

theorem keepG_main_arg22 (V : Valuation τ sig (Elt Ideal)) :
    after (opsG (F := Ideal)) V (Proc.devRef .tc main_arg22) = V (Proc.devRef .tc main_arg22) := by
  after_results_simp <;> rfl

theorem keepG_main_arg23 (V : Valuation τ sig (Elt Ideal)) :
    after (opsG (F := Ideal)) V (Proc.devRef .tc main_arg23) = V (Proc.devRef .tc main_arg23) := by
  after_results_simp <;> rfl

theorem keepG_main_arg24 (V : Valuation τ sig (Elt Ideal)) :
    after (opsG (F := Ideal)) V (Proc.devRef .tc main_arg24) = V (Proc.devRef .tc main_arg24) := by
  after_results_simp <;> rfl

theorem keepG_main_arg25 (V : Valuation τ sig (Elt Ideal)) :
    after (opsG (F := Ideal)) V (Proc.devRef .tc main_arg25) = V (Proc.devRef .tc main_arg25) := by
  after_results_simp <;> rfl

theorem keepG_main_arg26 (V : Valuation τ sig (Elt Ideal)) :
    after (opsG (F := Ideal)) V (Proc.devRef .tc main_arg26) = V (Proc.devRef .tc main_arg26) := by
  after_results_simp <;> rfl

theorem keepG_main_arg27 (V : Valuation τ sig (Elt Ideal)) :
    after (opsG (F := Ideal)) V (Proc.devRef .tc main_arg27) = V (Proc.devRef .tc main_arg27) := by
  after_results_simp <;> rfl

end Cert.ReferenceIdeal.RefRun

end
-- ==== Proof.RefRunH.lean ====
import proofs.«132165_j27702539059447_2_alg».proof.Proof.RefRunDefs
import proofs.«132165_j27702539059447_2_alg».proof.Proof.ReadP

/-!
# The stretch of the head's result

From buffer contents that hold the stretch's inputs — the stage before it and the arguments it reads — the stretch's
operations leave its last buffer at the next stage of the arguments, and leave every buffer they do not write as it
was.
-/

set_option maxRecDepth 16384

noncomputable section

namespace Cert.ReferenceIdeal.RefRun

open Cert.ReferenceIdeal Cert.ReferenceIdeal.Gen Cert.ReferenceIdeal.Value Idealize.ShloMosaic Idealize.ShloMosaic.TcCoe Idealize.SL.Sem Idealize.ShloMosaic.StableHlo

/-- From contents that hold the stretch's inputs, the stretch leaves `main_v168` at its stage of the arguments. -/
theorem stageH (V : Valuation τ sig (Elt Ideal))
    (x0 : (⟨S500000x5, .f32⟩ : BufTy).Contents (Elt Ideal))
    (x1 : (⟨S2x8000000, .i32⟩ : BufTy).Contents (Elt Ideal))
    (x2 : (⟨S500000, .i32⟩ : BufTy).Contents (Elt Ideal))
    (x3 : (⟨S8192x10, .f32⟩ : BufTy).Contents (Elt Ideal))
    (x4 : (⟨S5x5, .f32⟩ : BufTy).Contents (Elt Ideal))
    (x5 : (⟨S5, .f32⟩ : BufTy).Contents (Elt Ideal))
    (x6 : (⟨S5x5, .f32⟩ : BufTy).Contents (Elt Ideal))
    (x7 : (⟨S5, .f32⟩ : BufTy).Contents (Elt Ideal))
    (x8 : (⟨S5x10, .f32⟩ : BufTy).Contents (Elt Ideal))
    (x9 : (⟨S10, .f32⟩ : BufTy).Contents (Elt Ideal))
    (x10 : (⟨S10x10, .f32⟩ : BufTy).Contents (Elt Ideal))
    (x11 : (⟨S10, .f32⟩ : BufTy).Contents (Elt Ideal))
    (x12 : (⟨S10x10, .f32⟩ : BufTy).Contents (Elt Ideal))
    (x13 : (⟨S10, .f32⟩ : BufTy).Contents (Elt Ideal))
    (x14 : (⟨S10x10, .f32⟩ : BufTy).Contents (Elt Ideal))
    (x15 : (⟨S10, .f32⟩ : BufTy).Contents (Elt Ideal))
    (x16 : (⟨S5, .f32⟩ : BufTy).Contents (Elt Ideal))
    (x17 : (⟨S5, .f32⟩ : BufTy).Contents (Elt Ideal))
    (x18 : (⟨S10, .f32⟩ : BufTy).Contents (Elt Ideal))
    (x19 : (⟨S10, .f32⟩ : BufTy).Contents (Elt Ideal))
    (x20 : (⟨S10, .f32⟩ : BufTy).Contents (Elt Ideal))
    (x21 : (⟨S10, .f32⟩ : BufTy).Contents (Elt Ideal))
    (x22 : (⟨S20x128, .f32⟩ : BufTy).Contents (Elt Ideal))
    (x23 : (⟨S128, .f32⟩ : BufTy).Contents (Elt Ideal))
    (x24 : (⟨S128x64, .f32⟩ : BufTy).Contents (Elt Ideal))
    (x25 : (⟨S64, .f32⟩ : BufTy).Contents (Elt Ideal))
    (x26 : (⟨S64x1, .f32⟩ : BufTy).Contents (Elt Ideal))
    (x27 : (⟨S1, .f32⟩ : BufTy).Contents (Elt Ideal))
    (h_main_v153 : V (Proc.devRef .tc main_v153) = Read.val_main_v153 (F := Ideal) x0 x1 x2 x4 x5 x6 x7 x8 x9 x10 x11 x12 x13 x14 x15 x16 x17 x18 x19 x20 x21)
    (h_main_arg3 : V (Proc.devRef .tc main_arg3) = x3)
    (h_main_arg22 : V (Proc.devRef .tc main_arg22) = x22)
    (h_main_arg23 : V (Proc.devRef .tc main_arg23) = x23)
    (h_main_arg24 : V (Proc.devRef .tc main_arg24) = x24)
    (h_main_arg25 : V (Proc.devRef .tc main_arg25) = x25)
    (h_main_arg26 : V (Proc.devRef .tc main_arg26) = x26)
    (h_main_arg27 : V (Proc.devRef .tc main_arg27) = x27) :
    after (opsH (F := Ideal)) V (Proc.devRef .tc main_v168) = Read.val_main_v168 (F := Ideal) x0 x1 x2 x3 x4 x5 x6 x7 x8 x9 x10 x11 x12 x13 x14 x15 x16 x17 x18 x19 x20 x21 x22 x23 x24 x25 x26 x27 := by
  after_results_simp
  rw [h_main_v153, h_main_arg3, h_main_arg22, h_main_arg23, h_main_arg24, h_main_arg25, h_main_arg26, h_main_arg27]
  rfl

end Cert.ReferenceIdeal.RefRun

end
-- ==== Proof.RefArgs.lean ====
import proofs.«132165_j27702539059447_2_alg».proof.Proof.RunP
import Idealize.ShloMosaic.Lib.StableHlo.Run

/-!
# The arguments are never written

The program is a line of 213 operations, each of which writes one buffer: its own result. The results are
the 213 buffers listed in `written`, in the order of the operations; none of them is one of the 28 argument buffers.
So after the whole line every argument buffer holds what it held at the start.
-/

noncomputable section

namespace Cert.ReferenceIdeal.RefArgs

open Cert.ReferenceIdeal Cert.ReferenceIdeal.Gen Cert.ReferenceIdeal.Value Idealize.ShloMosaic Idealize.ShloMosaic.TcCoe Idealize.SL.Sem
open Idealize.ShloMosaic.StableHlo

variable {F : FTy → Type} [FloatOps F]

/-- The buffer each operation writes, in the order of the operations. -/
def written : List (Ref sig .tc) :=
  [
    main_v0, main_v1, main_v2, main_v3, main_c, main_v4, main_v5, main_c_0,
    main_v6, main_v7, main_v8, main_v9, main_v10, main_cst, main_v11, main_v12,
    main_v13, main_v14, main_v15, main_v16, main_v17, main_v18, main_call0_cst, main_call0_v0,
    main_v19, main_v20, main_v21, main_v22, main_v23, main_call1_cst, main_call1_v0, main_v24,
    main_cst_1, main_v25, main_cst_2, main_v26, main_v27, main_v28, main_v29, main_v30,
    main_v31, main_cst_3, main_v32, main_cst_4, main_v33, main_v34, main_v35, main_v36,
    main_v37, main_cst_5, main_v38, main_v39, main_v40, main_v41, main_v42, main_v43,
    main_v44, main_v45, main_v46, main_v47, main_v48, main_v49, main_c_6, main_v50,
    main_v51, main_c_7, main_v52, main_v53, main_v54, main_v55, main_v56, main_cst_8,
    main_v57, main_v58, main_v59, main_v60, main_v61, main_v62, main_v63, main_v64,
    main_call2_cst, main_call2_v0, main_v65, main_v66, main_v67, main_v68, main_v69, main_call3_cst,
    main_call3_v0, main_v70, main_cst_9, main_v71, main_cst_10, main_v72, main_v73, main_v74,
    main_v75, main_v76, main_v77, main_cst_11, main_v78, main_cst_12, main_v79, main_v80,
    main_v81, main_v82, main_v83, main_cst_13, main_v84, main_v85, main_v86, main_v87,
    main_v88, main_v89, main_v90, main_v91, main_v92, main_v93, main_v94, main_v95,
    main_c_14, main_v96, main_v97, main_c_15, main_v98, main_v99, main_v100, main_v101,
    main_v102, main_cst_16, main_v103, main_v104, main_v105, main_v106, main_v107, main_v108,
    main_v109, main_v110, main_call4_cst, main_call4_v0, main_v111, main_v112, main_v113, main_v114,
    main_v115, main_call5_cst, main_call5_v0, main_v116, main_cst_17, main_v117, main_cst_18, main_v118,
    main_v119, main_v120, main_v121, main_v122, main_v123, main_cst_19, main_v124, main_cst_20,
    main_v125, main_v126, main_v127, main_v128, main_v129, main_cst_21, main_v130, main_v131,
    main_v132, main_v133, main_v134, main_v135, main_v136, main_v137, main_v138, main_v139,
    main_v140, main_v141, main_cst_22, main_v142, main_v143, main_v144, main_cst_23, main_v145,
    main_cst_24, main_v146, main_v147, main_v148, main_cst_25, main_v149, main_v150, main_v151,
    main_v152, main_v153, main_v154, main_v155, main_v156, main_v157, main_v158, main_call6_cst,
    main_call6_v0, main_v159, main_v160, main_v161, main_v162, main_v163, main_call7_cst, main_call7_v0,
    main_v164, main_v165, main_v166, main_v167, main_v168 ]

/-- An operation whose one result is among `written` writes only buffers of `written`. -/
theorem sub_of_mem {y : Ref sig .tc} (h : y ∈ written) :
    ({Proc.devRef (τ := τ) .tc y} : Finset (DevRef τ sig)) ⊆ (written.map (Proc.devRef (τ := τ) .tc)).toFinset :=
  Finset.singleton_subset_iff.mpr (List.mem_toFinset.mpr (List.mem_map_of_mem h))

set_option maxRecDepth 8192 in
/-- Every operation of the line writes only buffers of `written`: operation by operation, its result is in the list. -/
theorem writes_sub : (ops (F := F) : List (HloOp τ sig (Elt F))).Forall
    fun op => op.writes ⊆ (written.map (Proc.devRef (τ := τ) .tc)).toFinset :=
  ⟨
    sub_of_mem (y := main_v0) (by decide +kernel), sub_of_mem (y := main_v1) (by decide +kernel),
    sub_of_mem (y := main_v2) (by decide +kernel), sub_of_mem (y := main_v3) (by decide +kernel),
    sub_of_mem (y := main_c) (by decide +kernel), sub_of_mem (y := main_v4) (by decide +kernel),
    sub_of_mem (y := main_v5) (by decide +kernel), sub_of_mem (y := main_c_0) (by decide +kernel),
    sub_of_mem (y := main_v6) (by decide +kernel), sub_of_mem (y := main_v7) (by decide +kernel),
    sub_of_mem (y := main_v8) (by decide +kernel), sub_of_mem (y := main_v9) (by decide +kernel),
    sub_of_mem (y := main_v10) (by decide +kernel), sub_of_mem (y := main_cst) (by decide +kernel),
    sub_of_mem (y := main_v11) (by decide +kernel), sub_of_mem (y := main_v12) (by decide +kernel),
    sub_of_mem (y := main_v13) (by decide +kernel), sub_of_mem (y := main_v14) (by decide +kernel),
    sub_of_mem (y := main_v15) (by decide +kernel), sub_of_mem (y := main_v16) (by decide +kernel),
    sub_of_mem (y := main_v17) (by decide +kernel), sub_of_mem (y := main_v18) (by decide +kernel),
    sub_of_mem (y := main_call0_cst) (by decide +kernel), sub_of_mem (y := main_call0_v0) (by decide +kernel),
    sub_of_mem (y := main_v19) (by decide +kernel), sub_of_mem (y := main_v20) (by decide +kernel),
    sub_of_mem (y := main_v21) (by decide +kernel), sub_of_mem (y := main_v22) (by decide +kernel),
    sub_of_mem (y := main_v23) (by decide +kernel), sub_of_mem (y := main_call1_cst) (by decide +kernel),
    sub_of_mem (y := main_call1_v0) (by decide +kernel), sub_of_mem (y := main_v24) (by decide +kernel),
    sub_of_mem (y := main_cst_1) (by decide +kernel), sub_of_mem (y := main_v25) (by decide +kernel),
    sub_of_mem (y := main_cst_2) (by decide +kernel), sub_of_mem (y := main_v26) (by decide +kernel),
    sub_of_mem (y := main_v27) (by decide +kernel), sub_of_mem (y := main_v28) (by decide +kernel),
    sub_of_mem (y := main_v29) (by decide +kernel), sub_of_mem (y := main_v30) (by decide +kernel),
    sub_of_mem (y := main_v31) (by decide +kernel), sub_of_mem (y := main_cst_3) (by decide +kernel),
    sub_of_mem (y := main_v32) (by decide +kernel), sub_of_mem (y := main_cst_4) (by decide +kernel),
    sub_of_mem (y := main_v33) (by decide +kernel), sub_of_mem (y := main_v34) (by decide +kernel),
    sub_of_mem (y := main_v35) (by decide +kernel), sub_of_mem (y := main_v36) (by decide +kernel),
    sub_of_mem (y := main_v37) (by decide +kernel), sub_of_mem (y := main_cst_5) (by decide +kernel),
    sub_of_mem (y := main_v38) (by decide +kernel), sub_of_mem (y := main_v39) (by decide +kernel),
    sub_of_mem (y := main_v40) (by decide +kernel), sub_of_mem (y := main_v41) (by decide +kernel),
    sub_of_mem (y := main_v42) (by decide +kernel), sub_of_mem (y := main_v43) (by decide +kernel),
    sub_of_mem (y := main_v44) (by decide +kernel), sub_of_mem (y := main_v45) (by decide +kernel),
    sub_of_mem (y := main_v46) (by decide +kernel), sub_of_mem (y := main_v47) (by decide +kernel),
    sub_of_mem (y := main_v48) (by decide +kernel), sub_of_mem (y := main_v49) (by decide +kernel),
    sub_of_mem (y := main_c_6) (by decide +kernel), sub_of_mem (y := main_v50) (by decide +kernel),
    sub_of_mem (y := main_v51) (by decide +kernel), sub_of_mem (y := main_c_7) (by decide +kernel),
    sub_of_mem (y := main_v52) (by decide +kernel), sub_of_mem (y := main_v53) (by decide +kernel),
    sub_of_mem (y := main_v54) (by decide +kernel), sub_of_mem (y := main_v55) (by decide +kernel),
    sub_of_mem (y := main_v56) (by decide +kernel), sub_of_mem (y := main_cst_8) (by decide +kernel),
    sub_of_mem (y := main_v57) (by decide +kernel), sub_of_mem (y := main_v58) (by decide +kernel),
    sub_of_mem (y := main_v59) (by decide +kernel), sub_of_mem (y := main_v60) (by decide +kernel),
    sub_of_mem (y := main_v61) (by decide +kernel), sub_of_mem (y := main_v62) (by decide +kernel),
    sub_of_mem (y := main_v63) (by decide +kernel), sub_of_mem (y := main_v64) (by decide +kernel),
    sub_of_mem (y := main_call2_cst) (by decide +kernel), sub_of_mem (y := main_call2_v0) (by decide +kernel),
    sub_of_mem (y := main_v65) (by decide +kernel), sub_of_mem (y := main_v66) (by decide +kernel),
    sub_of_mem (y := main_v67) (by decide +kernel), sub_of_mem (y := main_v68) (by decide +kernel),
    sub_of_mem (y := main_v69) (by decide +kernel), sub_of_mem (y := main_call3_cst) (by decide +kernel),
    sub_of_mem (y := main_call3_v0) (by decide +kernel), sub_of_mem (y := main_v70) (by decide +kernel),
    sub_of_mem (y := main_cst_9) (by decide +kernel), sub_of_mem (y := main_v71) (by decide +kernel),
    sub_of_mem (y := main_cst_10) (by decide +kernel), sub_of_mem (y := main_v72) (by decide +kernel),
    sub_of_mem (y := main_v73) (by decide +kernel), sub_of_mem (y := main_v74) (by decide +kernel),
    sub_of_mem (y := main_v75) (by decide +kernel), sub_of_mem (y := main_v76) (by decide +kernel),
    sub_of_mem (y := main_v77) (by decide +kernel), sub_of_mem (y := main_cst_11) (by decide +kernel),
    sub_of_mem (y := main_v78) (by decide +kernel), sub_of_mem (y := main_cst_12) (by decide +kernel),
    sub_of_mem (y := main_v79) (by decide +kernel), sub_of_mem (y := main_v80) (by decide +kernel),
    sub_of_mem (y := main_v81) (by decide +kernel), sub_of_mem (y := main_v82) (by decide +kernel),
    sub_of_mem (y := main_v83) (by decide +kernel), sub_of_mem (y := main_cst_13) (by decide +kernel),
    sub_of_mem (y := main_v84) (by decide +kernel), sub_of_mem (y := main_v85) (by decide +kernel),
    sub_of_mem (y := main_v86) (by decide +kernel), sub_of_mem (y := main_v87) (by decide +kernel),
    sub_of_mem (y := main_v88) (by decide +kernel), sub_of_mem (y := main_v89) (by decide +kernel),
    sub_of_mem (y := main_v90) (by decide +kernel), sub_of_mem (y := main_v91) (by decide +kernel),
    sub_of_mem (y := main_v92) (by decide +kernel), sub_of_mem (y := main_v93) (by decide +kernel),
    sub_of_mem (y := main_v94) (by decide +kernel), sub_of_mem (y := main_v95) (by decide +kernel),
    sub_of_mem (y := main_c_14) (by decide +kernel), sub_of_mem (y := main_v96) (by decide +kernel),
    sub_of_mem (y := main_v97) (by decide +kernel), sub_of_mem (y := main_c_15) (by decide +kernel),
    sub_of_mem (y := main_v98) (by decide +kernel), sub_of_mem (y := main_v99) (by decide +kernel),
    sub_of_mem (y := main_v100) (by decide +kernel), sub_of_mem (y := main_v101) (by decide +kernel),
    sub_of_mem (y := main_v102) (by decide +kernel), sub_of_mem (y := main_cst_16) (by decide +kernel),
    sub_of_mem (y := main_v103) (by decide +kernel), sub_of_mem (y := main_v104) (by decide +kernel),
    sub_of_mem (y := main_v105) (by decide +kernel), sub_of_mem (y := main_v106) (by decide +kernel),
    sub_of_mem (y := main_v107) (by decide +kernel), sub_of_mem (y := main_v108) (by decide +kernel),
    sub_of_mem (y := main_v109) (by decide +kernel), sub_of_mem (y := main_v110) (by decide +kernel),
    sub_of_mem (y := main_call4_cst) (by decide +kernel), sub_of_mem (y := main_call4_v0) (by decide +kernel),
    sub_of_mem (y := main_v111) (by decide +kernel), sub_of_mem (y := main_v112) (by decide +kernel),
    sub_of_mem (y := main_v113) (by decide +kernel), sub_of_mem (y := main_v114) (by decide +kernel),
    sub_of_mem (y := main_v115) (by decide +kernel), sub_of_mem (y := main_call5_cst) (by decide +kernel),
    sub_of_mem (y := main_call5_v0) (by decide +kernel), sub_of_mem (y := main_v116) (by decide +kernel),
    sub_of_mem (y := main_cst_17) (by decide +kernel), sub_of_mem (y := main_v117) (by decide +kernel),
    sub_of_mem (y := main_cst_18) (by decide +kernel), sub_of_mem (y := main_v118) (by decide +kernel),
    sub_of_mem (y := main_v119) (by decide +kernel), sub_of_mem (y := main_v120) (by decide +kernel),
    sub_of_mem (y := main_v121) (by decide +kernel), sub_of_mem (y := main_v122) (by decide +kernel),
    sub_of_mem (y := main_v123) (by decide +kernel), sub_of_mem (y := main_cst_19) (by decide +kernel),
    sub_of_mem (y := main_v124) (by decide +kernel), sub_of_mem (y := main_cst_20) (by decide +kernel),
    sub_of_mem (y := main_v125) (by decide +kernel), sub_of_mem (y := main_v126) (by decide +kernel),
    sub_of_mem (y := main_v127) (by decide +kernel), sub_of_mem (y := main_v128) (by decide +kernel),
    sub_of_mem (y := main_v129) (by decide +kernel), sub_of_mem (y := main_cst_21) (by decide +kernel),
    sub_of_mem (y := main_v130) (by decide +kernel), sub_of_mem (y := main_v131) (by decide +kernel),
    sub_of_mem (y := main_v132) (by decide +kernel), sub_of_mem (y := main_v133) (by decide +kernel),
    sub_of_mem (y := main_v134) (by decide +kernel), sub_of_mem (y := main_v135) (by decide +kernel),
    sub_of_mem (y := main_v136) (by decide +kernel), sub_of_mem (y := main_v137) (by decide +kernel),
    sub_of_mem (y := main_v138) (by decide +kernel), sub_of_mem (y := main_v139) (by decide +kernel),
    sub_of_mem (y := main_v140) (by decide +kernel), sub_of_mem (y := main_v141) (by decide +kernel),
    sub_of_mem (y := main_cst_22) (by decide +kernel), sub_of_mem (y := main_v142) (by decide +kernel),
    sub_of_mem (y := main_v143) (by decide +kernel), sub_of_mem (y := main_v144) (by decide +kernel),
    sub_of_mem (y := main_cst_23) (by decide +kernel), sub_of_mem (y := main_v145) (by decide +kernel),
    sub_of_mem (y := main_cst_24) (by decide +kernel), sub_of_mem (y := main_v146) (by decide +kernel),
    sub_of_mem (y := main_v147) (by decide +kernel), sub_of_mem (y := main_v148) (by decide +kernel),
    sub_of_mem (y := main_cst_25) (by decide +kernel), sub_of_mem (y := main_v149) (by decide +kernel),
    sub_of_mem (y := main_v150) (by decide +kernel), sub_of_mem (y := main_v151) (by decide +kernel),
    sub_of_mem (y := main_v152) (by decide +kernel), sub_of_mem (y := main_v153) (by decide +kernel),
    sub_of_mem (y := main_v154) (by decide +kernel), sub_of_mem (y := main_v155) (by decide +kernel),
    sub_of_mem (y := main_v156) (by decide +kernel), sub_of_mem (y := main_v157) (by decide +kernel),
    sub_of_mem (y := main_v158) (by decide +kernel), sub_of_mem (y := main_call6_cst) (by decide +kernel),
    sub_of_mem (y := main_call6_v0) (by decide +kernel), sub_of_mem (y := main_v159) (by decide +kernel),
    sub_of_mem (y := main_v160) (by decide +kernel), sub_of_mem (y := main_v161) (by decide +kernel),
    sub_of_mem (y := main_v162) (by decide +kernel), sub_of_mem (y := main_v163) (by decide +kernel),
    sub_of_mem (y := main_call7_cst) (by decide +kernel), sub_of_mem (y := main_call7_v0) (by decide +kernel),
    sub_of_mem (y := main_v164) (by decide +kernel), sub_of_mem (y := main_v165) (by decide +kernel),
    sub_of_mem (y := main_v166) (by decide +kernel), sub_of_mem (y := main_v167) (by decide +kernel),
    sub_of_mem (y := main_v168) (by decide +kernel) ⟩

/-- A buffer that is not a result keeps its contents through the whole line. -/
theorem kept (V : Valuation τ sig (Elt F)) {b : Ref sig .tc} (hb : b ∉ written) :
    after (ops (F := F)) V (Proc.devRef .tc b) = V (Proc.devRef .tc b) :=
  after_of_writes_sub ops V writes_sub hb

/-! ## The 28 arguments -/

theorem arg0 (V : Valuation τ sig (Elt F)) :
    after (ops (F := F)) V (Proc.devRef .tc main_arg0) = V (Proc.devRef .tc main_arg0) := kept V (by decide +kernel)
theorem arg1 (V : Valuation τ sig (Elt F)) :
    after (ops (F := F)) V (Proc.devRef .tc main_arg1) = V (Proc.devRef .tc main_arg1) := kept V (by decide +kernel)
theorem arg2 (V : Valuation τ sig (Elt F)) :
    after (ops (F := F)) V (Proc.devRef .tc main_arg2) = V (Proc.devRef .tc main_arg2) := kept V (by decide +kernel)
theorem arg3 (V : Valuation τ sig (Elt F)) :
    after (ops (F := F)) V (Proc.devRef .tc main_arg3) = V (Proc.devRef .tc main_arg3) := kept V (by decide +kernel)
theorem arg4 (V : Valuation τ sig (Elt F)) :
    after (ops (F := F)) V (Proc.devRef .tc main_arg4) = V (Proc.devRef .tc main_arg4) := kept V (by decide +kernel)
theorem arg5 (V : Valuation τ sig (Elt F)) :
    after (ops (F := F)) V (Proc.devRef .tc main_arg5) = V (Proc.devRef .tc main_arg5) := kept V (by decide +kernel)
theorem arg6 (V : Valuation τ sig (Elt F)) :
    after (ops (F := F)) V (Proc.devRef .tc main_arg6) = V (Proc.devRef .tc main_arg6) := kept V (by decide +kernel)
theorem arg7 (V : Valuation τ sig (Elt F)) :
    after (ops (F := F)) V (Proc.devRef .tc main_arg7) = V (Proc.devRef .tc main_arg7) := kept V (by decide +kernel)
theorem arg8 (V : Valuation τ sig (Elt F)) :
    after (ops (F := F)) V (Proc.devRef .tc main_arg8) = V (Proc.devRef .tc main_arg8) := kept V (by decide +kernel)
theorem arg9 (V : Valuation τ sig (Elt F)) :
    after (ops (F := F)) V (Proc.devRef .tc main_arg9) = V (Proc.devRef .tc main_arg9) := kept V (by decide +kernel)
theorem arg10 (V : Valuation τ sig (Elt F)) :
    after (ops (F := F)) V (Proc.devRef .tc main_arg10) = V (Proc.devRef .tc main_arg10) := kept V (by decide +kernel)
theorem arg11 (V : Valuation τ sig (Elt F)) :
    after (ops (F := F)) V (Proc.devRef .tc main_arg11) = V (Proc.devRef .tc main_arg11) := kept V (by decide +kernel)
theorem arg12 (V : Valuation τ sig (Elt F)) :
    after (ops (F := F)) V (Proc.devRef .tc main_arg12) = V (Proc.devRef .tc main_arg12) := kept V (by decide +kernel)
theorem arg13 (V : Valuation τ sig (Elt F)) :
    after (ops (F := F)) V (Proc.devRef .tc main_arg13) = V (Proc.devRef .tc main_arg13) := kept V (by decide +kernel)
theorem arg14 (V : Valuation τ sig (Elt F)) :
    after (ops (F := F)) V (Proc.devRef .tc main_arg14) = V (Proc.devRef .tc main_arg14) := kept V (by decide +kernel)
theorem arg15 (V : Valuation τ sig (Elt F)) :
    after (ops (F := F)) V (Proc.devRef .tc main_arg15) = V (Proc.devRef .tc main_arg15) := kept V (by decide +kernel)
theorem arg16 (V : Valuation τ sig (Elt F)) :
    after (ops (F := F)) V (Proc.devRef .tc main_arg16) = V (Proc.devRef .tc main_arg16) := kept V (by decide +kernel)
theorem arg17 (V : Valuation τ sig (Elt F)) :
    after (ops (F := F)) V (Proc.devRef .tc main_arg17) = V (Proc.devRef .tc main_arg17) := kept V (by decide +kernel)
theorem arg18 (V : Valuation τ sig (Elt F)) :
    after (ops (F := F)) V (Proc.devRef .tc main_arg18) = V (Proc.devRef .tc main_arg18) := kept V (by decide +kernel)
theorem arg19 (V : Valuation τ sig (Elt F)) :
    after (ops (F := F)) V (Proc.devRef .tc main_arg19) = V (Proc.devRef .tc main_arg19) := kept V (by decide +kernel)
theorem arg20 (V : Valuation τ sig (Elt F)) :
    after (ops (F := F)) V (Proc.devRef .tc main_arg20) = V (Proc.devRef .tc main_arg20) := kept V (by decide +kernel)
theorem arg21 (V : Valuation τ sig (Elt F)) :
    after (ops (F := F)) V (Proc.devRef .tc main_arg21) = V (Proc.devRef .tc main_arg21) := kept V (by decide +kernel)
theorem arg22 (V : Valuation τ sig (Elt F)) :
    after (ops (F := F)) V (Proc.devRef .tc main_arg22) = V (Proc.devRef .tc main_arg22) := kept V (by decide +kernel)
theorem arg23 (V : Valuation τ sig (Elt F)) :
    after (ops (F := F)) V (Proc.devRef .tc main_arg23) = V (Proc.devRef .tc main_arg23) := kept V (by decide +kernel)
theorem arg24 (V : Valuation τ sig (Elt F)) :
    after (ops (F := F)) V (Proc.devRef .tc main_arg24) = V (Proc.devRef .tc main_arg24) := kept V (by decide +kernel)
theorem arg25 (V : Valuation τ sig (Elt F)) :
    after (ops (F := F)) V (Proc.devRef .tc main_arg25) = V (Proc.devRef .tc main_arg25) := kept V (by decide +kernel)
theorem arg26 (V : Valuation τ sig (Elt F)) :
    after (ops (F := F)) V (Proc.devRef .tc main_arg26) = V (Proc.devRef .tc main_arg26) := kept V (by decide +kernel)
theorem arg27 (V : Valuation τ sig (Elt F)) :
    after (ops (F := F)) V (Proc.devRef .tc main_arg27) = V (Proc.devRef .tc main_arg27) := kept V (by decide +kernel)

end Cert.ReferenceIdeal.RefArgs

end
-- ==== Proof.RefRun.lean ====
import proofs.«132165_j27702539059447_2_alg».proof.Proof.RefRunDefs
import proofs.«132165_j27702539059447_2_alg».proof.Proof.ReadP
import proofs.«132165_j27702539059447_2_alg».proof.Proof.RefRunA
import proofs.«132165_j27702539059447_2_alg».proof.Proof.RefRunB
import proofs.«132165_j27702539059447_2_alg».proof.Proof.RefRunC
import proofs.«132165_j27702539059447_2_alg».proof.Proof.RefRunD
import proofs.«132165_j27702539059447_2_alg».proof.Proof.RefRunE
import proofs.«132165_j27702539059447_2_alg».proof.Proof.RefRunF
import proofs.«132165_j27702539059447_2_alg».proof.Proof.RefRunG
import proofs.«132165_j27702539059447_2_alg».proof.Proof.RefRunH
import proofs.«132165_j27702539059447_2_alg».proof.Proof.RefArgs

/-!
# The reference's run, stage by stage

The reference's result buffer ends at the last stage of the arguments: each of the eight stretches of its operations
takes the stage before it to the next, and leaves the arguments and the two index arrays that later stretches read
as they were. Every weakly fair execution of the reference terminates, nothing faults, the result is that last
stage and the arguments end as launched.
-/

set_option maxRecDepth 16384

noncomputable section

namespace Cert.ReferenceIdeal.RefRun

open Cert.ReferenceIdeal Cert.ReferenceIdeal.Gen Cert.ReferenceIdeal.Value Idealize.ShloMosaic Idealize.ShloMosaic.TcCoe Idealize.SL.Sem Idealize.ShloMosaic.StableHlo

/-- After all the operations, from any contents, the result buffer holds the last stage of the contents of the
    argument buffers. -/
theorem result (V0 : Valuation τ sig (Elt Ideal)) :
    after (ops (F := Ideal)) V0 (Proc.devRef .tc main_v168)
      = Read.val_main_v168 (F := Ideal)
          (V0 (Proc.devRef .tc main_arg0)) (V0 (Proc.devRef .tc main_arg1)) (V0 (Proc.devRef .tc main_arg2)) (V0 (Proc.devRef .tc main_arg3))
          (V0 (Proc.devRef .tc main_arg4)) (V0 (Proc.devRef .tc main_arg5)) (V0 (Proc.devRef .tc main_arg6)) (V0 (Proc.devRef .tc main_arg7))
          (V0 (Proc.devRef .tc main_arg8)) (V0 (Proc.devRef .tc main_arg9)) (V0 (Proc.devRef .tc main_arg10)) (V0 (Proc.devRef .tc main_arg11))
          (V0 (Proc.devRef .tc main_arg12)) (V0 (Proc.devRef .tc main_arg13)) (V0 (Proc.devRef .tc main_arg14)) (V0 (Proc.devRef .tc main_arg15))
          (V0 (Proc.devRef .tc main_arg16)) (V0 (Proc.devRef .tc main_arg17)) (V0 (Proc.devRef .tc main_arg18)) (V0 (Proc.devRef .tc main_arg19))
          (V0 (Proc.devRef .tc main_arg20)) (V0 (Proc.devRef .tc main_arg21)) (V0 (Proc.devRef .tc main_arg22)) (V0 (Proc.devRef .tc main_arg23))
          (V0 (Proc.devRef .tc main_arg24)) (V0 (Proc.devRef .tc main_arg25)) (V0 (Proc.devRef .tc main_arg26)) (V0 (Proc.devRef .tc main_arg27)) := by
  refine (congrArg (fun l => after l V0 (Proc.devRef .tc main_v168)) (ops_eq (F := Ideal))).trans ?_
  simp only [after_append]
  have h_main_v24 := stageA V0 (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) rfl rfl rfl rfl rfl rfl
  have h_main_v1 := stageA_v1 V0 (V0 (Proc.devRef .tc main_arg1)) rfl
  have h_main_v3 := stageA_v3 V0 (V0 (Proc.devRef .tc main_arg1)) rfl
  have k1_main_arg16 := keepA_main_arg16 V0
  have k1_main_arg17 := keepA_main_arg17 V0
  have k1_main_arg8 := keepA_main_arg8 V0
  have k1_main_arg9 := keepA_main_arg9 V0
  have k1_main_arg10 := keepA_main_arg10 V0
  have k1_main_arg11 := keepA_main_arg11 V0
  have k1_main_arg18 := keepA_main_arg18 V0
  have k1_main_arg19 := keepA_main_arg19 V0
  have k1_main_arg12 := keepA_main_arg12 V0
  have k1_main_arg13 := keepA_main_arg13 V0
  have k1_main_arg14 := keepA_main_arg14 V0
  have k1_main_arg15 := keepA_main_arg15 V0
  have k1_main_arg20 := keepA_main_arg20 V0
  have k1_main_arg21 := keepA_main_arg21 V0
  have k1_main_arg2 := keepA_main_arg2 V0
  have k1_main_arg3 := keepA_main_arg3 V0
  have k1_main_arg22 := keepA_main_arg22 V0
  have k1_main_arg23 := keepA_main_arg23 V0
  have k1_main_arg24 := keepA_main_arg24 V0
  have k1_main_arg25 := keepA_main_arg25 V0
  have k1_main_arg26 := keepA_main_arg26 V0
  have k1_main_arg27 := keepA_main_arg27 V0
  have h_main_v49 := stageB (after (opsA (F := Ideal)) V0) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg16)) (V0 (Proc.devRef .tc main_arg17)) h_main_v24 k1_main_arg16 k1_main_arg17
  have k2_main_v1 := (keepB_main_v1 (after (opsA (F := Ideal)) V0)).trans h_main_v1
  have k2_main_v3 := (keepB_main_v3 (after (opsA (F := Ideal)) V0)).trans h_main_v3
  have k2_main_arg8 := (keepB_main_arg8 (after (opsA (F := Ideal)) V0)).trans k1_main_arg8
  have k2_main_arg9 := (keepB_main_arg9 (after (opsA (F := Ideal)) V0)).trans k1_main_arg9
  have k2_main_arg10 := (keepB_main_arg10 (after (opsA (F := Ideal)) V0)).trans k1_main_arg10
  have k2_main_arg11 := (keepB_main_arg11 (after (opsA (F := Ideal)) V0)).trans k1_main_arg11
  have k2_main_arg18 := (keepB_main_arg18 (after (opsA (F := Ideal)) V0)).trans k1_main_arg18
  have k2_main_arg19 := (keepB_main_arg19 (after (opsA (F := Ideal)) V0)).trans k1_main_arg19
  have k2_main_arg12 := (keepB_main_arg12 (after (opsA (F := Ideal)) V0)).trans k1_main_arg12
  have k2_main_arg13 := (keepB_main_arg13 (after (opsA (F := Ideal)) V0)).trans k1_main_arg13
  have k2_main_arg14 := (keepB_main_arg14 (after (opsA (F := Ideal)) V0)).trans k1_main_arg14
  have k2_main_arg15 := (keepB_main_arg15 (after (opsA (F := Ideal)) V0)).trans k1_main_arg15
  have k2_main_arg20 := (keepB_main_arg20 (after (opsA (F := Ideal)) V0)).trans k1_main_arg20
  have k2_main_arg21 := (keepB_main_arg21 (after (opsA (F := Ideal)) V0)).trans k1_main_arg21
  have k2_main_arg2 := (keepB_main_arg2 (after (opsA (F := Ideal)) V0)).trans k1_main_arg2
  have k2_main_arg3 := (keepB_main_arg3 (after (opsA (F := Ideal)) V0)).trans k1_main_arg3
  have k2_main_arg22 := (keepB_main_arg22 (after (opsA (F := Ideal)) V0)).trans k1_main_arg22
  have k2_main_arg23 := (keepB_main_arg23 (after (opsA (F := Ideal)) V0)).trans k1_main_arg23
  have k2_main_arg24 := (keepB_main_arg24 (after (opsA (F := Ideal)) V0)).trans k1_main_arg24
  have k2_main_arg25 := (keepB_main_arg25 (after (opsA (F := Ideal)) V0)).trans k1_main_arg25
  have k2_main_arg26 := (keepB_main_arg26 (after (opsA (F := Ideal)) V0)).trans k1_main_arg26
  have k2_main_arg27 := (keepB_main_arg27 (after (opsA (F := Ideal)) V0)).trans k1_main_arg27
  have h_main_v70 := stageC (after (opsB (F := Ideal)) (after (opsA (F := Ideal)) V0)) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg16)) (V0 (Proc.devRef .tc main_arg17)) k2_main_v1 h_main_v49 k2_main_v3 k2_main_arg8 k2_main_arg9 k2_main_arg10 k2_main_arg11
  have k3_main_arg18 := (keepC_main_arg18 (after (opsB (F := Ideal)) (after (opsA (F := Ideal)) V0))).trans k2_main_arg18
  have k3_main_arg19 := (keepC_main_arg19 (after (opsB (F := Ideal)) (after (opsA (F := Ideal)) V0))).trans k2_main_arg19
  have k3_main_v1 := (keepC_main_v1 (after (opsB (F := Ideal)) (after (opsA (F := Ideal)) V0))).trans k2_main_v1
  have k3_main_v3 := (keepC_main_v3 (after (opsB (F := Ideal)) (after (opsA (F := Ideal)) V0))).trans k2_main_v3
  have k3_main_arg12 := (keepC_main_arg12 (after (opsB (F := Ideal)) (after (opsA (F := Ideal)) V0))).trans k2_main_arg12
  have k3_main_arg13 := (keepC_main_arg13 (after (opsB (F := Ideal)) (after (opsA (F := Ideal)) V0))).trans k2_main_arg13
  have k3_main_arg14 := (keepC_main_arg14 (after (opsB (F := Ideal)) (after (opsA (F := Ideal)) V0))).trans k2_main_arg14
  have k3_main_arg15 := (keepC_main_arg15 (after (opsB (F := Ideal)) (after (opsA (F := Ideal)) V0))).trans k2_main_arg15
  have k3_main_arg20 := (keepC_main_arg20 (after (opsB (F := Ideal)) (after (opsA (F := Ideal)) V0))).trans k2_main_arg20
  have k3_main_arg21 := (keepC_main_arg21 (after (opsB (F := Ideal)) (after (opsA (F := Ideal)) V0))).trans k2_main_arg21
  have k3_main_arg2 := (keepC_main_arg2 (after (opsB (F := Ideal)) (after (opsA (F := Ideal)) V0))).trans k2_main_arg2
  have k3_main_arg3 := (keepC_main_arg3 (after (opsB (F := Ideal)) (after (opsA (F := Ideal)) V0))).trans k2_main_arg3
  have k3_main_arg22 := (keepC_main_arg22 (after (opsB (F := Ideal)) (after (opsA (F := Ideal)) V0))).trans k2_main_arg22
  have k3_main_arg23 := (keepC_main_arg23 (after (opsB (F := Ideal)) (after (opsA (F := Ideal)) V0))).trans k2_main_arg23
  have k3_main_arg24 := (keepC_main_arg24 (after (opsB (F := Ideal)) (after (opsA (F := Ideal)) V0))).trans k2_main_arg24
  have k3_main_arg25 := (keepC_main_arg25 (after (opsB (F := Ideal)) (after (opsA (F := Ideal)) V0))).trans k2_main_arg25
  have k3_main_arg26 := (keepC_main_arg26 (after (opsB (F := Ideal)) (after (opsA (F := Ideal)) V0))).trans k2_main_arg26
  have k3_main_arg27 := (keepC_main_arg27 (after (opsB (F := Ideal)) (after (opsA (F := Ideal)) V0))).trans k2_main_arg27
  have h_main_v95 := stageD (after (opsC (F := Ideal)) (after (opsB (F := Ideal)) (after (opsA (F := Ideal)) V0))) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg16)) (V0 (Proc.devRef .tc main_arg17)) (V0 (Proc.devRef .tc main_arg18)) (V0 (Proc.devRef .tc main_arg19)) h_main_v70 k3_main_arg18 k3_main_arg19
  have k4_main_v1 := (keepD_main_v1 (after (opsC (F := Ideal)) (after (opsB (F := Ideal)) (after (opsA (F := Ideal)) V0)))).trans k3_main_v1
  have k4_main_v3 := (keepD_main_v3 (after (opsC (F := Ideal)) (after (opsB (F := Ideal)) (after (opsA (F := Ideal)) V0)))).trans k3_main_v3
  have k4_main_arg12 := (keepD_main_arg12 (after (opsC (F := Ideal)) (after (opsB (F := Ideal)) (after (opsA (F := Ideal)) V0)))).trans k3_main_arg12
  have k4_main_arg13 := (keepD_main_arg13 (after (opsC (F := Ideal)) (after (opsB (F := Ideal)) (after (opsA (F := Ideal)) V0)))).trans k3_main_arg13
  have k4_main_arg14 := (keepD_main_arg14 (after (opsC (F := Ideal)) (after (opsB (F := Ideal)) (after (opsA (F := Ideal)) V0)))).trans k3_main_arg14
  have k4_main_arg15 := (keepD_main_arg15 (after (opsC (F := Ideal)) (after (opsB (F := Ideal)) (after (opsA (F := Ideal)) V0)))).trans k3_main_arg15
  have k4_main_arg20 := (keepD_main_arg20 (after (opsC (F := Ideal)) (after (opsB (F := Ideal)) (after (opsA (F := Ideal)) V0)))).trans k3_main_arg20
  have k4_main_arg21 := (keepD_main_arg21 (after (opsC (F := Ideal)) (after (opsB (F := Ideal)) (after (opsA (F := Ideal)) V0)))).trans k3_main_arg21
  have k4_main_arg2 := (keepD_main_arg2 (after (opsC (F := Ideal)) (after (opsB (F := Ideal)) (after (opsA (F := Ideal)) V0)))).trans k3_main_arg2
  have k4_main_arg3 := (keepD_main_arg3 (after (opsC (F := Ideal)) (after (opsB (F := Ideal)) (after (opsA (F := Ideal)) V0)))).trans k3_main_arg3
  have k4_main_arg22 := (keepD_main_arg22 (after (opsC (F := Ideal)) (after (opsB (F := Ideal)) (after (opsA (F := Ideal)) V0)))).trans k3_main_arg22
  have k4_main_arg23 := (keepD_main_arg23 (after (opsC (F := Ideal)) (after (opsB (F := Ideal)) (after (opsA (F := Ideal)) V0)))).trans k3_main_arg23
  have k4_main_arg24 := (keepD_main_arg24 (after (opsC (F := Ideal)) (after (opsB (F := Ideal)) (after (opsA (F := Ideal)) V0)))).trans k3_main_arg24
  have k4_main_arg25 := (keepD_main_arg25 (after (opsC (F := Ideal)) (after (opsB (F := Ideal)) (after (opsA (F := Ideal)) V0)))).trans k3_main_arg25
  have k4_main_arg26 := (keepD_main_arg26 (after (opsC (F := Ideal)) (after (opsB (F := Ideal)) (after (opsA (F := Ideal)) V0)))).trans k3_main_arg26
  have k4_main_arg27 := (keepD_main_arg27 (after (opsC (F := Ideal)) (after (opsB (F := Ideal)) (after (opsA (F := Ideal)) V0)))).trans k3_main_arg27
  have h_main_v116 := stageE (after (opsD (F := Ideal)) (after (opsC (F := Ideal)) (after (opsB (F := Ideal)) (after (opsA (F := Ideal)) V0)))) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) k4_main_v1 h_main_v95 k4_main_v3 k4_main_arg12 k4_main_arg13 k4_main_arg14 k4_main_arg15
  have k5_main_arg20 := (keepE_main_arg20 (after (opsD (F := Ideal)) (after (opsC (F := Ideal)) (after (opsB (F := Ideal)) (after (opsA (F := Ideal)) V0))))).trans k4_main_arg20
  have k5_main_arg21 := (keepE_main_arg21 (after (opsD (F := Ideal)) (after (opsC (F := Ideal)) (after (opsB (F := Ideal)) (after (opsA (F := Ideal)) V0))))).trans k4_main_arg21
  have k5_main_arg2 := (keepE_main_arg2 (after (opsD (F := Ideal)) (after (opsC (F := Ideal)) (after (opsB (F := Ideal)) (after (opsA (F := Ideal)) V0))))).trans k4_main_arg2
  have k5_main_arg3 := (keepE_main_arg3 (after (opsD (F := Ideal)) (after (opsC (F := Ideal)) (after (opsB (F := Ideal)) (after (opsA (F := Ideal)) V0))))).trans k4_main_arg3
  have k5_main_arg22 := (keepE_main_arg22 (after (opsD (F := Ideal)) (after (opsC (F := Ideal)) (after (opsB (F := Ideal)) (after (opsA (F := Ideal)) V0))))).trans k4_main_arg22
  have k5_main_arg23 := (keepE_main_arg23 (after (opsD (F := Ideal)) (after (opsC (F := Ideal)) (after (opsB (F := Ideal)) (after (opsA (F := Ideal)) V0))))).trans k4_main_arg23
  have k5_main_arg24 := (keepE_main_arg24 (after (opsD (F := Ideal)) (after (opsC (F := Ideal)) (after (opsB (F := Ideal)) (after (opsA (F := Ideal)) V0))))).trans k4_main_arg24
  have k5_main_arg25 := (keepE_main_arg25 (after (opsD (F := Ideal)) (after (opsC (F := Ideal)) (after (opsB (F := Ideal)) (after (opsA (F := Ideal)) V0))))).trans k4_main_arg25
  have k5_main_arg26 := (keepE_main_arg26 (after (opsD (F := Ideal)) (after (opsC (F := Ideal)) (after (opsB (F := Ideal)) (after (opsA (F := Ideal)) V0))))).trans k4_main_arg26
  have k5_main_arg27 := (keepE_main_arg27 (after (opsD (F := Ideal)) (after (opsC (F := Ideal)) (after (opsB (F := Ideal)) (after (opsA (F := Ideal)) V0))))).trans k4_main_arg27
  have h_main_v141 := stageF (after (opsE (F := Ideal)) (after (opsD (F := Ideal)) (after (opsC (F := Ideal)) (after (opsB (F := Ideal)) (after (opsA (F := Ideal)) V0))))) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) h_main_v116 k5_main_arg20 k5_main_arg21
  have k6_main_arg2 := (keepF_main_arg2 (after (opsE (F := Ideal)) (after (opsD (F := Ideal)) (after (opsC (F := Ideal)) (after (opsB (F := Ideal)) (after (opsA (F := Ideal)) V0)))))).trans k5_main_arg2
  have k6_main_arg3 := (keepF_main_arg3 (after (opsE (F := Ideal)) (after (opsD (F := Ideal)) (after (opsC (F := Ideal)) (after (opsB (F := Ideal)) (after (opsA (F := Ideal)) V0)))))).trans k5_main_arg3
  have k6_main_arg22 := (keepF_main_arg22 (after (opsE (F := Ideal)) (after (opsD (F := Ideal)) (after (opsC (F := Ideal)) (after (opsB (F := Ideal)) (after (opsA (F := Ideal)) V0)))))).trans k5_main_arg22
  have k6_main_arg23 := (keepF_main_arg23 (after (opsE (F := Ideal)) (after (opsD (F := Ideal)) (after (opsC (F := Ideal)) (after (opsB (F := Ideal)) (after (opsA (F := Ideal)) V0)))))).trans k5_main_arg23
  have k6_main_arg24 := (keepF_main_arg24 (after (opsE (F := Ideal)) (after (opsD (F := Ideal)) (after (opsC (F := Ideal)) (after (opsB (F := Ideal)) (after (opsA (F := Ideal)) V0)))))).trans k5_main_arg24
  have k6_main_arg25 := (keepF_main_arg25 (after (opsE (F := Ideal)) (after (opsD (F := Ideal)) (after (opsC (F := Ideal)) (after (opsB (F := Ideal)) (after (opsA (F := Ideal)) V0)))))).trans k5_main_arg25
  have k6_main_arg26 := (keepF_main_arg26 (after (opsE (F := Ideal)) (after (opsD (F := Ideal)) (after (opsC (F := Ideal)) (after (opsB (F := Ideal)) (after (opsA (F := Ideal)) V0)))))).trans k5_main_arg26
  have k6_main_arg27 := (keepF_main_arg27 (after (opsE (F := Ideal)) (after (opsD (F := Ideal)) (after (opsC (F := Ideal)) (after (opsB (F := Ideal)) (after (opsA (F := Ideal)) V0)))))).trans k5_main_arg27
  have h_main_v153 := stageG (after (opsF (F := Ideal)) (after (opsE (F := Ideal)) (after (opsD (F := Ideal)) (after (opsC (F := Ideal)) (after (opsB (F := Ideal)) (after (opsA (F := Ideal)) V0)))))) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) k6_main_arg2 h_main_v141
  have k7_main_arg3 := (keepG_main_arg3 (after (opsF (F := Ideal)) (after (opsE (F := Ideal)) (after (opsD (F := Ideal)) (after (opsC (F := Ideal)) (after (opsB (F := Ideal)) (after (opsA (F := Ideal)) V0))))))).trans k6_main_arg3
  have k7_main_arg22 := (keepG_main_arg22 (after (opsF (F := Ideal)) (after (opsE (F := Ideal)) (after (opsD (F := Ideal)) (after (opsC (F := Ideal)) (after (opsB (F := Ideal)) (after (opsA (F := Ideal)) V0))))))).trans k6_main_arg22
  have k7_main_arg23 := (keepG_main_arg23 (after (opsF (F := Ideal)) (after (opsE (F := Ideal)) (after (opsD (F := Ideal)) (after (opsC (F := Ideal)) (after (opsB (F := Ideal)) (after (opsA (F := Ideal)) V0))))))).trans k6_main_arg23
  have k7_main_arg24 := (keepG_main_arg24 (after (opsF (F := Ideal)) (after (opsE (F := Ideal)) (after (opsD (F := Ideal)) (after (opsC (F := Ideal)) (after (opsB (F := Ideal)) (after (opsA (F := Ideal)) V0))))))).trans k6_main_arg24
  have k7_main_arg25 := (keepG_main_arg25 (after (opsF (F := Ideal)) (after (opsE (F := Ideal)) (after (opsD (F := Ideal)) (after (opsC (F := Ideal)) (after (opsB (F := Ideal)) (after (opsA (F := Ideal)) V0))))))).trans k6_main_arg25
  have k7_main_arg26 := (keepG_main_arg26 (after (opsF (F := Ideal)) (after (opsE (F := Ideal)) (after (opsD (F := Ideal)) (after (opsC (F := Ideal)) (after (opsB (F := Ideal)) (after (opsA (F := Ideal)) V0))))))).trans k6_main_arg26
  have k7_main_arg27 := (keepG_main_arg27 (after (opsF (F := Ideal)) (after (opsE (F := Ideal)) (after (opsD (F := Ideal)) (after (opsC (F := Ideal)) (after (opsB (F := Ideal)) (after (opsA (F := Ideal)) V0))))))).trans k6_main_arg27
  have h_main_v168 := stageH (after (opsG (F := Ideal)) (after (opsF (F := Ideal)) (after (opsE (F := Ideal)) (after (opsD (F := Ideal)) (after (opsC (F := Ideal)) (after (opsB (F := Ideal)) (after (opsA (F := Ideal)) V0))))))) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) h_main_v153 k7_main_arg3 k7_main_arg22 k7_main_arg23 k7_main_arg24 k7_main_arg25 k7_main_arg26 k7_main_arg27
  exact h_main_v168

set_option maxHeartbeats 4000000 in
/-- On every device, from any memory with zero counters: every weakly fair execution of the reference terminates
    with the result at the last stage of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v168) = Read.val_main_v168 (F := Ideal)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) (m ((c.tc : Thread nD τ).loc main_arg20))
          (m ((c.tc : Thread nD τ).loc main_arg21)) (m ((c.tc : Thread nD τ).loc main_arg22)) (m ((c.tc : Thread nD τ).loc main_arg23))
          (m ((c.tc : Thread nD τ).loc main_arg24)) (m ((c.tc : Thread nD τ).loc main_arg25)) (m ((c.tc : Thread nD τ).loc main_arg26))
          (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨(h c main_v168).trans (result (launchContents m c)),
      (h c main_arg0).trans (Cert.ReferenceIdeal.RefArgs.arg0 _),
      (h c main_arg1).trans (Cert.ReferenceIdeal.RefArgs.arg1 _),
      (h c main_arg2).trans (Cert.ReferenceIdeal.RefArgs.arg2 _),
      (h c main_arg3).trans (Cert.ReferenceIdeal.RefArgs.arg3 _),
      (h c main_arg4).trans (Cert.ReferenceIdeal.RefArgs.arg4 _),
      (h c main_arg5).trans (Cert.ReferenceIdeal.RefArgs.arg5 _),
      (h c main_arg6).trans (Cert.ReferenceIdeal.RefArgs.arg6 _),
      (h c main_arg7).trans (Cert.ReferenceIdeal.RefArgs.arg7 _),
      (h c main_arg8).trans (Cert.ReferenceIdeal.RefArgs.arg8 _),
      (h c main_arg9).trans (Cert.ReferenceIdeal.RefArgs.arg9 _),
      (h c main_arg10).trans (Cert.ReferenceIdeal.RefArgs.arg10 _),
      (h c main_arg11).trans (Cert.ReferenceIdeal.RefArgs.arg11 _),
      (h c main_arg12).trans (Cert.ReferenceIdeal.RefArgs.arg12 _),
      (h c main_arg13).trans (Cert.ReferenceIdeal.RefArgs.arg13 _),
      (h c main_arg14).trans (Cert.ReferenceIdeal.RefArgs.arg14 _),
      (h c main_arg15).trans (Cert.ReferenceIdeal.RefArgs.arg15 _),
      (h c main_arg16).trans (Cert.ReferenceIdeal.RefArgs.arg16 _),
      (h c main_arg17).trans (Cert.ReferenceIdeal.RefArgs.arg17 _),
      (h c main_arg18).trans (Cert.ReferenceIdeal.RefArgs.arg18 _),
      (h c main_arg19).trans (Cert.ReferenceIdeal.RefArgs.arg19 _),
      (h c main_arg20).trans (Cert.ReferenceIdeal.RefArgs.arg20 _),
      (h c main_arg21).trans (Cert.ReferenceIdeal.RefArgs.arg21 _),
      (h c main_arg22).trans (Cert.ReferenceIdeal.RefArgs.arg22 _),
      (h c main_arg23).trans (Cert.ReferenceIdeal.RefArgs.arg23 _),
      (h c main_arg24).trans (Cert.ReferenceIdeal.RefArgs.arg24 _),
      (h c main_arg25).trans (Cert.ReferenceIdeal.RefArgs.arg25 _),
      (h c main_arg26).trans (Cert.ReferenceIdeal.RefArgs.arg26 _),
      (h c main_arg27).trans (Cert.ReferenceIdeal.RefArgs.arg27 _)⟩)
    (run_seq scopedRefs_eq scopedSems_eq defs main (fun _ => ops) main_eq (fun _ => ops_sub) m ρ)

end Cert.ReferenceIdeal.RefRun

end
-- ==== Proof.Carry.lean ====
import proofs.«132165_j27702539059447_2_alg».proof.Proof.Gen.KernelIdeal.Frame

/-!
Buffers that pass untouched through stretches of host operations and through kernel regions: an argument read
at a late boundary still holds its launch contents, and a buffer a host stretch wrote is still there when a later
stretch reads it, because no operation and no region in between writes it.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- A stretch of host operations leaves a buffer none of them writes as it was. -/
macro "skip_stretch " ops:ident b:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W1_main_arg0 (c : Dev nD) : W1 m ρ c (Proc.devRef .tc main_arg0) = m ((c : Thread nD τ).loc main_arg0) :=
  ((by skip_stretch hostOps0 main_arg0 : W1 m ρ c (Proc.devRef .tc main_arg0) = W0 m ρ c (Proc.devRef .tc main_arg0)).trans rfl)

theorem W1_main_arg4 (c : Dev nD) : W1 m ρ c (Proc.devRef .tc main_arg4) = m ((c : Thread nD τ).loc main_arg4) :=
  ((by skip_stretch hostOps0 main_arg4 : W1 m ρ c (Proc.devRef .tc main_arg4) = W0 m ρ c (Proc.devRef .tc main_arg4)).trans rfl)

theorem W1_main_arg6 (c : Dev nD) : W1 m ρ c (Proc.devRef .tc main_arg6) = m ((c : Thread nD τ).loc main_arg6) :=
  ((by skip_stretch hostOps0 main_arg6 : W1 m ρ c (Proc.devRef .tc main_arg6) = W0 m ρ c (Proc.devRef .tc main_arg6)).trans rfl)

theorem W2_main_arg16 (c : Dev nD) : W2 m ρ c (Proc.devRef .tc main_arg16) = m ((c : Thread nD τ).loc main_arg16) :=
  (((W2_of_ne m ρ c main_arg16 (by decide)).trans (by skip_stretch hostOps0 main_arg16 : W1 m ρ c (Proc.devRef .tc main_arg16) = W0 m ρ c (Proc.devRef .tc main_arg16))).trans rfl)

theorem W2_main_arg17 (c : Dev nD) : W2 m ρ c (Proc.devRef .tc main_arg17) = m ((c : Thread nD τ).loc main_arg17) :=
  (((W2_of_ne m ρ c main_arg17 (by decide)).trans (by skip_stretch hostOps0 main_arg17 : W1 m ρ c (Proc.devRef .tc main_arg17) = W0 m ρ c (Proc.devRef .tc main_arg17))).trans rfl)

theorem W3_main_v16_0 (c : Dev nD) : W3 m ρ c (Proc.devRef .tc main_v16_0) = W2 m ρ c (Proc.devRef .tc main_v16_0) :=
  (by skip_stretch hostOps1 main_v16_0 : W3 m ρ c (Proc.devRef .tc main_v16_0) = W2 m ρ c (Proc.devRef .tc main_v16_0))

theorem W4_main_v1 (c : Dev nD) : W4 m ρ c (Proc.devRef .tc main_v1) = W1 m ρ c (Proc.devRef .tc main_v1) :=
  ((W4_of_ne m ρ c main_v1 (by decide)).trans ((by skip_stretch hostOps1 main_v1 : W3 m ρ c (Proc.devRef .tc main_v1) = W2 m ρ c (Proc.devRef .tc main_v1)).trans (W2_of_ne m ρ c main_v1 (by decide))))

theorem W4_main_v3 (c : Dev nD) : W4 m ρ c (Proc.devRef .tc main_v3) = W1 m ρ c (Proc.devRef .tc main_v3) :=
  ((W4_of_ne m ρ c main_v3 (by decide)).trans ((by skip_stretch hostOps1 main_v3 : W3 m ρ c (Proc.devRef .tc main_v3) = W2 m ρ c (Proc.devRef .tc main_v3)).trans (W2_of_ne m ρ c main_v3 (by decide))))

theorem W4_main_arg9 (c : Dev nD) : W4 m ρ c (Proc.devRef .tc main_arg9) = m ((c : Thread nD τ).loc main_arg9) :=
  (((W4_of_ne m ρ c main_arg9 (by decide)).trans ((by skip_stretch hostOps1 main_arg9 : W3 m ρ c (Proc.devRef .tc main_arg9) = W2 m ρ c (Proc.devRef .tc main_arg9)).trans ((W2_of_ne m ρ c main_arg9 (by decide)).trans (by skip_stretch hostOps0 main_arg9 : W1 m ρ c (Proc.devRef .tc main_arg9) = W0 m ρ c (Proc.devRef .tc main_arg9))))).trans rfl)

theorem W4_main_arg11 (c : Dev nD) : W4 m ρ c (Proc.devRef .tc main_arg11) = m ((c : Thread nD τ).loc main_arg11) :=
  (((W4_of_ne m ρ c main_arg11 (by decide)).trans ((by skip_stretch hostOps1 main_arg11 : W3 m ρ c (Proc.devRef .tc main_arg11) = W2 m ρ c (Proc.devRef .tc main_arg11)).trans ((W2_of_ne m ρ c main_arg11 (by decide)).trans (by skip_stretch hostOps0 main_arg11 : W1 m ρ c (Proc.devRef .tc main_arg11) = W0 m ρ c (Proc.devRef .tc main_arg11))))).trans rfl)

theorem W5_main_arg8 (c : Dev nD) : W5 m ρ c (Proc.devRef .tc main_arg8) = m ((c : Thread nD τ).loc main_arg8) :=
  (((by skip_stretch hostOps2 main_arg8 : W5 m ρ c (Proc.devRef .tc main_arg8) = W4 m ρ c (Proc.devRef .tc main_arg8)).trans ((W4_of_ne m ρ c main_arg8 (by decide)).trans ((by skip_stretch hostOps1 main_arg8 : W3 m ρ c (Proc.devRef .tc main_arg8) = W2 m ρ c (Proc.devRef .tc main_arg8)).trans ((W2_of_ne m ρ c main_arg8 (by decide)).trans (by skip_stretch hostOps0 main_arg8 : W1 m ρ c (Proc.devRef .tc main_arg8) = W0 m ρ c (Proc.devRef .tc main_arg8)))))).trans rfl)

theorem W5_main_arg10 (c : Dev nD) : W5 m ρ c (Proc.devRef .tc main_arg10) = m ((c : Thread nD τ).loc main_arg10) :=
  (((by skip_stretch hostOps2 main_arg10 : W5 m ρ c (Proc.devRef .tc main_arg10) = W4 m ρ c (Proc.devRef .tc main_arg10)).trans ((W4_of_ne m ρ c main_arg10 (by decide)).trans ((by skip_stretch hostOps1 main_arg10 : W3 m ρ c (Proc.devRef .tc main_arg10) = W2 m ρ c (Proc.devRef .tc main_arg10)).trans ((W2_of_ne m ρ c main_arg10 (by decide)).trans (by skip_stretch hostOps0 main_arg10 : W1 m ρ c (Proc.devRef .tc main_arg10) = W0 m ρ c (Proc.devRef .tc main_arg10)))))).trans rfl)

theorem W5_main_v30 (c : Dev nD) : W5 m ρ c (Proc.devRef .tc main_v30) = W4 m ρ c (Proc.devRef .tc main_v30) :=
  (by skip_stretch hostOps2 main_v30 : W5 m ρ c (Proc.devRef .tc main_v30) = W4 m ρ c (Proc.devRef .tc main_v30))

theorem W6_main_arg18 (c : Dev nD) : W6 m ρ c (Proc.devRef .tc main_arg18) = m ((c : Thread nD τ).loc main_arg18) :=
  (((W6_of_ne m ρ c main_arg18 (by decide)).trans ((by skip_stretch hostOps2 main_arg18 : W5 m ρ c (Proc.devRef .tc main_arg18) = W4 m ρ c (Proc.devRef .tc main_arg18)).trans ((W4_of_ne m ρ c main_arg18 (by decide)).trans ((by skip_stretch hostOps1 main_arg18 : W3 m ρ c (Proc.devRef .tc main_arg18) = W2 m ρ c (Proc.devRef .tc main_arg18)).trans ((W2_of_ne m ρ c main_arg18 (by decide)).trans (by skip_stretch hostOps0 main_arg18 : W1 m ρ c (Proc.devRef .tc main_arg18) = W0 m ρ c (Proc.devRef .tc main_arg18))))))).trans rfl)

theorem W6_main_arg19 (c : Dev nD) : W6 m ρ c (Proc.devRef .tc main_arg19) = m ((c : Thread nD τ).loc main_arg19) :=
  (((W6_of_ne m ρ c main_arg19 (by decide)).trans ((by skip_stretch hostOps2 main_arg19 : W5 m ρ c (Proc.devRef .tc main_arg19) = W4 m ρ c (Proc.devRef .tc main_arg19)).trans ((W4_of_ne m ρ c main_arg19 (by decide)).trans ((by skip_stretch hostOps1 main_arg19 : W3 m ρ c (Proc.devRef .tc main_arg19) = W2 m ρ c (Proc.devRef .tc main_arg19)).trans ((W2_of_ne m ρ c main_arg19 (by decide)).trans (by skip_stretch hostOps0 main_arg19 : W1 m ρ c (Proc.devRef .tc main_arg19) = W0 m ρ c (Proc.devRef .tc main_arg19))))))).trans rfl)

theorem W7_main_v43_0 (c : Dev nD) : W7 m ρ c (Proc.devRef .tc main_v43_0) = W6 m ρ c (Proc.devRef .tc main_v43_0) :=
  (by skip_stretch hostOps3 main_v43_0 : W7 m ρ c (Proc.devRef .tc main_v43_0) = W6 m ρ c (Proc.devRef .tc main_v43_0))

theorem W8_main_v1 (c : Dev nD) : W8 m ρ c (Proc.devRef .tc main_v1) = W1 m ρ c (Proc.devRef .tc main_v1) :=
  ((W8_of_ne m ρ c main_v1 (by decide)).trans ((by skip_stretch hostOps3 main_v1 : W7 m ρ c (Proc.devRef .tc main_v1) = W6 m ρ c (Proc.devRef .tc main_v1)).trans ((W6_of_ne m ρ c main_v1 (by decide)).trans ((by skip_stretch hostOps2 main_v1 : W5 m ρ c (Proc.devRef .tc main_v1) = W4 m ρ c (Proc.devRef .tc main_v1)).trans ((W4_of_ne m ρ c main_v1 (by decide)).trans ((by skip_stretch hostOps1 main_v1 : W3 m ρ c (Proc.devRef .tc main_v1) = W2 m ρ c (Proc.devRef .tc main_v1)).trans (W2_of_ne m ρ c main_v1 (by decide))))))))

theorem W8_main_v3 (c : Dev nD) : W8 m ρ c (Proc.devRef .tc main_v3) = W1 m ρ c (Proc.devRef .tc main_v3) :=
  ((W8_of_ne m ρ c main_v3 (by decide)).trans ((by skip_stretch hostOps3 main_v3 : W7 m ρ c (Proc.devRef .tc main_v3) = W6 m ρ c (Proc.devRef .tc main_v3)).trans ((W6_of_ne m ρ c main_v3 (by decide)).trans ((by skip_stretch hostOps2 main_v3 : W5 m ρ c (Proc.devRef .tc main_v3) = W4 m ρ c (Proc.devRef .tc main_v3)).trans ((W4_of_ne m ρ c main_v3 (by decide)).trans ((by skip_stretch hostOps1 main_v3 : W3 m ρ c (Proc.devRef .tc main_v3) = W2 m ρ c (Proc.devRef .tc main_v3)).trans (W2_of_ne m ρ c main_v3 (by decide))))))))

theorem W8_main_arg13 (c : Dev nD) : W8 m ρ c (Proc.devRef .tc main_arg13) = m ((c : Thread nD τ).loc main_arg13) :=
  (((W8_of_ne m ρ c main_arg13 (by decide)).trans ((by skip_stretch hostOps3 main_arg13 : W7 m ρ c (Proc.devRef .tc main_arg13) = W6 m ρ c (Proc.devRef .tc main_arg13)).trans ((W6_of_ne m ρ c main_arg13 (by decide)).trans ((by skip_stretch hostOps2 main_arg13 : W5 m ρ c (Proc.devRef .tc main_arg13) = W4 m ρ c (Proc.devRef .tc main_arg13)).trans ((W4_of_ne m ρ c main_arg13 (by decide)).trans ((by skip_stretch hostOps1 main_arg13 : W3 m ρ c (Proc.devRef .tc main_arg13) = W2 m ρ c (Proc.devRef .tc main_arg13)).trans ((W2_of_ne m ρ c main_arg13 (by decide)).trans (by skip_stretch hostOps0 main_arg13 : W1 m ρ c (Proc.devRef .tc main_arg13) = W0 m ρ c (Proc.devRef .tc main_arg13))))))))).trans rfl)

theorem W8_main_arg15 (c : Dev nD) : W8 m ρ c (Proc.devRef .tc main_arg15) = m ((c : Thread nD τ).loc main_arg15) :=
  (((W8_of_ne m ρ c main_arg15 (by decide)).trans ((by skip_stretch hostOps3 main_arg15 : W7 m ρ c (Proc.devRef .tc main_arg15) = W6 m ρ c (Proc.devRef .tc main_arg15)).trans ((W6_of_ne m ρ c main_arg15 (by decide)).trans ((by skip_stretch hostOps2 main_arg15 : W5 m ρ c (Proc.devRef .tc main_arg15) = W4 m ρ c (Proc.devRef .tc main_arg15)).trans ((W4_of_ne m ρ c main_arg15 (by decide)).trans ((by skip_stretch hostOps1 main_arg15 : W3 m ρ c (Proc.devRef .tc main_arg15) = W2 m ρ c (Proc.devRef .tc main_arg15)).trans ((W2_of_ne m ρ c main_arg15 (by decide)).trans (by skip_stretch hostOps0 main_arg15 : W1 m ρ c (Proc.devRef .tc main_arg15) = W0 m ρ c (Proc.devRef .tc main_arg15))))))))).trans rfl)

theorem W9_main_arg12 (c : Dev nD) : W9 m ρ c (Proc.devRef .tc main_arg12) = m ((c : Thread nD τ).loc main_arg12) :=
  (((by skip_stretch hostOps4 main_arg12 : W9 m ρ c (Proc.devRef .tc main_arg12) = W8 m ρ c (Proc.devRef .tc main_arg12)).trans ((W8_of_ne m ρ c main_arg12 (by decide)).trans ((by skip_stretch hostOps3 main_arg12 : W7 m ρ c (Proc.devRef .tc main_arg12) = W6 m ρ c (Proc.devRef .tc main_arg12)).trans ((W6_of_ne m ρ c main_arg12 (by decide)).trans ((by skip_stretch hostOps2 main_arg12 : W5 m ρ c (Proc.devRef .tc main_arg12) = W4 m ρ c (Proc.devRef .tc main_arg12)).trans ((W4_of_ne m ρ c main_arg12 (by decide)).trans ((by skip_stretch hostOps1 main_arg12 : W3 m ρ c (Proc.devRef .tc main_arg12) = W2 m ρ c (Proc.devRef .tc main_arg12)).trans ((W2_of_ne m ρ c main_arg12 (by decide)).trans (by skip_stretch hostOps0 main_arg12 : W1 m ρ c (Proc.devRef .tc main_arg12) = W0 m ρ c (Proc.devRef .tc main_arg12)))))))))).trans rfl)

theorem W9_main_arg14 (c : Dev nD) : W9 m ρ c (Proc.devRef .tc main_arg14) = m ((c : Thread nD τ).loc main_arg14) :=
  (((by skip_stretch hostOps4 main_arg14 : W9 m ρ c (Proc.devRef .tc main_arg14) = W8 m ρ c (Proc.devRef .tc main_arg14)).trans ((W8_of_ne m ρ c main_arg14 (by decide)).trans ((by skip_stretch hostOps3 main_arg14 : W7 m ρ c (Proc.devRef .tc main_arg14) = W6 m ρ c (Proc.devRef .tc main_arg14)).trans ((W6_of_ne m ρ c main_arg14 (by decide)).trans ((by skip_stretch hostOps2 main_arg14 : W5 m ρ c (Proc.devRef .tc main_arg14) = W4 m ρ c (Proc.devRef .tc main_arg14)).trans ((W4_of_ne m ρ c main_arg14 (by decide)).trans ((by skip_stretch hostOps1 main_arg14 : W3 m ρ c (Proc.devRef .tc main_arg14) = W2 m ρ c (Proc.devRef .tc main_arg14)).trans ((W2_of_ne m ρ c main_arg14 (by decide)).trans (by skip_stretch hostOps0 main_arg14 : W1 m ρ c (Proc.devRef .tc main_arg14) = W0 m ρ c (Proc.devRef .tc main_arg14)))))))))).trans rfl)

theorem W9_main_v57 (c : Dev nD) : W9 m ρ c (Proc.devRef .tc main_v57) = W8 m ρ c (Proc.devRef .tc main_v57) :=
  (by skip_stretch hostOps4 main_v57 : W9 m ρ c (Proc.devRef .tc main_v57) = W8 m ρ c (Proc.devRef .tc main_v57))

theorem W10_main_arg20 (c : Dev nD) : W10 m ρ c (Proc.devRef .tc main_arg20) = m ((c : Thread nD τ).loc main_arg20) :=
  (((W10_of_ne m ρ c main_arg20 (by decide)).trans ((by skip_stretch hostOps4 main_arg20 : W9 m ρ c (Proc.devRef .tc main_arg20) = W8 m ρ c (Proc.devRef .tc main_arg20)).trans ((W8_of_ne m ρ c main_arg20 (by decide)).trans ((by skip_stretch hostOps3 main_arg20 : W7 m ρ c (Proc.devRef .tc main_arg20) = W6 m ρ c (Proc.devRef .tc main_arg20)).trans ((W6_of_ne m ρ c main_arg20 (by decide)).trans ((by skip_stretch hostOps2 main_arg20 : W5 m ρ c (Proc.devRef .tc main_arg20) = W4 m ρ c (Proc.devRef .tc main_arg20)).trans ((W4_of_ne m ρ c main_arg20 (by decide)).trans ((by skip_stretch hostOps1 main_arg20 : W3 m ρ c (Proc.devRef .tc main_arg20) = W2 m ρ c (Proc.devRef .tc main_arg20)).trans ((W2_of_ne m ρ c main_arg20 (by decide)).trans (by skip_stretch hostOps0 main_arg20 : W1 m ρ c (Proc.devRef .tc main_arg20) = W0 m ρ c (Proc.devRef .tc main_arg20))))))))))).trans rfl)

theorem W10_main_arg21 (c : Dev nD) : W10 m ρ c (Proc.devRef .tc main_arg21) = m ((c : Thread nD τ).loc main_arg21) :=
  (((W10_of_ne m ρ c main_arg21 (by decide)).trans ((by skip_stretch hostOps4 main_arg21 : W9 m ρ c (Proc.devRef .tc main_arg21) = W8 m ρ c (Proc.devRef .tc main_arg21)).trans ((W8_of_ne m ρ c main_arg21 (by decide)).trans ((by skip_stretch hostOps3 main_arg21 : W7 m ρ c (Proc.devRef .tc main_arg21) = W6 m ρ c (Proc.devRef .tc main_arg21)).trans ((W6_of_ne m ρ c main_arg21 (by decide)).trans ((by skip_stretch hostOps2 main_arg21 : W5 m ρ c (Proc.devRef .tc main_arg21) = W4 m ρ c (Proc.devRef .tc main_arg21)).trans ((W4_of_ne m ρ c main_arg21 (by decide)).trans ((by skip_stretch hostOps1 main_arg21 : W3 m ρ c (Proc.devRef .tc main_arg21) = W2 m ρ c (Proc.devRef .tc main_arg21)).trans ((W2_of_ne m ρ c main_arg21 (by decide)).trans (by skip_stretch hostOps0 main_arg21 : W1 m ρ c (Proc.devRef .tc main_arg21) = W0 m ρ c (Proc.devRef .tc main_arg21))))))))))).trans rfl)

theorem W11_main_v70_0 (c : Dev nD) : W11 m ρ c (Proc.devRef .tc main_v70_0) = W10 m ρ c (Proc.devRef .tc main_v70_0) :=
  (by skip_stretch hostOps5 main_v70_0 : W11 m ρ c (Proc.devRef .tc main_v70_0) = W10 m ρ c (Proc.devRef .tc main_v70_0))

theorem W12_main_arg2 (c : Dev nD) : W12 m ρ c (Proc.devRef .tc main_arg2) = m ((c : Thread nD τ).loc main_arg2) :=
  (((W12_of_ne m ρ c main_arg2 (by decide)).trans ((by skip_stretch hostOps5 main_arg2 : W11 m ρ c (Proc.devRef .tc main_arg2) = W10 m ρ c (Proc.devRef .tc main_arg2)).trans ((W10_of_ne m ρ c main_arg2 (by decide)).trans ((by skip_stretch hostOps4 main_arg2 : W9 m ρ c (Proc.devRef .tc main_arg2) = W8 m ρ c (Proc.devRef .tc main_arg2)).trans ((W8_of_ne m ρ c main_arg2 (by decide)).trans ((by skip_stretch hostOps3 main_arg2 : W7 m ρ c (Proc.devRef .tc main_arg2) = W6 m ρ c (Proc.devRef .tc main_arg2)).trans ((W6_of_ne m ρ c main_arg2 (by decide)).trans ((by skip_stretch hostOps2 main_arg2 : W5 m ρ c (Proc.devRef .tc main_arg2) = W4 m ρ c (Proc.devRef .tc main_arg2)).trans ((W4_of_ne m ρ c main_arg2 (by decide)).trans ((by skip_stretch hostOps1 main_arg2 : W3 m ρ c (Proc.devRef .tc main_arg2) = W2 m ρ c (Proc.devRef .tc main_arg2)).trans ((W2_of_ne m ρ c main_arg2 (by decide)).trans (by skip_stretch hostOps0 main_arg2 : W1 m ρ c (Proc.devRef .tc main_arg2) = W0 m ρ c (Proc.devRef .tc main_arg2))))))))))))).trans rfl)

theorem W12_main_arg3 (c : Dev nD) : W12 m ρ c (Proc.devRef .tc main_arg3) = m ((c : Thread nD τ).loc main_arg3) :=
  (((W12_of_ne m ρ c main_arg3 (by decide)).trans ((by skip_stretch hostOps5 main_arg3 : W11 m ρ c (Proc.devRef .tc main_arg3) = W10 m ρ c (Proc.devRef .tc main_arg3)).trans ((W10_of_ne m ρ c main_arg3 (by decide)).trans ((by skip_stretch hostOps4 main_arg3 : W9 m ρ c (Proc.devRef .tc main_arg3) = W8 m ρ c (Proc.devRef .tc main_arg3)).trans ((W8_of_ne m ρ c main_arg3 (by decide)).trans ((by skip_stretch hostOps3 main_arg3 : W7 m ρ c (Proc.devRef .tc main_arg3) = W6 m ρ c (Proc.devRef .tc main_arg3)).trans ((W6_of_ne m ρ c main_arg3 (by decide)).trans ((by skip_stretch hostOps2 main_arg3 : W5 m ρ c (Proc.devRef .tc main_arg3) = W4 m ρ c (Proc.devRef .tc main_arg3)).trans ((W4_of_ne m ρ c main_arg3 (by decide)).trans ((by skip_stretch hostOps1 main_arg3 : W3 m ρ c (Proc.devRef .tc main_arg3) = W2 m ρ c (Proc.devRef .tc main_arg3)).trans ((W2_of_ne m ρ c main_arg3 (by decide)).trans (by skip_stretch hostOps0 main_arg3 : W1 m ρ c (Proc.devRef .tc main_arg3) = W0 m ρ c (Proc.devRef .tc main_arg3))))))))))))).trans rfl)

theorem W12_main_arg23 (c : Dev nD) : W12 m ρ c (Proc.devRef .tc main_arg23) = m ((c : Thread nD τ).loc main_arg23) :=
  (((W12_of_ne m ρ c main_arg23 (by decide)).trans ((by skip_stretch hostOps5 main_arg23 : W11 m ρ c (Proc.devRef .tc main_arg23) = W10 m ρ c (Proc.devRef .tc main_arg23)).trans ((W10_of_ne m ρ c main_arg23 (by decide)).trans ((by skip_stretch hostOps4 main_arg23 : W9 m ρ c (Proc.devRef .tc main_arg23) = W8 m ρ c (Proc.devRef .tc main_arg23)).trans ((W8_of_ne m ρ c main_arg23 (by decide)).trans ((by skip_stretch hostOps3 main_arg23 : W7 m ρ c (Proc.devRef .tc main_arg23) = W6 m ρ c (Proc.devRef .tc main_arg23)).trans ((W6_of_ne m ρ c main_arg23 (by decide)).trans ((by skip_stretch hostOps2 main_arg23 : W5 m ρ c (Proc.devRef .tc main_arg23) = W4 m ρ c (Proc.devRef .tc main_arg23)).trans ((W4_of_ne m ρ c main_arg23 (by decide)).trans ((by skip_stretch hostOps1 main_arg23 : W3 m ρ c (Proc.devRef .tc main_arg23) = W2 m ρ c (Proc.devRef .tc main_arg23)).trans ((W2_of_ne m ρ c main_arg23 (by decide)).trans (by skip_stretch hostOps0 main_arg23 : W1 m ρ c (Proc.devRef .tc main_arg23) = W0 m ρ c (Proc.devRef .tc main_arg23))))))))))))).trans rfl)

theorem W12_main_arg25 (c : Dev nD) : W12 m ρ c (Proc.devRef .tc main_arg25) = m ((c : Thread nD τ).loc main_arg25) :=
  (((W12_of_ne m ρ c main_arg25 (by decide)).trans ((by skip_stretch hostOps5 main_arg25 : W11 m ρ c (Proc.devRef .tc main_arg25) = W10 m ρ c (Proc.devRef .tc main_arg25)).trans ((W10_of_ne m ρ c main_arg25 (by decide)).trans ((by skip_stretch hostOps4 main_arg25 : W9 m ρ c (Proc.devRef .tc main_arg25) = W8 m ρ c (Proc.devRef .tc main_arg25)).trans ((W8_of_ne m ρ c main_arg25 (by decide)).trans ((by skip_stretch hostOps3 main_arg25 : W7 m ρ c (Proc.devRef .tc main_arg25) = W6 m ρ c (Proc.devRef .tc main_arg25)).trans ((W6_of_ne m ρ c main_arg25 (by decide)).trans ((by skip_stretch hostOps2 main_arg25 : W5 m ρ c (Proc.devRef .tc main_arg25) = W4 m ρ c (Proc.devRef .tc main_arg25)).trans ((W4_of_ne m ρ c main_arg25 (by decide)).trans ((by skip_stretch hostOps1 main_arg25 : W3 m ρ c (Proc.devRef .tc main_arg25) = W2 m ρ c (Proc.devRef .tc main_arg25)).trans ((W2_of_ne m ρ c main_arg25 (by decide)).trans (by skip_stretch hostOps0 main_arg25 : W1 m ρ c (Proc.devRef .tc main_arg25) = W0 m ρ c (Proc.devRef .tc main_arg25))))))))))))).trans rfl)

theorem W12_main_arg27 (c : Dev nD) : W12 m ρ c (Proc.devRef .tc main_arg27) = m ((c : Thread nD τ).loc main_arg27) :=
  (((W12_of_ne m ρ c main_arg27 (by decide)).trans ((by skip_stretch hostOps5 main_arg27 : W11 m ρ c (Proc.devRef .tc main_arg27) = W10 m ρ c (Proc.devRef .tc main_arg27)).trans ((W10_of_ne m ρ c main_arg27 (by decide)).trans ((by skip_stretch hostOps4 main_arg27 : W9 m ρ c (Proc.devRef .tc main_arg27) = W8 m ρ c (Proc.devRef .tc main_arg27)).trans ((W8_of_ne m ρ c main_arg27 (by decide)).trans ((by skip_stretch hostOps3 main_arg27 : W7 m ρ c (Proc.devRef .tc main_arg27) = W6 m ρ c (Proc.devRef .tc main_arg27)).trans ((W6_of_ne m ρ c main_arg27 (by decide)).trans ((by skip_stretch hostOps2 main_arg27 : W5 m ρ c (Proc.devRef .tc main_arg27) = W4 m ρ c (Proc.devRef .tc main_arg27)).trans ((W4_of_ne m ρ c main_arg27 (by decide)).trans ((by skip_stretch hostOps1 main_arg27 : W3 m ρ c (Proc.devRef .tc main_arg27) = W2 m ρ c (Proc.devRef .tc main_arg27)).trans ((W2_of_ne m ρ c main_arg27 (by decide)).trans (by skip_stretch hostOps0 main_arg27 : W1 m ρ c (Proc.devRef .tc main_arg27) = W0 m ρ c (Proc.devRef .tc main_arg27))))))))))))).trans rfl)

theorem W13_main_arg22 (c : Dev nD) : W13 m ρ c (Proc.devRef .tc main_arg22) = m ((c : Thread nD τ).loc main_arg22) :=
  (((by skip_stretch hostOps6 main_arg22 : W13 m ρ c (Proc.devRef .tc main_arg22) = W12 m ρ c (Proc.devRef .tc main_arg22)).trans ((W12_of_ne m ρ c main_arg22 (by decide)).trans ((by skip_stretch hostOps5 main_arg22 : W11 m ρ c (Proc.devRef .tc main_arg22) = W10 m ρ c (Proc.devRef .tc main_arg22)).trans ((W10_of_ne m ρ c main_arg22 (by decide)).trans ((by skip_stretch hostOps4 main_arg22 : W9 m ρ c (Proc.devRef .tc main_arg22) = W8 m ρ c (Proc.devRef .tc main_arg22)).trans ((W8_of_ne m ρ c main_arg22 (by decide)).trans ((by skip_stretch hostOps3 main_arg22 : W7 m ρ c (Proc.devRef .tc main_arg22) = W6 m ρ c (Proc.devRef .tc main_arg22)).trans ((W6_of_ne m ρ c main_arg22 (by decide)).trans ((by skip_stretch hostOps2 main_arg22 : W5 m ρ c (Proc.devRef .tc main_arg22) = W4 m ρ c (Proc.devRef .tc main_arg22)).trans ((W4_of_ne m ρ c main_arg22 (by decide)).trans ((by skip_stretch hostOps1 main_arg22 : W3 m ρ c (Proc.devRef .tc main_arg22) = W2 m ρ c (Proc.devRef .tc main_arg22)).trans ((W2_of_ne m ρ c main_arg22 (by decide)).trans (by skip_stretch hostOps0 main_arg22 : W1 m ρ c (Proc.devRef .tc main_arg22) = W0 m ρ c (Proc.devRef .tc main_arg22)))))))))))))).trans rfl)

theorem W13_main_arg24 (c : Dev nD) : W13 m ρ c (Proc.devRef .tc main_arg24) = m ((c : Thread nD τ).loc main_arg24) :=
  (((by skip_stretch hostOps6 main_arg24 : W13 m ρ c (Proc.devRef .tc main_arg24) = W12 m ρ c (Proc.devRef .tc main_arg24)).trans ((W12_of_ne m ρ c main_arg24 (by decide)).trans ((by skip_stretch hostOps5 main_arg24 : W11 m ρ c (Proc.devRef .tc main_arg24) = W10 m ρ c (Proc.devRef .tc main_arg24)).trans ((W10_of_ne m ρ c main_arg24 (by decide)).trans ((by skip_stretch hostOps4 main_arg24 : W9 m ρ c (Proc.devRef .tc main_arg24) = W8 m ρ c (Proc.devRef .tc main_arg24)).trans ((W8_of_ne m ρ c main_arg24 (by decide)).trans ((by skip_stretch hostOps3 main_arg24 : W7 m ρ c (Proc.devRef .tc main_arg24) = W6 m ρ c (Proc.devRef .tc main_arg24)).trans ((W6_of_ne m ρ c main_arg24 (by decide)).trans ((by skip_stretch hostOps2 main_arg24 : W5 m ρ c (Proc.devRef .tc main_arg24) = W4 m ρ c (Proc.devRef .tc main_arg24)).trans ((W4_of_ne m ρ c main_arg24 (by decide)).trans ((by skip_stretch hostOps1 main_arg24 : W3 m ρ c (Proc.devRef .tc main_arg24) = W2 m ρ c (Proc.devRef .tc main_arg24)).trans ((W2_of_ne m ρ c main_arg24 (by decide)).trans (by skip_stretch hostOps0 main_arg24 : W1 m ρ c (Proc.devRef .tc main_arg24) = W0 m ρ c (Proc.devRef .tc main_arg24)))))))))))))).trans rfl)

theorem W13_main_arg26 (c : Dev nD) : W13 m ρ c (Proc.devRef .tc main_arg26) = m ((c : Thread nD τ).loc main_arg26) :=
  (((by skip_stretch hostOps6 main_arg26 : W13 m ρ c (Proc.devRef .tc main_arg26) = W12 m ρ c (Proc.devRef .tc main_arg26)).trans ((W12_of_ne m ρ c main_arg26 (by decide)).trans ((by skip_stretch hostOps5 main_arg26 : W11 m ρ c (Proc.devRef .tc main_arg26) = W10 m ρ c (Proc.devRef .tc main_arg26)).trans ((W10_of_ne m ρ c main_arg26 (by decide)).trans ((by skip_stretch hostOps4 main_arg26 : W9 m ρ c (Proc.devRef .tc main_arg26) = W8 m ρ c (Proc.devRef .tc main_arg26)).trans ((W8_of_ne m ρ c main_arg26 (by decide)).trans ((by skip_stretch hostOps3 main_arg26 : W7 m ρ c (Proc.devRef .tc main_arg26) = W6 m ρ c (Proc.devRef .tc main_arg26)).trans ((W6_of_ne m ρ c main_arg26 (by decide)).trans ((by skip_stretch hostOps2 main_arg26 : W5 m ρ c (Proc.devRef .tc main_arg26) = W4 m ρ c (Proc.devRef .tc main_arg26)).trans ((W4_of_ne m ρ c main_arg26 (by decide)).trans ((by skip_stretch hostOps1 main_arg26 : W3 m ρ c (Proc.devRef .tc main_arg26) = W2 m ρ c (Proc.devRef .tc main_arg26)).trans ((W2_of_ne m ρ c main_arg26 (by decide)).trans (by skip_stretch hostOps0 main_arg26 : W1 m ρ c (Proc.devRef .tc main_arg26) = W0 m ρ c (Proc.devRef .tc main_arg26)))))))))))))).trans rfl)

end Cert.KernelIdeal.Gen

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibColumn.lean ====
import Idealize.ShloMosaic.Lib.ValueLayout

/-!
# A trailing unit axis

A vector of length `a` laid out as one column `[a, 1]`, and that column repeated along the second axis to `[a, b]`:
read at an index, the column holds the vector's entry of the same row, and the repeated column holds, at `(p, c)`,
the column's entry of row `p` whatever `c` is. Together they say a row-wise scale factor kept as a column reaches
every entry of its row.
-/

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRows.lean ====
import Idealize.ShloMosaic.Lib.ValueIdx
import Idealize.ShloMosaic.Lib.ValueLayout
import Idealize.ShloMosaic.Lib.Pipeline.Value
import Idealize.ShloMosaic.PureOps.Ideal.Laws
import proofs.«132165_j27702539059447_2_alg».proof.Proof.LibPlainDot
import proofs.«132165_j27702539059447_2_alg».proof.Proof.LibColumn

/-!
# Row-wise layers

Every dense stage of the network acts on each row of an `[N, C]` array by itself: a row times a weight matrix, a
bias row added, the row scaled to unit length (divided by the larger of its Euclidean norm and a floor), a
`tanh` of every entry. `mapRows f A` applies a function `f` of one row to every row of `A`. A stage computed on a
tile of rows is therefore the same stage computed on the whole array and read on the tile: the value at row `n`
only sees row `n` of the operand.

The lemmas below read the vector unit's spelling of each stage (a matrix product into a zero accumulator, a
lane sum, a column broadcast) at an index `(p, q)`, over any number of rows.
-/

noncomputable section

namespace Cert.Rows

open Idealize.ShloMosaic Idealize.ShloMosaic.ValueIdx
open scoped BigOperators

abbrev S2 (a b : ℕ) : Shape := ⟨2, ![a, b]⟩
abbrev S1 (a : ℕ) : Shape := ⟨1, ![a]⟩

/-- Apply a function of one row to every row. -/
def mapRows {N Ci C : ℕ} (f : (Fin Ci → EReal) → Fin C → EReal) (A : (S2 N Ci).Idx → EReal) : (S2 N C).Idx → EReal :=
  fun i => f (fun k => A (ix2 (i 0) k)) (i 1)

theorem mapRows_ix2 {N Ci C : ℕ} (f : (Fin Ci → EReal) → Fin C → EReal) (A : (S2 N Ci).Idx → EReal) (n : Fin N) (q : Fin C) :
    mapRows f A (ix2 n q) = f (fun k => A (ix2 n k)) q := rfl

/-- A row times a weight matrix. -/
def lin {Ci C : ℕ} (w : (S2 Ci C).Idx → EReal) (r : Fin Ci → EReal) : Fin C → EReal :=
  fun q => ∑ k : Fin Ci, r k * w (ix2 k q)

/-- A bias row (kept as a one-row matrix) added to a row. -/
def addRow {C : ℕ} (b : (S2 1 C).Idx → EReal) (r : Fin C → EReal) : Fin C → EReal :=
  fun q => r q + b (ix2 (0 : Fin 1) q)

/-- The floor under a row's norm: the single-precision number nearest 1e-12, read exactly. -/
def floorNorm : EReal := Ideal.ofBits .f32 0x2B8CBCCC#32

/-- A row divided by the larger of its Euclidean norm and the floor. -/
def unit {C : ℕ} (r : Fin C → EReal) : Fin C → EReal :=
  fun q => Ideal.div (r q) (max (Ideal.sqrt (∑ k : Fin C, r k * r k)) floorNorm)

/-- `tanh` of every entry of a row. -/
def th {C : ℕ} (r : Fin C → EReal) : Fin C → EReal := fun q => Ideal.tanh (r q)

/-- A tile of rows `o, o+1, …` of `A` goes to the same rows of `mapRows f A`. -/
theorem mapRows_tile {N R Ci C : ℕ} (f : (Fin Ci → EReal) → Fin C → EReal) (A : (S2 N Ci).Idx → EReal)
    (X : (S2 R Ci).Idx → EReal) (o : ℕ) (ho : ∀ p : Fin R, o + p.val < N)
    (hX : ∀ (p : Fin R) (k : Fin Ci), X (ix2 p k) = A (ix2 ⟨o + p.val, ho p⟩ k)) (p : Fin R) (q : Fin C) :
    mapRows f X (ix2 p q) = mapRows f A (ix2 ⟨o + p.val, ho p⟩ q) := by
  rw [mapRows_ix2, mapRows_ix2]
  exact congrArg (fun r => f r q) (funext fun k => hX p k)

/-! ## The vector unit's spellings at an index -/

section Unit

variable {N C : ℕ}

/-- The matrix product of a tile of rows with a weight matrix, into a zero accumulator. -/
theorem matmul_rows {K : ℕ} (d : DotDims (S2 N K) (S2 K C) (S2 N C)) (hd : Cert.LibPlainDot.Plain d)
    (x : FVec Ideal (S2 N K) .f32) (w : FVec Ideal (S2 K C) .f32) :
    matmul d none x w (constant (S2 N C) .f32 0x00000000#32) = mapRows (lin w) x := by
  funext i
  obtain ⟨p, q, rfl⟩ : ∃ (p : Fin N) (q : Fin C), i = ix2 p q := ⟨i 0, i 1, eq_ix2 i⟩
  exact Cert.LibPlainDot.matmul_zero_apply d hd none x w p q

/-- A tile plus a bias row repeated down the tile. -/
theorem addBias_rows (x : FVec Ideal (S2 N C) .f32) (b : FVec Ideal (S2 1 C) .f32)
    (h2 : (S2 1 C).ShapeCasts (S2 1 C)) (h3 : (S2 1 C).Broadcasts (S2 N C)) :
    addf x (broadcastTo (S2 N C) (shapeCast (S2 1 C) b h2) h3) = mapRows (addRow b) x := by
  funext i
  obtain ⟨p, q, rfl⟩ : ∃ (p : Fin N) (q : Fin C), i = ix2 p q := ⟨i 0, i 1, eq_ix2 i⟩
  rw [shapeCast_self, mapRows_ix2]
  show x (ix2 p q) + broadcastTo (S2 N C) b h3 (ix2 p q) = _
  rw [broadcastTo_1b_ab_apply]
  rfl

/-- A tile whose every row is divided by the larger of its norm and the floor: the squares summed along the
    lanes, the sums kept as a column, the column's square root floored and repeated across the row. -/
theorem unit_rows (y : FVec Ideal (S2 N C) .f32) (hr : (S2 N C).Reduces [1] (S1 N)) (hφ : FKind.Formats .f32)
    (hacc : (0x00000000#32 : BitVec 32) = FKind.add.neutral .f32 hφ)
    (hc : (S1 N).ShapeCasts (S2 N 1)) (hb : (S2 N 1).Broadcasts (S2 N C)) :
    divf y (broadcastTo (S2 N C) (maximumf (sqrt (shapeCast (S2 N 1) (multiReduction .add [1] (S1 N) (mulf y y) 0x00000000#32 hr hφ hacc) hc))
      (broadcast (S2 N 1) (Scalar.ofBits .f32 0x2B8CBCCC#32))) hb) = mapRows unit y := by
  funext i
  obtain ⟨p, q, rfl⟩ : ∃ (p : Fin N) (q : Fin C), i = ix2 p q := ⟨i 0, i 1, eq_ix2 i⟩
  rw [mapRows_ix2]
  show Ideal.div (y (ix2 p q)) (broadcastTo (S2 N C) _ hb (ix2 p q)) = _
  rw [Cert.LibColumn.broadcastTo_a1_ab_apply]
  show Ideal.div (y (ix2 p q)) (max (Ideal.sqrt (shapeCast (S2 N 1) _ hc (ix2 p (0 : Fin 1)))) floorNorm) = _
  rw [Cert.LibColumn.shapeCast_a_a1_apply]
  refine congrArg (fun s => Ideal.div (y (ix2 p q)) (max (Ideal.sqrt s) floorNorm)) ?_
  refine (Ideal.multiReduction_add_single (mulf y y) 0x00000000#32 hr hφ hacc (ix1 p)).trans ?_
  refine Finset.sum_congr rfl fun k _ => ?_
  have e : hr.lift (ix1 p) k = ix2 p k := funext fun a => Fin.ext (by
    match a with
    | ⟨0, _⟩ => rfl
    | ⟨1, _⟩ => rfl)
  rw [e]
  rfl

/-- `tanh` of a tile. -/
theorem tanh_rows (y : FVec Ideal (S2 N C) .f32) : tanh y = mapRows (C := C) th y := by
  funext i
  obtain ⟨p, q, rfl⟩ : ∃ (p : Fin N) (q : Fin C), i = ix2 p q := ⟨i 0, i 1, eq_ix2 i⟩
  rfl

/-- One row-wise stage after another is one row-wise stage. -/
theorem mapRows_comp {Ci Cm : ℕ} (g : (Fin Cm → EReal) → Fin C → EReal) (f : (Fin Ci → EReal) → Fin Cm → EReal)
    (A : (S2 N Ci).Idx → EReal) : mapRows g (mapRows f A) = mapRows (fun r => g (f r)) A := rfl

/-! ## The seven tile bodies, as written by the compiler -/

/-- A linear tile whose operand passes through an identity re-shape first. -/
theorem body_lin {K : ℕ} (d : DotDims (S2 N K) (S2 K C) (S2 N C)) (hd : Cert.LibPlainDot.Plain d)
    (x : FVec Ideal (S2 N K) .f32) (w : FVec Ideal (S2 K C) .f32) (h1 : (S2 N K).ShapeCasts (S2 N K)) :
    matmul d none (shapeCast (S2 N K) x h1) w (constant (S2 N C) .f32 0x00000000#32) = mapRows (lin w) x := by
  rw [shapeCast_self]; exact matmul_rows d hd x w

/-- Bias, then `tanh`. -/
theorem body_bias_tanh (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C)) :
    tanh (addf (shapeCast (S2 N C) x h1) (broadcastTo (S2 N C) (shapeCast (S2 1 C) b h2) h3))
      = mapRows (fun r => th (addRow b r)) x := by
  rw [shapeCast_self x, addBias_rows, tanh_rows]; rfl

/-- Bias, then unit length. -/
theorem body_bias_unit (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    divf (addf (shapeCast (S2 N C) x h1) (broadcastTo (S2 N C) (shapeCast (S2 1 C) b h2) h3))
      (broadcastTo (S2 N C) (maximumf (sqrt (shapeCast (S2 N 1) (multiReduction .add [1] (S1 N)
        (mulf (addf (shapeCast (S2 N C) x h1) (broadcastTo (S2 N C) (shapeCast (S2 1 C) b h2) h3))
          (addf (shapeCast (S2 N C) x h1) (broadcastTo (S2 N C) (shapeCast (S2 1 C) b h2) h3))) 0x00000000#32 hr hφ hacc) hc))
        (broadcast (S2 N 1) (Scalar.ofBits .f32 0x2B8CBCCC#32))) hb)
      = mapRows (fun r => unit (addRow b r)) x := by
  rw [shapeCast_self x, addBias_rows, unit_rows]; rfl

/-- Bias, then unit length, then `tanh`. -/
theorem body_bias_unit_tanh (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    tanh (divf (addf (shapeCast (S2 N C) x h1) (broadcastTo (S2 N C) (shapeCast (S2 1 C) b h2) h3))
      (broadcastTo (S2 N C) (maximumf (sqrt (shapeCast (S2 N 1) (multiReduction .add [1] (S1 N)
        (mulf (addf (shapeCast (S2 N C) x h1) (broadcastTo (S2 N C) (shapeCast (S2 1 C) b h2) h3))
          (addf (shapeCast (S2 N C) x h1) (broadcastTo (S2 N C) (shapeCast (S2 1 C) b h2) h3))) 0x00000000#32 hr hφ hacc) hc))
        (broadcast (S2 N 1) (Scalar.ofBits .f32 0x2B8CBCCC#32))) hb))
      = mapRows (fun r => th (unit (addRow b r))) x := by
  rw [body_bias_unit x b h1 h2 h3 hr hφ hacc hc hb, tanh_rows]; rfl

/-- A linear tile, bias, then unit length. -/
theorem body_lin_bias_unit {K : ℕ} (d : DotDims (S2 N K) (S2 K C) (S2 N C)) (hd : Cert.LibPlainDot.Plain d)
    (x : FVec Ideal (S2 N K) .f32) (w : FVec Ideal (S2 K C) .f32) (b : FVec Ideal (S2 1 C) .f32) (h1 : (S2 N K).ShapeCasts (S2 N K))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    divf (addf (matmul d none (shapeCast (S2 N K) x h1) w (constant (S2 N C) .f32 0x00000000#32)) (broadcastTo (S2 N C) (shapeCast (S2 1 C) b h2) h3))
      (broadcastTo (S2 N C) (maximumf (sqrt (shapeCast (S2 N 1) (multiReduction .add [1] (S1 N)
        (mulf (addf (matmul d none (shapeCast (S2 N K) x h1) w (constant (S2 N C) .f32 0x00000000#32)) (broadcastTo (S2 N C) (shapeCast (S2 1 C) b h2) h3))
          (addf (matmul d none (shapeCast (S2 N K) x h1) w (constant (S2 N C) .f32 0x00000000#32)) (broadcastTo (S2 N C) (shapeCast (S2 1 C) b h2) h3))) 0x00000000#32 hr hφ hacc) hc))
        (broadcast (S2 N 1) (Scalar.ofBits .f32 0x2B8CBCCC#32))) hb)
      = mapRows (fun r => unit (addRow b (lin w r))) x := by
  rw [body_lin d hd x w h1, addBias_rows, unit_rows]; rfl

end Unit

end Cert.Rows

end
-- ==== Proof.LibNormRows.lean ====
import Idealize.ShloMosaic.Lib.ValueIdx
import Idealize.ShloMosaic.Lib.ValueLayout
import Idealize.ShloMosaic.Lib.Pipeline.Value
import Idealize.ShloMosaic.PureOps.Ideal.Laws
import proofs.«132165_j27702539059447_2_alg».proof.Proof.LibRows

/-!
# Normalising a row

A layer of the network takes a row `r` of `C` entries to `relu (ln g β r)`: the row is centred on its mean
`μ = (∑ r) / 64`, scaled by `(σ² + ε)^(-1/2)` where `σ² = (∑ (r - μ)²) / 64` and `ε` is the single-precision number
nearest `1e-5`, multiplied entry by entry by a gain row `g`, shifted by a row `β`, and every negative entry is
replaced by zero. All of it is a function of the one row, so a tile of rows and the whole array agree row by row.

This file states that function and reads the vector unit's spelling of it — lane sums kept as a column, the column
repeated across the row — as `mapRows` of it, over any number of rows.
-/

noncomputable section

namespace Cert.Rows

open Idealize.ShloMosaic Idealize.ShloMosaic.ValueIdx
open scoped BigOperators

/-- The divisor of a mean over 64 lanes: the single-precision word of `64`, read exactly. -/
def lanes64 : EReal := Ideal.ofBits .f32 0x42800000#32

/-- The variance floor: the single-precision number nearest `1e-5`, read exactly. -/
def epsVar : EReal := Ideal.ofBits .f32 0x3727C5AC#32

/-- Single-precision zero, read exactly. -/
def zeroF : EReal := Ideal.ofBits .f32 0x00000000#32

/-- The mean of a row. -/
def mean {C : ℕ} (r : Fin C → EReal) : EReal := Ideal.div (∑ k : Fin C, r k) lanes64

/-- A row minus its mean. -/
def centred {C : ℕ} (r : Fin C → EReal) : Fin C → EReal := fun q => r q - mean r

/-- One over the square root of the row's variance plus the floor. -/
def invStd {C : ℕ} (r : Fin C → EReal) : EReal :=
  Ideal.rsqrt (Ideal.div (∑ k : Fin C, centred r k * centred r k) lanes64 + epsVar)

/-- The normalised row, times a gain row, plus a shift row (both kept as one-row matrices). -/
def ln {C : ℕ} (g β : (S2 1 C).Idx → EReal) (r : Fin C → EReal) : Fin C → EReal :=
  fun q => centred r q * invStd r * g (ix2 (0 : Fin 1) q) + β (ix2 (0 : Fin 1) q)

/-- Negative entries replaced by zero. -/
def relu {C : ℕ} (r : Fin C → EReal) : Fin C → EReal := fun q => max (r q) zeroF

/-- One layer on one row: `relu (ln g β (r · w + b))`, weights `w`, bias, gain and shift kept as one-row matrices. -/
def layerRow {K C : ℕ} (w : (S2 K C).Idx → EReal) (b g β : (S2 1 C).Idx → EReal) (r : Fin K → EReal) : Fin C → EReal :=
  relu (ln g β (addRow b (lin w r)))

/-- The output projection on one row: `r · w + b`. -/
def projRow {K C : ℕ} (w : (S2 K C).Idx → EReal) (b : (S2 1 C).Idx → EReal) (r : Fin K → EReal) : Fin C → EReal :=
  addRow b (lin w r)

/-- A reciprocal square root, entry by entry. -/
theorem rsqrt_at {s : Shape} {φ : FTy} (a : FVec Ideal s φ) (i : s.Idx) : rsqrt a i = Ideal.rsqrt (a i) := rfl

section Unit

variable {N C : ℕ}

/-- The lane sums of a tile, kept as a column: at row `p` the sum of row `p`. -/
theorem laneSum_col (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (p : Fin N) (u : Fin 1) :
    shapeCast (S2 N 1) (multiReduction .add [1] (S1 N) y 0x00000000#32 hr hφ hacc) hc (ix2 p u)
      = ∑ k : Fin C, y (ix2 p k) := by
  rw [Cert.LibColumn.shapeCast_a_a1_apply]
  refine (Ideal.multiReduction_add_single y 0x00000000#32 hr hφ hacc (ix1 p)).trans ?_
  refine Finset.sum_congr rfl fun k _ => ?_
  have e : hr.lift (ix1 p) k = ix2 p k := funext fun a => Fin.ext (by
    match a with
    | ⟨0, _⟩ => rfl
    | ⟨1, _⟩ => rfl)
  rw [e]
  rfl

/-- The vector unit's row means, as a column. -/
def unitMeanCol (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1)) :
    FVec Ideal (S2 N 1) .f32 :=
  divf (shapeCast (S2 N 1) (multiReduction .add [1] (S1 N) y 0x00000000#32 hr hφ hacc) hc)
    (broadcast (S2 N 1) (Scalar.ofBits .f32 0x42800000#32))

theorem unitMeanCol_apply (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (p : Fin N) (u : Fin 1) :
    unitMeanCol y hr hφ hacc hc (ix2 p u) = mean (fun k => y (ix2 p k)) := by
  unfold unitMeanCol
  rw [divf_apply, laneSum_col]
  rfl

/-- The tile minus its row means: the means column repeated across the row and subtracted. -/
def unitCentred (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) : FVec Ideal (S2 N C) .f32 :=
  subf y (broadcastTo (S2 N C) (unitMeanCol y hr hφ hacc hc) hb)

theorem unitCentred_apply (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) (p : Fin N) (q : Fin C) :
    unitCentred y hr hφ hacc hc hb (ix2 p q) = centred (fun k => y (ix2 p k)) q := by
  unfold unitCentred
  rw [subf_apply, Cert.LibColumn.broadcastTo_a1_ab_apply, unitMeanCol_apply]
  rfl

/-- The vector unit's `(σ² + ε)^(-1/2)` of every row, as a column. -/
def unitInvStdCol (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) : FVec Ideal (S2 N 1) .f32 :=
  rsqrt (addf (divf (shapeCast (S2 N 1) (multiReduction .add [1] (S1 N)
      (mulf (unitCentred y hr hφ hacc hc hb) (unitCentred y hr hφ hacc hc hb)) 0x00000000#32 hr hφ hacc) hc)
      (broadcast (S2 N 1) (Scalar.ofBits .f32 0x42800000#32)))
    (broadcast (S2 N 1) (Scalar.ofBits .f32 0x3727C5AC#32)))

theorem unitInvStdCol_apply (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) (p : Fin N) (u : Fin 1) :
    unitInvStdCol y hr hφ hacc hc hb (ix2 p u) = invStd (fun k => y (ix2 p k)) := by
  unfold unitInvStdCol
  rw [rsqrt_at, addf_apply, divf_apply, laneSum_col]
  simp only [mulf_apply, unitCentred_apply]
  rfl

/-- The vector unit's layer norm and `relu` of a tile `y`, gain and shift kept as one-row matrices. -/
def unitLnRelu (y : FVec Ideal (S2 N C) .f32) (g β : FVec Ideal (S2 1 C) .f32)
    (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) (h2 : (S2 1 C).ShapeCasts (S2 1 C)) (h3 : (S2 1 C).Broadcasts (S2 N C)) :
    FVec Ideal (S2 N C) .f32 :=
  maximumf (addf (mulf (mulf (unitCentred y hr hφ hacc hc hb)
        (broadcastTo (S2 N C) (unitInvStdCol y hr hφ hacc hc hb) hb))
        (broadcastTo (S2 N C) (shapeCast (S2 1 C) g h2) h3))
      (broadcastTo (S2 N C) (shapeCast (S2 1 C) β h2) h3))
    (broadcast (S2 N C) (Scalar.ofBits .f32 0x00000000#32))

/-- It is the row function `relu ∘ ln g β` applied to every row of the tile. -/
theorem unitLnRelu_rows (y : FVec Ideal (S2 N C) .f32) (g β : FVec Ideal (S2 1 C) .f32)
    (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) (h2 : (S2 1 C).ShapeCasts (S2 1 C)) (h3 : (S2 1 C).Broadcasts (S2 N C)) :
    unitLnRelu y g β hr hφ hacc hc hb h2 h3 = mapRows (fun r => relu (ln g β r)) y := by
  funext i
  obtain ⟨p, q, rfl⟩ : ∃ (p : Fin N) (q : Fin C), i = ix2 p q := ⟨i 0, i 1, eq_ix2 i⟩
  unfold unitLnRelu
  rw [mapRows_ix2, maximumf_apply, addf_apply, mulf_apply, mulf_apply, unitCentred_apply,
    Cert.LibColumn.broadcastTo_a1_ab_apply, unitInvStdCol_apply, shapeCast_self, shapeCast_self,
    broadcastTo_1b_ab_apply, broadcastTo_1b_ab_apply]
  rfl

/-- A tile times a weight matrix, both rounded to half precision first (which changes nothing of an exact
    number), into a zero accumulator, plus a bias row repeated down the tile. -/
def unitLin {K : ℕ} (d : DotDims (S2 N K) (S2 K C) (S2 N C)) (x : FVec Ideal (S2 N K) .f32) (w : FVec Ideal (S2 K C) .f32)
    (b : FVec Ideal (S2 1 C) .f32) (hlt : FTy.bf16.bits < FTy.f32.bits)
    (h2 : (S2 1 C).ShapeCasts (S2 1 C)) (h3 : (S2 1 C).Broadcasts (S2 N C)) : FVec Ideal (S2 N C) .f32 :=
  addf (matmul d none (truncf .bf16 x hlt) (truncf .bf16 w hlt) (constant (S2 N C) .f32 0x00000000#32))
    (broadcastTo (S2 N C) (shapeCast (S2 1 C) b h2) h3)

/-- It is `r ↦ r · w + b` applied to every row. -/
theorem unitLin_rows {K : ℕ} (d : DotDims (S2 N K) (S2 K C) (S2 N C)) (hd : Cert.LibPlainDot.Plain d)
    (x : FVec Ideal (S2 N K) .f32) (w : FVec Ideal (S2 K C) .f32)
    (b : FVec Ideal (S2 1 C) .f32) (hlt : FTy.bf16.bits < FTy.f32.bits)
    (h2 : (S2 1 C).ShapeCasts (S2 1 C)) (h3 : (S2 1 C).Broadcasts (S2 N C)) :
    unitLin d x w b hlt h2 h3 = mapRows (fun r => addRow b (lin w r)) x := by
  unfold unitLin
  have hm : matmul d none (truncf .bf16 x hlt) (truncf .bf16 w hlt) (constant (S2 N C) .f32 0x00000000#32)
      = mapRows (lin w) x := by
    funext i
    obtain ⟨p, q, rfl⟩ : ∃ (p : Fin N) (q : Fin C), i = ix2 p q := ⟨i 0, i 1, eq_ix2 i⟩
    exact Cert.LibPlainDot.matmul_zero_apply d hd none (truncf .bf16 x hlt) (truncf .bf16 w hlt) p q
  rw [hm, addBias_rows]
  rfl

end Unit

end Cert.Rows

end
-- ==== Proof.Net.lean ====
import proofs.«132165_j27702539059447_2_alg».proof.Proof.LibRows
import proofs.«132165_j27702539059447_2_alg».proof.Proof.LibNormRows

/-!
# The network's layers, index by index, over the extended reals

Three message-passing layers, each followed by a batch normalisation over all the rows, and a three-stage
dense head. A layer takes the node features `h` and the neighbour sums `agg` (both `[N, K]`), adds them, and
sends every row `r` to `relu (relu (r · w1 + b1) · w2 + b2)`. The normalisation of a column of the result
`Y` subtracts the column's mean and multiplies by `rsqrt (variance + eps)`, a gain and adds a shift.

The variance of a column is written in two ways: as the mean of the squares minus the square of the mean,
cut off below at zero (`bnSq`), and as the mean of the squared deviations from the mean (`bnDev`). The two
agree when every entry of the column is a real number and the divisor is the number of rows.
-/

noncomputable section

namespace Cert.Net

open Idealize.ShloMosaic Idealize.ShloMosaic.ValueIdx Cert.Rows
open scoped BigOperators

/-- The number of rows, as the single-precision number the programs divide by (500000, read exactly). -/
def rowsF : EReal := Ideal.ofBits .f32 0x48F42400#32

/-- One row through a layer's two dense stages: `relu (relu (r · w1 + b1) · w2 + b2)`, the biases kept as one-row matrices. -/
def ginRow {K H C : ℕ} (w1 : (S2 K H).Idx → EReal) (b1 : (S2 1 H).Idx → EReal) (w2 : (S2 H C).Idx → EReal)
    (b2 : (S2 1 C).Idx → EReal) (r : Fin K → EReal) : Fin C → EReal :=
  relu (addRow b2 (lin w2 (relu (addRow b1 (lin w1 r)))))

/-- A layer before its normalisation: every row of `h + agg` through `ginRow`. -/
def gin {N K H C : ℕ} (w1 : (S2 K H).Idx → EReal) (b1 : (S2 1 H).Idx → EReal) (w2 : (S2 H C).Idx → EReal)
    (b2 : (S2 1 C).Idx → EReal) (h agg : (S2 N K).Idx → EReal) : (S2 N C).Idx → EReal :=
  mapRows (ginRow w1 b1 w2 b2) (fun i => h i + agg i)

/-- The sum of a column. -/
def colSum {N C : ℕ} (Y : (S2 N C).Idx → EReal) (q : Fin C) : EReal := ∑ n : Fin N, Y (ix2 n q)

/-- The sum of the squares of a column. -/
def colSumSq {N C : ℕ} (Y : (S2 N C).Idx → EReal) (q : Fin C) : EReal := ∑ n : Fin N, Y (ix2 n q) * Y (ix2 n q)

/-- The column sums kept as a one-row matrix. -/
def sumRow {N C : ℕ} (Y : (S2 N C).Idx → EReal) : (S2 1 C).Idx → EReal := fun j => colSum Y (j 1)

/-- The column sums of squares kept as a one-row matrix. -/
def sumSqRow {N C : ℕ} (Y : (S2 N C).Idx → EReal) : (S2 1 C).Idx → EReal := fun j => colSumSq Y (j 1)

/-- The affine map of the normalisation, with the mean `mu`, the factor `inv`, the gain and the shift all
    given as one-row matrices: `(x - mu) · inv · g + be`, column by column. -/
def bnApply {N C : ℕ} (x : (S2 N C).Idx → EReal) (mu inv g be : (S2 1 C).Idx → EReal) : (S2 N C).Idx → EReal :=
  fun i => (x i - mu (ix2 (0 : Fin 1) (i 1))) * inv (ix2 (0 : Fin 1) (i 1)) * g (ix2 (0 : Fin 1) (i 1)) + be (ix2 (0 : Fin 1) (i 1))

/-- The mean of a column: its sum over the number of rows. -/
def colMean {N C : ℕ} (Y : (S2 N C).Idx → EReal) (q : Fin C) : EReal := Ideal.div (colSum Y q) rowsF

/-- The factor from the mean of squares minus the squared mean, cut off below at zero. -/
def invSq {N C : ℕ} (Y : (S2 N C).Idx → EReal) (q : Fin C) : EReal :=
  Ideal.rsqrt (max (Ideal.div (colSumSq Y q) rowsF - colMean Y q * colMean Y q) zeroF + epsVar)

/-- The factor from the mean of the squared deviations. -/
def invDev {N C : ℕ} (Y : (S2 N C).Idx → EReal) (q : Fin C) : EReal :=
  Ideal.rsqrt (Ideal.div (∑ n : Fin N, (Y (ix2 n q) - colMean Y q) * (Y (ix2 n q) - colMean Y q)) rowsF + epsVar)

/-- Normalisation with the first form of the variance. -/
def bnSq {N C : ℕ} (Y : (S2 N C).Idx → EReal) (g be : (S2 1 C).Idx → EReal) : (S2 N C).Idx → EReal :=
  fun i => (Y i - colMean Y (i 1)) * invSq Y (i 1) * g (ix2 (0 : Fin 1) (i 1)) + be (ix2 (0 : Fin 1) (i 1))

/-- Normalisation with the second form of the variance. -/
def bnDev {N C : ℕ} (Y : (S2 N C).Idx → EReal) (g be : (S2 1 C).Idx → EReal) : (S2 N C).Idx → EReal :=
  fun i => (Y i - colMean Y (i 1)) * invDev Y (i 1) * g (ix2 (0 : Fin 1) (i 1)) + be (ix2 (0 : Fin 1) (i 1))

/-- One row through the head: `relu (relu (r · w1 + b1) · w2 + b2) · w3 + b3`. -/
def headRow {K A B C : ℕ} (w1 : (S2 K A).Idx → EReal) (b1 : (S2 1 A).Idx → EReal) (w2 : (S2 A B).Idx → EReal)
    (b2 : (S2 1 B).Idx → EReal) (w3 : (S2 B C).Idx → EReal) (b3 : (S2 1 C).Idx → EReal) (r : Fin K → EReal) : Fin C → EReal :=
  addRow b3 (lin w3 (relu (addRow b2 (lin w2 (relu (addRow b1 (lin w1 r)))))))

/-- The head on every row. -/
def head {N K A B C : ℕ} (w1 : (S2 K A).Idx → EReal) (b1 : (S2 1 A).Idx → EReal) (w2 : (S2 A B).Idx → EReal)
    (b2 : (S2 1 B).Idx → EReal) (w3 : (S2 B C).Idx → EReal) (b3 : (S2 1 C).Idx → EReal) (z : (S2 N K).Idx → EReal) :
    (S2 N C).Idx → EReal :=
  mapRows (headRow w1 b1 w2 b2 w3 b3) z

end Cert.Net

end
-- ==== Proof.LibHostRows.lean ====
import proofs.«132165_j27702539059447_2_alg».proof.Proof.LibRows

/-!
# The host's spellings of the row-wise stages

The same stages as in `LibRows`, as a host program writes them on a whole `[N, C]` array: a `dot_general` with
the weights, a bias vector broadcast to one row and then down the rows, a host sum of squares along axis 1 kept as a
column, its square root floored by a broadcast scalar and broadcast back across the row, a host `tanh`. Each is
`mapRows` of the corresponding function of one row, whatever `N` is — so the host's whole-array stage and a
tiled stage agree row by row.
-/

noncomputable section

namespace Cert.Rows

open Idealize.ShloMosaic Idealize.ShloMosaic.ValueIdx
open scoped BigOperators

abbrev S0 : Shape := ⟨0, ![]⟩

variable {N C : ℕ}

/-- The host's product of the whole array with a weight matrix. -/
theorem host_lin {K : ℕ} (d : DotDims (S2 N K) (S2 K C) (S2 N C)) (hd : Cert.LibPlainDot.Plain d)
    (x : FVec Ideal (S2 N K) .f32) (w : FVec Ideal (S2 K C) .f32) :
    Host.dotGeneral d none x w = mapRows (lin w) x := by
  funext i
  obtain ⟨p, q, rfl⟩ : ∃ (p : Fin N) (q : Fin C), i = ix2 p q := ⟨i 0, i 1, eq_ix2 i⟩
  simp only [Host.dotGeneral]
  exact Cert.LibPlainDot.dotGeneral_apply d hd none _ x w p q

/-- The host adds a bias VECTOR, broadcast to one row and then down the rows: the same as adding the vector kept
    as a one-row matrix. -/
theorem host_bias (A : FVec Ideal (S2 N C) .f32) (b : FVec Ideal (S1 C) .f32)
    (h1 : (S1 C).BroadcastsInDim (S2 1 C) ![1]) (h2 : (S2 1 C).BroadcastsInDim (S2 N C) ![0, 1])
    (hc : (S1 C).ShapeCasts (S2 1 C)) :
    addf A (broadcastInDim (S2 N C) ![0, 1] h2 (broadcastInDim (S2 1 C) ![1] h1 b))
      = mapRows (addRow (shapeCast (S2 1 C) b hc)) A := by
  funext i
  obtain ⟨p, q, rfl⟩ : ∃ (p : Fin N) (q : Fin C), i = ix2 p q := ⟨i 0, i 1, eq_ix2 i⟩
  rw [mapRows_ix2]
  show A (ix2 p q) + broadcastInDim (S2 N C) ![0, 1] h2 (broadcastInDim (S2 1 C) ![1] h1 b) (ix2 p q)
    = A (ix2 p q) + shapeCast (S2 1 C) b hc (ix2 (0 : Fin 1) q)
  have hq : q.val = if C = 1 then 0 else q.val := by
    split
    · have := q.isLt; omega
    · rfl
  rw [shapeCast_a_1a_apply,
    broadcastInDim_apply ![0, 1] h2 _ (ix2 p q) (ix2 (0 : Fin 1) q) (fun a => by
      match a with
      | ⟨0, _⟩ => rfl
      | ⟨1, _⟩ => exact hq),
    broadcastInDim_apply ![1] h1 b (ix2 (0 : Fin 1) q) (ix1 q) (fun a => by
      match a with
      | ⟨0, _⟩ => exact hq)]

/-- The host divides every row by the larger of its norm and the floor. -/
theorem host_unit (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (hb1 : (S2 N 1).BroadcastsInDim (S2 N C) ![0, 1]) :
    Host.divf Y (broadcastInDim (S2 N C) ![0, 1] hb1 (maximumf
      (Host.sqrt (broadcastInDim (S2 N 1) ![0] hb0 (Host.reduceAdd (mulf Y Y) (constant S0 .f32 0x00000000#32) hred hu)))
      (broadcastInDim (S2 N 1) ![] hbe (constant S0 .f32 0x2B8CBCCC#32)))) = mapRows unit Y := by
  funext i
  obtain ⟨p, q, rfl⟩ : ∃ (p : Fin N) (q : Fin C), i = ix2 p q := ⟨i 0, i 1, eq_ix2 i⟩
  rw [mapRows_ix2]
  have hp : p.val = if N = 1 then 0 else p.val := by
    split
    · have := p.isLt; omega
    · rfl
  show Ideal.div (Y (ix2 p q)) (broadcastInDim (s := S2 N 1) (S2 N C) ![0, 1] hb1 _ (ix2 p q)) = _
  rw [broadcastInDim_apply ![0, 1] hb1 _ (ix2 p q) (ix2 p (0 : Fin 1)) (fun a => by
      match a with
      | ⟨0, _⟩ => exact hp
      | ⟨1, _⟩ => rfl)]
  show Ideal.div (Y (ix2 p q)) (max (Ideal.sqrt (broadcastInDim (s := S1 N) (S2 N 1) ![0] hb0 _ (ix2 p (0 : Fin 1))))
    (broadcastInDim (s := S0) (S2 N 1) ![] hbe (constant (F := Ideal) S0 .f32 0x2B8CBCCC#32) (ix2 p (0 : Fin 1)))) = _
  rw [broadcastInDim_apply ![0] hb0 _ (ix2 p (0 : Fin 1)) (ix1 p) (fun a => by
      match a with
      | ⟨0, _⟩ => exact hp),
    broadcastInDim_apply ![] hbe _ (ix2 p (0 : Fin 1)) ix0 (fun a => a.elim0)]
  refine congrArg (fun s => Ideal.div (Y (ix2 p q)) (max (Ideal.sqrt s) floorNorm)) ?_
  show Ideal.hostReduceAdd hred (mulf Y Y) (Ideal.ofBits .f32 0x00000000#32) (ix1 p) = _
  rw [Ideal.hostReduceAdd_single hred hr, Ideal.ofBits_zero_f32, zero_add]
  refine Finset.sum_congr rfl fun k _ => ?_
  have e : hr.lift (ix1 p) k = ix2 p k := funext fun a => Fin.ext (by
    match a with
    | ⟨0, _⟩ => rfl
    | ⟨1, _⟩ => rfl)
  rw [e]
  rfl

/-- The host's `tanh` of the whole array. -/
theorem host_tanh (Y : FVec Ideal (S2 N C) .f32) : Host.tanh Y = mapRows (C := C) th Y := by
  funext i
  obtain ⟨p, q, rfl⟩ : ∃ (p : Fin N) (q : Fin C), i = ix2 p q := ⟨i 0, i 1, eq_ix2 i⟩
  rfl

/-- Three row-wise stages in a row are one. -/
theorem mapRows_comp3 {Ci Ca Cb : ℕ} (h : (Fin Cb → EReal) → Fin C → EReal) (g : (Fin Ca → EReal) → Fin Cb → EReal)
    (f : (Fin Ci → EReal) → Fin Ca → EReal) (A : (S2 N Ci).Idx → EReal) :
    mapRows h (mapRows g (mapRows f A)) = mapRows (fun r => h (g (f r))) A := rfl

end Cert.Rows

end
-- ==== Proof.NetHost.lean ====
import proofs.«132165_j27702539059447_2_alg».proof.Proof.Net
import proofs.«132165_j27702539059447_2_alg».proof.Proof.LibHostRows

/-!
Between a layer's two kernels the program computes, on one-row matrices, the mean `s / n`, the variance
`max (ss / n - mean · mean, 0)` and the factor `rsqrt (variance + eps)` from the column sums `s` and the column
sums of squares `ss`. Fed to the affine map, these give the normalisation with the first form of the variance.
-/

noncomputable section

namespace Cert.Net

open Idealize.ShloMosaic Idealize.ShloMosaic.ValueIdx Cert.Rows
open scoped BigOperators

theorem bnApply_host {N C : ℕ} (Y : (S2 N C).Idx → EReal) (g be : (S2 1 C).Idx → EReal)
    (hb : S0.BroadcastsInDim (S2 1 C) ![]) :
    bnApply Y
      (Host.divf (F := Ideal) (φ := .f32) (sumRow Y) (broadcastInDim (S2 1 C) ![] hb (constant (F := Ideal) S0 .f32 0x48F42400#32)))
      (Host.rsqrt (F := Ideal) (φ := .f32) (addf (maximumf
        (subf (Host.divf (F := Ideal) (φ := .f32) (sumSqRow Y) (broadcastInDim (S2 1 C) ![] hb (constant (F := Ideal) S0 .f32 0x48F42400#32)))
          (mulf (Host.divf (F := Ideal) (φ := .f32) (sumRow Y) (broadcastInDim (S2 1 C) ![] hb (constant (F := Ideal) S0 .f32 0x48F42400#32)))
            (Host.divf (F := Ideal) (φ := .f32) (sumRow Y) (broadcastInDim (S2 1 C) ![] hb (constant (F := Ideal) S0 .f32 0x48F42400#32)))))
        (broadcastInDim (S2 1 C) ![] hb (constant (F := Ideal) S0 .f32 0x00000000#32)))
        (broadcastInDim (S2 1 C) ![] hb (constant (F := Ideal) S0 .f32 0x3727C5AC#32))))
      g be
    = bnSq Y g be := by
  funext i
  rfl

end Cert.Net

end
-- ==== Proof.Gin0.lean ====
import proofs.«132165_j27702539059447_2_alg».proof.Proof.Gen.KernelIdeal.Frame
import proofs.«132165_j27702539059447_2_alg».proof.Proof.Net
import proofs.«132165_j27702539059447_2_alg».proof.Proof.LibRows
import proofs.«132165_j27702539059447_2_alg».proof.Proof.LibNormRows
import Idealize.ShloMosaic.Lib.Pipeline.Value
import Idealize.ShloMosaic.Lib.Tactic

/-!
# A message-passing layer before its normalisation, with its column sums

The layer's program walks the rows in a hundred blocks of five thousand. At every block it adds the node features
and the neighbour sums, sends each row `r` to `relu (relu (r · w1 + b1) · w2 + b2)`, writes the block of results,
and adds the block's column sums and column sums of squares to two running rows that are set to zero before the
first block. A row of the result only depends on the same row of the operands, so the hundred blocks written are
the rows of one array, the layer applied to all rows at once; and since addition of extended reals is associative
and commutative, the running rows after the last block are the column sums, and the column sums of squares, of
that whole array.
-/

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Gin0

open Cert.KernelIdeal Cert.KernelIdeal.Gen Cert.Rows Cert.Net

/-! ## What one block's body leaves in the three results, for any float values -/

section Pieces

variable {F : FTy → Type} [FloatOps F]

theorem hz : (![0, 0] : Fin 2 → Nat) = fun _ => 0 := funext fun a => by fin_cases a <;> rfl

/-- At the first block the block of results is the two dense stages of the loaded blocks. -/
theorem outA6 (c : Dev nD) (i : grid0.Coords) (a1 : Memref sig .tc .vmem S5000x5 .f32) (h1 : a1.IsWhole) (a2 : Memref sig .tc .vmem S5000x5 .f32) (h2 : a2.IsWhole) (a3 : Memref sig .tc .vmem S5x5 .f32) (h3 : a3.IsWhole) (a4 : Memref sig .tc .vmem S1x5 .f32) (h4 : a4.IsWhole) (a5 : Memref sig .tc .vmem S5x5 .f32) (h5 : a5.IsWhole) (a6 : Memref sig .tc .vmem S1x5 .f32) (h6 : a6.IsWhole) (a7 : Memref sig .tc .vmem S5000x5 .f32) (h7 : a7.IsWhole) (a8 : Memref sig .tc .vmem S1x5 .f32) (h8 : a8.IsWhole) (a9 : Memref sig .tc .vmem S1x5 .f32) (h9 : a9.IsWhole) (hc : cond0_0 i)
    (x0 : Vec F S5000x5 .f32) (x1 : Vec F S5000x5 .f32) (x2 : Vec F S5x5 .f32) (x3 : Vec F S1x5 .f32) (x4 : Vec F S5x5 .f32) (x5 : Vec F S1x5 .f32) :
    out0_A_6 c i a1 h1 a2 h2 a3 h3 a4 h4 a5 h5 a6 h6 a7 h7 a8 h8 a9 h9 hc x0 x1 x2 x3 x4 x5 = k0_pay4 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S5000x5) hz, View.ld_unit_zero (S := S5x5) hz, View.ld_unit_zero (S := S1x5) hz]

/-- At a later block too. -/
theorem outB6 (c : Dev nD) (i : grid0.Coords) (a1 : Memref sig .tc .vmem S5000x5 .f32) (h1 : a1.IsWhole) (a2 : Memref sig .tc .vmem S5000x5 .f32) (h2 : a2.IsWhole) (a3 : Memref sig .tc .vmem S5x5 .f32) (h3 : a3.IsWhole) (a4 : Memref sig .tc .vmem S1x5 .f32) (h4 : a4.IsWhole) (a5 : Memref sig .tc .vmem S5x5 .f32) (h5 : a5.IsWhole) (a6 : Memref sig .tc .vmem S1x5 .f32) (h6 : a6.IsWhole) (a7 : Memref sig .tc .vmem S5000x5 .f32) (h7 : a7.IsWhole) (a8 : Memref sig .tc .vmem S1x5 .f32) (h8 : a8.IsWhole) (a9 : Memref sig .tc .vmem S1x5 .f32) (h9 : a9.IsWhole) (hc : ¬cond0_0 i)
    (x0 : Vec F S5000x5 .f32) (x1 : Vec F S5000x5 .f32) (x2 : Vec F S5x5 .f32) (x3 : Vec F S1x5 .f32) (x4 : Vec F S5x5 .f32) (x5 : Vec F S1x5 .f32) (xo7 : Vec F S1x5 .f32) (xo8 : Vec F S1x5 .f32) :
    out0_B_6 c i a1 h1 a2 h2 a3 h3 a4 h4 a5 h5 a6 h6 a7 h7 a8 h8 a9 h9 hc x0 x1 x2 x3 x4 x5 xo7 xo8 = k0_pay4 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x5) hz, View.ld_unit_zero (S := S5x5) hz, View.ld_unit_zero (S := S1x5) hz]

/-- At the first block the running row of sums is first set to zero, then the block's column sums are added. -/
theorem outA7 (c : Dev nD) (i : grid0.Coords) (a1 : Memref sig .tc .vmem S5000x5 .f32) (h1 : a1.IsWhole) (a2 : Memref sig .tc .vmem S5000x5 .f32) (h2 : a2.IsWhole) (a3 : Memref sig .tc .vmem S5x5 .f32) (h3 : a3.IsWhole) (a4 : Memref sig .tc .vmem S1x5 .f32) (h4 : a4.IsWhole) (a5 : Memref sig .tc .vmem S5x5 .f32) (h5 : a5.IsWhole) (a6 : Memref sig .tc .vmem S1x5 .f32) (h6 : a6.IsWhole) (a7 : Memref sig .tc .vmem S5000x5 .f32) (h7 : a7.IsWhole) (a8 : Memref sig .tc .vmem S1x5 .f32) (h8 : a8.IsWhole) (a9 : Memref sig .tc .vmem S1x5 .f32) (h9 : a9.IsWhole) (hc : cond0_0 i)
    (x0 : Vec F S5000x5 .f32) (x1 : Vec F S5000x5 .f32) (x2 : Vec F S5x5 .f32) (x3 : Vec F S1x5 .f32) (x4 : Vec F S5x5 .f32) (x5 : Vec F S1x5 .f32) :
    out0_A_7 c i a1 h1 a2 h2 a3 h3 a4 h4 a5 h5 a6 h6 a7 h7 a8 h8 a9 h9 hc x0 x1 x2 x3 x4 x5 = k0_pay5 x0 x1 x2 x3 x4 x5 (k0_pay2 (F := F)) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x5) hz, View.readCov_unit_zero (S := S1x5) _ hz]
  simp only [View.readAt_eq_ld, h1.read_unread, h2.read_unread, h3.read_unread, h4.read_unread, h5.read_unread, h6.read_unread, View.ld_unit_zero (S := S5000x5) hz, View.ld_unit_zero (S := S5x5) hz, View.ld_unit_zero (S := S1x5) hz]

/-- At a later block the block's column sums are added to what the block before left. -/
theorem outB7 (c : Dev nD) (i : grid0.Coords) (a1 : Memref sig .tc .vmem S5000x5 .f32) (h1 : a1.IsWhole) (a2 : Memref sig .tc .vmem S5000x5 .f32) (h2 : a2.IsWhole) (a3 : Memref sig .tc .vmem S5x5 .f32) (h3 : a3.IsWhole) (a4 : Memref sig .tc .vmem S1x5 .f32) (h4 : a4.IsWhole) (a5 : Memref sig .tc .vmem S5x5 .f32) (h5 : a5.IsWhole) (a6 : Memref sig .tc .vmem S1x5 .f32) (h6 : a6.IsWhole) (a7 : Memref sig .tc .vmem S5000x5 .f32) (h7 : a7.IsWhole) (a8 : Memref sig .tc .vmem S1x5 .f32) (h8 : a8.IsWhole) (a9 : Memref sig .tc .vmem S1x5 .f32) (h9 : a9.IsWhole) (hc : ¬cond0_0 i)
    (x0 : Vec F S5000x5 .f32) (x1 : Vec F S5000x5 .f32) (x2 : Vec F S5x5 .f32) (x3 : Vec F S1x5 .f32) (x4 : Vec F S5x5 .f32) (x5 : Vec F S1x5 .f32) (xo7 : Vec F S1x5 .f32) (xo8 : Vec F S1x5 .f32) :
    out0_B_7 c i a1 h1 a2 h2 a3 h3 a4 h4 a5 h5 a6 h6 a7 h7 a8 h8 a9 h9 hc x0 x1 x2 x3 x4 x5 xo7 xo8 = k0_pay5 x0 x1 x2 x3 x4 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x5) hz, View.ld_unit_zero (S := S5x5) hz, View.ld_unit_zero (S := S1x5) hz]

/-- The running row of sums of squares, at the first block. -/
theorem outA8 (c : Dev nD) (i : grid0.Coords) (a1 : Memref sig .tc .vmem S5000x5 .f32) (h1 : a1.IsWhole) (a2 : Memref sig .tc .vmem S5000x5 .f32) (h2 : a2.IsWhole) (a3 : Memref sig .tc .vmem S5x5 .f32) (h3 : a3.IsWhole) (a4 : Memref sig .tc .vmem S1x5 .f32) (h4 : a4.IsWhole) (a5 : Memref sig .tc .vmem S5x5 .f32) (h5 : a5.IsWhole) (a6 : Memref sig .tc .vmem S1x5 .f32) (h6 : a6.IsWhole) (a7 : Memref sig .tc .vmem S5000x5 .f32) (h7 : a7.IsWhole) (a8 : Memref sig .tc .vmem S1x5 .f32) (h8 : a8.IsWhole) (a9 : Memref sig .tc .vmem S1x5 .f32) (h9 : a9.IsWhole) (hc : cond0_0 i)
    (x0 : Vec F S5000x5 .f32) (x1 : Vec F S5000x5 .f32) (x2 : Vec F S5x5 .f32) (x3 : Vec F S1x5 .f32) (x4 : Vec F S5x5 .f32) (x5 : Vec F S1x5 .f32) :
    out0_A_8 c i a1 h1 a2 h2 a3 h3 a4 h4 a5 h5 a6 h6 a7 h7 a8 h8 a9 h9 hc x0 x1 x2 x3 x4 x5 = k0_pay1 (k0_pay4 x0 x1 x2 x3 x4 x5) (k0_pay3 (F := F)) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x5) hz, View.readCov_unit_zero (S := S1x5) _ hz]
  simp only [View.readAt_eq_ld, h1.read_unread, h2.read_unread, h3.read_unread, h4.read_unread, h5.read_unread, h6.read_unread, View.ld_unit_zero (S := S5000x5) hz, View.ld_unit_zero (S := S5x5) hz, View.ld_unit_zero (S := S1x5) hz]

/-- The running row of sums of squares, at a later block. -/
theorem outB8 (c : Dev nD) (i : grid0.Coords) (a1 : Memref sig .tc .vmem S5000x5 .f32) (h1 : a1.IsWhole) (a2 : Memref sig .tc .vmem S5000x5 .f32) (h2 : a2.IsWhole) (a3 : Memref sig .tc .vmem S5x5 .f32) (h3 : a3.IsWhole) (a4 : Memref sig .tc .vmem S1x5 .f32) (h4 : a4.IsWhole) (a5 : Memref sig .tc .vmem S5x5 .f32) (h5 : a5.IsWhole) (a6 : Memref sig .tc .vmem S1x5 .f32) (h6 : a6.IsWhole) (a7 : Memref sig .tc .vmem S5000x5 .f32) (h7 : a7.IsWhole) (a8 : Memref sig .tc .vmem S1x5 .f32) (h8 : a8.IsWhole) (a9 : Memref sig .tc .vmem S1x5 .f32) (h9 : a9.IsWhole) (hc : ¬cond0_0 i)
    (x0 : Vec F S5000x5 .f32) (x1 : Vec F S5000x5 .f32) (x2 : Vec F S5x5 .f32) (x3 : Vec F S1x5 .f32) (x4 : Vec F S5x5 .f32) (x5 : Vec F S1x5 .f32) (xo7 : Vec F S1x5 .f32) (xo8 : Vec F S1x5 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x3 x4 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x5) hz, View.ld_unit_zero (S := S5x5) hz, View.ld_unit_zero (S := S1x5) hz]

end Pieces

/-! ## The body's arithmetic over the extended reals -/

section Values

/-- Zero against every entry, entry by entry, is `relu` of every row. -/
theorem relu_rows {N C : ℕ} (y : FVec Ideal (S2 N C) .f32) :
    maximumf y (broadcast (S2 N C) (Scalar.ofBits .f32 0x00000000#32)) = mapRows (C := C) relu y := by
  funext i
  obtain ⟨p, q, rfl⟩ : ∃ (p : Fin N) (q : Fin C), i = ix2 p q := ⟨i 0, i 1, eq_ix2 i⟩
  rfl

/-- The two dense stages of a tile of rows, as the vector unit spells them (operands rounded to half precision,
    which changes nothing of an exact number; products into a zero accumulator; the bias row repeated down the
    tile; the maximum with zero), are `ginRow` of every row. -/
theorem ginBody_rows {N K H C : ℕ} (d1 : DotDims (S2 N K) (S2 K H) (S2 N H)) (hd1 : Cert.LibPlainDot.Plain d1)
    (d2 : DotDims (S2 N H) (S2 H C) (S2 N C)) (hd2 : Cert.LibPlainDot.Plain d2)
    (x : FVec Ideal (S2 N K) .f32) (w1 : FVec Ideal (S2 K H) .f32) (b1 : FVec Ideal (S2 1 H) .f32)
    (w2 : FVec Ideal (S2 H C) .f32) (b2 : FVec Ideal (S2 1 C) .f32) (hlt : FTy.bf16.bits < FTy.f32.bits)
    (h2 : (S2 1 H).ShapeCasts (S2 1 H)) (h3 : (S2 1 H).Broadcasts (S2 N H))
    (h2' : (S2 1 C).ShapeCasts (S2 1 C)) (h3' : (S2 1 C).Broadcasts (S2 N C)) :
    maximumf (addf (matmul d2 none (truncf .bf16 (maximumf (addf (matmul d1 none (truncf .bf16 x hlt) (truncf .bf16 w1 hlt)
        (constant (S2 N H) .f32 0x00000000#32)) (broadcastTo (S2 N H) (shapeCast (S2 1 H) b1 h2) h3))
        (broadcast (S2 N H) (Scalar.ofBits .f32 0x00000000#32))) hlt) (truncf .bf16 w2 hlt)
        (constant (S2 N C) .f32 0x00000000#32)) (broadcastTo (S2 N C) (shapeCast (S2 1 C) b2 h2') h3'))
        (broadcast (S2 N C) (Scalar.ofBits .f32 0x00000000#32))
      = mapRows (ginRow w1 b1 w2 b2) x := by
  have e1 := unitLin_rows d1 hd1 x w1 b1 hlt h2 h3
  unfold unitLin at e1
  rw [e1, relu_rows (mapRows (fun r => addRow b1 (lin w1 r)) x)]
  have e2 := unitLin_rows d2 hd2 (mapRows (C := H) relu (mapRows (fun r => addRow b1 (lin w1 r)) x)) w2 b2 hlt h2' h3'
  unfold unitLin at e2
  rw [e2, relu_rows]
  rfl

/-- A running row plus the column sums of a tile, as the vector unit spells it (the sum over the rows kept as a
    vector, the vector cast to one row), at a column. -/
theorem colAcc_apply {N C : ℕ} (Y : FVec Ideal (S2 N C) .f32) (acc : FVec Ideal (S2 1 C) .f32)
    (hr : (S2 N C).Reduces [0] (Cert.Rows.S1 C)) (hφ : FKind.Formats .f32) (hacc : (0x00000000#32 : BitVec 32) = FKind.add.neutral .f32 hφ)
    (hc : (Cert.Rows.S1 C).ShapeCasts (S2 1 C)) (hs : (S2 1 C).ShapeCasts (S2 1 C)) (u : Fin 1) (q : Fin C) :
    addf (shapeCast (S2 1 C) acc hs) (shapeCast (S2 1 C) (multiReduction .add [0] (Cert.Rows.S1 C) Y 0x00000000#32 hr hφ hacc) hc) (ix2 u q)
      = acc (ix2 u q) + ∑ n : Fin N, Y (ix2 n q) := by
  rw [shapeCast_self]
  show acc (ix2 u q) + shapeCast (S2 1 C) (multiReduction .add [0] (Cert.Rows.S1 C) Y 0x00000000#32 hr hφ hacc) hc (ix2 u q) = _
  rw [shapeCast_a_1a_apply]
  refine congrArg (fun s => acc (ix2 u q) + s) ?_
  refine (Ideal.multiReduction_add_single Y 0x00000000#32 hr hφ hacc (ix1 q)).trans ?_
  refine Finset.sum_congr rfl fun k _ => ?_
  have e : hr.lift (ix1 q) k = ix2 k q := funext fun a => Fin.ext (by
    match a with
    | ⟨0, _⟩ => rfl
    | ⟨1, _⟩ => rfl)
  exact congrArg Y e

variable (x0 x1 : Vec Ideal S5000x5 .f32) (w1 : Vec Ideal S5x5 .f32) (b1 : Vec Ideal S1x5 .f32)
  (w2 : Vec Ideal S5x5 .f32) (b2 : Vec Ideal S1x5 .f32)

/-- The block of results: `ginRow` of every row of the sum of the two loaded blocks. -/
theorem pay4_eq : k0_pay4 (F := Ideal) x0 x1 w1 b1 w2 b2 = mapRows (ginRow w1 b1 w2 b2) (fun i => x0 i + x1 i) := by
  unfold k0_pay4
  refine (ginBody_rows dot_S5000x5_S5x5_S5000x5_1_0_0_1_n_n ⟨rfl, rfl, rfl, rfl, rfl, rfl⟩ dot_S5000x5_S5x5_S5000x5_1_0_0_1_n_n ⟨rfl, rfl, rfl, rfl, rfl, rfl⟩ _ w1 b1 w2 b2 _ _ _ _ _).trans ?_
  simp only [shapeCast_self]
  rfl

/-- The running row of sums after a block, at a column. -/
theorem pay5_apply (acc : Vec Ideal S1x5 .f32) (u : Fin 1) (q : Fin 5) :
    k0_pay5 (F := Ideal) x0 x1 w1 b1 w2 b2 acc (ix2 u q) = acc (ix2 u q) + ∑ n : Fin 5000, k0_pay4 (F := Ideal) x0 x1 w1 b1 w2 b2 (ix2 n q) := by
  unfold k0_pay5
  exact colAcc_apply (N := 5000) (C := 5) (k0_pay4 (F := Ideal) x0 x1 w1 b1 w2 b2) acc _ _ _ _ _ u q

/-- The running row of sums of squares after a block, at a column. -/
theorem pay1_apply (Y : FVec Ideal S5000x5 .f32) (acc : Vec Ideal S1x5 .f32) (u : Fin 1) (q : Fin 5) :
    k0_pay1 (F := Ideal) Y acc (ix2 u q) = acc (ix2 u q) + ∑ n : Fin 5000, Y (ix2 n q) * Y (ix2 n q) := by
  unfold k0_pay1
  exact colAcc_apply (N := 5000) (C := 5) (mulf Y Y) acc _ _ _ _ _ u q

/-- The running rows start at zero. -/
theorem pay2_apply (j : S1x5.Idx) : k0_pay2 (F := Ideal) j = 0 := Ideal.ofBits_zero_f32
theorem pay3_apply (j : S1x5.Idx) : k0_pay3 (F := Ideal) j = 0 := Ideal.ofBits_zero_f32

end Values

/-! ## One block, read: the results, and what is added to the running rows -/

section Points

theorem ptA6 (c : Dev nD) (i : grid0.Coords) (a1 : Memref sig .tc .vmem S5000x5 .f32) (h1 : a1.IsWhole) (a2 : Memref sig .tc .vmem S5000x5 .f32) (h2 : a2.IsWhole) (a3 : Memref sig .tc .vmem S5x5 .f32) (h3 : a3.IsWhole) (a4 : Memref sig .tc .vmem S1x5 .f32) (h4 : a4.IsWhole) (a5 : Memref sig .tc .vmem S5x5 .f32) (h5 : a5.IsWhole) (a6 : Memref sig .tc .vmem S1x5 .f32) (h6 : a6.IsWhole) (a7 : Memref sig .tc .vmem S5000x5 .f32) (h7 : a7.IsWhole) (a8 : Memref sig .tc .vmem S1x5 .f32) (h8 : a8.IsWhole) (a9 : Memref sig .tc .vmem S1x5 .f32) (h9 : a9.IsWhole) (hc : cond0_0 i)
    (x0 : Vec Ideal S5000x5 .f32) (x1 : Vec Ideal S5000x5 .f32) (x2 : Vec Ideal S5x5 .f32) (x3 : Vec Ideal S1x5 .f32) (x4 : Vec Ideal S5x5 .f32) (x5 : Vec Ideal S1x5 .f32) :
    out0_A_6 c i a1 h1 a2 h2 a3 h3 a4 h4 a5 h5 a6 h6 a7 h7 a8 h8 a9 h9 hc x0 x1 x2 x3 x4 x5 = mapRows (ginRow x2 x3 x4 x5) (fun i => x0 i + x1 i) := by
  rw [outA6, pay4_eq]

theorem ptB6 (c : Dev nD) (i : grid0.Coords) (a1 : Memref sig .tc .vmem S5000x5 .f32) (h1 : a1.IsWhole) (a2 : Memref sig .tc .vmem S5000x5 .f32) (h2 : a2.IsWhole) (a3 : Memref sig .tc .vmem S5x5 .f32) (h3 : a3.IsWhole) (a4 : Memref sig .tc .vmem S1x5 .f32) (h4 : a4.IsWhole) (a5 : Memref sig .tc .vmem S5x5 .f32) (h5 : a5.IsWhole) (a6 : Memref sig .tc .vmem S1x5 .f32) (h6 : a6.IsWhole) (a7 : Memref sig .tc .vmem S5000x5 .f32) (h7 : a7.IsWhole) (a8 : Memref sig .tc .vmem S1x5 .f32) (h8 : a8.IsWhole) (a9 : Memref sig .tc .vmem S1x5 .f32) (h9 : a9.IsWhole) (hc : ¬cond0_0 i)
    (x0 : Vec Ideal S5000x5 .f32) (x1 : Vec Ideal S5000x5 .f32) (x2 : Vec Ideal S5x5 .f32) (x3 : Vec Ideal S1x5 .f32) (x4 : Vec Ideal S5x5 .f32) (x5 : Vec Ideal S1x5 .f32) (xo7 : Vec Ideal S1x5 .f32) (xo8 : Vec Ideal S1x5 .f32) :
    out0_B_6 c i a1 h1 a2 h2 a3 h3 a4 h4 a5 h5 a6 h6 a7 h7 a8 h8 a9 h9 hc x0 x1 x2 x3 x4 x5 xo7 xo8 = mapRows (ginRow x2 x3 x4 x5) (fun i => x0 i + x1 i) := by
  rw [outB6, pay4_eq]

theorem ptA7 (c : Dev nD) (i : grid0.Coords) (a1 : Memref sig .tc .vmem S5000x5 .f32) (h1 : a1.IsWhole) (a2 : Memref sig .tc .vmem S5000x5 .f32) (h2 : a2.IsWhole) (a3 : Memref sig .tc .vmem S5x5 .f32) (h3 : a3.IsWhole) (a4 : Memref sig .tc .vmem S1x5 .f32) (h4 : a4.IsWhole) (a5 : Memref sig .tc .vmem S5x5 .f32) (h5 : a5.IsWhole) (a6 : Memref sig .tc .vmem S1x5 .f32) (h6 : a6.IsWhole) (a7 : Memref sig .tc .vmem S5000x5 .f32) (h7 : a7.IsWhole) (a8 : Memref sig .tc .vmem S1x5 .f32) (h8 : a8.IsWhole) (a9 : Memref sig .tc .vmem S1x5 .f32) (h9 : a9.IsWhole) (hc : cond0_0 i)
    (x0 : Vec Ideal S5000x5 .f32) (x1 : Vec Ideal S5000x5 .f32) (x2 : Vec Ideal S5x5 .f32) (x3 : Vec Ideal S1x5 .f32) (x4 : Vec Ideal S5x5 .f32) (x5 : Vec Ideal S1x5 .f32) (u : Fin 1) (q : Fin 5) :
    out0_A_7 c i a1 h1 a2 h2 a3 h3 a4 h4 a5 h5 a6 h6 a7 h7 a8 h8 a9 h9 hc x0 x1 x2 x3 x4 x5 (ix2 u q) = ∑ n : Fin 5000, mapRows (ginRow x2 x3 x4 x5) (fun i => x0 i + x1 i) (ix2 n q) := by
  rw [outA7, pay5_apply, pay2_apply, zero_add, pay4_eq]

theorem ptB7 (c : Dev nD) (i : grid0.Coords) (a1 : Memref sig .tc .vmem S5000x5 .f32) (h1 : a1.IsWhole) (a2 : Memref sig .tc .vmem S5000x5 .f32) (h2 : a2.IsWhole) (a3 : Memref sig .tc .vmem S5x5 .f32) (h3 : a3.IsWhole) (a4 : Memref sig .tc .vmem S1x5 .f32) (h4 : a4.IsWhole) (a5 : Memref sig .tc .vmem S5x5 .f32) (h5 : a5.IsWhole) (a6 : Memref sig .tc .vmem S1x5 .f32) (h6 : a6.IsWhole) (a7 : Memref sig .tc .vmem S5000x5 .f32) (h7 : a7.IsWhole) (a8 : Memref sig .tc .vmem S1x5 .f32) (h8 : a8.IsWhole) (a9 : Memref sig .tc .vmem S1x5 .f32) (h9 : a9.IsWhole) (hc : ¬cond0_0 i)
    (x0 : Vec Ideal S5000x5 .f32) (x1 : Vec Ideal S5000x5 .f32) (x2 : Vec Ideal S5x5 .f32) (x3 : Vec Ideal S1x5 .f32) (x4 : Vec Ideal S5x5 .f32) (x5 : Vec Ideal S1x5 .f32) (xo7 : Vec Ideal S1x5 .f32) (xo8 : Vec Ideal S1x5 .f32) (u : Fin 1) (q : Fin 5) :
    out0_B_7 c i a1 h1 a2 h2 a3 h3 a4 h4 a5 h5 a6 h6 a7 h7 a8 h8 a9 h9 hc x0 x1 x2 x3 x4 x5 xo7 xo8 (ix2 u q) = xo7 (ix2 u q) + ∑ n : Fin 5000, mapRows (ginRow x2 x3 x4 x5) (fun i => x0 i + x1 i) (ix2 n q) := by
  rw [outB7, pay5_apply, pay4_eq]

theorem ptA8 (c : Dev nD) (i : grid0.Coords) (a1 : Memref sig .tc .vmem S5000x5 .f32) (h1 : a1.IsWhole) (a2 : Memref sig .tc .vmem S5000x5 .f32) (h2 : a2.IsWhole) (a3 : Memref sig .tc .vmem S5x5 .f32) (h3 : a3.IsWhole) (a4 : Memref sig .tc .vmem S1x5 .f32) (h4 : a4.IsWhole) (a5 : Memref sig .tc .vmem S5x5 .f32) (h5 : a5.IsWhole) (a6 : Memref sig .tc .vmem S1x5 .f32) (h6 : a6.IsWhole) (a7 : Memref sig .tc .vmem S5000x5 .f32) (h7 : a7.IsWhole) (a8 : Memref sig .tc .vmem S1x5 .f32) (h8 : a8.IsWhole) (a9 : Memref sig .tc .vmem S1x5 .f32) (h9 : a9.IsWhole) (hc : cond0_0 i)
    (x0 : Vec Ideal S5000x5 .f32) (x1 : Vec Ideal S5000x5 .f32) (x2 : Vec Ideal S5x5 .f32) (x3 : Vec Ideal S1x5 .f32) (x4 : Vec Ideal S5x5 .f32) (x5 : Vec Ideal S1x5 .f32) (u : Fin 1) (q : Fin 5) :
    out0_A_8 c i a1 h1 a2 h2 a3 h3 a4 h4 a5 h5 a6 h6 a7 h7 a8 h8 a9 h9 hc x0 x1 x2 x3 x4 x5 (ix2 u q) = ∑ n : Fin 5000, mapRows (ginRow x2 x3 x4 x5) (fun i => x0 i + x1 i) (ix2 n q) * mapRows (ginRow x2 x3 x4 x5) (fun i => x0 i + x1 i) (ix2 n q) := by
  rw [outA8, pay1_apply, pay3_apply, zero_add, pay4_eq]

theorem ptB8 (c : Dev nD) (i : grid0.Coords) (a1 : Memref sig .tc .vmem S5000x5 .f32) (h1 : a1.IsWhole) (a2 : Memref sig .tc .vmem S5000x5 .f32) (h2 : a2.IsWhole) (a3 : Memref sig .tc .vmem S5x5 .f32) (h3 : a3.IsWhole) (a4 : Memref sig .tc .vmem S1x5 .f32) (h4 : a4.IsWhole) (a5 : Memref sig .tc .vmem S5x5 .f32) (h5 : a5.IsWhole) (a6 : Memref sig .tc .vmem S1x5 .f32) (h6 : a6.IsWhole) (a7 : Memref sig .tc .vmem S5000x5 .f32) (h7 : a7.IsWhole) (a8 : Memref sig .tc .vmem S1x5 .f32) (h8 : a8.IsWhole) (a9 : Memref sig .tc .vmem S1x5 .f32) (h9 : a9.IsWhole) (hc : ¬cond0_0 i)
    (x0 : Vec Ideal S5000x5 .f32) (x1 : Vec Ideal S5000x5 .f32) (x2 : Vec Ideal S5x5 .f32) (x3 : Vec Ideal S1x5 .f32) (x4 : Vec Ideal S5x5 .f32) (x5 : Vec Ideal S1x5 .f32) (xo7 : Vec Ideal S1x5 .f32) (xo8 : Vec Ideal S1x5 .f32) (u : Fin 1) (q : Fin 5) :
    out0_B_8 c i a1 h1 a2 h2 a3 h3 a4 h4 a5 h5 a6 h6 a7 h7 a8 h8 a9 h9 hc x0 x1 x2 x3 x4 x5 xo7 xo8 (ix2 u q) = xo8 (ix2 u q) + ∑ n : Fin 5000, mapRows (ginRow x2 x3 x4 x5) (fun i => x0 i + x1 i) (ix2 n q) * mapRows (ginRow x2 x3 x4 x5) (fun i => x0 i + x1 i) (ix2 n q) := by
  rw [outB8, pay1_apply, pay4_eq]

end Points

/-! ## The blocks are the rows of one array -/

section Blocks

variable (V : (c : Dev nD) → (b : Ref sig .tc) → Buf (Elt Ideal) ((c : Thread nD τ).loc b)) (c : Dev nD)

/-- The layer on all the rows at once. -/
def Y : S500000x5.Idx → EReal :=
  gin (V c main_arg4 : S5x5.Idx → EReal) (V c main_v14 : S1x5.Idx → EReal) (V c main_arg6 : S5x5.Idx → EReal) (V c main_v15 : S1x5.Idx → EReal) (V c main_arg0 : S500000x5.Idx → EReal) (V c main_v13 : S500000x5.Idx → EReal)

/-- Row `p` of block `t`. -/
def row (t : Fin cfg0.N) (p : Fin 5000) : Fin 500000 :=
  ⟨5000 * t.val + p.val, by have := lt_of_lt_of_eq t.isLt (show cfg0.N = 100 from N_0); have := p.isLt; omega⟩

/-- The block indices, decided over the hundred points: the two row operands and the block of results move down
    the rows, every other window stays on its one block. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- Window 0's block at point `t` is rows `5000 t … 5000 t + 4999` of its array. -/
theorem blk_h (t : Fin cfg0.N) (p : Fin 5000) (k : Fin 5) :
    (iblk0 V c 0 t : S5000x5.Idx → EReal) (ix2 p k) = (V c main_arg0 : S500000x5.Idx → EReal) (ix2 (row t p) k) := by
  unfold iblk0
  rw [View.read_apply]
  show (V c main_arg0 : S500000x5.Idx → EReal) (((cfg0.win 0).blk t).view.emb (ix2 p k)) = (V c main_arg0 : S500000x5.Idx → EReal) (ix2 (row t p) k)
  refine congrArg _ (funext fun a => Fin.ext ?_)
  obtain ⟨e00, e01, e10, e11, e20, e21, e30, e31, e40, e41, e50, e51, e60, e61, e70, e71, e80, e81⟩ := idx_facts t
  match a with
  | ⟨0, _⟩ => show win0_0.index t (0 : Fin 2) * 5000 + 1 * p.val = 5000 * t.val + p.val; rw [e00]; omega
  | ⟨1, _⟩ => show win0_0.index t (1 : Fin 2) * 5 + 1 * k.val = k.val; rw [e01]; omega

/-- Window 1's block at point `t` is rows `5000 t … 5000 t + 4999` of its array. -/
theorem blk_agg (t : Fin cfg0.N) (p : Fin 5000) (k : Fin 5) :
    (iblk0 V c 1 t : S5000x5.Idx → EReal) (ix2 p k) = (V c main_v13 : S500000x5.Idx → EReal) (ix2 (row t p) k) := by
  unfold iblk0
  rw [View.read_apply]
  show (V c main_v13 : S500000x5.Idx → EReal) (((cfg0.win 1).blk t).view.emb (ix2 p k)) = (V c main_v13 : S500000x5.Idx → EReal) (ix2 (row t p) k)
  refine congrArg _ (funext fun a => Fin.ext ?_)
  obtain ⟨e00, e01, e10, e11, e20, e21, e30, e31, e40, e41, e50, e51, e60, e61, e70, e71, e80, e81⟩ := idx_facts t
  match a with
  | ⟨0, _⟩ => show win0_1.index t (0 : Fin 2) * 5000 + 1 * p.val = 5000 * t.val + p.val; rw [e10]; omega
  | ⟨1, _⟩ => show win0_1.index t (1 : Fin 2) * 5 + 1 * k.val = k.val; rw [e11]; omega

/-- Window 2 is one block, the whole array, at every point. -/
theorem blk_w1 (t : Fin cfg0.N) : (iblk0 V c 2 t : S5x5.Idx → EReal) = (V c main_arg4 : S5x5.Idx → EReal) := by
  funext j
  unfold iblk0
  rw [View.read_apply]
  show (V c main_arg4 : S5x5.Idx → EReal) (((cfg0.win 2).blk t).view.emb j) = (V c main_arg4 : S5x5.Idx → EReal) j
  refine congrArg _ (funext fun a => Fin.ext ?_)
  obtain ⟨e00, e01, e10, e11, e20, e21, e30, e31, e40, e41, e50, e51, e60, e61, e70, e71, e80, e81⟩ := idx_facts t
  match a with
  | ⟨0, _⟩ => show win0_2.index t (0 : Fin 2) * 5 + 1 * (j 0).val = (j 0).val; rw [e20]; omega
  | ⟨1, _⟩ => show win0_2.index t (1 : Fin 2) * 5 + 1 * (j 1).val = (j 1).val; rw [e21]; omega

/-- Window 3 is one block, the whole array, at every point. -/
theorem blk_b1 (t : Fin cfg0.N) : (iblk0 V c 3 t : S1x5.Idx → EReal) = (V c main_v14 : S1x5.Idx → EReal) := by
  funext j
  unfold iblk0
  rw [View.read_apply]
  show (V c main_v14 : S1x5.Idx → EReal) (((cfg0.win 3).blk t).view.emb j) = (V c main_v14 : S1x5.Idx → EReal) j
  refine congrArg _ (funext fun a => Fin.ext ?_)
  obtain ⟨e00, e01, e10, e11, e20, e21, e30, e31, e40, e41, e50, e51, e60, e61, e70, e71, e80, e81⟩ := idx_facts t
  match a with
  | ⟨0, _⟩ => show win0_3.index t (0 : Fin 2) * 1 + 1 * (j 0).val = (j 0).val; rw [e30]; omega
  | ⟨1, _⟩ => show win0_3.index t (1 : Fin 2) * 5 + 1 * (j 1).val = (j 1).val; rw [e31]; omega

/-- Window 4 is one block, the whole array, at every point. -/
theorem blk_w2 (t : Fin cfg0.N) : (iblk0 V c 4 t : S5x5.Idx → EReal) = (V c main_arg6 : S5x5.Idx → EReal) := by
  funext j
  unfold iblk0
  rw [View.read_apply]
  show (V c main_arg6 : S5x5.Idx → EReal) (((cfg0.win 4).blk t).view.emb j) = (V c main_arg6 : S5x5.Idx → EReal) j
  refine congrArg _ (funext fun a => Fin.ext ?_)
  obtain ⟨e00, e01, e10, e11, e20, e21, e30, e31, e40, e41, e50, e51, e60, e61, e70, e71, e80, e81⟩ := idx_facts t
  match a with
  | ⟨0, _⟩ => show win0_4.index t (0 : Fin 2) * 5 + 1 * (j 0).val = (j 0).val; rw [e40]; omega
  | ⟨1, _⟩ => show win0_4.index t (1 : Fin 2) * 5 + 1 * (j 1).val = (j 1).val; rw [e41]; omega

/-- Window 5 is one block, the whole array, at every point. -/
theorem blk_b2 (t : Fin cfg0.N) : (iblk0 V c 5 t : S1x5.Idx → EReal) = (V c main_v15 : S1x5.Idx → EReal) := by
  funext j
  unfold iblk0
  rw [View.read_apply]
  show (V c main_v15 : S1x5.Idx → EReal) (((cfg0.win 5).blk t).view.emb j) = (V c main_v15 : S1x5.Idx → EReal) j
  refine congrArg _ (funext fun a => Fin.ext ?_)
  obtain ⟨e00, e01, e10, e11, e20, e21, e30, e31, e40, e41, e50, e51, e60, e61, e70, e71, e80, e81⟩ := idx_facts t
  match a with
  | ⟨0, _⟩ => show win0_5.index t (0 : Fin 2) * 1 + 1 * (j 0).val = (j 0).val; rw [e50]; omega
  | ⟨1, _⟩ => show win0_5.index t (1 : Fin 2) * 5 + 1 * (j 1).val = (j 1).val; rw [e51]; omega

/-- The two row operands as arrays of extended reals, whole and by blocks. -/
abbrev Ah : S500000x5.Idx → EReal := V c main_arg0
abbrev Aagg : S500000x5.Idx → EReal := V c main_v13
abbrev B0 (t : Fin cfg0.N) : S5000x5.Idx → EReal := iblk0 V c 0 t
abbrev B1 (t : Fin cfg0.N) : S5000x5.Idx → EReal := iblk0 V c 1 t

/-- A tile of rows through the layer, with the weights read through another name. -/
theorem tile_eq {N T K' H' C' : ℕ} (w1 w1' : (S2 K' H').Idx → EReal) (b1 b1' : (S2 1 H').Idx → EReal)
    (w2 w2' : (S2 H' C').Idx → EReal) (b2 b2' : (S2 1 C').Idx → EReal)
    (hw1 : w1' = w1) (hb1 : b1' = b1) (hw2 : w2' = w2) (hb2 : b2' = b2)
    (A : (S2 N K').Idx → EReal) (X : (S2 T K').Idx → EReal) (o : ℕ) (ho : ∀ p : Fin T, o + p.val < N)
    (hX : ∀ (p : Fin T) (k : Fin K'), X (ix2 p k) = A (ix2 ⟨o + p.val, ho p⟩ k)) (p : Fin T) (q : Fin C') :
    mapRows (ginRow w1' b1' w2' b2') X (ix2 p q) = mapRows (ginRow w1 b1 w2 b2) A (ix2 ⟨o + p.val, ho p⟩ q) := by
  subst hw1 hb1 hw2 hb2
  exact mapRows_tile _ A X o ho hX p q

/-- The layer on block `t` is rows `5000 t …` of the layer on all the rows. -/
theorem blockY (t : Fin cfg0.N) (p : Fin 5000) (q : Fin 5) :
    mapRows (ginRow (iblk0 V c 2 t : S5x5.Idx → EReal) (iblk0 V c 3 t : S1x5.Idx → EReal) (iblk0 V c 4 t : S5x5.Idx → EReal) (iblk0 V c 5 t : S1x5.Idx → EReal))
      (fun i => B0 V c t i + B1 V c t i) (ix2 p q) = Y V c (ix2 (row t p) q) :=
  tile_eq (V c main_arg4 : S5x5.Idx → EReal) (iblk0 V c 2 t : S5x5.Idx → EReal) (V c main_v14 : S1x5.Idx → EReal) (iblk0 V c 3 t : S1x5.Idx → EReal)
    (V c main_arg6 : S5x5.Idx → EReal) (iblk0 V c 4 t : S5x5.Idx → EReal) (V c main_v15 : S1x5.Idx → EReal) (iblk0 V c 5 t : S1x5.Idx → EReal)
    (blk_w1 V c t) (blk_b1 V c t) (blk_w2 V c t) (blk_b2 V c t)
    (fun i => Ah V c i + Aagg V c i) (fun i => B0 V c t i + B1 V c t i) (5000 * t.val)
    (fun p' => by have := lt_of_lt_of_eq t.isLt (show cfg0.N = 100 from N_0); have := p'.isLt; omega)
    (fun p' k => congrArg₂ (· + ·) (blk_h V c t p' k) (blk_agg V c t p' k)) p q

/-- An index of the block of results sits at its row of the whole array. -/
theorem emb6 (t : Fin cfg0.N) (j : S5000x5.Idx) : ((cfg0.win 6).blk t).view.emb j = ix2 (row t (j 0)) (j 1) := by
  funext a
  apply Fin.ext
  obtain ⟨e00, e01, e10, e11, e20, e21, e30, e31, e40, e41, e50, e51, e60, e61, e70, e71, e80, e81⟩ := idx_facts t
  match a with
  | ⟨0, _⟩ => show win0_6.index t (0 : Fin 2) * 5000 + 1 * (j 0).val = 5000 * t.val + (j 0).val; rw [e60]; omega
  | ⟨1, _⟩ => show win0_6.index t (1 : Fin 2) * 5 + 1 * (j 1).val = (j 1).val; rw [e61]; omega

/-- What every point leaves in the block of results: its rows of the layer on all the rows. -/
theorem after6 (t : Fin cfg0.N) :
    (outsAt0 V c t.val t.isLt).1 = fun j : S5000x5.Idx => Y V c (ix2 (row t (j 0)) (j 1)) := by
  by_cases h0 : t.val % 100 = 0
  · rw [outsAt0_A V c t h0]
    dsimp only
    refine (ptA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)).trans ?_
    funext j
    obtain ⟨p, q, rfl⟩ : ∃ (p : Fin 5000) (q : Fin 5), j = ix2 p q := ⟨j 0, j 1, eq_ix2 j⟩
    exact blockY V c t p q
  · rw [outsAt0_B V c t h0]
    dsimp only
    refine (ptB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun hcnd => h0 ((hcond0_0 t).mp hcnd)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2).trans ?_
    funext j
    obtain ⟨p, q, rfl⟩ : ∃ (p : Fin 5000) (q : Fin 5), j = ix2 p q := ⟨j 0, j 1, eq_ix2 j⟩
    exact blockY V c t p q

/-- What point `t` writes back of the results is block `t` of the layer on all the rows. -/
theorem flushed6_eq (t : Fin cfg0.N) :
    (dat0 V c).flushed 6 t = ((cfg0.win 6).blk t).view.read (Elt Ideal) (Y V c) := by
  show (cfg0.win 6).cut (grid0.coords t) ((dat0 V c).after 6 t) = _
  rw [after0_6, after6 V c t]
  funext j
  rw [View.read_apply]
  exact (congrArg (Y V c) (emb6 t j)).symm

/-- Every row is in some block. -/
theorem cover6 (i : S500000x5.Idx) : ∃ t : Fin cfg0.N, (cfg0.win 6).flush t = true ∧ i ∈ ((cfg0.win 6).blk t).view.set := by
  have hN : cfg0.N = 100 := N_0
  have h0 : (i 0 : Nat) < 500000 := (i 0).isLt
  have h1 : (i 1 : Nat) < 5 := (i 1).isLt
  refine ⟨⟨(i 0 : Nat) / 5000, by omega⟩, flush0_6 _, ?_⟩
  generalize ht : (⟨(i 0 : Nat) / 5000, by omega⟩ : Fin cfg0.N) = t
  have htv : t.val = (i 0 : Nat) / 5000 := by rw [← ht]
  show i ∈ ((View.whole main_v16_0).slice (win0_6.rect t)).set
  rw [View.set_slice_whole, Rect.mem_set_unit]
  intro a
  obtain ⟨e00, e01, e10, e11, e20, e21, e30, e31, e40, e41, e50, e51, e60, e61, e70, e71, e80, e81⟩ := idx_facts t
  match a with
  | ⟨0, _⟩ => show win0_6.index t (0 : Fin 2) * 5000 ≤ (i 0 : Nat) ∧ (i 0 : Nat) < win0_6.index t (0 : Fin 2) * 5000 + 5000
              rw [e60]; omega
  | ⟨1, _⟩ => show win0_6.index t (1 : Fin 2) * 5 ≤ (i 1 : Nat) ∧ (i 1 : Nat) < win0_6.index t (1 : Fin 2) * 5 + 5
              rw [e61]; omega

/-- The array of results after the run is the layer on all the rows. -/
theorem out : (Gen.dat0 (F := Ideal) V c).arrAt 6 cfg0.N
    = Cert.Net.gin (V c main_arg4 : S5x5.Idx → EReal) (V c main_v14 : S1x5.Idx → EReal) (V c main_arg6 : S5x5.Idx → EReal) (V c main_v15 : S1x5.Idx → EReal) (V c main_arg0 : S500000x5.Idx → EReal) (V c main_v13 : S500000x5.Idx → EReal) :=
  (dat0 V c).arrAt_eq_of_cover 6 (Y V c) (fun t _ => flushed6_eq V c t) cover6

/-! ## The running rows -/

/-- The part of a sum over all the rows that block `s` contributes. -/
def part (g : Fin 500000 → EReal) (s : ℕ) : EReal :=
  if h : s < 100 then ∑ p : Fin 5000, g ⟨5000 * s + p.val, by have := p.isLt; omega⟩ else 0

theorem part_row (g : Fin 500000 → EReal) (t : Fin cfg0.N) : part g t.val = ∑ p : Fin 5000, g (row t p) :=
  dif_pos (lt_of_lt_of_eq t.isLt (show cfg0.N = 100 from N_0))

/-- The hundred blocks' parts make up the sum over all the rows. -/
theorem sum_parts (g : Fin 500000 → EReal) : ∑ s ∈ Finset.range 100, part g s = ∑ r : Fin 500000, g r := by
  rw [Finset.sum_range]
  have e : ∀ s : Fin 100, part g s.val = ∑ p : Fin 5000, g ⟨5000 * s.val + p.val, by have := s.isLt; have := p.isLt; omega⟩ :=
    fun s => dif_pos s.isLt
  rw [Finset.sum_congr rfl fun s _ => e s]
  rw [← Fintype.sum_prod_type' (fun (s : Fin 100) (p : Fin 5000) => g ⟨5000 * s.val + p.val, by have := s.isLt; have := p.isLt; omega⟩)]
  exact Fintype.sum_equiv (finProdFinEquiv (m := 100) (n := 5000)) _ (fun r : Fin (100 * 5000) => g r)
    fun x => congrArg g (Fin.ext (by show 5000 * x.1.val + x.2.val = x.2.val + 5000 * x.1.val; omega))

/-- The running row of sums after block `n`: the parts of blocks `0 … n`. -/
def accS (n : ℕ) : S1x5.Idx → EReal := fun j => ∑ s ∈ Finset.range (n + 1), part (fun r => Y V c (ix2 r (j 1))) s

/-- The running row of sums of squares after block `n`. -/
def accQ (n : ℕ) : S1x5.Idx → EReal :=
  fun j => ∑ s ∈ Finset.range (n + 1), part (fun r => Y V c (ix2 r (j 1)) * Y V c (ix2 r (j 1))) s

/-- What the two running rows hold after each point, by induction on the point. -/
theorem running : ∀ (n : ℕ) (h : n < cfg0.N),
    (outsAt0 V c n h).2.1 = accS V c n ∧ (outsAt0 V c n h).2.2 = accQ V c n
  | 0, h => by
    rw [outsAt0_A V c ⟨0, h⟩ rfl]
    dsimp only
    constructor
    · funext j
      obtain ⟨u, q, rfl⟩ : ∃ (u : Fin 1) (q : Fin 5), j = ix2 u q := ⟨j 0, j 1, eq_ix2 j⟩
      refine (ptA7 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) ((hcond0_0 ⟨0, h⟩).mpr (Nat.zero_mod _)) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) u q).trans ?_
      show _ = ∑ s ∈ Finset.range 1, part (fun r => Y V c (ix2 r q)) s
      rw [Finset.sum_range_one, part_row _ ⟨0, h⟩]
      exact Finset.sum_congr rfl fun p _ => blockY V c ⟨0, h⟩ p q
    · funext j
      obtain ⟨u, q, rfl⟩ : ∃ (u : Fin 1) (q : Fin 5), j = ix2 u q := ⟨j 0, j 1, eq_ix2 j⟩
      refine (ptA8 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) ((hcond0_0 ⟨0, h⟩).mpr (Nat.zero_mod _)) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) u q).trans ?_
      show _ = ∑ s ∈ Finset.range 1, part (fun r => Y V c (ix2 r q) * Y V c (ix2 r q)) s
      rw [Finset.sum_range_one, part_row _ ⟨0, h⟩]
      exact Finset.sum_congr rfl fun p _ => congrArg₂ (· * ·) (blockY V c ⟨0, h⟩ p q) (blockY V c ⟨0, h⟩ p q)
  | n + 1, h => by
    have hN : cfg0.N = 100 := N_0
    have hB : ¬(⟨n + 1, h⟩ : Fin cfg0.N).val % 100 = 0 := by dsimp only; omega
    obtain ⟨ih1, ih2⟩ := running n (Nat.lt_of_succ_lt h)
    rw [outsAt0_B V c ⟨n + 1, h⟩ hB]
    dsimp only
    constructor
    · funext j
      obtain ⟨u, q, rfl⟩ : ∃ (u : Fin 1) (q : Fin 5), j = ix2 u q := ⟨j 0, j 1, eq_ix2 j⟩
      refine (ptB7 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (fun hcnd => hB ((hcond0_0 (⟨n + 1, h⟩ : Fin cfg0.N)).mp hcnd)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (iblk0 V c 5 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2 u q).trans ?_
      show (outsAt0 V c n (Nat.lt_of_succ_lt h)).2.1 (ix2 u q) + _ = ∑ s ∈ Finset.range (n + 1 + 1), part (fun r => Y V c (ix2 r q)) s
      rw [ih1, Finset.sum_range_succ _ (n + 1), part_row _ ⟨n + 1, h⟩]
      exact congrArg (fun s => accS V c n (ix2 u q) + s) (Finset.sum_congr rfl fun p _ => blockY V c ⟨n + 1, h⟩ p q)
    · funext j
      obtain ⟨u, q, rfl⟩ : ∃ (u : Fin 1) (q : Fin 5), j = ix2 u q := ⟨j 0, j 1, eq_ix2 j⟩
      refine (ptB8 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (fun hcnd => hB ((hcond0_0 (⟨n + 1, h⟩ : Fin cfg0.N)).mp hcnd)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (iblk0 V c 5 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2 u q).trans ?_
      show (outsAt0 V c n (Nat.lt_of_succ_lt h)).2.2 (ix2 u q) + _ = ∑ s ∈ Finset.range (n + 1 + 1), part (fun r => Y V c (ix2 r q) * Y V c (ix2 r q)) s
      rw [ih2, Finset.sum_range_succ _ (n + 1), part_row _ ⟨n + 1, h⟩]
      exact congrArg (fun s => accQ V c n (ix2 u q) + s) (Finset.sum_congr rfl fun p _ => congrArg₂ (· * ·) (blockY V c ⟨n + 1, h⟩ p q) (blockY V c ⟨n + 1, h⟩ p q))

/-- The one block of a running row's window is the whole row. -/
theorem emb7 (t : Fin cfg0.N) (j : S1x5.Idx) : ((cfg0.win 7).blk t).view.emb j = j := by
  funext a
  apply Fin.ext
  obtain ⟨e00, e01, e10, e11, e20, e21, e30, e31, e40, e41, e50, e51, e60, e61, e70, e71, e80, e81⟩ := idx_facts t
  match a with
  | ⟨0, _⟩ => show win0_7.index t (0 : Fin 2) * 1 + 1 * (j 0).val = (j 0).val; rw [e70]; omega
  | ⟨1, _⟩ => show win0_7.index t (1 : Fin 2) * 5 + 1 * (j 1).val = (j 1).val; rw [e71]; omega

theorem emb8 (t : Fin cfg0.N) (j : S1x5.Idx) : ((cfg0.win 8).blk t).view.emb j = j := by
  funext a
  apply Fin.ext
  obtain ⟨e00, e01, e10, e11, e20, e21, e30, e31, e40, e41, e50, e51, e60, e61, e70, e71, e80, e81⟩ := idx_facts t
  match a with
  | ⟨0, _⟩ => show win0_8.index t (0 : Fin 2) * 1 + 1 * (j 0).val = (j 0).val; rw [e80]; omega
  | ⟨1, _⟩ => show win0_8.index t (1 : Fin 2) * 5 + 1 * (j 1).val = (j 1).val; rw [e81]; omega

/-- The last point, the only one that writes the running rows back, writes the column sums of the whole array. -/
theorem flushed7_eq (t : Fin cfg0.N) (hf : (cfg0.win 7).flush t = true) :
    (dat0 V c).flushed 7 t = ((cfg0.win 7).blk t).view.read (Elt Ideal) (sumRow (Y V c)) := by
  have hN : cfg0.N = 100 := N_0
  have h99 : t.val = 99 := by have := (flush0_7 t).mp hf; have := t.isLt; omega
  show (cfg0.win 7).cut (grid0.coords t) ((dat0 V c).after 7 t) = _
  rw [after0_7, (running V c t.val t.isLt).1]
  have key : ∀ X G : S1x5.Idx → EReal, (∀ j, X j = G j) →
      (cfg0.win 7).cut (grid0.coords t) X = ((cfg0.win 7).blk t).view.read (Elt Ideal) G := by
    intro X G hXG
    funext j
    rw [View.read_apply]
    exact (hXG _).trans (congrArg G (emb7 t j).symm)
  refine key (accS V c t.val) (sumRow (Y V c)) fun j => ?_
  rw [h99]
  exact sum_parts (fun r => Y V c (ix2 r (j 1)))

theorem flushed8_eq (t : Fin cfg0.N) (hf : (cfg0.win 8).flush t = true) :
    (dat0 V c).flushed 8 t = ((cfg0.win 8).blk t).view.read (Elt Ideal) (sumSqRow (Y V c)) := by
  have hN : cfg0.N = 100 := N_0
  have h99 : t.val = 99 := by have := (flush0_8 t).mp hf; have := t.isLt; omega
  show (cfg0.win 8).cut (grid0.coords t) ((dat0 V c).after 8 t) = _
  rw [after0_8, (running V c t.val t.isLt).2]
  have key : ∀ X G : S1x5.Idx → EReal, (∀ j, X j = G j) →
      (cfg0.win 8).cut (grid0.coords t) X = ((cfg0.win 8).blk t).view.read (Elt Ideal) G := by
    intro X G hXG
    funext j
    rw [View.read_apply]
    exact (hXG _).trans (congrArg G (emb8 t j).symm)
  refine key (accQ V c t.val) (sumSqRow (Y V c)) fun j => ?_
  rw [h99]
  exact sum_parts (fun r => Y V c (ix2 r (j 1)) * Y V c (ix2 r (j 1)))

/-- The last point's block covers a running row. -/
theorem cover7 (i : S1x5.Idx) : ∃ t : Fin cfg0.N, (cfg0.win 7).flush t = true ∧ i ∈ ((cfg0.win 7).blk t).view.set := by
  have hN : cfg0.N = 100 := N_0
  have h0 : (i 0 : Nat) < 1 := (i 0).isLt
  have h1 : (i 1 : Nat) < 5 := (i 1).isLt
  refine ⟨⟨99, by omega⟩, (flush0_7 _).mpr rfl, ?_⟩
  generalize (⟨99, by omega⟩ : Fin cfg0.N) = t
  show i ∈ ((View.whole main_v16_1).slice (win0_7.rect t)).set
  rw [View.set_slice_whole, Rect.mem_set_unit]
  intro a
  obtain ⟨e00, e01, e10, e11, e20, e21, e30, e31, e40, e41, e50, e51, e60, e61, e70, e71, e80, e81⟩ := idx_facts t
  match a with
  | ⟨0, _⟩ => show win0_7.index t (0 : Fin 2) * 1 ≤ (i 0 : Nat) ∧ (i 0 : Nat) < win0_7.index t (0 : Fin 2) * 1 + 1
              rw [e70]; omega
  | ⟨1, _⟩ => show win0_7.index t (1 : Fin 2) * 5 ≤ (i 1 : Nat) ∧ (i 1 : Nat) < win0_7.index t (1 : Fin 2) * 5 + 5
              rw [e71]; omega

theorem cover8 (i : S1x5.Idx) : ∃ t : Fin cfg0.N, (cfg0.win 8).flush t = true ∧ i ∈ ((cfg0.win 8).blk t).view.set := by
  have hN : cfg0.N = 100 := N_0
  have h0 : (i 0 : Nat) < 1 := (i 0).isLt
  have h1 : (i 1 : Nat) < 5 := (i 1).isLt
  refine ⟨⟨99, by omega⟩, (flush0_8 _).mpr rfl, ?_⟩
  generalize (⟨99, by omega⟩ : Fin cfg0.N) = t
  show i ∈ ((View.whole main_v16_2).slice (win0_8.rect t)).set
  rw [View.set_slice_whole, Rect.mem_set_unit]
  intro a
  obtain ⟨e00, e01, e10, e11, e20, e21, e30, e31, e40, e41, e50, e51, e60, e61, e70, e71, e80, e81⟩ := idx_facts t
  match a with
  | ⟨0, _⟩ => show win0_8.index t (0 : Fin 2) * 1 ≤ (i 0 : Nat) ∧ (i 0 : Nat) < win0_8.index t (0 : Fin 2) * 1 + 1
              rw [e80]; omega
  | ⟨1, _⟩ => show win0_8.index t (1 : Fin 2) * 5 ≤ (i 1 : Nat) ∧ (i 1 : Nat) < win0_8.index t (1 : Fin 2) * 5 + 5
              rw [e81]; omega

/-- The row of column sums after the run. -/
theorem sum : (Gen.dat0 (F := Ideal) V c).arrAt 7 cfg0.N
    = Cert.Net.sumRow (Cert.Net.gin (V c main_arg4 : S5x5.Idx → EReal) (V c main_v14 : S1x5.Idx → EReal) (V c main_arg6 : S5x5.Idx → EReal) (V c main_v15 : S1x5.Idx → EReal) (V c main_arg0 : S500000x5.Idx → EReal) (V c main_v13 : S500000x5.Idx → EReal)) :=
  (dat0 V c).arrAt_eq_of_cover 7 (sumRow (Y V c)) (flushed7_eq V c) cover7

/-- The row of column sums of squares after the run. -/
theorem sumsq : (Gen.dat0 (F := Ideal) V c).arrAt 8 cfg0.N
    = Cert.Net.sumSqRow (Cert.Net.gin (V c main_arg4 : S5x5.Idx → EReal) (V c main_v14 : S1x5.Idx → EReal) (V c main_arg6 : S5x5.Idx → EReal) (V c main_v15 : S1x5.Idx → EReal) (V c main_arg0 : S500000x5.Idx → EReal) (V c main_v13 : S500000x5.Idx → EReal)) :=
  (dat0 V c).arrAt_eq_of_cover 8 (sumSqRow (Y V c)) (flushed8_eq V c) cover8

end Blocks

end Cert.KernelIdeal.Gin0

end
-- ==== Proof.Bn1.lean ====
import proofs.«132165_j27702539059447_2_alg».proof.Proof.Gen.KernelIdeal.Frame
import proofs.«132165_j27702539059447_2_alg».proof.Proof.Net
import Idealize.ShloMosaic.Lib.Pipeline.Value

/-!
# The first normalisation's result, as one array

The array has 500000 rows of 5 entries and is produced in 100 blocks of 5000 consecutive rows. Block `t` is
computed from rows `5000 t … 5000 t + 4999` of the operand and from four one-row matrices (the mean, the factor, the
gain and the shift), which every block reads whole. At the entry `(p, q)` of a block the result is
`(x (p, q) - mean q) · factor q · gain q + shift q`: it depends on the operand only through the entry in the same
place. So block `t` of the result is the restriction to those rows of one function of the whole operand, and the 100
blocks fill the array: row `r` lies in block `r / 5000`.
-/

noncomputable section

namespace Cert.KernelIdeal.Bn1

open Cert.KernelIdeal Cert.KernelIdeal.Gen Idealize.ShloMosaic Idealize.ShloMosaic.TcCoe Idealize.SL.Sem
open Idealize.ShloMosaic.Pipeline (Dat)
open Idealize.ShloMosaic.ValueIdx Cert.Rows

variable (V : (c : Dev nD) → (b : Ref sig .tc) → Buf (Elt Ideal) ((c : Thread nD τ).loc b))

/-- Every access of the body starts at the origin of its buffer. -/
theorem zero_offsets : (![0, 0] : Fin 2 → Nat) = fun _ => 0 := funext fun a => by fin_cases a <;> rfl

/-- The affine map at the entry `(n, q)`. -/
theorem bnApply_entry {N C : ℕ} (x : (S2 N C).Idx → EReal) (mu inv g be : (S2 1 C).Idx → EReal) (n : Fin N) (q : Fin C) :
    Cert.Net.bnApply x mu inv g be (ix2 n q)
      = (x (ix2 n q) - mu (ix2 (0 : Fin 1) q)) * inv (ix2 (0 : Fin 1) q) * g (ix2 (0 : Fin 1) q) + be (ix2 (0 : Fin 1) q) := rfl

/-- The body on one block: the affine map of the normalisation, entry by entry. -/
theorem body_eq (x : Vec Ideal S5000x5 .f32) (mu inv g be : Vec Ideal S1x5 .f32) :
    k1_pay1 x mu inv g be = Cert.Net.bnApply x mu inv g be := by
  funext i
  obtain ⟨p, q, rfl⟩ : ∃ (p : Fin 5000) (q : Fin 5), i = ix2 p q := ⟨i 0, i 1, eq_ix2 i⟩
  unfold k1_pay1
  simp only [shapeCast_self]
  rw [addf_apply, mulf_apply, mulf_apply, subf_apply, broadcastTo_1b_ab_apply, broadcastTo_1b_ab_apply,
    broadcastTo_1b_ab_apply, broadcastTo_1b_ab_apply]
  rfl

/-- Where each block sits at point `t`: the operand's and the result's blocks are the `t`-th block of rows, the four
    one-row matrices are read whole. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The operand's block at point `t` is rows `5000 t + p` of the operand. -/
theorem x_block (c : Dev nD) (t : Fin cfg1.N) (p : Fin 5000) (q : Fin 5) (h : t.val * 5000 + p.val < 500000) :
    (iblk1 V c 0 t : Vec Ideal S5000x5 .f32) (ix2 p q) = (V c main_v16_0 : S500000x5.Idx → EReal) (ix2 ⟨t.val * 5000 + p.val, h⟩ q) := by
  obtain ⟨e00, e01, -⟩ := index_facts t
  show V c main_v16_0 (((cfg1.win 0).blk t).view.emb (ix2 p q)) = V c main_v16_0 (ix2 ⟨t.val * 5000 + p.val, h⟩ q)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 5 + 1 * q.val = q.val; omega

/-- The mean's block is the mean. -/
theorem mu_block (c : Dev nD) (t : Fin cfg1.N) (q : Fin 5) :
    (iblk1 V c 1 t : Vec Ideal S1x5 .f32) (ix2 (0 : Fin 1) q) = (V c main_v18 : S1x5.Idx → EReal) (ix2 (0 : Fin 1) q) := by
  obtain ⟨-, -, e0, e1, -⟩ := index_facts t
  show V c main_v18 (((cfg1.win 1).blk t).view.emb (ix2 (0 : Fin 1) q)) = V c main_v18 (ix2 (0 : Fin 1) q)
  refine congrArg _ (funext fun a => Fin.ext ?_)
  match a with
  | ⟨0, _⟩ => show win1_1.index t (0 : Fin 2) * 1 + 1 * 0 = 0; omega
  | ⟨1, _⟩ => show win1_1.index t (1 : Fin 2) * 5 + 1 * q.val = q.val; omega

/-- The factor's block is the factor. -/
theorem inv_block (c : Dev nD) (t : Fin cfg1.N) (q : Fin 5) :
    (iblk1 V c 2 t : Vec Ideal S1x5 .f32) (ix2 (0 : Fin 1) q) = (V c main_v27 : S1x5.Idx → EReal) (ix2 (0 : Fin 1) q) := by
  obtain ⟨-, -, -, -, e0, e1, -⟩ := index_facts t
  show V c main_v27 (((cfg1.win 2).blk t).view.emb (ix2 (0 : Fin 1) q)) = V c main_v27 (ix2 (0 : Fin 1) q)
  refine congrArg _ (funext fun a => Fin.ext ?_)
  match a with
  | ⟨0, _⟩ => show win1_2.index t (0 : Fin 2) * 1 + 1 * 0 = 0; omega
  | ⟨1, _⟩ => show win1_2.index t (1 : Fin 2) * 5 + 1 * q.val = q.val; omega

/-- The gain's block is the gain. -/
theorem g_block (c : Dev nD) (t : Fin cfg1.N) (q : Fin 5) :
    (iblk1 V c 3 t : Vec Ideal S1x5 .f32) (ix2 (0 : Fin 1) q) = (V c main_v28 : S1x5.Idx → EReal) (ix2 (0 : Fin 1) q) := by
  obtain ⟨-, -, -, -, -, -, e0, e1, -⟩ := index_facts t
  show V c main_v28 (((cfg1.win 3).blk t).view.emb (ix2 (0 : Fin 1) q)) = V c main_v28 (ix2 (0 : Fin 1) q)
  refine congrArg _ (funext fun a => Fin.ext ?_)
  match a with
  | ⟨0, _⟩ => show win1_3.index t (0 : Fin 2) * 1 + 1 * 0 = 0; omega
  | ⟨1, _⟩ => show win1_3.index t (1 : Fin 2) * 5 + 1 * q.val = q.val; omega

/-- The shift's block is the shift. -/
theorem be_block (c : Dev nD) (t : Fin cfg1.N) (q : Fin 5) :
    (iblk1 V c 4 t : Vec Ideal S1x5 .f32) (ix2 (0 : Fin 1) q) = (V c main_v29 : S1x5.Idx → EReal) (ix2 (0 : Fin 1) q) := by
  obtain ⟨-, -, -, -, -, -, -, -, e0, e1, -⟩ := index_facts t
  show V c main_v29 (((cfg1.win 4).blk t).view.emb (ix2 (0 : Fin 1) q)) = V c main_v29 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 5 + 1 * q.val = q.val; omega

/-- What point `t` writes back is block `t` of the normalisation of the whole operand. -/
theorem flushed_eq (c : Dev nD) (t : Fin cfg1.N) :
    (dat1 V c).flushed 5 t = ((cfg1.win 5).blk t).view.read (Elt Ideal)
      (Cert.Net.bnApply (V c main_v16_0) (V c main_v18) (V c main_v27) (V c main_v28) (V c main_v29)) := by
  show (cfg1.win 5).cut (grid1.coords t) ((dat1 V c).after 5 t) = _
  rw [after1_5]
  unfold out1_5
  rw [View.canon_unit_zero zero_offsets]
  simp only [View.ld_unit_zero (S := S5000x5) zero_offsets, View.ld_unit_zero (S := S1x5) zero_offsets]
  rw [body_eq]
  obtain ⟨-, -, -, -, -, -, -, -, -, -, e50, e51⟩ := index_facts t
  have hN : t.val < 100 := lt_of_lt_of_eq t.isLt N_1
  funext j
  obtain ⟨p, q, rfl⟩ : ∃ (p : Fin 5000) (q : Fin 5), j = ix2 p q := ⟨j 0, j 1, eq_ix2 j⟩
  have hp : t.val * 5000 + p.val < 500000 := by have := p.isLt; omega
  have hemb : ((cfg1.win 5).blk t).view.emb (ix2 p q) = (ix2 (⟨t.val * 5000 + p.val, hp⟩ : Fin 500000) q : S500000x5.Idx) :=
    funext fun a => Fin.ext (by
      match a with
      | ⟨0, _⟩ => show win1_5.index t (0 : Fin 2) * 5000 + 1 * p.val = t.val * 5000 + p.val; omega
      | ⟨1, _⟩ => show win1_5.index t (1 : Fin 2) * 5 + 1 * q.val = q.val; omega)
  show Cert.Net.bnApply (iblk1 V c 0 t) (iblk1 V c 1 t) (iblk1 V c 2 t) (iblk1 V c 3 t) (iblk1 V c 4 t) (ix2 p q)
    = Cert.Net.bnApply (V c main_v16_0) (V c main_v18) (V c main_v27) (V c main_v28) (V c main_v29) (((cfg1.win 5).blk t).view.emb (ix2 p q))
  rw [hemb]
  refine (bnApply_entry (iblk1 V c 0 t) (iblk1 V c 1 t) (iblk1 V c 2 t) (iblk1 V c 3 t) (iblk1 V c 4 t) p q).trans ?_
  refine Eq.trans ?_ (bnApply_entry (V c main_v16_0) (V c main_v18) (V c main_v27) (V c main_v28) (V c main_v29) ⟨t.val * 5000 + p.val, hp⟩ q).symm
  rw [x_block V c t p q hp, mu_block, inv_block, g_block, be_block]

/-- An entry of the array lies in point `t`'s block when each coordinate is in the block's range on its axis. -/
theorem mem_block (t : Fin cfg1.N) (i : S500000x5.Idx) :
    i ∈ ((cfg1.win 5).blk t).view.set ↔ ∀ a : Fin 2, win1_5.index t a * S5000x5.size a ≤ (i a).val
      ∧ (i a).val < win1_5.index t a * S5000x5.size a + S5000x5.size a := by
  show i ∈ ((View.whole main_v30).slice (win1_5.rect t)).set ↔ _
  rw [View.set_slice_whole, Rect.mem_set_unit]
  exact Iff.rfl

/-- Every entry lies in some block: row `r` in block `r / 5000`. -/
theorem covered (i : S500000x5.Idx) :
    ∃ t : Fin cfg1.N, (cfg1.win 5).flush t = true ∧ i ∈ ((cfg1.win 5).blk t).view.set := by
  have hi0 : (i 0).val < 500000 := (i 0).isLt
  have hi1 : (i 1).val < 5 := (i 1).isLt
  have hN : cfg1.N = 100 := N_1
  have ht : (i 0).val / 5000 < cfg1.N := by rw [hN]; omega
  obtain ⟨-, -, -, -, -, -, -, -, -, -, e50, e51⟩ := index_facts ⟨(i 0).val / 5000, ht⟩
  refine ⟨⟨(i 0).val / 5000, ht⟩, flush1_5 _, ?_⟩
  rw [mem_block]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 5 ≤ (i 1).val
      ∧ (i 1).val < win1_5.index ⟨(i 0).val / 5000, ht⟩ (1 : Fin 2) * 5 + 5
    rw [e51]; omega

/-- The array after the run: the normalisation's affine map of the whole operand, entry by entry. -/
theorem out (c : Dev nD) : (Gen.dat1 (F := Ideal) V c).arrAt 5 cfg1.N
    = Cert.Net.bnApply (V c main_v16_0) (V c main_v18) (V c main_v27) (V c main_v28) (V c main_v29) :=
  (dat1 V c).arrAt_eq_of_cover 5 _ (fun t _ => flushed_eq V c t) (covered)

end Cert.KernelIdeal.Bn1

end
-- ==== Proof.RefNet.lean ====
import proofs.«132165_j27702539059447_2_alg».proof.Proof.ReadP
import proofs.«132165_j27702539059447_2_alg».proof.Proof.Net
import proofs.«132165_j27702539059447_2_alg».proof.Proof.LibHostRows

/-!
# The reference, layer by layer

The reference computes the network on whole arrays. Each dense stage is a product of the array with a weight
matrix, a bias vector repeated down the rows, and (except for the last stage of the head) the larger of the result
and zero. Every one of them acts on each row by itself, so the stages of a layer compose to `Cert.Net.ginRow` on
every row of `h + agg`, and the stages of the head to `Cert.Net.headRow` on every pooled row.

The normalisation of a layer's result `Y` takes, for every column `q`, the mean `μ q = (∑ n, Y (n, q)) / 500000`, the mean
of the squared deviations `v q = (∑ n, (Y (n, q) - μ q)²) / 500000`, and sends `Y (n, q)` to
`(Y (n, q) - μ q) · rsqrt (v q + ε) · g q + β q`. The sums run down a column from a zero initial value (`0 + s = s`),
and the vectors `μ`, the factor, `g` and `β` are repeated down the rows. That is `Cert.Net.bnDev`.

The neighbour sums and the pooled rows stay the stages the program computes them in: nothing below looks inside
them.
-/

noncomputable section

namespace Cert.ReferenceIdeal.RefNet

open Idealize.ShloMosaic Idealize.ShloMosaic.ValueIdx Cert.Rows
open scoped BigOperators

section Generic

variable {N C : ℕ}

/-- A rank-zero array broadcast to any shape reads its one entry at every index. -/
theorem bcast0_apply {s : Shape} (c : FVec Ideal S0 .f32) (hz : S0.BroadcastsInDim s ![]) (i : s.Idx) :
    broadcastInDim s ![] hz c i = c ix0 :=
  broadcastInDim_apply ![] hz c i ix0 (fun a => a.elim0)

/-- The larger of an array and a broadcast zero is `relu` of every row. -/
theorem host_relu (A : FVec Ideal (S2 N C) .f32) (hz : S0.BroadcastsInDim (S2 N C) ![]) :
    maximumf A (broadcastInDim (S2 N C) ![] hz (constant (F := Ideal) S0 .f32 0x00000000#32)) = mapRows Cert.Rows.relu A := by
  funext i
  obtain ⟨p, q, rfl⟩ : ∃ (p : Fin N) (q : Fin C), i = ix2 p q := ⟨i 0, i 1, eq_ix2 i⟩
  rw [mapRows_ix2]
  show max (A (ix2 p q)) (broadcastInDim (s := S0) (S2 N C) ![] hz (constant (F := Ideal) S0 .f32 0x00000000#32) (ix2 p q)) = _
  rw [bcast0_apply]
  rfl

/-- A vector broadcast to one row and then down the rows reads, at `(p, q)`, its entry `q`. -/
theorem up_apply (v : FVec Ideal (Cert.Rows.S1 C) .f32) (ha : (Cert.Rows.S1 C).BroadcastsInDim (S2 1 C) ![1])
    (hb : (S2 1 C).BroadcastsInDim (S2 N C) ![0, 1]) (p : Fin N) (q : Fin C) :
    broadcastInDim (S2 N C) ![0, 1] hb (broadcastInDim (S2 1 C) ![1] ha v) (ix2 p q) = v (ix1 q) := by
  have hq : q.val = if C = 1 then 0 else q.val := by
    split
    · have := q.isLt; omega
    · rfl
  rw [broadcastInDim_apply ![0, 1] hb _ (ix2 p q) (ix2 (0 : Fin 1) q) (fun a => by
      match a with
      | ⟨0, _⟩ => rfl
      | ⟨1, _⟩ => exact hq),
    broadcastInDim_apply ![1] ha v (ix2 (0 : Fin 1) q) (ix1 q) (fun a => by
      match a with
      | ⟨0, _⟩ => exact hq)]

/-- The sum down a column, from a zero initial value. -/
theorem colSum_apply (Y : FVec Ideal (S2 N C) .f32) (hred : (S2 N C).ReducesTo [0] (Cert.Rows.S1 C))
    (hr : (S2 N C).Reduces [0] (Cert.Rows.S1 C)) (hu : 0 < S0.numel) (q : Fin C) :
    Host.reduceAdd Y (constant (F := Ideal) S0 .f32 0x00000000#32) hred hu (ix1 q) = ∑ n : Fin N, Y (ix2 n q) := by
  show Ideal.hostReduceAdd hred Y (Ideal.ofBits .f32 0x00000000#32) (ix1 q) = _
  rw [Ideal.hostReduceAdd_single hred hr, Ideal.ofBits_zero_f32, zero_add]
  refine Finset.sum_congr rfl fun k _ => ?_
  have e : hr.lift (ix1 q) k = ix2 k q := funext fun a => Fin.ext (by
    match a with
    | ⟨0, _⟩ => rfl
    | ⟨1, _⟩ => rfl)
  exact congrArg Y e

/-- The column means: the column sums over the number of rows, kept as a vector. -/
def hostMean (Y : FVec Ideal (S2 N C) .f32) (hred : (S2 N C).ReducesTo [0] (Cert.Rows.S1 C)) (hu : 0 < S0.numel)
    (hz : S0.BroadcastsInDim (Cert.Rows.S1 C) ![]) : FVec Ideal (Cert.Rows.S1 C) .f32 :=
  Host.divf (Host.reduceAdd Y (constant (F := Ideal) S0 .f32 0x00000000#32) hred hu)
    (broadcastInDim (Cert.Rows.S1 C) ![] hz (constant (F := Ideal) S0 .f32 0x48F42400#32))

theorem hostMean_apply (Y : FVec Ideal (S2 N C) .f32) (hred : (S2 N C).ReducesTo [0] (Cert.Rows.S1 C))
    (hr : (S2 N C).Reduces [0] (Cert.Rows.S1 C)) (hu : 0 < S0.numel) (hz : S0.BroadcastsInDim (Cert.Rows.S1 C) ![]) (q : Fin C) :
    hostMean Y hred hu hz (ix1 q) = Cert.Net.colMean Y q := by
  show Ideal.div (Host.reduceAdd Y (constant (F := Ideal) S0 .f32 0x00000000#32) hred hu (ix1 q))
    (broadcastInDim (s := S0) (Cert.Rows.S1 C) ![] hz (constant (F := Ideal) S0 .f32 0x48F42400#32) (ix1 q)) = _
  rw [colSum_apply Y hred hr hu q, bcast0_apply]
  rfl

/-- The array minus its column means, the means broadcast back over the rows. -/
def hostCentred (Y : FVec Ideal (S2 N C) .f32) (hred : (S2 N C).ReducesTo [0] (Cert.Rows.S1 C)) (hu : 0 < S0.numel)
    (hz : S0.BroadcastsInDim (Cert.Rows.S1 C) ![]) (ha : (Cert.Rows.S1 C).BroadcastsInDim (S2 1 C) ![1])
    (hb : (S2 1 C).BroadcastsInDim (S2 N C) ![0, 1]) : FVec Ideal (S2 N C) .f32 :=
  subf Y (broadcastInDim (S2 N C) ![0, 1] hb (broadcastInDim (S2 1 C) ![1] ha (hostMean Y hred hu hz)))

theorem hostCentred_apply (Y : FVec Ideal (S2 N C) .f32) (hred : (S2 N C).ReducesTo [0] (Cert.Rows.S1 C))
    (hr : (S2 N C).Reduces [0] (Cert.Rows.S1 C)) (hu : 0 < S0.numel)
    (hz : S0.BroadcastsInDim (Cert.Rows.S1 C) ![]) (ha : (Cert.Rows.S1 C).BroadcastsInDim (S2 1 C) ![1])
    (hb : (S2 1 C).BroadcastsInDim (S2 N C) ![0, 1]) (p : Fin N) (q : Fin C) :
    hostCentred Y hred hu hz ha hb (ix2 p q) = Y (ix2 p q) - Cert.Net.colMean Y q := by
  show Y (ix2 p q) - broadcastInDim (S2 N C) ![0, 1] hb (broadcastInDim (S2 1 C) ![1] ha (hostMean Y hred hu hz)) (ix2 p q) = _
  rw [up_apply, hostMean_apply Y hred hr hu hz q]

/-- The factor: `rsqrt` of the mean of the squared deviations plus the floor, kept as a vector. -/
def hostInv (Y : FVec Ideal (S2 N C) .f32) (hred : (S2 N C).ReducesTo [0] (Cert.Rows.S1 C)) (hu : 0 < S0.numel)
    (hz : S0.BroadcastsInDim (Cert.Rows.S1 C) ![]) (ha : (Cert.Rows.S1 C).BroadcastsInDim (S2 1 C) ![1])
    (hb : (S2 1 C).BroadcastsInDim (S2 N C) ![0, 1]) : FVec Ideal (Cert.Rows.S1 C) .f32 :=
  Host.rsqrt (addf (Host.divf (Host.reduceAdd (mulf (hostCentred Y hred hu hz ha hb) (hostCentred Y hred hu hz ha hb))
        (constant (F := Ideal) S0 .f32 0x00000000#32) hred hu)
      (broadcastInDim (Cert.Rows.S1 C) ![] hz (constant (F := Ideal) S0 .f32 0x48F42400#32)))
    (broadcastInDim (Cert.Rows.S1 C) ![] hz (constant (F := Ideal) S0 .f32 0x3727C5AC#32)))

theorem hostInv_apply (Y : FVec Ideal (S2 N C) .f32) (hred : (S2 N C).ReducesTo [0] (Cert.Rows.S1 C))
    (hr : (S2 N C).Reduces [0] (Cert.Rows.S1 C)) (hu : 0 < S0.numel)
    (hz : S0.BroadcastsInDim (Cert.Rows.S1 C) ![]) (ha : (Cert.Rows.S1 C).BroadcastsInDim (S2 1 C) ![1])
    (hb : (S2 1 C).BroadcastsInDim (S2 N C) ![0, 1]) (q : Fin C) :
    hostInv Y hred hu hz ha hb (ix1 q) = Cert.Net.invDev Y q := by
  show Ideal.rsqrt (Ideal.div (Host.reduceAdd (mulf (hostCentred Y hred hu hz ha hb) (hostCentred Y hred hu hz ha hb))
        (constant (F := Ideal) S0 .f32 0x00000000#32) hred hu (ix1 q))
      (broadcastInDim (s := S0) (Cert.Rows.S1 C) ![] hz (constant (F := Ideal) S0 .f32 0x48F42400#32) (ix1 q))
    + broadcastInDim (s := S0) (Cert.Rows.S1 C) ![] hz (constant (F := Ideal) S0 .f32 0x3727C5AC#32) (ix1 q)) = _
  rw [colSum_apply _ hred hr hu q, bcast0_apply, bcast0_apply]
  unfold Cert.Net.invDev
  refine congrArg (fun s => Ideal.rsqrt (Ideal.div s Cert.Net.rowsF + epsVar)) (Finset.sum_congr rfl fun n _ => ?_)
  show hostCentred Y hred hu hz ha hb (ix2 n q) * hostCentred Y hred hu hz ha hb (ix2 n q) = _
  rw [hostCentred_apply Y hred hr hu hz ha hb n q]

/-- The normalisation as the host writes it: centred, times the factor, times the gain, plus the shift, the three
    vectors broadcast over the rows. -/
def hostBn (Y : FVec Ideal (S2 N C) .f32) (g be : FVec Ideal (Cert.Rows.S1 C) .f32)
    (hred : (S2 N C).ReducesTo [0] (Cert.Rows.S1 C)) (hu : 0 < S0.numel)
    (hz : S0.BroadcastsInDim (Cert.Rows.S1 C) ![]) (ha : (Cert.Rows.S1 C).BroadcastsInDim (S2 1 C) ![1])
    (hb : (S2 1 C).BroadcastsInDim (S2 N C) ![0, 1]) : FVec Ideal (S2 N C) .f32 :=
  addf (mulf (mulf (hostCentred Y hred hu hz ha hb)
        (broadcastInDim (S2 N C) ![0, 1] hb (broadcastInDim (S2 1 C) ![1] ha (hostInv Y hred hu hz ha hb))))
      (broadcastInDim (S2 N C) ![0, 1] hb (broadcastInDim (S2 1 C) ![1] ha g)))
    (broadcastInDim (S2 N C) ![0, 1] hb (broadcastInDim (S2 1 C) ![1] ha be))

/-- It is the normalisation with the variance as the mean of the squared deviations. -/
theorem hostBn_eq (Y : FVec Ideal (S2 N C) .f32) (g be : FVec Ideal (Cert.Rows.S1 C) .f32)
    (hred : (S2 N C).ReducesTo [0] (Cert.Rows.S1 C)) (hr : (S2 N C).Reduces [0] (Cert.Rows.S1 C)) (hu : 0 < S0.numel)
    (hz : S0.BroadcastsInDim (Cert.Rows.S1 C) ![]) (ha : (Cert.Rows.S1 C).BroadcastsInDim (S2 1 C) ![1])
    (hb : (S2 1 C).BroadcastsInDim (S2 N C) ![0, 1]) (hc : (Cert.Rows.S1 C).ShapeCasts (S2 1 C)) :
    hostBn Y g be hred hu hz ha hb = Cert.Net.bnDev Y (shapeCast (S2 1 C) g hc) (shapeCast (S2 1 C) be hc) := by
  funext i
  obtain ⟨p, q, rfl⟩ : ∃ (p : Fin N) (q : Fin C), i = ix2 p q := ⟨i 0, i 1, eq_ix2 i⟩
  show hostCentred Y hred hu hz ha hb (ix2 p q)
        * broadcastInDim (S2 N C) ![0, 1] hb (broadcastInDim (S2 1 C) ![1] ha (hostInv Y hred hu hz ha hb)) (ix2 p q)
        * broadcastInDim (S2 N C) ![0, 1] hb (broadcastInDim (S2 1 C) ![1] ha g) (ix2 p q)
      + broadcastInDim (S2 N C) ![0, 1] hb (broadcastInDim (S2 1 C) ![1] ha be) (ix2 p q)
    = (Y (ix2 p q) - Cert.Net.colMean Y q) * Cert.Net.invDev Y q * shapeCast (S2 1 C) g hc (ix2 (0 : Fin 1) q)
      + shapeCast (S2 1 C) be hc (ix2 (0 : Fin 1) q)
  rw [hostCentred_apply Y hred hr hu hz ha hb p q, up_apply, up_apply, up_apply, hostInv_apply Y hred hr hu hz ha hb q,
    shapeCast_a_1a_apply, shapeCast_a_1a_apply]

/-- A layer before its normalisation as the host writes it: two dense stages, each a product with the weights, a bias
    vector broadcast over the rows, and the larger of the result and a broadcast zero. -/
theorem host_gin {K H : ℕ}
    (d1 : DotDims (S2 N K) (S2 K H) (S2 N H)) (hd1 : Cert.LibPlainDot.Plain d1)
    (d2 : DotDims (S2 N H) (S2 H C) (S2 N C)) (hd2 : Cert.LibPlainDot.Plain d2)
    (x agg : FVec Ideal (S2 N K) .f32) (w1 : FVec Ideal (S2 K H) .f32) (b1 : FVec Ideal (Cert.Rows.S1 H) .f32)
    (w2 : FVec Ideal (S2 H C) .f32) (b2 : FVec Ideal (Cert.Rows.S1 C) .f32)
    (h1a : (Cert.Rows.S1 H).BroadcastsInDim (S2 1 H) ![1]) (h1b : (S2 1 H).BroadcastsInDim (S2 N H) ![0, 1])
    (hc1 : (Cert.Rows.S1 H).ShapeCasts (S2 1 H)) (hz1 : S0.BroadcastsInDim (S2 N H) ![])
    (h2a : (Cert.Rows.S1 C).BroadcastsInDim (S2 1 C) ![1]) (h2b : (S2 1 C).BroadcastsInDim (S2 N C) ![0, 1])
    (hc2 : (Cert.Rows.S1 C).ShapeCasts (S2 1 C)) (hz2 : S0.BroadcastsInDim (S2 N C) ![]) :
    maximumf (addf (Host.dotGeneral d2 none
        (maximumf (addf (Host.dotGeneral d1 none (addf x agg) w1)
            (broadcastInDim (S2 N H) ![0, 1] h1b (broadcastInDim (S2 1 H) ![1] h1a b1)))
          (broadcastInDim (S2 N H) ![] hz1 (constant (F := Ideal) S0 .f32 0x00000000#32))) w2)
        (broadcastInDim (S2 N C) ![0, 1] h2b (broadcastInDim (S2 1 C) ![1] h2a b2)))
      (broadcastInDim (S2 N C) ![] hz2 (constant (F := Ideal) S0 .f32 0x00000000#32))
      = Cert.Net.gin w1 (shapeCast (S2 1 H) b1 hc1) w2 (shapeCast (S2 1 C) b2 hc2) x agg := by
  rw [host_lin d1 hd1, host_bias _ _ h1a h1b hc1, host_relu, host_lin d2 hd2, host_bias _ _ h2a h2b hc2, host_relu]
  rfl

/-- The head as the host writes it: three dense stages, the first two followed by the larger of the result and zero. -/
theorem host_head {K Ka Kb : ℕ}
    (d1 : DotDims (S2 N K) (S2 K Ka) (S2 N Ka)) (hd1 : Cert.LibPlainDot.Plain d1)
    (d2 : DotDims (S2 N Ka) (S2 Ka Kb) (S2 N Kb)) (hd2 : Cert.LibPlainDot.Plain d2)
    (d3 : DotDims (S2 N Kb) (S2 Kb C) (S2 N C)) (hd3 : Cert.LibPlainDot.Plain d3)
    (z : FVec Ideal (S2 N K) .f32) (w1 : FVec Ideal (S2 K Ka) .f32) (b1 : FVec Ideal (Cert.Rows.S1 Ka) .f32)
    (w2 : FVec Ideal (S2 Ka Kb) .f32) (b2 : FVec Ideal (Cert.Rows.S1 Kb) .f32)
    (w3 : FVec Ideal (S2 Kb C) .f32) (b3 : FVec Ideal (Cert.Rows.S1 C) .f32)
    (h1a : (Cert.Rows.S1 Ka).BroadcastsInDim (S2 1 Ka) ![1]) (h1b : (S2 1 Ka).BroadcastsInDim (S2 N Ka) ![0, 1])
    (hc1 : (Cert.Rows.S1 Ka).ShapeCasts (S2 1 Ka)) (hz1 : S0.BroadcastsInDim (S2 N Ka) ![])
    (h2a : (Cert.Rows.S1 Kb).BroadcastsInDim (S2 1 Kb) ![1]) (h2b : (S2 1 Kb).BroadcastsInDim (S2 N Kb) ![0, 1])
    (hc2 : (Cert.Rows.S1 Kb).ShapeCasts (S2 1 Kb)) (hz2 : S0.BroadcastsInDim (S2 N Kb) ![])
    (h3a : (Cert.Rows.S1 C).BroadcastsInDim (S2 1 C) ![1]) (h3b : (S2 1 C).BroadcastsInDim (S2 N C) ![0, 1])
    (hc3 : (Cert.Rows.S1 C).ShapeCasts (S2 1 C)) :
    addf (Host.dotGeneral d3 none
        (maximumf (addf (Host.dotGeneral d2 none
            (maximumf (addf (Host.dotGeneral d1 none z w1)
                (broadcastInDim (S2 N Ka) ![0, 1] h1b (broadcastInDim (S2 1 Ka) ![1] h1a b1)))
              (broadcastInDim (S2 N Ka) ![] hz1 (constant (F := Ideal) S0 .f32 0x00000000#32))) w2)
            (broadcastInDim (S2 N Kb) ![0, 1] h2b (broadcastInDim (S2 1 Kb) ![1] h2a b2)))
          (broadcastInDim (S2 N Kb) ![] hz2 (constant (F := Ideal) S0 .f32 0x00000000#32))) w3)
      (broadcastInDim (S2 N C) ![0, 1] h3b (broadcastInDim (S2 1 C) ![1] h3a b3))
      = Cert.Net.head w1 (shapeCast (S2 1 Ka) b1 hc1) w2 (shapeCast (S2 1 Kb) b2 hc2) w3 (shapeCast (S2 1 C) b3 hc3) z := by
  rw [host_lin d1 hd1, host_bias _ _ h1a h1b hc1, host_relu, host_lin d2 hd2, host_bias _ _ h2a h2b hc2, host_relu,
    host_lin d3 hd3, host_bias _ _ h3a h3b hc3]
  rfl

end Generic

section Program

open Cert.ReferenceIdeal Cert.ReferenceIdeal.Gen

/-! ## The reference's stages are the network's layers -/

theorem shapeCasts_S5_S1x5 : S5.ShapeCasts S1x5 := by decide
theorem shapeCasts_S10_S1x10 : S10.ShapeCasts S1x10 := by decide
theorem shapeCasts_S128_S1x128 : S128.ShapeCasts S1x128 := by decide
theorem shapeCasts_S64_S1x64 : S64.ShapeCasts S1x64 := by decide
theorem shapeCasts_S1_S1x1 : S1.ShapeCasts S1x1 := by decide

theorem plain_5_5 : Cert.LibPlainDot.Plain dot_S500000x5_S5x5_S500000x5_1_0_0_1_n_n := ⟨rfl, rfl, rfl, rfl, rfl, rfl⟩
theorem plain_5_10 : Cert.LibPlainDot.Plain dot_S500000x5_S5x10_S500000x10_1_0_0_1_n_n := ⟨rfl, rfl, rfl, rfl, rfl, rfl⟩
theorem plain_10_10 : Cert.LibPlainDot.Plain dot_S500000x10_S10x10_S500000x10_1_0_0_1_n_n := ⟨rfl, rfl, rfl, rfl, rfl, rfl⟩
theorem plain_20_128 : Cert.LibPlainDot.Plain dot_S8192x20_S20x128_S8192x128_1_0_0_1_n_n := ⟨rfl, rfl, rfl, rfl, rfl, rfl⟩
theorem plain_128_64 : Cert.LibPlainDot.Plain dot_S8192x128_S128x64_S8192x64_1_0_0_1_n_n := ⟨rfl, rfl, rfl, rfl, rfl, rfl⟩
theorem plain_64_1 : Cert.LibPlainDot.Plain dot_S8192x64_S64x1_S8192x1_1_0_0_1_n_n := ⟨rfl, rfl, rfl, rfl, rfl, rfl⟩

variable (x0 : (⟨S500000x5, .f32⟩ : BufTy).Contents (Elt Ideal)) (x1 : (⟨S2x8000000, .i32⟩ : BufTy).Contents (Elt Ideal))
  (x2 : (⟨S500000, .i32⟩ : BufTy).Contents (Elt Ideal)) (x3 : (⟨S8192x10, .f32⟩ : BufTy).Contents (Elt Ideal))
  (x4 : (⟨S5x5, .f32⟩ : BufTy).Contents (Elt Ideal)) (x5 : (⟨S5, .f32⟩ : BufTy).Contents (Elt Ideal))
  (x6 : (⟨S5x5, .f32⟩ : BufTy).Contents (Elt Ideal)) (x7 : (⟨S5, .f32⟩ : BufTy).Contents (Elt Ideal))
  (x8 : (⟨S5x10, .f32⟩ : BufTy).Contents (Elt Ideal)) (x9 : (⟨S10, .f32⟩ : BufTy).Contents (Elt Ideal))
  (x10 : (⟨S10x10, .f32⟩ : BufTy).Contents (Elt Ideal)) (x11 : (⟨S10, .f32⟩ : BufTy).Contents (Elt Ideal))
  (x12 : (⟨S10x10, .f32⟩ : BufTy).Contents (Elt Ideal)) (x13 : (⟨S10, .f32⟩ : BufTy).Contents (Elt Ideal))
  (x14 : (⟨S10x10, .f32⟩ : BufTy).Contents (Elt Ideal)) (x15 : (⟨S10, .f32⟩ : BufTy).Contents (Elt Ideal))
  (x16 x17 : (⟨S5, .f32⟩ : BufTy).Contents (Elt Ideal)) (x18 x19 x20 x21 : (⟨S10, .f32⟩ : BufTy).Contents (Elt Ideal))
  (x22 : (⟨S20x128, .f32⟩ : BufTy).Contents (Elt Ideal)) (x23 : (⟨S128, .f32⟩ : BufTy).Contents (Elt Ideal))
  (x24 : (⟨S128x64, .f32⟩ : BufTy).Contents (Elt Ideal)) (x25 : (⟨S64, .f32⟩ : BufTy).Contents (Elt Ideal))
  (x26 : (⟨S64x1, .f32⟩ : BufTy).Contents (Elt Ideal)) (x27 : (⟨S1, .f32⟩ : BufTy).Contents (Elt Ideal))

/-- The first layer before its normalisation. -/
theorem y1 : Read.val_main_v24 (F := Ideal) x0 x1 x4 x5 x6 x7
    = Cert.Net.gin x4 (shapeCast S1x5 x5 shapeCasts_S5_S1x5) x6 (shapeCast S1x5 x7 shapeCasts_S5_S1x5) x0 (Read.val_main_v13 (F := Ideal) x0 x1) :=
  host_gin dot_S500000x5_S5x5_S500000x5_1_0_0_1_n_n plain_5_5 dot_S500000x5_S5x5_S500000x5_1_0_0_1_n_n plain_5_5
    x0 (Read.val_main_v13 (F := Ideal) x0 x1) x4 x5 x6 x7
    bcast_S5_S1x5_1 bcast_S1x5_S500000x5_0_1 shapeCasts_S5_S1x5 bcast_S_S500000x5
    bcast_S5_S1x5_1 bcast_S1x5_S500000x5_0_1 shapeCasts_S5_S1x5 bcast_S_S500000x5

/-- The first layer's normalisation. -/
theorem h1 : Read.val_main_v49 (F := Ideal) x0 x1 x4 x5 x6 x7 x16 x17
    = Cert.Net.bnDev (Read.val_main_v24 (F := Ideal) x0 x1 x4 x5 x6 x7) (shapeCast S1x5 x16 shapeCasts_S5_S1x5) (shapeCast S1x5 x17 shapeCasts_S5_S1x5) :=
  hostBn_eq (Read.val_main_v24 (F := Ideal) x0 x1 x4 x5 x6 x7) x16 x17 reducesTo_S500000x5_S5_d0 (by decide) h_S_ bcast_S_S5
    bcast_S5_S1x5_1 bcast_S1x5_S500000x5_0_1 shapeCasts_S5_S1x5

/-- The second layer before its normalisation. -/
theorem y2 : Read.val_main_v70 (F := Ideal) x0 x1 x4 x5 x6 x7 x8 x9 x10 x11 x16 x17
    = Cert.Net.gin x8 (shapeCast S1x10 x9 shapeCasts_S10_S1x10) x10 (shapeCast S1x10 x11 shapeCasts_S10_S1x10)
        (Read.val_main_v49 (F := Ideal) x0 x1 x4 x5 x6 x7 x16 x17) (Read.val_main_v59 (F := Ideal) x0 x1 x4 x5 x6 x7 x16 x17) :=
  host_gin dot_S500000x5_S5x10_S500000x10_1_0_0_1_n_n plain_5_10 dot_S500000x10_S10x10_S500000x10_1_0_0_1_n_n plain_10_10
    (Read.val_main_v49 (F := Ideal) x0 x1 x4 x5 x6 x7 x16 x17) (Read.val_main_v59 (F := Ideal) x0 x1 x4 x5 x6 x7 x16 x17) x8 x9 x10 x11
    bcast_S10_S1x10_1 bcast_S1x10_S500000x10_0_1 shapeCasts_S10_S1x10 bcast_S_S500000x10
    bcast_S10_S1x10_1 bcast_S1x10_S500000x10_0_1 shapeCasts_S10_S1x10 bcast_S_S500000x10

/-- The second layer's normalisation. -/
theorem h2 : Read.val_main_v95 (F := Ideal) x0 x1 x4 x5 x6 x7 x8 x9 x10 x11 x16 x17 x18 x19
    = Cert.Net.bnDev (Read.val_main_v70 (F := Ideal) x0 x1 x4 x5 x6 x7 x8 x9 x10 x11 x16 x17) (shapeCast S1x10 x18 shapeCasts_S10_S1x10) (shapeCast S1x10 x19 shapeCasts_S10_S1x10) :=
  hostBn_eq (Read.val_main_v70 (F := Ideal) x0 x1 x4 x5 x6 x7 x8 x9 x10 x11 x16 x17) x18 x19 reducesTo_S500000x10_S10_d0 (by decide) h_S_ bcast_S_S10
    bcast_S10_S1x10_1 bcast_S1x10_S500000x10_0_1 shapeCasts_S10_S1x10

/-- The third layer before its normalisation. -/
theorem y3 : Read.val_main_v116 (F := Ideal) x0 x1 x4 x5 x6 x7 x8 x9 x10 x11 x12 x13 x14 x15 x16 x17 x18 x19
    = Cert.Net.gin x12 (shapeCast S1x10 x13 shapeCasts_S10_S1x10) x14 (shapeCast S1x10 x15 shapeCasts_S10_S1x10)
        (Read.val_main_v95 (F := Ideal) x0 x1 x4 x5 x6 x7 x8 x9 x10 x11 x16 x17 x18 x19) (Read.val_main_v105 (F := Ideal) x0 x1 x4 x5 x6 x7 x8 x9 x10 x11 x16 x17 x18 x19) :=
  host_gin dot_S500000x10_S10x10_S500000x10_1_0_0_1_n_n plain_10_10 dot_S500000x10_S10x10_S500000x10_1_0_0_1_n_n plain_10_10
    (Read.val_main_v95 (F := Ideal) x0 x1 x4 x5 x6 x7 x8 x9 x10 x11 x16 x17 x18 x19) (Read.val_main_v105 (F := Ideal) x0 x1 x4 x5 x6 x7 x8 x9 x10 x11 x16 x17 x18 x19) x12 x13 x14 x15
    bcast_S10_S1x10_1 bcast_S1x10_S500000x10_0_1 shapeCasts_S10_S1x10 bcast_S_S500000x10
    bcast_S10_S1x10_1 bcast_S1x10_S500000x10_0_1 shapeCasts_S10_S1x10 bcast_S_S500000x10

/-- The third layer's normalisation. -/
theorem h3 : Read.val_main_v141 (F := Ideal) x0 x1 x4 x5 x6 x7 x8 x9 x10 x11 x12 x13 x14 x15 x16 x17 x18 x19 x20 x21
    = Cert.Net.bnDev (Read.val_main_v116 (F := Ideal) x0 x1 x4 x5 x6 x7 x8 x9 x10 x11 x12 x13 x14 x15 x16 x17 x18 x19) (shapeCast S1x10 x20 shapeCasts_S10_S1x10) (shapeCast S1x10 x21 shapeCasts_S10_S1x10) :=
  hostBn_eq (Read.val_main_v116 (F := Ideal) x0 x1 x4 x5 x6 x7 x8 x9 x10 x11 x12 x13 x14 x15 x16 x17 x18 x19) x20 x21 reducesTo_S500000x10_S10_d0 (by decide) h_S_ bcast_S_S10
    bcast_S10_S1x10_1 bcast_S1x10_S500000x10_0_1 shapeCasts_S10_S1x10

/-- The head on the pooled rows. -/
theorem out : Read.val_main_v168 (F := Ideal) x0 x1 x2 x3 x4 x5 x6 x7 x8 x9 x10 x11 x12 x13 x14 x15 x16 x17 x18 x19 x20 x21 x22 x23 x24 x25 x26 x27
    = Cert.Net.head x22 (shapeCast S1x128 x23 shapeCasts_S128_S1x128) x24 (shapeCast S1x64 x25 shapeCasts_S64_S1x64)
        x26 (shapeCast S1x1 x27 shapeCasts_S1_S1x1) (Read.val_main_v154 (F := Ideal) x0 x1 x2 x3 x4 x5 x6 x7 x8 x9 x10 x11 x12 x13 x14 x15 x16 x17 x18 x19 x20 x21) :=
  host_head dot_S8192x20_S20x128_S8192x128_1_0_0_1_n_n plain_20_128 dot_S8192x128_S128x64_S8192x64_1_0_0_1_n_n plain_128_64
    dot_S8192x64_S64x1_S8192x1_1_0_0_1_n_n plain_64_1
    (Read.val_main_v154 (F := Ideal) x0 x1 x2 x3 x4 x5 x6 x7 x8 x9 x10 x11 x12 x13 x14 x15 x16 x17 x18 x19 x20 x21) x22 x23 x24 x25 x26 x27
    bcast_S128_S1x128_1 bcast_S1x128_S8192x128_0_1 shapeCasts_S128_S1x128 bcast_S_S8192x128
    bcast_S64_S1x64_1 bcast_S1x64_S8192x64_0_1 shapeCasts_S64_S1x64 bcast_S_S8192x64
    bcast_S1_S1x1_1 bcast_S1x1_S8192x1_0_1 shapeCasts_S1_S1x1

end Program

end Cert.ReferenceIdeal.RefNet

end
-- ==== Proof.LibBatchNormFold.lean ====
import Idealize.ShloMosaic.PureOps.Ideal
noncomputable section
namespace LibBatchNormFold
open Idealize.ShloMosaic
variable {ι κ₁ κ₂ : Type} [Fintype ι] [Fintype κ₁] [Fintype κ₂]

/-- One column of the first linear layer on two row operands: (a·wa + b·wb) + bias. -/
def pre (a : ι → κ₁ → EReal) (b : ι → κ₂ → EReal) (wa : κ₁ → EReal) (wb : κ₂ → EReal) (ba : EReal) (i : ι) : EReal :=
  ((∑ l, a i l * wa l) + (∑ l, b i l * wb l)) + ba
/-- The batch mean of a column: its sum divided by n. -/
def mean (h : ι → EReal) (n : EReal) : EReal := Ideal.div (∑ i, h i) n
/-- Batch normalisation as the reference computes it: g·(h − mean) / sqrt(var + eps) + be, var the mean of squared deviations. -/
def refNorm (h : ι → EReal) (g be n eps : EReal) (i : ι) : EReal :=
  Ideal.div (g * (h i - mean h n)) (Ideal.sqrt (Ideal.div (∑ i', (h i' - mean h n) * (h i' - mean h n)) n + eps)) + be
/-- The kernel's scale: g · rsqrt(max(E[h²] − E[h]², 0) + eps). -/
def scale (h : ι → EReal) (g n eps : EReal) : EReal :=
  g * Ideal.rsqrt (max (Ideal.div (∑ i, h i * h i) n - mean h n * mean h n) 0 + eps)
/-- The kernel's shift: be − mean · scale. -/
def shift (h : ι → EReal) (g be n eps : EReal) : EReal := be - mean h n * scale h g n eps
/-- The kernel's folded layer: the weights and the bias multiplied by the scale, the shift added to the bias. -/
def kerFold (a : ι → κ₁ → EReal) (b : ι → κ₂ → EReal) (wa : κ₁ → EReal) (wb : κ₂ → EReal) (ba g be n eps : EReal) (i : ι) : EReal :=
  ((∑ l, a i l * (wa l * scale (pre a b wa wb ba) g n eps)) + (∑ l, b i l * (wb l * scale (pre a b wa wb ba) g n eps)))
    + (ba * scale (pre a b wa wb ba) g n eps + shift (pre a b wa wb ba) g be n eps)

/-! ### Coercion of finite sums -/

/-- The coercion of a finite real sum is the sum of the coercions. -/
theorem coe_sum {α : Type} (s : Finset α) (f : α → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion of a real sum over a whole finite type is the sum of the coercions. -/
theorem coe_sum_univ {α : Type} [Fintype α] (f : α → ℝ) :
    ((∑ i, f i : ℝ) : EReal) = ∑ i, (f i : EReal) := coe_sum Finset.univ f

/-- The coercion of the maximum of two reals is the maximum of the coercions. -/
theorem coe_max (x y : ℝ) : ((max x y : ℝ) : EReal) = max (x : EReal) (y : EReal) :=
  EReal.coe_strictMono.monotone.map_max

/-! ### The real-number counterparts -/

/-- The real column of the first linear layer: (a·wa + b·wb) + bias. -/
def rpre (a : ι → κ₁ → ℝ) (b : ι → κ₂ → ℝ) (wa : κ₁ → ℝ) (wb : κ₂ → ℝ) (ba : ℝ) (i : ι) : ℝ :=
  ((∑ l, a i l * wa l) + (∑ l, b i l * wb l)) + ba
/-- The real mean: the sum times the reciprocal of n. -/
def rmean (h : ι → ℝ) (n : ℝ) : ℝ := (∑ i, h i) * (1 / n)
/-- The real variance as the mean of the squared deviations. -/
def rvar (h : ι → ℝ) (n : ℝ) : ℝ := (∑ i, (h i - rmean h n) * (h i - rmean h n)) * (1 / n)
/-- The real variance as the mean of the squares minus the square of the mean. -/
def rvar' (h : ι → ℝ) (n : ℝ) : ℝ := (∑ i, h i * h i) * (1 / n) - rmean h n * rmean h n
/-- The real scale: g · (sqrt(max(var', 0) + eps))⁻¹. -/
def rscale (h : ι → ℝ) (g n eps : ℝ) : ℝ := g * (Real.sqrt (max (rvar' h n) 0 + eps))⁻¹

/-! ### Each extended-real term on coerced reals is the coercion of the real term -/

/-- The column of the first layer on coerced reals is the coercion of the real column. -/
theorem pre_coe_eq (a : ι → κ₁ → ℝ) (b : ι → κ₂ → ℝ) (wa : κ₁ → ℝ) (wb : κ₂ → ℝ) (ba : ℝ) :
    pre (fun i l => (a i l : EReal)) (fun i l => (b i l : EReal)) (fun l => (wa l : EReal)) (fun l => (wb l : EReal)) (ba : EReal)
      = fun i => ((rpre a b wa wb ba i : ℝ) : EReal) := by
  funext i
  simp only [pre, rpre, ← EReal.coe_mul, ← coe_sum_univ, ← EReal.coe_add]

/-- The mean of a coerced real column at a nonzero real n is the coercion of the real mean. -/
theorem mean_coe_eq (h : ι → ℝ) {n : ℝ} (hn : n ≠ 0) :
    mean (fun i => (h i : EReal)) (n : EReal) = ((rmean h n : ℝ) : EReal) := by
  simp only [mean, rmean, Ideal.div_coe hn, ← coe_sum_univ, ← EReal.coe_mul]

/-- The maximum with 0 of a real, plus a positive real, is positive. -/
theorem max_zero_add_pos (v : ℝ) {eps : ℝ} (heps : 0 < eps) : 0 < max v 0 + eps :=
  add_pos_of_nonneg_of_pos (le_max_right v 0) heps

/-- The scale of a coerced real column is the coercion of the real scale. -/
theorem scale_coe_eq (h : ι → ℝ) (g : ℝ) {n eps : ℝ} (hn : n ≠ 0) (heps : 0 < eps) :
    scale (fun i => (h i : EReal)) (g : EReal) (n : EReal) (eps : EReal) = ((rscale h g n eps : ℝ) : EReal) := by
  have hpos : 0 < max (rvar' h n) 0 + eps := max_zero_add_pos _ heps
  have e1 : Ideal.div (∑ i, (h i : EReal) * (h i : EReal)) (n : EReal) - mean (fun i => (h i : EReal)) (n : EReal) * mean (fun i => (h i : EReal)) (n : EReal)
      = ((rvar' h n : ℝ) : EReal) := by
    simp only [mean_coe_eq h hn, rvar', Ideal.div_coe hn, ← EReal.coe_mul, ← coe_sum_univ, ← EReal.coe_sub]
  simp only [scale]
  rw [e1, ← EReal.coe_zero, ← coe_max, ← EReal.coe_add, Ideal.rsqrt_coe, if_neg (not_lt.mpr hpos.le), if_neg hpos.ne',
    ← EReal.coe_mul, rscale]

/-- The reference normalisation of a coerced real column is the coercion of the real formula. -/
theorem refNorm_coe_eq (h : ι → ℝ) (g be : ℝ) {n eps : ℝ} (hn : n ≠ 0) (hpos : 0 < rvar h n + eps) (i : ι) :
    refNorm (fun i => (h i : EReal)) (g : EReal) (be : EReal) (n : EReal) (eps : EReal) i
      = ((g * (h i - rmean h n) * (1 / Real.sqrt (rvar h n + eps)) + be : ℝ) : EReal) := by
  have hs : Real.sqrt (rvar h n + eps) ≠ 0 := (Real.sqrt_pos.mpr hpos).ne'
  have e1 : Ideal.div (∑ i', ((h i' : EReal) - mean (fun i => (h i : EReal)) (n : EReal)) * ((h i' : EReal) - mean (fun i => (h i : EReal)) (n : EReal))) (n : EReal)
      = ((rvar h n : ℝ) : EReal) := by
    simp only [mean_coe_eq h hn, rvar, Ideal.div_coe hn, ← EReal.coe_sub, ← EReal.coe_mul, ← coe_sum_univ]
  simp only [refNorm]
  rw [e1, mean_coe_eq h hn, ← EReal.coe_add, Ideal.sqrt_coe, if_neg (not_lt.mpr hpos.le), Ideal.div_coe hs,
    ← EReal.coe_sub, ← EReal.coe_mul, ← EReal.coe_mul, ← EReal.coe_add]

/-- The folded layer on coerced reals is the coercion of the real folded layer. -/
theorem kerFold_coe_eq (a : ι → κ₁ → ℝ) (b : ι → κ₂ → ℝ) (wa : κ₁ → ℝ) (wb : κ₂ → ℝ) (ba g be : ℝ) {n eps : ℝ}
    (hn : n ≠ 0) (heps : 0 < eps) (i : ι) :
    kerFold (fun i l => (a i l : EReal)) (fun i l => (b i l : EReal)) (fun l => (wa l : EReal)) (fun l => (wb l : EReal))
        (ba : EReal) (g : EReal) (be : EReal) (n : EReal) (eps : EReal) i
      = ((((∑ l, a i l * (wa l * rscale (rpre a b wa wb ba) g n eps)) + (∑ l, b i l * (wb l * rscale (rpre a b wa wb ba) g n eps)))
          + (ba * rscale (rpre a b wa wb ba) g n eps + (be - rmean (rpre a b wa wb ba) n * rscale (rpre a b wa wb ba) g n eps)) : ℝ) : EReal) := by
  simp only [kerFold, shift, pre_coe_eq, scale_coe_eq _ g hn heps, mean_coe_eq _ hn, ← EReal.coe_mul, ← coe_sum_univ,
    ← EReal.coe_sub, ← EReal.coe_add]

/-! ### The identity in the reals -/

/-- With n the (positive) number of rows, the mean of the squared deviations is the mean of the squares minus the squared mean. -/
theorem rvar_eq_rvar' (h : ι → ℝ) {n : ℝ} (hn : n = (Fintype.card ι : ℝ)) (hn0 : n ≠ 0) : rvar h n = rvar' h n := by
  have hsum : ∑ i, h i = rmean h n * n := by
    rw [rmean, mul_assoc, one_div, inv_mul_cancel₀ hn0, mul_one]
  have hexp : ∑ i, (h i - rmean h n) * (h i - rmean h n)
      = (∑ i, h i * h i) - 2 * rmean h n * (∑ i, h i) + n * (rmean h n * rmean h n) := by
    have : ∀ i, (h i - rmean h n) * (h i - rmean h n) = h i * h i - 2 * rmean h n * h i + rmean h n * rmean h n := by
      intro i; ring
    simp only [this, Finset.sum_add_distrib, Finset.sum_sub_distrib, ← Finset.mul_sum, Finset.sum_const, Finset.card_univ,
      nsmul_eq_mul, ← hn]
    ring
  rw [rvar, rvar', hexp, hsum]
  field_simp
  ring

/-- The mean of squared deviations at a positive n is nonnegative. -/
theorem rvar_nonneg (h : ι → ℝ) {n : ℝ} (hn : 0 < n) : 0 ≤ rvar h n := by
  rw [rvar]
  exact mul_nonneg (Finset.sum_nonneg (fun i _ => mul_self_nonneg _)) (by positivity)

/-- The real scale, once the maximum with 0 drops: g · (sqrt(var + eps))⁻¹. -/
theorem rscale_eq (h : ι → ℝ) (g : ℝ) {n eps : ℝ} (hn : n = (Fintype.card ι : ℝ)) (hn0 : 0 < n) :
    rscale h g n eps = g * (Real.sqrt (rvar h n + eps))⁻¹ := by
  rw [rscale, ← rvar_eq_rvar' h hn hn0.ne', max_eq_left (rvar_nonneg h hn0)]

/-- The folded linear form is the normalised one, in the reals. -/
theorem real_fold (a : ι → κ₁ → ℝ) (b : ι → κ₂ → ℝ) (wa : κ₁ → ℝ) (wb : κ₂ → ℝ) (ba g be m s : ℝ) (i : ι) :
    ((∑ l, a i l * (wa l * (g * s⁻¹))) + (∑ l, b i l * (wb l * (g * s⁻¹)))) + (ba * (g * s⁻¹) + (be - m * (g * s⁻¹)))
      = g * (rpre a b wa wb ba i - m) * (1 / s) + be := by
  have e1 : ∑ l, a i l * (wa l * (g * s⁻¹)) = (∑ l, a i l * wa l) * (g * s⁻¹) := by
    rw [Finset.sum_mul]; exact Finset.sum_congr rfl (fun l _ => by ring)
  have e2 : ∑ l, b i l * (wb l * (g * s⁻¹)) = (∑ l, b i l * wb l) * (g * s⁻¹) := by
    rw [Finset.sum_mul]; exact Finset.sum_congr rfl (fun l _ => by ring)
  rw [e1, e2, rpre, one_div]
  ring

/-! ### The law -/

/-- The law on coerced reals. -/
theorem kerFold_eq_refNorm_coe (a : ι → κ₁ → ℝ) (b : ι → κ₂ → ℝ) (wa : κ₁ → ℝ) (wb : κ₂ → ℝ) (ba g be : ℝ)
    (n eps : ℝ) (hn : n = (Fintype.card ι : ℝ)) (hcard : 0 < Fintype.card ι) (heps : 0 < eps) (i : ι) :
    kerFold (fun i l => (a i l : EReal)) (fun i l => (b i l : EReal)) (fun l => (wa l : EReal)) (fun l => (wb l : EReal))
        (ba : EReal) (g : EReal) (be : EReal) (n : EReal) (eps : EReal) i
      = refNorm (pre (fun i l => (a i l : EReal)) (fun i l => (b i l : EReal)) (fun l => (wa l : EReal)) (fun l => (wb l : EReal)) (ba : EReal))
          (g : EReal) (be : EReal) (n : EReal) (eps : EReal) i := by
  have hn0 : 0 < n := by rw [hn]; exact_mod_cast hcard
  have hpos : 0 < rvar (rpre a b wa wb ba) n + eps := add_pos_of_nonneg_of_pos (rvar_nonneg _ hn0) heps
  rw [kerFold_coe_eq a b wa wb ba g be hn0.ne' heps i, pre_coe_eq, refNorm_coe_eq _ g be hn0.ne' hpos i,
    rscale_eq _ g hn hn0, real_fold]

/-- The column of the first layer on real-valued data is real-valued. -/
theorem pre_coe (a : ι → κ₁ → EReal) (b : ι → κ₂ → EReal) (wa : κ₁ → EReal) (wb : κ₂ → EReal) (ba : EReal)
    (ha : ∀ i l, ∃ r : ℝ, a i l = (r : EReal)) (hb : ∀ i l, ∃ r : ℝ, b i l = (r : EReal)) (hwa : ∀ l, ∃ r : ℝ, wa l = (r : EReal)) (hwb : ∀ l, ∃ r : ℝ, wb l = (r : EReal))
    (hba : ∃ r : ℝ, ba = (r : EReal)) :
    ∃ r : ι → ℝ, ∀ i, pre a b wa wb ba i = (r i : EReal) := by
  choose ra hra using ha
  choose rb hrb using hb
  choose rwa hrwa using hwa
  choose rwb hrwb using hwb
  obtain ⟨rba, rfl⟩ := hba
  obtain rfl : a = fun i l => (ra i l : EReal) := by funext i l; exact hra i l
  obtain rfl : b = fun i l => (rb i l : EReal) := by funext i l; exact hrb i l
  obtain rfl : wa = fun l => (rwa l : EReal) := by funext l; exact hrwa l
  obtain rfl : wb = fun l => (rwb l : EReal) := by funext l; exact hrwb l
  exact ⟨rpre ra rb rwa rwb rba, fun i => congrFun (pre_coe_eq ra rb rwa rwb rba) i⟩

/-- The mean of a real-valued column at a nonzero real n is real. -/
theorem mean_coe (h : ι → EReal) (hh : ∀ i, ∃ r : ℝ, h i = (r : EReal)) {n : ℝ} (hn : n ≠ 0) :
    ∃ r : ℝ, mean h (n : EReal) = (r : EReal) := by
  choose rh hrh using hh
  obtain rfl : h = fun i => (rh i : EReal) := by funext i; exact hrh i
  exact ⟨rmean rh n, mean_coe_eq rh hn⟩

/-- The scale of a real-valued column, at a real g, a nonzero real n and a positive real eps, is real. -/
theorem scale_coe (h : ι → EReal) (hh : ∀ i, ∃ r : ℝ, h i = (r : EReal)) (g : EReal) (hg : ∃ r : ℝ, g = (r : EReal))
    {n eps : ℝ} (hn : n ≠ 0) (heps : 0 < eps) :
    ∃ r : ℝ, scale h g (n : EReal) (eps : EReal) = (r : EReal) := by
  choose rh hrh using hh
  obtain ⟨rg, rfl⟩ := hg
  obtain rfl : h = fun i => (rh i : EReal) := by funext i; exact hrh i
  exact ⟨rscale rh rg n eps, scale_coe_eq rh rg hn heps⟩

/-- THE LAW: on real-valued data the folded layer is the normalised one. -/
theorem kerFold_eq_refNorm (a : ι → κ₁ → EReal) (b : ι → κ₂ → EReal) (wa : κ₁ → EReal) (wb : κ₂ → EReal) (ba g be : EReal)
    (ha : ∀ i l, ∃ r : ℝ, a i l = (r : EReal)) (hb : ∀ i l, ∃ r : ℝ, b i l = (r : EReal)) (hwa : ∀ l, ∃ r : ℝ, wa l = (r : EReal)) (hwb : ∀ l, ∃ r : ℝ, wb l = (r : EReal))
    (hba : ∃ r : ℝ, ba = (r : EReal)) (hg : ∃ r : ℝ, g = (r : EReal)) (hbe : ∃ r : ℝ, be = (r : EReal))
    (n eps : ℝ) (hn : n = (Fintype.card ι : ℝ)) (hcard : 0 < Fintype.card ι) (heps : 0 < eps) (i : ι) :
    kerFold a b wa wb ba g be (n : EReal) (eps : EReal) i = refNorm (pre a b wa wb ba) g be (n : EReal) (eps : EReal) i := by
  choose ra hra using ha
  choose rb hrb using hb
  choose rwa hrwa using hwa
  choose rwb hrwb using hwb
  obtain ⟨rba, rfl⟩ := hba
  obtain ⟨rg, rfl⟩ := hg
  obtain ⟨rbe, rfl⟩ := hbe
  obtain rfl : a = fun i l => (ra i l : EReal) := by funext i l; exact hra i l
  obtain rfl : b = fun i l => (rb i l : EReal) := by funext i l; exact hrb i l
  obtain rfl : wa = fun l => (rwa l : EReal) := by funext l; exact hrwa l
  obtain rfl : wb = fun l => (rwb l : EReal) := by funext l; exact hrwb l
  exact kerFold_eq_refNorm_coe ra rb rwa rwb rba rg rbe n eps hn hcard heps i

end LibBatchNormFold
-- ==== Proof.NetLaws.lean ====
import Mathlib.Data.EReal.Basic
import Idealize.ShloMosaic.PureOps.Ideal
import Idealize.ShloMosaic.PureOps.Ideal.Laws
import proofs.«132165_j27702539059447_2_alg».proof.Proof.Net
import proofs.«132165_j27702539059447_2_alg».proof.Proof.LibBatchNormFold

/-!
# The laws of the network's layers on real data

The three literals the layers use are read as reals: the divisor is `500000`, the zero word is `0`, the
variance floor is a positive real.

On a column of real numbers with `500000` rows, the mean of the squares minus the square of the mean is the
mean of the squared deviations from the mean, and it is not negative, so the cut-off at zero does nothing:
the two normalisations `bnSq` and `bnDev` are the same function.

A layer, and either normalisation, sends real data to real data: finite sums, products, differences and
maxima with zero of reals are reals, and one over the square root of a positive real is a real.
-/

noncomputable section

namespace Cert.Net

open Idealize.ShloMosaic Idealize.ShloMosaic.ValueIdx Cert.Rows
open scoped BigOperators

/-! ## The literals -/

/-- The divisor denotes the real `500000`: exponent field `145`, fraction `7611392`,
    so `(2^23 + 7611392) · 2^(145 - 127 - 23) = 16000000 / 32`. -/
theorem rowsF_eq : rowsF = ((500000 : ℝ) : EReal) := by
  simp [rowsF, Ideal.ofBits, Ideal.ieee, -EReal.coe_mul]; norm_num

/-- The zero word denotes `0`. -/
theorem zeroF_eq : zeroF = 0 := Ideal.ofBits_zero_f32

/-- The variance floor denotes a positive real: exponent field `110`, fraction `2606508`,
    so `(2^23 + 2606508) · 2^(110 - 127 - 23)`. -/
theorem epsVar_pos : ∃ e : ℝ, 0 < e ∧ epsVar = (e : EReal) := by
  refine ⟨(10995116 : ℝ) * (2 : ℝ) ^ (-40 : ℤ), by positivity, ?_⟩
  simp [epsVar, Ideal.ofBits, Ideal.ieee, -EReal.coe_mul]

/-! ## Reals are closed under the scalar operations -/

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

theorem real_sub {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb; exact ⟨x - y, (EReal.coe_sub x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

/-- The larger of a real and the zero word is a real. -/
theorem real_max_zeroF {a : EReal} (ha : ∃ r : ℝ, a = (r : EReal)) : ∃ r : ℝ, max a zeroF = (r : EReal) := by
  obtain ⟨x, rfl⟩ := ha
  exact ⟨max x 0, by rw [zeroF_eq, ← EReal.coe_zero, ← LibBatchNormFold.coe_max]⟩

/-- A finite sum of reals is a real. -/
theorem real_sum {α : Type} [Fintype α] (f : α → EReal) (hf : ∀ a, ∃ r : ℝ, f a = (r : EReal)) :
    ∃ r : ℝ, ∑ a, f a = (r : EReal) := by
  choose g hg using hf
  exact ⟨∑ a, g a, by rw [LibBatchNormFold.coe_sum_univ]; exact Finset.sum_congr rfl fun a _ => hg a⟩

/-- One over the square root of a positive real is a real. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

/-! ## Rows -/

theorem lin_real {K C : ℕ} (w : (S2 K C).Idx → EReal) (hw : ∀ i, ∃ r : ℝ, w i = (r : EReal))
    (x : Fin K → EReal) (hx : ∀ k, ∃ r : ℝ, x k = (r : EReal)) (q : Fin C) : ∃ r : ℝ, lin w x q = (r : EReal) :=
  real_sum _ fun k => real_mul (hx k) (hw _)

theorem addRow_real {C : ℕ} (b : (S2 1 C).Idx → EReal) (hb : ∀ i, ∃ r : ℝ, b i = (r : EReal))
    (x : Fin C → EReal) (hx : ∀ k, ∃ r : ℝ, x k = (r : EReal)) (q : Fin C) : ∃ r : ℝ, addRow b x q = (r : EReal) :=
  real_add (hx q) (hb _)

theorem relu_real {C : ℕ} (x : Fin C → EReal) (hx : ∀ k, ∃ r : ℝ, x k = (r : EReal)) (q : Fin C) :
    ∃ r : ℝ, relu x q = (r : EReal) :=
  real_max_zeroF (hx q)

/-- One row through a layer's two dense stages stays real. -/
theorem ginRow_real {K H C : ℕ} (w1 : (S2 K H).Idx → EReal) (b1 : (S2 1 H).Idx → EReal) (w2 : (S2 H C).Idx → EReal)
    (b2 : (S2 1 C).Idx → EReal) (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal))
    (x : Fin K → EReal) (hx : ∀ k, ∃ r : ℝ, x k = (r : EReal)) (q : Fin C) :
    ∃ r : ℝ, ginRow w1 b1 w2 b2 x q = (r : EReal) :=
  relu_real _ (addRow_real b2 hb2 _ (lin_real w2 hw2 _ (relu_real _ (addRow_real b1 hb1 _ (lin_real w1 hw1 x hx))))) q

/-- A layer before its normalisation sends real data to real data. -/
theorem gin_real {N K H C : ℕ} (w1 : (S2 K H).Idx → EReal) (b1 : (S2 1 H).Idx → EReal) (w2 : (S2 H C).Idx → EReal)
    (b2 : (S2 1 C).Idx → EReal) (h agg : (S2 N K).Idx → EReal)
    (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal))
    (hh : ∀ i, ∃ r : ℝ, h i = (r : EReal)) (hagg : ∀ i, ∃ r : ℝ, agg i = (r : EReal)) :
    ∀ i, ∃ r : ℝ, gin w1 b1 w2 b2 h agg i = (r : EReal) := fun i =>
  ginRow_real w1 b1 w2 b2 hw1 hb1 hw2 hb2 _ (fun k => real_add (hh _) (hagg _)) (i 1)

/-- One row through the head stays real. -/
theorem headRow_real {K A B C : ℕ} (w1 : (S2 K A).Idx → EReal) (b1 : (S2 1 A).Idx → EReal) (w2 : (S2 A B).Idx → EReal)
    (b2 : (S2 1 B).Idx → EReal) (w3 : (S2 B C).Idx → EReal) (b3 : (S2 1 C).Idx → EReal)
    (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal))
    (hw3 : ∀ i, ∃ r : ℝ, w3 i = (r : EReal)) (hb3 : ∀ i, ∃ r : ℝ, b3 i = (r : EReal))
    (x : Fin K → EReal) (hx : ∀ k, ∃ r : ℝ, x k = (r : EReal)) (q : Fin C) :
    ∃ r : ℝ, headRow w1 b1 w2 b2 w3 b3 x q = (r : EReal) :=
  addRow_real b3 hb3 _ (lin_real w3 hw3 _ (relu_real _ (addRow_real b2 hb2 _ (lin_real w2 hw2 _
    (relu_real _ (addRow_real b1 hb1 _ (lin_real w1 hw1 x hx))))))) q

/-- The head sends real data to real data. -/
theorem head_real {N K A B C : ℕ} (w1 : (S2 K A).Idx → EReal) (b1 : (S2 1 A).Idx → EReal) (w2 : (S2 A B).Idx → EReal)
    (b2 : (S2 1 B).Idx → EReal) (w3 : (S2 B C).Idx → EReal) (b3 : (S2 1 C).Idx → EReal) (z : (S2 N K).Idx → EReal)
    (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal))
    (hw3 : ∀ i, ∃ r : ℝ, w3 i = (r : EReal)) (hb3 : ∀ i, ∃ r : ℝ, b3 i = (r : EReal))
    (hz : ∀ i, ∃ r : ℝ, z i = (r : EReal)) :
    ∀ i, ∃ r : ℝ, head w1 b1 w2 b2 w3 b3 z i = (r : EReal) := fun i =>
  headRow_real w1 b1 w2 b2 w3 b3 hw1 hb1 hw2 hb2 hw3 hb3 _ (fun k => hz _) (i 1)

/-! ## A real column with 500000 rows -/

/-- A column of a real array, with its mean and its two variances read in the reals. -/
theorem col_data {C : ℕ} (Y : (S2 500000 C).Idx → EReal) (hY : ∀ i, ∃ r : ℝ, Y i = (r : EReal)) (q : Fin C) :
    ∃ h : Fin 500000 → ℝ, (∀ n : Fin 500000, Y (ix2 n q) = ((h n : ℝ) : EReal))
      ∧ colMean Y q = ((LibBatchNormFold.rmean h 500000 : ℝ) : EReal)
      ∧ Ideal.div (colSumSq Y q) rowsF - colMean Y q * colMean Y q = ((LibBatchNormFold.rvar' h 500000 : ℝ) : EReal)
      ∧ Ideal.div (∑ n : Fin 500000, (Y (ix2 n q) - colMean Y q) * (Y (ix2 n q) - colMean Y q)) rowsF
          = ((LibBatchNormFold.rvar h 500000 : ℝ) : EReal) := by
  choose y hy using hY
  have hn0 : (500000 : ℝ) ≠ 0 := by norm_num
  refine ⟨fun n => y (ix2 n q), fun n => hy _, ?_⟩
  have hcol : ∀ n : Fin 500000, Y (ix2 n q) = ((y (ix2 n q) : ℝ) : EReal) := fun n => hy _
  have hmean : colMean Y q = ((LibBatchNormFold.rmean (fun n : Fin 500000 => y (ix2 n q)) 500000 : ℝ) : EReal) := by
    rw [colMean, colSum, rowsF_eq]
    simp only [hcol]
    exact LibBatchNormFold.mean_coe_eq (fun n : Fin 500000 => y (ix2 n q)) hn0
  refine ⟨hmean, ?_, ?_⟩
  · rw [hmean, colSumSq, rowsF_eq]
    simp only [hcol, LibBatchNormFold.rvar', Ideal.div_coe hn0, ← EReal.coe_mul, ← LibBatchNormFold.coe_sum_univ,
      ← EReal.coe_sub]
  · rw [hmean, rowsF_eq]
    simp only [hcol, LibBatchNormFold.rvar, Ideal.div_coe hn0, ← EReal.coe_sub, ← EReal.coe_mul,
      ← LibBatchNormFold.coe_sum_univ]

/-- The two factors agree on a real column: the cut-off at zero does nothing. -/
theorem invSq_eq_invDev {C : ℕ} (Y : (S2 500000 C).Idx → EReal) (hY : ∀ i, ∃ r : ℝ, Y i = (r : EReal)) (q : Fin C) :
    invSq Y q = invDev Y q := by
  obtain ⟨h, -, -, hsq, hdev⟩ := col_data Y hY q
  have hn0 : (0 : ℝ) < 500000 := by norm_num
  have hn : (500000 : ℝ) = (Fintype.card (Fin 500000) : ℝ) := by simp
  rw [invSq, invDev, hsq, hdev, zeroF_eq, ← EReal.coe_zero, ← LibBatchNormFold.coe_max,
    ← LibBatchNormFold.rvar_eq_rvar' h hn hn0.ne', max_eq_left (LibBatchNormFold.rvar_nonneg h hn0)]

/-- THE LAW: on real data with 500000 rows the two normalisations are the same function. -/
theorem bnSq_eq_bnDev {C : ℕ} (Y : (S2 500000 C).Idx → EReal) (hY : ∀ i, ∃ r : ℝ, Y i = (r : EReal))
    (g be : (S2 1 C).Idx → EReal) : bnSq Y g be = bnDev Y g be := by
  funext i
  simp only [bnSq, bnDev, invSq_eq_invDev Y hY (i 1)]

/-- The mean of a real column is a real. -/
theorem colMean_real {C : ℕ} (Y : (S2 500000 C).Idx → EReal) (hY : ∀ i, ∃ r : ℝ, Y i = (r : EReal)) (q : Fin C) :
    ∃ r : ℝ, colMean Y q = (r : EReal) := by
  obtain ⟨h, -, hm, -, -⟩ := col_data Y hY q
  exact ⟨_, hm⟩

/-- The factor of a real column is a real: the variance is not negative and the floor is positive. -/
theorem invDev_real {C : ℕ} (Y : (S2 500000 C).Idx → EReal) (hY : ∀ i, ∃ r : ℝ, Y i = (r : EReal)) (q : Fin C) :
    ∃ r : ℝ, invDev Y q = (r : EReal) := by
  obtain ⟨h, -, -, -, hdev⟩ := col_data Y hY q
  obtain ⟨e, he, hE⟩ := epsVar_pos
  have hn0 : (0 : ℝ) < 500000 := by norm_num
  have hpos : 0 < LibBatchNormFold.rvar h 500000 + e :=
    add_pos_of_nonneg_of_pos (LibBatchNormFold.rvar_nonneg h hn0) he
  exact ⟨_, by rw [invDev, hdev, hE, ← EReal.coe_add, rsqrt_pos hpos]⟩

theorem invSq_real {C : ℕ} (Y : (S2 500000 C).Idx → EReal) (hY : ∀ i, ∃ r : ℝ, Y i = (r : EReal)) (q : Fin C) :
    ∃ r : ℝ, invSq Y q = (r : EReal) := by
  rw [invSq_eq_invDev Y hY q]; exact invDev_real Y hY q

/-- The second normalisation sends real data to real data. -/
theorem bnDev_real {C : ℕ} (Y : (S2 500000 C).Idx → EReal) (hY : ∀ i, ∃ r : ℝ, Y i = (r : EReal))
    (g be : (S2 1 C).Idx → EReal) (hg : ∀ i, ∃ r : ℝ, g i = (r : EReal)) (hbe : ∀ i, ∃ r : ℝ, be i = (r : EReal)) :
    ∀ i, ∃ r : ℝ, bnDev Y g be i = (r : EReal) := fun i =>
  real_add (real_mul (real_mul (real_sub (hY i) (colMean_real Y hY (i 1))) (invDev_real Y hY (i 1))) (hg _)) (hbe _)

/-- The first normalisation sends real data to real data. -/
theorem bnSq_real {C : ℕ} (Y : (S2 500000 C).Idx → EReal) (hY : ∀ i, ∃ r : ℝ, Y i = (r : EReal))
    (g be : (S2 1 C).Idx → EReal) (hg : ∀ i, ∃ r : ℝ, g i = (r : EReal)) (hbe : ∀ i, ∃ r : ℝ, be i = (r : EReal)) :
    ∀ i, ∃ r : ℝ, bnSq Y g be i = (r : EReal) := by
  rw [bnSq_eq_bnDev Y hY g be]; exact bnDev_real Y hY g be hg hbe

end Cert.Net

end
-- ==== Proof.Chain1.lean ====
import proofs.«132165_j27702539059447_2_alg».proof.Proof.Gen.KernelIdeal.Frame
import proofs.«132165_j27702539059447_2_alg».proof.Proof.ReadP
import proofs.«132165_j27702539059447_2_alg».proof.Proof.Carry
import proofs.«132165_j27702539059447_2_alg».proof.Proof.NetHost
import proofs.«132165_j27702539059447_2_alg».proof.Proof.Gin0
import proofs.«132165_j27702539059447_2_alg».proof.Proof.Bn1
import proofs.«132165_j27702539059447_2_alg».proof.Proof.RefNet
import proofs.«132165_j27702539059447_2_alg».proof.Proof.NetLaws

/-!
The first layer of the kernel program, read against the reference's stages: the neighbour sums at the first kernel's
entry are the reference's; the kernel leaves the layer's rows and their column sums; the host turns the sums into
the mean and the factor; the second kernel applies the affine map. The two forms of the variance agree on a
real-valued column, so the layer's result is the reference's.
-/

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)
open Cert.ReferenceIdeal.Read (val_main_v1 val_main_v3 val_main_v13 val_main_v24 val_main_v49 val_main_v59 val_main_v70 val_main_v95 val_main_v105 val_main_v116 val_main_v141 val_main_v154 val_main_v168)

variable (m : (ℓ : Loc nD τ sig) → Buf (Elt Ideal) ℓ) (ρ : Dev nD → PrngReg)

/-! ## The first kernel's operands -/

theorem V1_agg (c : Dev nD) :
    (V1 m ρ c main_v13 : S500000x5.Idx → EReal) = val_main_v13 (F := Ideal) (m ((c : Thread nD τ).loc main_arg0)) (m ((c : Thread nD τ).loc main_arg1)) := by
  show StableHlo.after hostOps0 (W0 m ρ c) (Proc.devRef .tc main_v13) = _
  after_results_simp <;> rfl

theorem V1_hin (c : Dev nD) : (V1 m ρ c main_arg0 : S500000x5.Idx → EReal) = (m ((c : Thread nD τ).loc main_arg0)) := W1_main_arg0 m ρ c

theorem V1_b1 (c : Dev nD) :
    (V1 m ρ c main_v14 : S1x5.Idx → EReal) = shapeCast S1x5 (m ((c : Thread nD τ).loc main_arg5)) shapeCasts_S5_S1x5 := by
  show StableHlo.after hostOps0 (W0 m ρ c) (Proc.devRef .tc main_v14) = _
  after_results <;> rfl

theorem V1_b2 (c : Dev nD) :
    (V1 m ρ c main_v15 : S1x5.Idx → EReal) = shapeCast S1x5 (m ((c : Thread nD τ).loc main_arg7)) shapeCasts_S5_S1x5 := by
  show StableHlo.after hostOps0 (W0 m ρ c) (Proc.devRef .tc main_v15) = _
  after_results <;> rfl

/-! ## What the first kernel leaves -/

theorem gin1_eq (c : Dev nD) :
    Cert.Net.gin (V1 m ρ c main_arg4 : S5x5.Idx → EReal) (V1 m ρ c main_v14) (V1 m ρ c main_arg6) (V1 m ρ c main_v15) (V1 m ρ c main_arg0) (V1 m ρ c main_v13)
      = val_main_v24 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  rw [V1_agg m ρ c, V1_b1 m ρ c, V1_b2 m ρ c, V1_hin m ρ c,
    show (V1 m ρ c main_arg4 : S5x5.Idx → EReal) = (m ((c : Thread nD τ).loc main_arg4)) from W1_main_arg4 m ρ c,
    show (V1 m ρ c main_arg6 : S5x5.Idx → EReal) = (m ((c : Thread nD τ).loc main_arg6)) from W1_main_arg6 m ρ c]
  exact (Cert.ReferenceIdeal.RefNet.y1 _ _ _ _ _ _).symm

theorem W2_y (c : Dev nD) :
    (W2 m ρ c (Proc.devRef .tc main_v16_0) : S500000x5.Idx → EReal) = val_main_v24 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) :=
  ((W2_arr m ρ c 6).trans (Cert.KernelIdeal.Gin0.out (V1 m ρ) c)).trans (gin1_eq m ρ c)

theorem W2_s (c : Dev nD) :
    (W2 m ρ c (Proc.devRef .tc main_v16_1) : S1x5.Idx → EReal) = Cert.Net.sumRow (val_main_v24 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) :=
  ((W2_arr m ρ c 7).trans (Cert.KernelIdeal.Gin0.sum (V1 m ρ) c)).trans (congrArg Cert.Net.sumRow (gin1_eq m ρ c))

theorem W2_ss (c : Dev nD) :
    (W2 m ρ c (Proc.devRef .tc main_v16_2) : S1x5.Idx → EReal) = Cert.Net.sumSqRow (val_main_v24 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) :=
  ((W2_arr m ρ c 8).trans (Cert.KernelIdeal.Gin0.sumsq (V1 m ρ) c)).trans (congrArg Cert.Net.sumSqRow (gin1_eq m ρ c))

/-! ## The second kernel's operands -/

theorem V3_mean (c : Dev nD) :
    (V3 m ρ c main_v18 : S1x5.Idx → EReal)
      = Host.divf (F := Ideal) (φ := .f32) (W2 m ρ c (Proc.devRef .tc main_v16_1)) (broadcastInDim S1x5 ![] bcast_S_S1x5 (constant (F := Ideal) S_ .f32 0x48F42400#32)) := by
  show StableHlo.after hostOps1 (W2 m ρ c) (Proc.devRef .tc main_v18) = _
  after_results <;> rfl

theorem V3_inv (c : Dev nD) :
    (V3 m ρ c main_v27 : S1x5.Idx → EReal)
      = Host.rsqrt (F := Ideal) (φ := .f32) (addf (maximumf
          (subf (Host.divf (F := Ideal) (φ := .f32) (W2 m ρ c (Proc.devRef .tc main_v16_2)) (broadcastInDim S1x5 ![] bcast_S_S1x5 (constant (F := Ideal) S_ .f32 0x48F42400#32)))
            (mulf (Host.divf (F := Ideal) (φ := .f32) (W2 m ρ c (Proc.devRef .tc main_v16_1)) (broadcastInDim S1x5 ![] bcast_S_S1x5 (constant (F := Ideal) S_ .f32 0x48F42400#32)))
              (Host.divf (F := Ideal) (φ := .f32) (W2 m ρ c (Proc.devRef .tc main_v16_1)) (broadcastInDim S1x5 ![] bcast_S_S1x5 (constant (F := Ideal) S_ .f32 0x48F42400#32)))))
          (broadcastInDim S1x5 ![] bcast_S_S1x5 (constant (F := Ideal) S_ .f32 0x00000000#32)))
          (broadcastInDim S1x5 ![] bcast_S_S1x5 (constant (F := Ideal) S_ .f32 0x3727C5AC#32))) := by
  show StableHlo.after hostOps1 (W2 m ρ c) (Proc.devRef .tc main_v27) = _
  after_results <;> rfl

theorem V3_g (c : Dev nD) :
    (V3 m ρ c main_v28 : S1x5.Idx → EReal) = shapeCast S1x5 (m ((c : Thread nD τ).loc main_arg16)) shapeCasts_S5_S1x5 := by
  show StableHlo.after hostOps1 (W2 m ρ c) (Proc.devRef .tc main_v28) = _
  after_results
  rw [W2_main_arg16 m ρ c]
  rfl

theorem V3_be (c : Dev nD) :
    (V3 m ρ c main_v29 : S1x5.Idx → EReal) = shapeCast S1x5 (m ((c : Thread nD τ).loc main_arg17)) shapeCasts_S5_S1x5 := by
  show StableHlo.after hostOps1 (W2 m ρ c) (Proc.devRef .tc main_v29) = _
  after_results
  rw [W2_main_arg17 m ρ c]
  rfl

/-! ## The layer -/

theorem layer1 (c : Dev nD)
    (hY : ∀ i, ∃ r : ℝ, val_main_v24 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) i = (r : EReal)) :
    (W4 m ρ c (Proc.devRef .tc main_v30) : S500000x5.Idx → EReal)
      = val_main_v49 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)) := by
  refine ((W4_arr m ρ c 5).trans (Cert.KernelIdeal.Bn1.out (V3 m ρ) c)).trans ?_
  rw [show (V3 m ρ c main_v16_0 : S500000x5.Idx → EReal) = _ from (W3_main_v16_0 m ρ c).trans (W2_y m ρ c),
    V3_mean m ρ c, V3_inv m ρ c, V3_g m ρ c, V3_be m ρ c, W2_s m ρ c, W2_ss m ρ c]
  refine (Cert.Net.bnApply_host _ _ _ _).trans ?_
  rw [Cert.Net.bnSq_eq_bnDev _ hY]
  exact (Cert.ReferenceIdeal.RefNet.h1 _ _ _ _ _ _ _ _).symm

end Cert.KernelIdeal.Gen

end
-- ==== Proof.Gin2.lean ====
import proofs.«132165_j27702539059447_2_alg».proof.Proof.Gen.KernelIdeal.Frame
import proofs.«132165_j27702539059447_2_alg».proof.Proof.Net
import proofs.«132165_j27702539059447_2_alg».proof.Proof.LibRows
import proofs.«132165_j27702539059447_2_alg».proof.Proof.LibNormRows
import Idealize.ShloMosaic.Lib.Pipeline.Value
import Idealize.ShloMosaic.Lib.Tactic

/-!
# A message-passing layer before its normalisation, with its column sums

The layer's program walks the rows in a hundred blocks of five thousand. At every block it adds the node features
and the neighbour sums, sends each row `r` to `relu (relu (r · w1 + b1) · w2 + b2)`, writes the block of results,
and adds the block's column sums and column sums of squares to two running rows that are set to zero before the
first block. A row of the result only depends on the same row of the operands, so the hundred blocks written are
the rows of one array, the layer applied to all rows at once; and since addition of extended reals is associative
and commutative, the running rows after the last block are the column sums, and the column sums of squares, of
that whole array.
-/

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Gin2

open Cert.KernelIdeal Cert.KernelIdeal.Gen Cert.Rows Cert.Net

/-! ## What one block's body leaves in the three results, for any float values -/

section Pieces

variable {F : FTy → Type} [FloatOps F]

theorem hz : (![0, 0] : Fin 2 → Nat) = fun _ => 0 := funext fun a => by fin_cases a <;> rfl

/-- At the first block the block of results is the two dense stages of the loaded blocks. -/
theorem outA6 (c : Dev nD) (i : grid2.Coords) (a1 : Memref sig .tc .vmem S5000x5 .f32) (h1 : a1.IsWhole) (a2 : Memref sig .tc .vmem S5000x5 .f32) (h2 : a2.IsWhole) (a3 : Memref sig .tc .vmem S5x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : cond2_0 i)
    (x0 : Vec F S5000x5 .f32) (x1 : Vec F S5000x5 .f32) (x2 : Vec F S5x10 .f32) (x3 : Vec F S1x10 .f32) (x4 : Vec F S10x10 .f32) (x5 : Vec F S1x10 .f32) :
    out2_A_6 c i a1 h1 a2 h2 a3 h3 a4 h4 a5 h5 a6 h6 a7 h7 a8 h8 a9 h9 hc x0 x1 x2 x3 x4 x5 = k2_pay4 x0 x1 x2 x3 x4 x5 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  sl_unfold_words
  rw [View.canon_unit_zero hz]
  simp only [View.readAt_eq_ld, h1.read_unread, h2.read_unread, h3.read_unread, h4.read_unread, h5.read_unread, h6.read_unread, View.ld_unit_zero (S := S5000x5) hz, View.ld_unit_zero (S := S5x10) hz, View.ld_unit_zero (S := S1x10) hz, View.ld_unit_zero (S := S10x10) hz, View.ld_unit_zero (S := S5000x10) hz]

/-- At a later block too. -/
theorem outB6 (c : Dev nD) (i : grid2.Coords) (a1 : Memref sig .tc .vmem S5000x5 .f32) (h1 : a1.IsWhole) (a2 : Memref sig .tc .vmem S5000x5 .f32) (h2 : a2.IsWhole) (a3 : Memref sig .tc .vmem S5x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : ¬cond2_0 i)
    (x0 : Vec F S5000x5 .f32) (x1 : Vec F S5000x5 .f32) (x2 : Vec F S5x10 .f32) (x3 : Vec F S1x10 .f32) (x4 : Vec F S10x10 .f32) (x5 : Vec F S1x10 .f32) (xo7 : Vec F S1x10 .f32) (xo8 : Vec F S1x10 .f32) :
    out2_B_6 c i a1 h1 a2 h2 a3 h3 a4 h4 a5 h5 a6 h6 a7 h7 a8 h8 a9 h9 hc x0 x1 x2 x3 x4 x5 xo7 xo8 = k2_pay4 x0 x1 x2 x3 x4 x5 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x5) hz, View.ld_unit_zero (S := S5x10) hz, View.ld_unit_zero (S := S1x10) hz, View.ld_unit_zero (S := S10x10) hz, View.ld_unit_zero (S := S5000x10) hz]

/-- At the first block the running row of sums is first set to zero, then the block's column sums are added. -/
theorem outA7 (c : Dev nD) (i : grid2.Coords) (a1 : Memref sig .tc .vmem S5000x5 .f32) (h1 : a1.IsWhole) (a2 : Memref sig .tc .vmem S5000x5 .f32) (h2 : a2.IsWhole) (a3 : Memref sig .tc .vmem S5x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : cond2_0 i)
    (x0 : Vec F S5000x5 .f32) (x1 : Vec F S5000x5 .f32) (x2 : Vec F S5x10 .f32) (x3 : Vec F S1x10 .f32) (x4 : Vec F S10x10 .f32) (x5 : Vec F S1x10 .f32) :
    out2_A_7 c i a1 h1 a2 h2 a3 h3 a4 h4 a5 h5 a6 h6 a7 h7 a8 h8 a9 h9 hc x0 x1 x2 x3 x4 x5 = k2_pay5 x0 x1 x2 x3 x4 x5 (k2_pay2 (F := F)) := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x10) hz, View.readCov_unit_zero (S := S1x10) _ hz]
  simp only [View.readAt_eq_ld, h1.read_unread, h2.read_unread, h3.read_unread, h4.read_unread, h5.read_unread, h6.read_unread, View.ld_unit_zero (S := S5000x5) hz, View.ld_unit_zero (S := S5x10) hz, View.ld_unit_zero (S := S1x10) hz, View.ld_unit_zero (S := S10x10) hz, View.ld_unit_zero (S := S5000x10) hz]

/-- At a later block the block's column sums are added to what the block before left. -/
theorem outB7 (c : Dev nD) (i : grid2.Coords) (a1 : Memref sig .tc .vmem S5000x5 .f32) (h1 : a1.IsWhole) (a2 : Memref sig .tc .vmem S5000x5 .f32) (h2 : a2.IsWhole) (a3 : Memref sig .tc .vmem S5x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : ¬cond2_0 i)
    (x0 : Vec F S5000x5 .f32) (x1 : Vec F S5000x5 .f32) (x2 : Vec F S5x10 .f32) (x3 : Vec F S1x10 .f32) (x4 : Vec F S10x10 .f32) (x5 : Vec F S1x10 .f32) (xo7 : Vec F S1x10 .f32) (xo8 : Vec F S1x10 .f32) :
    out2_B_7 c i a1 h1 a2 h2 a3 h3 a4 h4 a5 h5 a6 h6 a7 h7 a8 h8 a9 h9 hc x0 x1 x2 x3 x4 x5 xo7 xo8 = k2_pay5 x0 x1 x2 x3 x4 x5 xo7 := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x5) hz, View.ld_unit_zero (S := S5x10) hz, View.ld_unit_zero (S := S1x10) hz, View.ld_unit_zero (S := S10x10) hz, View.ld_unit_zero (S := S5000x10) hz]

/-- The running row of sums of squares, at the first block. -/
theorem outA8 (c : Dev nD) (i : grid2.Coords) (a1 : Memref sig .tc .vmem S5000x5 .f32) (h1 : a1.IsWhole) (a2 : Memref sig .tc .vmem S5000x5 .f32) (h2 : a2.IsWhole) (a3 : Memref sig .tc .vmem S5x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : cond2_0 i)
    (x0 : Vec F S5000x5 .f32) (x1 : Vec F S5000x5 .f32) (x2 : Vec F S5x10 .f32) (x3 : Vec F S1x10 .f32) (x4 : Vec F S10x10 .f32) (x5 : Vec F S1x10 .f32) :
    out2_A_8 c i a1 h1 a2 h2 a3 h3 a4 h4 a5 h5 a6 h6 a7 h7 a8 h8 a9 h9 hc x0 x1 x2 x3 x4 x5 = k2_pay1 (k2_pay4 x0 x1 x2 x3 x4 x5) (k2_pay3 (F := F)) := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x10) hz, View.readCov_unit_zero (S := S1x10) _ hz]
  simp only [View.readAt_eq_ld, h1.read_unread, h2.read_unread, h3.read_unread, h4.read_unread, h5.read_unread, h6.read_unread, View.ld_unit_zero (S := S5000x5) hz, View.ld_unit_zero (S := S5x10) hz, View.ld_unit_zero (S := S1x10) hz, View.ld_unit_zero (S := S10x10) hz, View.ld_unit_zero (S := S5000x10) hz]

/-- The running row of sums of squares, at a later block. -/
theorem outB8 (c : Dev nD) (i : grid2.Coords) (a1 : Memref sig .tc .vmem S5000x5 .f32) (h1 : a1.IsWhole) (a2 : Memref sig .tc .vmem S5000x5 .f32) (h2 : a2.IsWhole) (a3 : Memref sig .tc .vmem S5x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : ¬cond2_0 i)
    (x0 : Vec F S5000x5 .f32) (x1 : Vec F S5000x5 .f32) (x2 : Vec F S5x10 .f32) (x3 : Vec F S1x10 .f32) (x4 : Vec F S10x10 .f32) (x5 : Vec F S1x10 .f32) (xo7 : Vec F S1x10 .f32) (xo8 : Vec F S1x10 .f32) :
    out2_B_8 c i a1 h1 a2 h2 a3 h3 a4 h4 a5 h5 a6 h6 a7 h7 a8 h8 a9 h9 hc x0 x1 x2 x3 x4 x5 xo7 xo8 = k2_pay1 (k2_pay4 x0 x1 x2 x3 x4 x5) xo8 := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x5) hz, View.ld_unit_zero (S := S5x10) hz, View.ld_unit_zero (S := S1x10) hz, View.ld_unit_zero (S := S10x10) hz, View.ld_unit_zero (S := S5000x10) hz]

end Pieces

/-! ## The body's arithmetic over the extended reals -/

section Values

/-- Zero against every entry, entry by entry, is `relu` of every row. -/
theorem relu_rows {N C : ℕ} (y : FVec Ideal (S2 N C) .f32) :
    maximumf y (broadcast (S2 N C) (Scalar.ofBits .f32 0x00000000#32)) = mapRows (C := C) relu y := by
  funext i
  obtain ⟨p, q, rfl⟩ : ∃ (p : Fin N) (q : Fin C), i = ix2 p q := ⟨i 0, i 1, eq_ix2 i⟩
  rfl

/-- The two dense stages of a tile of rows, as the vector unit spells them (operands rounded to half precision,
    which changes nothing of an exact number; products into a zero accumulator; the bias row repeated down the
    tile; the maximum with zero), are `ginRow` of every row. -/
theorem ginBody_rows {N K H C : ℕ} (d1 : DotDims (S2 N K) (S2 K H) (S2 N H)) (hd1 : Cert.LibPlainDot.Plain d1)
    (d2 : DotDims (S2 N H) (S2 H C) (S2 N C)) (hd2 : Cert.LibPlainDot.Plain d2)
    (x : FVec Ideal (S2 N K) .f32) (w1 : FVec Ideal (S2 K H) .f32) (b1 : FVec Ideal (S2 1 H) .f32)
    (w2 : FVec Ideal (S2 H C) .f32) (b2 : FVec Ideal (S2 1 C) .f32) (hlt : FTy.bf16.bits < FTy.f32.bits)
    (h2 : (S2 1 H).ShapeCasts (S2 1 H)) (h3 : (S2 1 H).Broadcasts (S2 N H))
    (h2' : (S2 1 C).ShapeCasts (S2 1 C)) (h3' : (S2 1 C).Broadcasts (S2 N C)) :
    maximumf (addf (matmul d2 none (truncf .bf16 (maximumf (addf (matmul d1 none (truncf .bf16 x hlt) (truncf .bf16 w1 hlt)
        (constant (S2 N H) .f32 0x00000000#32)) (broadcastTo (S2 N H) (shapeCast (S2 1 H) b1 h2) h3))
        (broadcast (S2 N H) (Scalar.ofBits .f32 0x00000000#32))) hlt) (truncf .bf16 w2 hlt)
        (constant (S2 N C) .f32 0x00000000#32)) (broadcastTo (S2 N C) (shapeCast (S2 1 C) b2 h2') h3'))
        (broadcast (S2 N C) (Scalar.ofBits .f32 0x00000000#32))
      = mapRows (ginRow w1 b1 w2 b2) x := by
  have e1 := unitLin_rows d1 hd1 x w1 b1 hlt h2 h3
  unfold unitLin at e1
  rw [e1, relu_rows (mapRows (fun r => addRow b1 (lin w1 r)) x)]
  have e2 := unitLin_rows d2 hd2 (mapRows (C := H) relu (mapRows (fun r => addRow b1 (lin w1 r)) x)) w2 b2 hlt h2' h3'
  unfold unitLin at e2
  rw [e2, relu_rows]
  rfl

/-- A running row plus the column sums of a tile, as the vector unit spells it (the sum over the rows kept as a
    vector, the vector cast to one row), at a column. -/
theorem colAcc_apply {N C : ℕ} (Y : FVec Ideal (S2 N C) .f32) (acc : FVec Ideal (S2 1 C) .f32)
    (hr : (S2 N C).Reduces [0] (Cert.Rows.S1 C)) (hφ : FKind.Formats .f32) (hacc : (0x00000000#32 : BitVec 32) = FKind.add.neutral .f32 hφ)
    (hc : (Cert.Rows.S1 C).ShapeCasts (S2 1 C)) (hs : (S2 1 C).ShapeCasts (S2 1 C)) (u : Fin 1) (q : Fin C) :
    addf (shapeCast (S2 1 C) acc hs) (shapeCast (S2 1 C) (multiReduction .add [0] (Cert.Rows.S1 C) Y 0x00000000#32 hr hφ hacc) hc) (ix2 u q)
      = acc (ix2 u q) + ∑ n : Fin N, Y (ix2 n q) := by
  rw [shapeCast_self]
  show acc (ix2 u q) + shapeCast (S2 1 C) (multiReduction .add [0] (Cert.Rows.S1 C) Y 0x00000000#32 hr hφ hacc) hc (ix2 u q) = _
  rw [shapeCast_a_1a_apply]
  refine congrArg (fun s => acc (ix2 u q) + s) ?_
  refine (Ideal.multiReduction_add_single Y 0x00000000#32 hr hφ hacc (ix1 q)).trans ?_
  refine Finset.sum_congr rfl fun k _ => ?_
  have e : hr.lift (ix1 q) k = ix2 k q := funext fun a => Fin.ext (by
    match a with
    | ⟨0, _⟩ => rfl
    | ⟨1, _⟩ => rfl)
  exact congrArg Y e

variable (x0 x1 : Vec Ideal S5000x5 .f32) (w1 : Vec Ideal S5x10 .f32) (b1 : Vec Ideal S1x10 .f32)
  (w2 : Vec Ideal S10x10 .f32) (b2 : Vec Ideal S1x10 .f32)

/-- The block of results: `ginRow` of every row of the sum of the two loaded blocks. -/
theorem pay4_eq : k2_pay4 (F := Ideal) x0 x1 w1 b1 w2 b2 = mapRows (ginRow w1 b1 w2 b2) (fun i => x0 i + x1 i) := by
  unfold k2_pay4
  refine (ginBody_rows dot_S5000x5_S5x10_S5000x10_1_0_0_1_n_n ⟨rfl, rfl, rfl, rfl, rfl, rfl⟩ dot_S5000x10_S10x10_S5000x10_1_0_0_1_n_n ⟨rfl, rfl, rfl, rfl, rfl, rfl⟩ _ w1 b1 w2 b2 _ _ _ _ _).trans ?_
  simp only [shapeCast_self]
  rfl

/-- The running row of sums after a block, at a column. -/
theorem pay5_apply (acc : Vec Ideal S1x10 .f32) (u : Fin 1) (q : Fin 10) :
    k2_pay5 (F := Ideal) x0 x1 w1 b1 w2 b2 acc (ix2 u q) = acc (ix2 u q) + ∑ n : Fin 5000, k2_pay4 (F := Ideal) x0 x1 w1 b1 w2 b2 (ix2 n q) := by
  unfold k2_pay5
  exact colAcc_apply (N := 5000) (C := 10) (k2_pay4 (F := Ideal) x0 x1 w1 b1 w2 b2) acc _ _ _ _ _ u q

/-- The running row of sums of squares after a block, at a column. -/
theorem pay1_apply (Y : FVec Ideal S5000x10 .f32) (acc : Vec Ideal S1x10 .f32) (u : Fin 1) (q : Fin 10) :
    k2_pay1 (F := Ideal) Y acc (ix2 u q) = acc (ix2 u q) + ∑ n : Fin 5000, Y (ix2 n q) * Y (ix2 n q) := by
  unfold k2_pay1
  exact colAcc_apply (N := 5000) (C := 10) (mulf Y Y) acc _ _ _ _ _ u q

/-- The running rows start at zero. -/
theorem pay2_apply (j : S1x10.Idx) : k2_pay2 (F := Ideal) j = 0 := Ideal.ofBits_zero_f32
theorem pay3_apply (j : S1x10.Idx) : k2_pay3 (F := Ideal) j = 0 := Ideal.ofBits_zero_f32

end Values

/-! ## One block, read: the results, and what is added to the running rows -/

section Points

theorem ptA6 (c : Dev nD) (i : grid2.Coords) (a1 : Memref sig .tc .vmem S5000x5 .f32) (h1 : a1.IsWhole) (a2 : Memref sig .tc .vmem S5000x5 .f32) (h2 : a2.IsWhole) (a3 : Memref sig .tc .vmem S5x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : cond2_0 i)
    (x0 : Vec Ideal S5000x5 .f32) (x1 : Vec Ideal S5000x5 .f32) (x2 : Vec Ideal S5x10 .f32) (x3 : Vec Ideal S1x10 .f32) (x4 : Vec Ideal S10x10 .f32) (x5 : Vec Ideal S1x10 .f32) :
    out2_A_6 c i a1 h1 a2 h2 a3 h3 a4 h4 a5 h5 a6 h6 a7 h7 a8 h8 a9 h9 hc x0 x1 x2 x3 x4 x5 = mapRows (ginRow x2 x3 x4 x5) (fun i => x0 i + x1 i) := by
  rw [outA6, pay4_eq]

theorem ptB6 (c : Dev nD) (i : grid2.Coords) (a1 : Memref sig .tc .vmem S5000x5 .f32) (h1 : a1.IsWhole) (a2 : Memref sig .tc .vmem S5000x5 .f32) (h2 : a2.IsWhole) (a3 : Memref sig .tc .vmem S5x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : ¬cond2_0 i)
    (x0 : Vec Ideal S5000x5 .f32) (x1 : Vec Ideal S5000x5 .f32) (x2 : Vec Ideal S5x10 .f32) (x3 : Vec Ideal S1x10 .f32) (x4 : Vec Ideal S10x10 .f32) (x5 : Vec Ideal S1x10 .f32) (xo7 : Vec Ideal S1x10 .f32) (xo8 : Vec Ideal S1x10 .f32) :
    out2_B_6 c i a1 h1 a2 h2 a3 h3 a4 h4 a5 h5 a6 h6 a7 h7 a8 h8 a9 h9 hc x0 x1 x2 x3 x4 x5 xo7 xo8 = mapRows (ginRow x2 x3 x4 x5) (fun i => x0 i + x1 i) := by
  rw [outB6, pay4_eq]

theorem ptA7 (c : Dev nD) (i : grid2.Coords) (a1 : Memref sig .tc .vmem S5000x5 .f32) (h1 : a1.IsWhole) (a2 : Memref sig .tc .vmem S5000x5 .f32) (h2 : a2.IsWhole) (a3 : Memref sig .tc .vmem S5x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : cond2_0 i)
    (x0 : Vec Ideal S5000x5 .f32) (x1 : Vec Ideal S5000x5 .f32) (x2 : Vec Ideal S5x10 .f32) (x3 : Vec Ideal S1x10 .f32) (x4 : Vec Ideal S10x10 .f32) (x5 : Vec Ideal S1x10 .f32) (u : Fin 1) (q : Fin 10) :
    out2_A_7 c i a1 h1 a2 h2 a3 h3 a4 h4 a5 h5 a6 h6 a7 h7 a8 h8 a9 h9 hc x0 x1 x2 x3 x4 x5 (ix2 u q) = ∑ n : Fin 5000, mapRows (ginRow x2 x3 x4 x5) (fun i => x0 i + x1 i) (ix2 n q) := by
  rw [outA7, pay5_apply, pay2_apply, zero_add, pay4_eq]

theorem ptB7 (c : Dev nD) (i : grid2.Coords) (a1 : Memref sig .tc .vmem S5000x5 .f32) (h1 : a1.IsWhole) (a2 : Memref sig .tc .vmem S5000x5 .f32) (h2 : a2.IsWhole) (a3 : Memref sig .tc .vmem S5x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : ¬cond2_0 i)
    (x0 : Vec Ideal S5000x5 .f32) (x1 : Vec Ideal S5000x5 .f32) (x2 : Vec Ideal S5x10 .f32) (x3 : Vec Ideal S1x10 .f32) (x4 : Vec Ideal S10x10 .f32) (x5 : Vec Ideal S1x10 .f32) (xo7 : Vec Ideal S1x10 .f32) (xo8 : Vec Ideal S1x10 .f32) (u : Fin 1) (q : Fin 10) :
    out2_B_7 c i a1 h1 a2 h2 a3 h3 a4 h4 a5 h5 a6 h6 a7 h7 a8 h8 a9 h9 hc x0 x1 x2 x3 x4 x5 xo7 xo8 (ix2 u q) = xo7 (ix2 u q) + ∑ n : Fin 5000, mapRows (ginRow x2 x3 x4 x5) (fun i => x0 i + x1 i) (ix2 n q) := by
  rw [outB7, pay5_apply, pay4_eq]

theorem ptA8 (c : Dev nD) (i : grid2.Coords) (a1 : Memref sig .tc .vmem S5000x5 .f32) (h1 : a1.IsWhole) (a2 : Memref sig .tc .vmem S5000x5 .f32) (h2 : a2.IsWhole) (a3 : Memref sig .tc .vmem S5x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : cond2_0 i)
    (x0 : Vec Ideal S5000x5 .f32) (x1 : Vec Ideal S5000x5 .f32) (x2 : Vec Ideal S5x10 .f32) (x3 : Vec Ideal S1x10 .f32) (x4 : Vec Ideal S10x10 .f32) (x5 : Vec Ideal S1x10 .f32) (u : Fin 1) (q : Fin 10) :
    out2_A_8 c i a1 h1 a2 h2 a3 h3 a4 h4 a5 h5 a6 h6 a7 h7 a8 h8 a9 h9 hc x0 x1 x2 x3 x4 x5 (ix2 u q) = ∑ n : Fin 5000, mapRows (ginRow x2 x3 x4 x5) (fun i => x0 i + x1 i) (ix2 n q) * mapRows (ginRow x2 x3 x4 x5) (fun i => x0 i + x1 i) (ix2 n q) := by
  rw [outA8, pay1_apply, pay3_apply, zero_add, pay4_eq]

theorem ptB8 (c : Dev nD) (i : grid2.Coords) (a1 : Memref sig .tc .vmem S5000x5 .f32) (h1 : a1.IsWhole) (a2 : Memref sig .tc .vmem S5000x5 .f32) (h2 : a2.IsWhole) (a3 : Memref sig .tc .vmem S5x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : ¬cond2_0 i)
    (x0 : Vec Ideal S5000x5 .f32) (x1 : Vec Ideal S5000x5 .f32) (x2 : Vec Ideal S5x10 .f32) (x3 : Vec Ideal S1x10 .f32) (x4 : Vec Ideal S10x10 .f32) (x5 : Vec Ideal S1x10 .f32) (xo7 : Vec Ideal S1x10 .f32) (xo8 : Vec Ideal S1x10 .f32) (u : Fin 1) (q : Fin 10) :
    out2_B_8 c i a1 h1 a2 h2 a3 h3 a4 h4 a5 h5 a6 h6 a7 h7 a8 h8 a9 h9 hc x0 x1 x2 x3 x4 x5 xo7 xo8 (ix2 u q) = xo8 (ix2 u q) + ∑ n : Fin 5000, mapRows (ginRow x2 x3 x4 x5) (fun i => x0 i + x1 i) (ix2 n q) * mapRows (ginRow x2 x3 x4 x5) (fun i => x0 i + x1 i) (ix2 n q) := by
  rw [outB8, pay1_apply, pay4_eq]

end Points

/-! ## The blocks are the rows of one array -/

section Blocks

variable (V : (c : Dev nD) → (b : Ref sig .tc) → Buf (Elt Ideal) ((c : Thread nD τ).loc b)) (c : Dev nD)

/-- The layer on all the rows at once. -/
def Y : S500000x10.Idx → EReal :=
  gin (V c main_arg8 : S5x10.Idx → EReal) (V c main_v41 : S1x10.Idx → EReal) (V c main_arg10 : S10x10.Idx → EReal) (V c main_v42 : S1x10.Idx → EReal) (V c main_v30 : S500000x5.Idx → EReal) (V c main_v40 : S500000x5.Idx → EReal)

/-- Row `p` of block `t`. -/
def row (t : Fin cfg2.N) (p : Fin 5000) : Fin 500000 :=
  ⟨5000 * t.val + p.val, by have := lt_of_lt_of_eq t.isLt (show cfg2.N = 100 from N_2); have := p.isLt; omega⟩

/-- The block indices, decided over the hundred points: the two row operands and the block of results move down
    the rows, every other window stays on its one block. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0 :=
  (by decide +kernel : ∀ t : Fin grid2.N, _)

/-- Window 0's block at point `t` is rows `5000 t … 5000 t + 4999` of its array. -/
theorem blk_h (t : Fin cfg2.N) (p : Fin 5000) (k : Fin 5) :
    (iblk2 V c 0 t : S5000x5.Idx → EReal) (ix2 p k) = (V c main_v30 : S500000x5.Idx → EReal) (ix2 (row t p) k) := by
  unfold iblk2
  rw [View.read_apply]
  show (V c main_v30 : S500000x5.Idx → EReal) (((cfg2.win 0).blk t).view.emb (ix2 p k)) = (V c main_v30 : S500000x5.Idx → EReal) (ix2 (row t p) k)
  refine congrArg _ (funext fun a => Fin.ext ?_)
  obtain ⟨e00, e01, e10, e11, e20, e21, e30, e31, e40, e41, e50, e51, e60, e61, e70, e71, e80, e81⟩ := idx_facts t
  match a with
  | ⟨0, _⟩ => show win2_0.index t (0 : Fin 2) * 5000 + 1 * p.val = 5000 * t.val + p.val; rw [e00]; omega
  | ⟨1, _⟩ => show win2_0.index t (1 : Fin 2) * 5 + 1 * k.val = k.val; rw [e01]; omega

/-- Window 1's block at point `t` is rows `5000 t … 5000 t + 4999` of its array. -/
theorem blk_agg (t : Fin cfg2.N) (p : Fin 5000) (k : Fin 5) :
    (iblk2 V c 1 t : S5000x5.Idx → EReal) (ix2 p k) = (V c main_v40 : S500000x5.Idx → EReal) (ix2 (row t p) k) := by
  unfold iblk2
  rw [View.read_apply]
  show (V c main_v40 : S500000x5.Idx → EReal) (((cfg2.win 1).blk t).view.emb (ix2 p k)) = (V c main_v40 : S500000x5.Idx → EReal) (ix2 (row t p) k)
  refine congrArg _ (funext fun a => Fin.ext ?_)
  obtain ⟨e00, e01, e10, e11, e20, e21, e30, e31, e40, e41, e50, e51, e60, e61, e70, e71, e80, e81⟩ := idx_facts t
  match a with
  | ⟨0, _⟩ => show win2_1.index t (0 : Fin 2) * 5000 + 1 * p.val = 5000 * t.val + p.val; rw [e10]; omega
  | ⟨1, _⟩ => show win2_1.index t (1 : Fin 2) * 5 + 1 * k.val = k.val; rw [e11]; omega

/-- Window 2 is one block, the whole array, at every point. -/
theorem blk_w1 (t : Fin cfg2.N) : (iblk2 V c 2 t : S5x10.Idx → EReal) = (V c main_arg8 : S5x10.Idx → EReal) := by
  funext j
  unfold iblk2
  rw [View.read_apply]
  show (V c main_arg8 : S5x10.Idx → EReal) (((cfg2.win 2).blk t).view.emb j) = (V c main_arg8 : S5x10.Idx → EReal) j
  refine congrArg _ (funext fun a => Fin.ext ?_)
  obtain ⟨e00, e01, e10, e11, e20, e21, e30, e31, e40, e41, e50, e51, e60, e61, e70, e71, e80, e81⟩ := idx_facts t
  match a with
  | ⟨0, _⟩ => show win2_2.index t (0 : Fin 2) * 5 + 1 * (j 0).val = (j 0).val; rw [e20]; omega
  | ⟨1, _⟩ => show win2_2.index t (1 : Fin 2) * 10 + 1 * (j 1).val = (j 1).val; rw [e21]; omega

/-- Window 3 is one block, the whole array, at every point. -/
theorem blk_b1 (t : Fin cfg2.N) : (iblk2 V c 3 t : S1x10.Idx → EReal) = (V c main_v41 : S1x10.Idx → EReal) := by
  funext j
  unfold iblk2
  rw [View.read_apply]
  show (V c main_v41 : S1x10.Idx → EReal) (((cfg2.win 3).blk t).view.emb j) = (V c main_v41 : S1x10.Idx → EReal) j
  refine congrArg _ (funext fun a => Fin.ext ?_)
  obtain ⟨e00, e01, e10, e11, e20, e21, e30, e31, e40, e41, e50, e51, e60, e61, e70, e71, e80, e81⟩ := idx_facts t
  match a with
  | ⟨0, _⟩ => show win2_3.index t (0 : Fin 2) * 1 + 1 * (j 0).val = (j 0).val; rw [e30]; omega
  | ⟨1, _⟩ => show win2_3.index t (1 : Fin 2) * 10 + 1 * (j 1).val = (j 1).val; rw [e31]; omega

/-- Window 4 is one block, the whole array, at every point. -/
theorem blk_w2 (t : Fin cfg2.N) : (iblk2 V c 4 t : S10x10.Idx → EReal) = (V c main_arg10 : S10x10.Idx → EReal) := by
  funext j
  unfold iblk2
  rw [View.read_apply]
  show (V c main_arg10 : S10x10.Idx → EReal) (((cfg2.win 4).blk t).view.emb j) = (V c main_arg10 : S10x10.Idx → EReal) j
  refine congrArg _ (funext fun a => Fin.ext ?_)
  obtain ⟨e00, e01, e10, e11, e20, e21, e30, e31, e40, e41, e50, e51, e60, e61, e70, e71, e80, e81⟩ := idx_facts t
  match a with
  | ⟨0, _⟩ => show win2_4.index t (0 : Fin 2) * 10 + 1 * (j 0).val = (j 0).val; rw [e40]; omega
  | ⟨1, _⟩ => show win2_4.index t (1 : Fin 2) * 10 + 1 * (j 1).val = (j 1).val; rw [e41]; omega

/-- Window 5 is one block, the whole array, at every point. -/
theorem blk_b2 (t : Fin cfg2.N) : (iblk2 V c 5 t : S1x10.Idx → EReal) = (V c main_v42 : S1x10.Idx → EReal) := by
  funext j
  unfold iblk2
  rw [View.read_apply]
  show (V c main_v42 : S1x10.Idx → EReal) (((cfg2.win 5).blk t).view.emb j) = (V c main_v42 : S1x10.Idx → EReal) j
  refine congrArg _ (funext fun a => Fin.ext ?_)
  obtain ⟨e00, e01, e10, e11, e20, e21, e30, e31, e40, e41, e50, e51, e60, e61, e70, e71, e80, e81⟩ := idx_facts t
  match a with
  | ⟨0, _⟩ => show win2_5.index t (0 : Fin 2) * 1 + 1 * (j 0).val = (j 0).val; rw [e50]; omega
  | ⟨1, _⟩ => show win2_5.index t (1 : Fin 2) * 10 + 1 * (j 1).val = (j 1).val; rw [e51]; omega

/-- The two row operands as arrays of extended reals, whole and by blocks. -/
abbrev Ah : S500000x5.Idx → EReal := V c main_v30
abbrev Aagg : S500000x5.Idx → EReal := V c main_v40
abbrev B0 (t : Fin cfg2.N) : S5000x5.Idx → EReal := iblk2 V c 0 t
abbrev B1 (t : Fin cfg2.N) : S5000x5.Idx → EReal := iblk2 V c 1 t

/-- A tile of rows through the layer, with the weights read through another name. -/
theorem tile_eq {N T K' H' C' : ℕ} (w1 w1' : (S2 K' H').Idx → EReal) (b1 b1' : (S2 1 H').Idx → EReal)
    (w2 w2' : (S2 H' C').Idx → EReal) (b2 b2' : (S2 1 C').Idx → EReal)
    (hw1 : w1' = w1) (hb1 : b1' = b1) (hw2 : w2' = w2) (hb2 : b2' = b2)
    (A : (S2 N K').Idx → EReal) (X : (S2 T K').Idx → EReal) (o : ℕ) (ho : ∀ p : Fin T, o + p.val < N)
    (hX : ∀ (p : Fin T) (k : Fin K'), X (ix2 p k) = A (ix2 ⟨o + p.val, ho p⟩ k)) (p : Fin T) (q : Fin C') :
    mapRows (ginRow w1' b1' w2' b2') X (ix2 p q) = mapRows (ginRow w1 b1 w2 b2) A (ix2 ⟨o + p.val, ho p⟩ q) := by
  subst hw1 hb1 hw2 hb2
  exact mapRows_tile _ A X o ho hX p q

/-- The layer on block `t` is rows `5000 t …` of the layer on all the rows. -/
theorem blockY (t : Fin cfg2.N) (p : Fin 5000) (q : Fin 10) :
    mapRows (ginRow (iblk2 V c 2 t : S5x10.Idx → EReal) (iblk2 V c 3 t : S1x10.Idx → EReal) (iblk2 V c 4 t : S10x10.Idx → EReal) (iblk2 V c 5 t : S1x10.Idx → EReal))
      (fun i => B0 V c t i + B1 V c t i) (ix2 p q) = Y V c (ix2 (row t p) q) :=
  tile_eq (V c main_arg8 : S5x10.Idx → EReal) (iblk2 V c 2 t : S5x10.Idx → EReal) (V c main_v41 : S1x10.Idx → EReal) (iblk2 V c 3 t : S1x10.Idx → EReal)
    (V c main_arg10 : S10x10.Idx → EReal) (iblk2 V c 4 t : S10x10.Idx → EReal) (V c main_v42 : S1x10.Idx → EReal) (iblk2 V c 5 t : S1x10.Idx → EReal)
    (blk_w1 V c t) (blk_b1 V c t) (blk_w2 V c t) (blk_b2 V c t)
    (fun i => Ah V c i + Aagg V c i) (fun i => B0 V c t i + B1 V c t i) (5000 * t.val)
    (fun p' => by have := lt_of_lt_of_eq t.isLt (show cfg2.N = 100 from N_2); have := p'.isLt; omega)
    (fun p' k => congrArg₂ (· + ·) (blk_h V c t p' k) (blk_agg V c t p' k)) p q

/-- An index of the block of results sits at its row of the whole array. -/
theorem emb6 (t : Fin cfg2.N) (j : S5000x10.Idx) : ((cfg2.win 6).blk t).view.emb j = ix2 (row t (j 0)) (j 1) := by
  funext a
  apply Fin.ext
  obtain ⟨e00, e01, e10, e11, e20, e21, e30, e31, e40, e41, e50, e51, e60, e61, e70, e71, e80, e81⟩ := idx_facts t
  match a with
  | ⟨0, _⟩ => show win2_6.index t (0 : Fin 2) * 5000 + 1 * (j 0).val = 5000 * t.val + (j 0).val; rw [e60]; omega
  | ⟨1, _⟩ => show win2_6.index t (1 : Fin 2) * 10 + 1 * (j 1).val = (j 1).val; rw [e61]; omega

/-- What every point leaves in the block of results: its rows of the layer on all the rows. -/
theorem after6 (t : Fin cfg2.N) :
    (outsAt2 V c t.val t.isLt).1 = fun j : S5000x10.Idx => Y V c (ix2 (row t (j 0)) (j 1)) := by
  by_cases h0 : t.val % 100 = 0
  · rw [outsAt2_A V c t h0]
    dsimp only
    refine (ptA6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)).trans ?_
    funext j
    obtain ⟨p, q, rfl⟩ : ∃ (p : Fin 5000) (q : Fin 10), j = ix2 p q := ⟨j 0, j 1, eq_ix2 j⟩
    exact blockY V c t p q
  · rw [outsAt2_B V c t h0]
    dsimp only
    refine (ptB6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun hcnd => h0 ((hcond2_0 t).mp hcnd)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2).trans ?_
    funext j
    obtain ⟨p, q, rfl⟩ : ∃ (p : Fin 5000) (q : Fin 10), j = ix2 p q := ⟨j 0, j 1, eq_ix2 j⟩
    exact blockY V c t p q

/-- What point `t` writes back of the results is block `t` of the layer on all the rows. -/
theorem flushed6_eq (t : Fin cfg2.N) :
    (dat2 V c).flushed 6 t = ((cfg2.win 6).blk t).view.read (Elt Ideal) (Y V c) := by
  show (cfg2.win 6).cut (grid2.coords t) ((dat2 V c).after 6 t) = _
  rw [after2_6, after6 V c t]
  funext j
  rw [View.read_apply]
  exact (congrArg (Y V c) (emb6 t j)).symm

/-- Every row is in some block. -/
theorem cover6 (i : S500000x10.Idx) : ∃ t : Fin cfg2.N, (cfg2.win 6).flush t = true ∧ i ∈ ((cfg2.win 6).blk t).view.set := by
  have hN : cfg2.N = 100 := N_2
  have h0 : (i 0 : Nat) < 500000 := (i 0).isLt
  have h1 : (i 1 : Nat) < 10 := (i 1).isLt
  refine ⟨⟨(i 0 : Nat) / 5000, by omega⟩, flush2_6 _, ?_⟩
  generalize ht : (⟨(i 0 : Nat) / 5000, by omega⟩ : Fin cfg2.N) = t
  have htv : t.val = (i 0 : Nat) / 5000 := by rw [← ht]
  show i ∈ ((View.whole main_v43_0).slice (win2_6.rect t)).set
  rw [View.set_slice_whole, Rect.mem_set_unit]
  intro a
  obtain ⟨e00, e01, e10, e11, e20, e21, e30, e31, e40, e41, e50, e51, e60, e61, e70, e71, e80, e81⟩ := idx_facts t
  match a with
  | ⟨0, _⟩ => show win2_6.index t (0 : Fin 2) * 5000 ≤ (i 0 : Nat) ∧ (i 0 : Nat) < win2_6.index t (0 : Fin 2) * 5000 + 5000
              rw [e60]; omega
  | ⟨1, _⟩ => show win2_6.index t (1 : Fin 2) * 10 ≤ (i 1 : Nat) ∧ (i 1 : Nat) < win2_6.index t (1 : Fin 2) * 10 + 10
              rw [e61]; omega

/-- The array of results after the run is the layer on all the rows. -/
theorem out : (Gen.dat2 (F := Ideal) V c).arrAt 6 cfg2.N
    = Cert.Net.gin (V c main_arg8 : S5x10.Idx → EReal) (V c main_v41 : S1x10.Idx → EReal) (V c main_arg10 : S10x10.Idx → EReal) (V c main_v42 : S1x10.Idx → EReal) (V c main_v30 : S500000x5.Idx → EReal) (V c main_v40 : S500000x5.Idx → EReal) :=
  (dat2 V c).arrAt_eq_of_cover 6 (Y V c) (fun t _ => flushed6_eq V c t) cover6

/-! ## The running rows -/

/-- The part of a sum over all the rows that block `s` contributes. -/
def part (g : Fin 500000 → EReal) (s : ℕ) : EReal :=
  if h : s < 100 then ∑ p : Fin 5000, g ⟨5000 * s + p.val, by have := p.isLt; omega⟩ else 0

theorem part_row (g : Fin 500000 → EReal) (t : Fin cfg2.N) : part g t.val = ∑ p : Fin 5000, g (row t p) :=
  dif_pos (lt_of_lt_of_eq t.isLt (show cfg2.N = 100 from N_2))

/-- The hundred blocks' parts make up the sum over all the rows. -/
theorem sum_parts (g : Fin 500000 → EReal) : ∑ s ∈ Finset.range 100, part g s = ∑ r : Fin 500000, g r := by
  rw [Finset.sum_range]
  have e : ∀ s : Fin 100, part g s.val = ∑ p : Fin 5000, g ⟨5000 * s.val + p.val, by have := s.isLt; have := p.isLt; omega⟩ :=
    fun s => dif_pos s.isLt
  rw [Finset.sum_congr rfl fun s _ => e s]
  rw [← Fintype.sum_prod_type' (fun (s : Fin 100) (p : Fin 5000) => g ⟨5000 * s.val + p.val, by have := s.isLt; have := p.isLt; omega⟩)]
  exact Fintype.sum_equiv (finProdFinEquiv (m := 100) (n := 5000)) _ (fun r : Fin (100 * 5000) => g r)
    fun x => congrArg g (Fin.ext (by show 5000 * x.1.val + x.2.val = x.2.val + 5000 * x.1.val; omega))

/-- The running row of sums after block `n`: the parts of blocks `0 … n`. -/
def accS (n : ℕ) : S1x10.Idx → EReal := fun j => ∑ s ∈ Finset.range (n + 1), part (fun r => Y V c (ix2 r (j 1))) s

/-- The running row of sums of squares after block `n`. -/
def accQ (n : ℕ) : S1x10.Idx → EReal :=
  fun j => ∑ s ∈ Finset.range (n + 1), part (fun r => Y V c (ix2 r (j 1)) * Y V c (ix2 r (j 1))) s

/-- What the two running rows hold after each point, by induction on the point. -/
theorem running : ∀ (n : ℕ) (h : n < cfg2.N),
    (outsAt2 V c n h).2.1 = accS V c n ∧ (outsAt2 V c n h).2.2 = accQ V c n
  | 0, h => by
    rw [outsAt2_A V c ⟨0, h⟩ rfl]
    dsimp only
    constructor
    · funext j
      obtain ⟨u, q, rfl⟩ : ∃ (u : Fin 1) (q : Fin 10), j = ix2 u q := ⟨j 0, j 1, eq_ix2 j⟩
      refine (ptA7 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) (ms2_8 ⟨0, h⟩) (hs2_8 ⟨0, h⟩) ((hcond2_0 ⟨0, h⟩).mpr (Nat.zero_mod _)) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) u q).trans ?_
      show _ = ∑ s ∈ Finset.range 1, part (fun r => Y V c (ix2 r q)) s
      rw [Finset.sum_range_one, part_row _ ⟨0, h⟩]
      exact Finset.sum_congr rfl fun p _ => blockY V c ⟨0, h⟩ p q
    · funext j
      obtain ⟨u, q, rfl⟩ : ∃ (u : Fin 1) (q : Fin 10), j = ix2 u q := ⟨j 0, j 1, eq_ix2 j⟩
      refine (ptA8 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) (ms2_8 ⟨0, h⟩) (hs2_8 ⟨0, h⟩) ((hcond2_0 ⟨0, h⟩).mpr (Nat.zero_mod _)) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) u q).trans ?_
      show _ = ∑ s ∈ Finset.range 1, part (fun r => Y V c (ix2 r q) * Y V c (ix2 r q)) s
      rw [Finset.sum_range_one, part_row _ ⟨0, h⟩]
      exact Finset.sum_congr rfl fun p _ => congrArg₂ (· * ·) (blockY V c ⟨0, h⟩ p q) (blockY V c ⟨0, h⟩ p q)
  | n + 1, h => by
    have hN : cfg2.N = 100 := N_2
    have hB : ¬(⟨n + 1, h⟩ : Fin cfg2.N).val % 100 = 0 := by dsimp only; omega
    obtain ⟨ih1, ih2⟩ := running n (Nat.lt_of_succ_lt h)
    rw [outsAt2_B V c ⟨n + 1, h⟩ hB]
    dsimp only
    constructor
    · funext j
      obtain ⟨u, q, rfl⟩ : ∃ (u : Fin 1) (q : Fin 10), j = ix2 u q := ⟨j 0, j 1, eq_ix2 j⟩
      refine (ptB7 c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) (ms2_7 (⟨n + 1, h⟩ : Fin cfg2.N)) (hs2_7 (⟨n + 1, h⟩ : Fin cfg2.N)) (ms2_8 (⟨n + 1, h⟩ : Fin cfg2.N)) (hs2_8 (⟨n + 1, h⟩ : Fin cfg2.N)) (fun hcnd => hB ((hcond2_0 (⟨n + 1, h⟩ : Fin cfg2.N)).mp hcnd)) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (iblk2 V c 5 (⟨n + 1, h⟩ : Fin cfg2.N)) (outsAt2 V c ((⟨n + 1, h⟩ : Fin cfg2.N).val - 1) (Nat.lt_of_le_of_lt (Nat.sub_le _ _) (⟨n + 1, h⟩ : Fin cfg2.N).isLt)).2.1 (outsAt2 V c ((⟨n + 1, h⟩ : Fin cfg2.N).val - 1) (Nat.lt_of_le_of_lt (Nat.sub_le _ _) (⟨n + 1, h⟩ : Fin cfg2.N).isLt)).2.2 u q).trans ?_
      show (outsAt2 V c n (Nat.lt_of_succ_lt h)).2.1 (ix2 u q) + _ = ∑ s ∈ Finset.range (n + 1 + 1), part (fun r => Y V c (ix2 r q)) s
      rw [ih1, Finset.sum_range_succ _ (n + 1), part_row _ ⟨n + 1, h⟩]
      exact congrArg (fun s => accS V c n (ix2 u q) + s) (Finset.sum_congr rfl fun p _ => blockY V c ⟨n + 1, h⟩ p q)
    · funext j
      obtain ⟨u, q, rfl⟩ : ∃ (u : Fin 1) (q : Fin 10), j = ix2 u q := ⟨j 0, j 1, eq_ix2 j⟩
      refine (ptB8 c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) (ms2_7 (⟨n + 1, h⟩ : Fin cfg2.N)) (hs2_7 (⟨n + 1, h⟩ : Fin cfg2.N)) (ms2_8 (⟨n + 1, h⟩ : Fin cfg2.N)) (hs2_8 (⟨n + 1, h⟩ : Fin cfg2.N)) (fun hcnd => hB ((hcond2_0 (⟨n + 1, h⟩ : Fin cfg2.N)).mp hcnd)) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (iblk2 V c 5 (⟨n + 1, h⟩ : Fin cfg2.N)) (outsAt2 V c ((⟨n + 1, h⟩ : Fin cfg2.N).val - 1) (Nat.lt_of_le_of_lt (Nat.sub_le _ _) (⟨n + 1, h⟩ : Fin cfg2.N).isLt)).2.1 (outsAt2 V c ((⟨n + 1, h⟩ : Fin cfg2.N).val - 1) (Nat.lt_of_le_of_lt (Nat.sub_le _ _) (⟨n + 1, h⟩ : Fin cfg2.N).isLt)).2.2 u q).trans ?_
      show (outsAt2 V c n (Nat.lt_of_succ_lt h)).2.2 (ix2 u q) + _ = ∑ s ∈ Finset.range (n + 1 + 1), part (fun r => Y V c (ix2 r q) * Y V c (ix2 r q)) s
      rw [ih2, Finset.sum_range_succ _ (n + 1), part_row _ ⟨n + 1, h⟩]
      exact congrArg (fun s => accQ V c n (ix2 u q) + s) (Finset.sum_congr rfl fun p _ => congrArg₂ (· * ·) (blockY V c ⟨n + 1, h⟩ p q) (blockY V c ⟨n + 1, h⟩ p q))

/-- The one block of a running row's window is the whole row. -/
theorem emb7 (t : Fin cfg2.N) (j : S1x10.Idx) : ((cfg2.win 7).blk t).view.emb j = j := by
  funext a
  apply Fin.ext
  obtain ⟨e00, e01, e10, e11, e20, e21, e30, e31, e40, e41, e50, e51, e60, e61, e70, e71, e80, e81⟩ := idx_facts t
  match a with
  | ⟨0, _⟩ => show win2_7.index t (0 : Fin 2) * 1 + 1 * (j 0).val = (j 0).val; rw [e70]; omega
  | ⟨1, _⟩ => show win2_7.index t (1 : Fin 2) * 10 + 1 * (j 1).val = (j 1).val; rw [e71]; omega

theorem emb8 (t : Fin cfg2.N) (j : S1x10.Idx) : ((cfg2.win 8).blk t).view.emb j = j := by
  funext a
  apply Fin.ext
  obtain ⟨e00, e01, e10, e11, e20, e21, e30, e31, e40, e41, e50, e51, e60, e61, e70, e71, e80, e81⟩ := idx_facts t
  match a with
  | ⟨0, _⟩ => show win2_8.index t (0 : Fin 2) * 1 + 1 * (j 0).val = (j 0).val; rw [e80]; omega
  | ⟨1, _⟩ => show win2_8.index t (1 : Fin 2) * 10 + 1 * (j 1).val = (j 1).val; rw [e81]; omega

/-- The last point, the only one that writes the running rows back, writes the column sums of the whole array. -/
theorem flushed7_eq (t : Fin cfg2.N) (hf : (cfg2.win 7).flush t = true) :
    (dat2 V c).flushed 7 t = ((cfg2.win 7).blk t).view.read (Elt Ideal) (sumRow (Y V c)) := by
  have hN : cfg2.N = 100 := N_2
  have h99 : t.val = 99 := by have := (flush2_7 t).mp hf; have := t.isLt; omega
  show (cfg2.win 7).cut (grid2.coords t) ((dat2 V c).after 7 t) = _
  rw [after2_7, (running V c t.val t.isLt).1]
  have key : ∀ X G : S1x10.Idx → EReal, (∀ j, X j = G j) →
      (cfg2.win 7).cut (grid2.coords t) X = ((cfg2.win 7).blk t).view.read (Elt Ideal) G := by
    intro X G hXG
    funext j
    rw [View.read_apply]
    exact (hXG _).trans (congrArg G (emb7 t j).symm)
  refine key (accS V c t.val) (sumRow (Y V c)) fun j => ?_
  rw [h99]
  exact sum_parts (fun r => Y V c (ix2 r (j 1)))

theorem flushed8_eq (t : Fin cfg2.N) (hf : (cfg2.win 8).flush t = true) :
    (dat2 V c).flushed 8 t = ((cfg2.win 8).blk t).view.read (Elt Ideal) (sumSqRow (Y V c)) := by
  have hN : cfg2.N = 100 := N_2
  have h99 : t.val = 99 := by have := (flush2_8 t).mp hf; have := t.isLt; omega
  show (cfg2.win 8).cut (grid2.coords t) ((dat2 V c).after 8 t) = _
  rw [after2_8, (running V c t.val t.isLt).2]
  have key : ∀ X G : S1x10.Idx → EReal, (∀ j, X j = G j) →
      (cfg2.win 8).cut (grid2.coords t) X = ((cfg2.win 8).blk t).view.read (Elt Ideal) G := by
    intro X G hXG
    funext j
    rw [View.read_apply]
    exact (hXG _).trans (congrArg G (emb8 t j).symm)
  refine key (accQ V c t.val) (sumSqRow (Y V c)) fun j => ?_
  rw [h99]
  exact sum_parts (fun r => Y V c (ix2 r (j 1)) * Y V c (ix2 r (j 1)))

/-- The last point's block covers a running row. -/
theorem cover7 (i : S1x10.Idx) : ∃ t : Fin cfg2.N, (cfg2.win 7).flush t = true ∧ i ∈ ((cfg2.win 7).blk t).view.set := by
  have hN : cfg2.N = 100 := N_2
  have h0 : (i 0 : Nat) < 1 := (i 0).isLt
  have h1 : (i 1 : Nat) < 10 := (i 1).isLt
  refine ⟨⟨99, by omega⟩, (flush2_7 _).mpr rfl, ?_⟩
  generalize (⟨99, by omega⟩ : Fin cfg2.N) = t
  show i ∈ ((View.whole main_v43_1).slice (win2_7.rect t)).set
  rw [View.set_slice_whole, Rect.mem_set_unit]
  intro a
  obtain ⟨e00, e01, e10, e11, e20, e21, e30, e31, e40, e41, e50, e51, e60, e61, e70, e71, e80, e81⟩ := idx_facts t
  match a with
  | ⟨0, _⟩ => show win2_7.index t (0 : Fin 2) * 1 ≤ (i 0 : Nat) ∧ (i 0 : Nat) < win2_7.index t (0 : Fin 2) * 1 + 1
              rw [e70]; omega
  | ⟨1, _⟩ => show win2_7.index t (1 : Fin 2) * 10 ≤ (i 1 : Nat) ∧ (i 1 : Nat) < win2_7.index t (1 : Fin 2) * 10 + 10
              rw [e71]; omega

theorem cover8 (i : S1x10.Idx) : ∃ t : Fin cfg2.N, (cfg2.win 8).flush t = true ∧ i ∈ ((cfg2.win 8).blk t).view.set := by
  have hN : cfg2.N = 100 := N_2
  have h0 : (i 0 : Nat) < 1 := (i 0).isLt
  have h1 : (i 1 : Nat) < 10 := (i 1).isLt
  refine ⟨⟨99, by omega⟩, (flush2_8 _).mpr rfl, ?_⟩
  generalize (⟨99, by omega⟩ : Fin cfg2.N) = t
  show i ∈ ((View.whole main_v43_2).slice (win2_8.rect t)).set
  rw [View.set_slice_whole, Rect.mem_set_unit]
  intro a
  obtain ⟨e00, e01, e10, e11, e20, e21, e30, e31, e40, e41, e50, e51, e60, e61, e70, e71, e80, e81⟩ := idx_facts t
  match a with
  | ⟨0, _⟩ => show win2_8.index t (0 : Fin 2) * 1 ≤ (i 0 : Nat) ∧ (i 0 : Nat) < win2_8.index t (0 : Fin 2) * 1 + 1
              rw [e80]; omega
  | ⟨1, _⟩ => show win2_8.index t (1 : Fin 2) * 10 ≤ (i 1 : Nat) ∧ (i 1 : Nat) < win2_8.index t (1 : Fin 2) * 10 + 10
              rw [e81]; omega

/-- The row of column sums after the run. -/
theorem sum : (Gen.dat2 (F := Ideal) V c).arrAt 7 cfg2.N
    = Cert.Net.sumRow (Cert.Net.gin (V c main_arg8 : S5x10.Idx → EReal) (V c main_v41 : S1x10.Idx → EReal) (V c main_arg10 : S10x10.Idx → EReal) (V c main_v42 : S1x10.Idx → EReal) (V c main_v30 : S500000x5.Idx → EReal) (V c main_v40 : S500000x5.Idx → EReal)) :=
  (dat2 V c).arrAt_eq_of_cover 7 (sumRow (Y V c)) (flushed7_eq V c) cover7

/-- The row of column sums of squares after the run. -/
theorem sumsq : (Gen.dat2 (F := Ideal) V c).arrAt 8 cfg2.N
    = Cert.Net.sumSqRow (Cert.Net.gin (V c main_arg8 : S5x10.Idx → EReal) (V c main_v41 : S1x10.Idx → EReal) (V c main_arg10 : S10x10.Idx → EReal) (V c main_v42 : S1x10.Idx → EReal) (V c main_v30 : S500000x5.Idx → EReal) (V c main_v40 : S500000x5.Idx → EReal)) :=
  (dat2 V c).arrAt_eq_of_cover 8 (sumSqRow (Y V c)) (flushed8_eq V c) cover8

end Blocks

end Cert.KernelIdeal.Gin2

end
-- ==== Proof.Bn3.lean ====
import proofs.«132165_j27702539059447_2_alg».proof.Proof.Gen.KernelIdeal.Frame
import proofs.«132165_j27702539059447_2_alg».proof.Proof.Net
import Idealize.ShloMosaic.Lib.Pipeline.Value

/-!
# The second normalisation's result, as one array

The array has 500000 rows of 10 entries and is produced in 100 blocks of 5000 consecutive rows. Block `t` is
computed from rows `5000 t … 5000 t + 4999` of the operand and from four one-row matrices (the mean, the factor, the
gain and the shift), which every block reads whole. At the entry `(p, q)` of a block the result is
`(x (p, q) - mean q) · factor q · gain q + shift q`: it depends on the operand only through the entry in the same
place. So block `t` of the result is the restriction to those rows of one function of the whole operand, and the 100
blocks fill the array: row `r` lies in block `r / 5000`.
-/

noncomputable section

namespace Cert.KernelIdeal.Bn3

open Cert.KernelIdeal Cert.KernelIdeal.Gen Idealize.ShloMosaic Idealize.ShloMosaic.TcCoe Idealize.SL.Sem
open Idealize.ShloMosaic.Pipeline (Dat)
open Idealize.ShloMosaic.ValueIdx Cert.Rows

variable (V : (c : Dev nD) → (b : Ref sig .tc) → Buf (Elt Ideal) ((c : Thread nD τ).loc b))

/-- Every access of the body starts at the origin of its buffer. -/
theorem zero_offsets : (![0, 0] : Fin 2 → Nat) = fun _ => 0 := funext fun a => by fin_cases a <;> rfl

/-- The affine map at the entry `(n, q)`. -/
theorem bnApply_entry {N C : ℕ} (x : (S2 N C).Idx → EReal) (mu inv g be : (S2 1 C).Idx → EReal) (n : Fin N) (q : Fin C) :
    Cert.Net.bnApply x mu inv g be (ix2 n q)
      = (x (ix2 n q) - mu (ix2 (0 : Fin 1) q)) * inv (ix2 (0 : Fin 1) q) * g (ix2 (0 : Fin 1) q) + be (ix2 (0 : Fin 1) q) := rfl

/-- The body on one block: the affine map of the normalisation, entry by entry. -/
theorem body_eq (x : Vec Ideal S5000x10 .f32) (mu inv g be : Vec Ideal S1x10 .f32) :
    k3_pay1 x mu inv g be = Cert.Net.bnApply x mu inv g be := by
  funext i
  obtain ⟨p, q, rfl⟩ : ∃ (p : Fin 5000) (q : Fin 10), i = ix2 p q := ⟨i 0, i 1, eq_ix2 i⟩
  unfold k3_pay1
  simp only [shapeCast_self]
  rw [addf_apply, mulf_apply, mulf_apply, subf_apply, broadcastTo_1b_ab_apply, broadcastTo_1b_ab_apply,
    broadcastTo_1b_ab_apply, broadcastTo_1b_ab_apply]
  rfl

/-- Where each block sits at point `t`: the operand's and the result's blocks are the `t`-th block of rows, the four
    one-row matrices are read whole. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The operand's block at point `t` is rows `5000 t + p` of the operand. -/
theorem x_block (c : Dev nD) (t : Fin cfg3.N) (p : Fin 5000) (q : Fin 10) (h : t.val * 5000 + p.val < 500000) :
    (iblk3 V c 0 t : Vec Ideal S5000x10 .f32) (ix2 p q) = (V c main_v43_0 : S500000x10.Idx → EReal) (ix2 ⟨t.val * 5000 + p.val, h⟩ q) := by
  obtain ⟨e00, e01, -⟩ := index_facts t
  show V c main_v43_0 (((cfg3.win 0).blk t).view.emb (ix2 p q)) = V c main_v43_0 (ix2 ⟨t.val * 5000 + p.val, h⟩ q)
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 10 + 1 * q.val = q.val; omega

/-- The mean's block is the mean. -/
theorem mu_block (c : Dev nD) (t : Fin cfg3.N) (q : Fin 10) :
    (iblk3 V c 1 t : Vec Ideal S1x10 .f32) (ix2 (0 : Fin 1) q) = (V c main_v45 : S1x10.Idx → EReal) (ix2 (0 : Fin 1) q) := by
  obtain ⟨-, -, e0, e1, -⟩ := index_facts t
  show V c main_v45 (((cfg3.win 1).blk t).view.emb (ix2 (0 : Fin 1) q)) = V c main_v45 (ix2 (0 : Fin 1) q)
  refine congrArg _ (funext fun a => Fin.ext ?_)
  match a with
  | ⟨0, _⟩ => show win3_1.index t (0 : Fin 2) * 1 + 1 * 0 = 0; omega
  | ⟨1, _⟩ => show win3_1.index t (1 : Fin 2) * 10 + 1 * q.val = q.val; omega

/-- The factor's block is the factor. -/
theorem inv_block (c : Dev nD) (t : Fin cfg3.N) (q : Fin 10) :
    (iblk3 V c 2 t : Vec Ideal S1x10 .f32) (ix2 (0 : Fin 1) q) = (V c main_v54 : S1x10.Idx → EReal) (ix2 (0 : Fin 1) q) := by
  obtain ⟨-, -, -, -, e0, e1, -⟩ := index_facts t
  show V c main_v54 (((cfg3.win 2).blk t).view.emb (ix2 (0 : Fin 1) q)) = V c main_v54 (ix2 (0 : Fin 1) q)
  refine congrArg _ (funext fun a => Fin.ext ?_)
  match a with
  | ⟨0, _⟩ => show win3_2.index t (0 : Fin 2) * 1 + 1 * 0 = 0; omega
  | ⟨1, _⟩ => show win3_2.index t (1 : Fin 2) * 10 + 1 * q.val = q.val; omega

/-- The gain's block is the gain. -/
theorem g_block (c : Dev nD) (t : Fin cfg3.N) (q : Fin 10) :
    (iblk3 V c 3 t : Vec Ideal S1x10 .f32) (ix2 (0 : Fin 1) q) = (V c main_v55 : S1x10.Idx → EReal) (ix2 (0 : Fin 1) q) := by
  obtain ⟨-, -, -, -, -, -, e0, e1, -⟩ := index_facts t
  show V c main_v55 (((cfg3.win 3).blk t).view.emb (ix2 (0 : Fin 1) q)) = V c main_v55 (ix2 (0 : Fin 1) q)
  refine congrArg _ (funext fun a => Fin.ext ?_)
  match a with
  | ⟨0, _⟩ => show win3_3.index t (0 : Fin 2) * 1 + 1 * 0 = 0; omega
  | ⟨1, _⟩ => show win3_3.index t (1 : Fin 2) * 10 + 1 * q.val = q.val; omega

/-- The shift's block is the shift. -/
theorem be_block (c : Dev nD) (t : Fin cfg3.N) (q : Fin 10) :
    (iblk3 V c 4 t : Vec Ideal S1x10 .f32) (ix2 (0 : Fin 1) q) = (V c main_v56 : S1x10.Idx → EReal) (ix2 (0 : Fin 1) q) := by
  obtain ⟨-, -, -, -, -, -, -, -, e0, e1, -⟩ := index_facts t
  show V c main_v56 (((cfg3.win 4).blk t).view.emb (ix2 (0 : Fin 1) q)) = V c main_v56 (ix2 (0 : Fin 1) q)
  refine congrArg _ (funext fun a => Fin.ext ?_)
  match a with
  | ⟨0, _⟩ => show win3_4.index t (0 : Fin 2) * 1 + 1 * 0 = 0; omega
  | ⟨1, _⟩ => show win3_4.index t (1 : Fin 2) * 10 + 1 * q.val = q.val; omega

/-- What point `t` writes back is block `t` of the normalisation of the whole operand. -/
theorem flushed_eq (c : Dev nD) (t : Fin cfg3.N) :
    (dat3 V c).flushed 5 t = ((cfg3.win 5).blk t).view.read (Elt Ideal)
      (Cert.Net.bnApply (V c main_v43_0) (V c main_v45) (V c main_v54) (V c main_v55) (V c main_v56)) := by
  show (cfg3.win 5).cut (grid3.coords t) ((dat3 V c).after 5 t) = _
  rw [after3_5]
  unfold out3_5
  rw [View.canon_unit_zero zero_offsets]
  simp only [View.ld_unit_zero (S := S5000x10) zero_offsets, View.ld_unit_zero (S := S1x10) zero_offsets]
  rw [body_eq]
  obtain ⟨-, -, -, -, -, -, -, -, -, -, e50, e51⟩ := index_facts t
  have hN : t.val < 100 := lt_of_lt_of_eq t.isLt N_3
  funext j
  obtain ⟨p, q, rfl⟩ : ∃ (p : Fin 5000) (q : Fin 10), j = ix2 p q := ⟨j 0, j 1, eq_ix2 j⟩
  have hp : t.val * 5000 + p.val < 500000 := by have := p.isLt; omega
  have hemb : ((cfg3.win 5).blk t).view.emb (ix2 p q) = (ix2 (⟨t.val * 5000 + p.val, hp⟩ : Fin 500000) q : S500000x10.Idx) :=
    funext fun a => Fin.ext (by
      match a with
      | ⟨0, _⟩ => show win3_5.index t (0 : Fin 2) * 5000 + 1 * p.val = t.val * 5000 + p.val; omega
      | ⟨1, _⟩ => show win3_5.index t (1 : Fin 2) * 10 + 1 * q.val = q.val; omega)
  show Cert.Net.bnApply (iblk3 V c 0 t) (iblk3 V c 1 t) (iblk3 V c 2 t) (iblk3 V c 3 t) (iblk3 V c 4 t) (ix2 p q)
    = Cert.Net.bnApply (V c main_v43_0) (V c main_v45) (V c main_v54) (V c main_v55) (V c main_v56) (((cfg3.win 5).blk t).view.emb (ix2 p q))
  rw [hemb]
  refine (bnApply_entry (iblk3 V c 0 t) (iblk3 V c 1 t) (iblk3 V c 2 t) (iblk3 V c 3 t) (iblk3 V c 4 t) p q).trans ?_
  refine Eq.trans ?_ (bnApply_entry (V c main_v43_0) (V c main_v45) (V c main_v54) (V c main_v55) (V c main_v56) ⟨t.val * 5000 + p.val, hp⟩ q).symm
  rw [x_block V c t p q hp, mu_block, inv_block, g_block, be_block]

/-- An entry of the array lies in point `t`'s block when each coordinate is in the block's range on its axis. -/
theorem mem_block (t : Fin cfg3.N) (i : S500000x10.Idx) :
    i ∈ ((cfg3.win 5).blk t).view.set ↔ ∀ a : Fin 2, win3_5.index t a * S5000x10.size a ≤ (i a).val
      ∧ (i a).val < win3_5.index t a * S5000x10.size a + S5000x10.size a := by
  show i ∈ ((View.whole main_v57).slice (win3_5.rect t)).set ↔ _
  rw [View.set_slice_whole, Rect.mem_set_unit]
  exact Iff.rfl

/-- Every entry lies in some block: row `r` in block `r / 5000`. -/
theorem covered (i : S500000x10.Idx) :
    ∃ t : Fin cfg3.N, (cfg3.win 5).flush t = true ∧ i ∈ ((cfg3.win 5).blk t).view.set := by
  have hi0 : (i 0).val < 500000 := (i 0).isLt
  have hi1 : (i 1).val < 10 := (i 1).isLt
  have hN : cfg3.N = 100 := N_3
  have ht : (i 0).val / 5000 < cfg3.N := by rw [hN]; omega
  obtain ⟨-, -, -, -, -, -, -, -, -, -, e50, e51⟩ := index_facts ⟨(i 0).val / 5000, ht⟩
  refine ⟨⟨(i 0).val / 5000, ht⟩, flush3_5 _, ?_⟩
  rw [mem_block]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, ht⟩ (1 : Fin 2) * 10 ≤ (i 1).val
      ∧ (i 1).val < win3_5.index ⟨(i 0).val / 5000, ht⟩ (1 : Fin 2) * 10 + 10
    rw [e51]; omega

/-- The array after the run: the normalisation's affine map of the whole operand, entry by entry. -/
theorem out (c : Dev nD) : (Gen.dat3 (F := Ideal) V c).arrAt 5 cfg3.N
    = Cert.Net.bnApply (V c main_v43_0) (V c main_v45) (V c main_v54) (V c main_v55) (V c main_v56) :=
  (dat3 V c).arrAt_eq_of_cover 5 _ (fun t _ => flushed_eq V c t) (covered)

end Cert.KernelIdeal.Bn3

end
-- ==== Proof.Chain2.lean ====
import proofs.«132165_j27702539059447_2_alg».proof.Proof.Gen.KernelIdeal.Frame
import proofs.«132165_j27702539059447_2_alg».proof.Proof.ReadP
import proofs.«132165_j27702539059447_2_alg».proof.Proof.Carry
import proofs.«132165_j27702539059447_2_alg».proof.Proof.NetHost
import proofs.«132165_j27702539059447_2_alg».proof.Proof.Gin2
import proofs.«132165_j27702539059447_2_alg».proof.Proof.Bn3
import proofs.«132165_j27702539059447_2_alg».proof.Proof.RefNet
import proofs.«132165_j27702539059447_2_alg».proof.Proof.NetLaws

/-!
The second layer of the kernel program, from the first layer's result: the same steps as the first layer, at widths 5, 10, 10.
-/

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)
open Cert.ReferenceIdeal.Read (val_main_v1 val_main_v3 val_main_v13 val_main_v24 val_main_v49 val_main_v59 val_main_v70 val_main_v95 val_main_v105 val_main_v116 val_main_v141 val_main_v154 val_main_v168)

variable (m : (ℓ : Loc nD τ sig) → Buf (Elt Ideal) ℓ) (ρ : Dev nD → PrngReg)

/-! ## The first kernel's operands -/

theorem L2_v1 (c : Dev nD) : (W1 m ρ c (Proc.devRef .tc main_v1) : S8000000.Idx → BitVec 32) = val_main_v1 (F := Ideal) (m ((c : Thread nD τ).loc main_arg1)) := by
  show StableHlo.after hostOps0 (W0 m ρ c) (Proc.devRef .tc main_v1) = _
  after_results <;> rfl

theorem L2_v3 (c : Dev nD) : (W1 m ρ c (Proc.devRef .tc main_v3) : S8000000.Idx → BitVec 32) = val_main_v3 (F := Ideal) (m ((c : Thread nD τ).loc main_arg1)) := by
  show StableHlo.after hostOps0 (W0 m ρ c) (Proc.devRef .tc main_v3) = _
  after_results <;> rfl

theorem V5_agg (c : Dev nD)
    (hprev : (W4 m ρ c (Proc.devRef .tc main_v30) : S500000x5.Idx → EReal) = val_main_v49 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17))) :
    (V5 m ρ c main_v40 : S500000x5.Idx → EReal) = val_main_v59 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)) := by
  show StableHlo.after hostOps2 (W4 m ρ c) (Proc.devRef .tc main_v40) = _
  after_results_simp
  rw [hprev, W4_main_v1 m ρ c, W4_main_v3 m ρ c, L2_v1 m ρ c, L2_v3 m ρ c]
  rfl

theorem V5_hin (c : Dev nD)
    (hprev : (W4 m ρ c (Proc.devRef .tc main_v30) : S500000x5.Idx → EReal) = val_main_v49 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17))) :
    (V5 m ρ c main_v30 : S500000x5.Idx → EReal) = val_main_v49 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)) :=
  (W5_main_v30 m ρ c).trans hprev

theorem V5_b1 (c : Dev nD) :
    (V5 m ρ c main_v41 : S1x10.Idx → EReal) = shapeCast S1x10 (m ((c : Thread nD τ).loc main_arg9)) shapeCasts_S10_S1x10 := by
  show StableHlo.after hostOps2 (W4 m ρ c) (Proc.devRef .tc main_v41) = _
  after_results
  rw [W4_main_arg9 m ρ c]
  rfl

theorem V5_b2 (c : Dev nD) :
    (V5 m ρ c main_v42 : S1x10.Idx → EReal) = shapeCast S1x10 (m ((c : Thread nD τ).loc main_arg11)) shapeCasts_S10_S1x10 := by
  show StableHlo.after hostOps2 (W4 m ρ c) (Proc.devRef .tc main_v42) = _
  after_results
  rw [W4_main_arg11 m ρ c]
  rfl

/-! ## What the first kernel leaves -/

theorem gin2_eq (c : Dev nD)
    (hprev : (W4 m ρ c (Proc.devRef .tc main_v30) : S500000x5.Idx → EReal) = val_main_v49 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17))) :
    Cert.Net.gin (V5 m ρ c main_arg8 : S5x10.Idx → EReal) (V5 m ρ c main_v41) (V5 m ρ c main_arg10) (V5 m ρ c main_v42) (V5 m ρ c main_v30) (V5 m ρ c main_v40)
      = val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) := by
  rw [V5_agg m ρ c hprev, V5_b1 m ρ c, V5_b2 m ρ c, V5_hin m ρ c hprev,
    show (V5 m ρ c main_arg8 : S5x10.Idx → EReal) = (m ((c : Thread nD τ).loc main_arg8)) from W5_main_arg8 m ρ c,
    show (V5 m ρ c main_arg10 : S10x10.Idx → EReal) = (m ((c : Thread nD τ).loc main_arg10)) from W5_main_arg10 m ρ c]
  exact (Cert.ReferenceIdeal.RefNet.y2 _ _ _ _ _ _ _ _ _ _ _ _).symm

theorem W6_y (c : Dev nD)
    (hprev : (W4 m ρ c (Proc.devRef .tc main_v30) : S500000x5.Idx → EReal) = val_main_v49 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17))) :
    (W6 m ρ c (Proc.devRef .tc main_v43_0) : S500000x10.Idx → EReal) = val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) :=
  ((W6_arr m ρ c 6).trans (Cert.KernelIdeal.Gin2.out (V5 m ρ) c)).trans (gin2_eq m ρ c hprev)

theorem W6_s (c : Dev nD)
    (hprev : (W4 m ρ c (Proc.devRef .tc main_v30) : S500000x5.Idx → EReal) = val_main_v49 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17))) :
    (W6 m ρ c (Proc.devRef .tc main_v43_1) : S1x10.Idx → EReal) = Cert.Net.sumRow (val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17))) :=
  ((W6_arr m ρ c 7).trans (Cert.KernelIdeal.Gin2.sum (V5 m ρ) c)).trans (congrArg Cert.Net.sumRow (gin2_eq m ρ c hprev))

theorem W6_ss (c : Dev nD)
    (hprev : (W4 m ρ c (Proc.devRef .tc main_v30) : S500000x5.Idx → EReal) = val_main_v49 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17))) :
    (W6 m ρ c (Proc.devRef .tc main_v43_2) : S1x10.Idx → EReal) = Cert.Net.sumSqRow (val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17))) :=
  ((W6_arr m ρ c 8).trans (Cert.KernelIdeal.Gin2.sumsq (V5 m ρ) c)).trans (congrArg Cert.Net.sumSqRow (gin2_eq m ρ c hprev))

/-! ## The second kernel's operands -/

theorem V7_mean (c : Dev nD) :
    (V7 m ρ c main_v45 : S1x10.Idx → EReal)
      = Host.divf (F := Ideal) (φ := .f32) (W6 m ρ c (Proc.devRef .tc main_v43_1)) (broadcastInDim S1x10 ![] bcast_S_S1x10 (constant (F := Ideal) S_ .f32 0x48F42400#32)) := by
  show StableHlo.after hostOps3 (W6 m ρ c) (Proc.devRef .tc main_v45) = _
  after_results_simp <;> rfl

theorem V7_inv (c : Dev nD) :
    (V7 m ρ c main_v54 : S1x10.Idx → EReal)
      = Host.rsqrt (F := Ideal) (φ := .f32) (addf (maximumf
          (subf (Host.divf (F := Ideal) (φ := .f32) (W6 m ρ c (Proc.devRef .tc main_v43_2)) (broadcastInDim S1x10 ![] bcast_S_S1x10 (constant (F := Ideal) S_ .f32 0x48F42400#32)))
            (mulf (Host.divf (F := Ideal) (φ := .f32) (W6 m ρ c (Proc.devRef .tc main_v43_1)) (broadcastInDim S1x10 ![] bcast_S_S1x10 (constant (F := Ideal) S_ .f32 0x48F42400#32)))
              (Host.divf (F := Ideal) (φ := .f32) (W6 m ρ c (Proc.devRef .tc main_v43_1)) (broadcastInDim S1x10 ![] bcast_S_S1x10 (constant (F := Ideal) S_ .f32 0x48F42400#32)))))
          (broadcastInDim S1x10 ![] bcast_S_S1x10 (constant (F := Ideal) S_ .f32 0x00000000#32)))
          (broadcastInDim S1x10 ![] bcast_S_S1x10 (constant (F := Ideal) S_ .f32 0x3727C5AC#32))) := by
  show StableHlo.after hostOps3 (W6 m ρ c) (Proc.devRef .tc main_v54) = _
  after_results <;> rfl

theorem V7_g (c : Dev nD) :
    (V7 m ρ c main_v55 : S1x10.Idx → EReal) = shapeCast S1x10 (m ((c : Thread nD τ).loc main_arg18)) shapeCasts_S10_S1x10 := by
  show StableHlo.after hostOps3 (W6 m ρ c) (Proc.devRef .tc main_v55) = _
  after_results
  rw [W6_main_arg18 m ρ c]
  rfl

theorem V7_be (c : Dev nD) :
    (V7 m ρ c main_v56 : S1x10.Idx → EReal) = shapeCast S1x10 (m ((c : Thread nD τ).loc main_arg19)) shapeCasts_S10_S1x10 := by
  show StableHlo.after hostOps3 (W6 m ρ c) (Proc.devRef .tc main_v56) = _
  after_results
  rw [W6_main_arg19 m ρ c]
  rfl

/-! ## The layer -/

theorem layer2 (c : Dev nD)
    (hprev : (W4 m ρ c (Proc.devRef .tc main_v30) : S500000x5.Idx → EReal) = val_main_v49 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)))
    (hY : ∀ i, ∃ r : ℝ, val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) i = (r : EReal)) :
    (W8 m ρ c (Proc.devRef .tc main_v57) : S500000x10.Idx → EReal)
      = val_main_v95 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19)) := by
  refine ((W8_arr m ρ c 5).trans (Cert.KernelIdeal.Bn3.out (V7 m ρ) c)).trans ?_
  rw [show (V7 m ρ c main_v43_0 : S500000x10.Idx → EReal) = _ from (W7_main_v43_0 m ρ c).trans (W6_y m ρ c hprev),
    V7_mean m ρ c, V7_inv m ρ c, V7_g m ρ c, V7_be m ρ c, W6_s m ρ c hprev, W6_ss m ρ c hprev]
  refine (Cert.Net.bnApply_host _ _ _ _).trans ?_
  rw [Cert.Net.bnSq_eq_bnDev _ hY]
  exact (Cert.ReferenceIdeal.RefNet.h2 _ _ _ _ _ _ _ _ _ _ _ _ _ _).symm

end Cert.KernelIdeal.Gen

end
-- ==== Proof.Gin4.lean ====
import proofs.«132165_j27702539059447_2_alg».proof.Proof.Gen.KernelIdeal.Frame
import proofs.«132165_j27702539059447_2_alg».proof.Proof.Net
import proofs.«132165_j27702539059447_2_alg».proof.Proof.LibRows
import proofs.«132165_j27702539059447_2_alg».proof.Proof.LibNormRows
import Idealize.ShloMosaic.Lib.Pipeline.Value
import Idealize.ShloMosaic.Lib.Tactic

/-!
# A message-passing layer before its normalisation, with its column sums

The layer's program walks the rows in a hundred blocks of five thousand. At every block it adds the node features
and the neighbour sums, sends each row `r` to `relu (relu (r · w1 + b1) · w2 + b2)`, writes the block of results,
and adds the block's column sums and column sums of squares to two running rows that are set to zero before the
first block. A row of the result only depends on the same row of the operands, so the hundred blocks written are
the rows of one array, the layer applied to all rows at once; and since addition of extended reals is associative
and commutative, the running rows after the last block are the column sums, and the column sums of squares, of
that whole array.
-/

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Gin4

open Cert.KernelIdeal Cert.KernelIdeal.Gen Cert.Rows Cert.Net

/-! ## What one block's body leaves in the three results, for any float values -/

section Pieces

variable {F : FTy → Type} [FloatOps F]

theorem hz : (![0, 0] : Fin 2 → Nat) = fun _ => 0 := funext fun a => by fin_cases a <;> rfl

/-- At the first block the block of results is the two dense stages of the loaded blocks. -/
theorem outA6 (c : Dev nD) (i : grid4.Coords) (a1 : Memref sig .tc .vmem S5000x10 .f32) (h1 : a1.IsWhole) (a2 : Memref sig .tc .vmem S5000x10 .f32) (h2 : a2.IsWhole) (a3 : Memref sig .tc .vmem S10x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : cond4_0 i)
    (x0 : Vec F S5000x10 .f32) (x1 : Vec F S5000x10 .f32) (x2 : Vec F S10x10 .f32) (x3 : Vec F S1x10 .f32) (x4 : Vec F S10x10 .f32) (x5 : Vec F S1x10 .f32) :
    out4_A_6 c i a1 h1 a2 h2 a3 h3 a4 h4 a5 h5 a6 h6 a7 h7 a8 h8 a9 h9 hc x0 x1 x2 x3 x4 x5 = k4_pay4 x0 x1 x2 x3 x4 x5 := by
  unfold out4_A_6
  rw [View.read_writes_eq_canon _ _ _ (cover4_A_6 c i a1 h1 a2 h2 a3 h3 a4 h4 a5 h5 a6 h6 a7 h7 a8 h8 a9 h9 hc x0 x1 x2 x3 x4 x5)]
  unfold kernelRun4_A
  dsimp only
  sl_unfold_words
  rw [View.canon_unit_zero hz]
  simp only [View.readAt_eq_ld, h1.read_unread, h2.read_unread, h3.read_unread, h4.read_unread, h5.read_unread, h6.read_unread, View.ld_unit_zero (S := S5000x10) hz, View.ld_unit_zero (S := S10x10) hz, View.ld_unit_zero (S := S1x10) hz]

/-- At a later block too. -/
theorem outB6 (c : Dev nD) (i : grid4.Coords) (a1 : Memref sig .tc .vmem S5000x10 .f32) (h1 : a1.IsWhole) (a2 : Memref sig .tc .vmem S5000x10 .f32) (h2 : a2.IsWhole) (a3 : Memref sig .tc .vmem S10x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : ¬cond4_0 i)
    (x0 : Vec F S5000x10 .f32) (x1 : Vec F S5000x10 .f32) (x2 : Vec F S10x10 .f32) (x3 : Vec F S1x10 .f32) (x4 : Vec F S10x10 .f32) (x5 : Vec F S1x10 .f32) (xo7 : Vec F S1x10 .f32) (xo8 : Vec F S1x10 .f32) :
    out4_B_6 c i a1 h1 a2 h2 a3 h3 a4 h4 a5 h5 a6 h6 a7 h7 a8 h8 a9 h9 hc x0 x1 x2 x3 x4 x5 xo7 xo8 = k4_pay4 x0 x1 x2 x3 x4 x5 := by
  unfold out4_B_6
  rw [View.read_writes_eq_canon _ _ _ (cover4_B_6 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x10) hz, View.ld_unit_zero (S := S10x10) hz, View.ld_unit_zero (S := S1x10) hz]

/-- At the first block the running row of sums is first set to zero, then the block's column sums are added. -/
theorem outA7 (c : Dev nD) (i : grid4.Coords) (a1 : Memref sig .tc .vmem S5000x10 .f32) (h1 : a1.IsWhole) (a2 : Memref sig .tc .vmem S5000x10 .f32) (h2 : a2.IsWhole) (a3 : Memref sig .tc .vmem S10x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : cond4_0 i)
    (x0 : Vec F S5000x10 .f32) (x1 : Vec F S5000x10 .f32) (x2 : Vec F S10x10 .f32) (x3 : Vec F S1x10 .f32) (x4 : Vec F S10x10 .f32) (x5 : Vec F S1x10 .f32) :
    out4_A_7 c i a1 h1 a2 h2 a3 h3 a4 h4 a5 h5 a6 h6 a7 h7 a8 h8 a9 h9 hc x0 x1 x2 x3 x4 x5 = k4_pay5 x0 x1 x2 x3 x4 x5 (k4_pay2 (F := F)) := by
  unfold out4_A_7
  rw [View.read_writes_eq_canon _ _ _ (cover4_A_7 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S1x10) hz, View.readCov_unit_zero (S := S1x10) _ hz]
  simp only [View.readAt_eq_ld, h1.read_unread, h2.read_unread, h3.read_unread, h4.read_unread, h5.read_unread, h6.read_unread, View.ld_unit_zero (S := S5000x10) hz, View.ld_unit_zero (S := S10x10) hz, View.ld_unit_zero (S := S1x10) hz]

/-- At a later block the block's column sums are added to what the block before left. -/
theorem outB7 (c : Dev nD) (i : grid4.Coords) (a1 : Memref sig .tc .vmem S5000x10 .f32) (h1 : a1.IsWhole) (a2 : Memref sig .tc .vmem S5000x10 .f32) (h2 : a2.IsWhole) (a3 : Memref sig .tc .vmem S10x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : ¬cond4_0 i)
    (x0 : Vec F S5000x10 .f32) (x1 : Vec F S5000x10 .f32) (x2 : Vec F S10x10 .f32) (x3 : Vec F S1x10 .f32) (x4 : Vec F S10x10 .f32) (x5 : Vec F S1x10 .f32) (xo7 : Vec F S1x10 .f32) (xo8 : Vec F S1x10 .f32) :
    out4_B_7 c i a1 h1 a2 h2 a3 h3 a4 h4 a5 h5 a6 h6 a7 h7 a8 h8 a9 h9 hc x0 x1 x2 x3 x4 x5 xo7 xo8 = k4_pay5 x0 x1 x2 x3 x4 x5 xo7 := by
  unfold out4_B_7
  rw [View.read_writes_eq_canon _ _ _ (cover4_B_7 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x10) hz, View.ld_unit_zero (S := S10x10) hz, View.ld_unit_zero (S := S1x10) hz]

/-- The running row of sums of squares, at the first block. -/
theorem outA8 (c : Dev nD) (i : grid4.Coords) (a1 : Memref sig .tc .vmem S5000x10 .f32) (h1 : a1.IsWhole) (a2 : Memref sig .tc .vmem S5000x10 .f32) (h2 : a2.IsWhole) (a3 : Memref sig .tc .vmem S10x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : cond4_0 i)
    (x0 : Vec F S5000x10 .f32) (x1 : Vec F S5000x10 .f32) (x2 : Vec F S10x10 .f32) (x3 : Vec F S1x10 .f32) (x4 : Vec F S10x10 .f32) (x5 : Vec F S1x10 .f32) :
    out4_A_8 c i a1 h1 a2 h2 a3 h3 a4 h4 a5 h5 a6 h6 a7 h7 a8 h8 a9 h9 hc x0 x1 x2 x3 x4 x5 = k4_pay1 (k4_pay4 x0 x1 x2 x3 x4 x5) (k4_pay3 (F := F)) := by
  unfold out4_A_8
  rw [View.read_writes_eq_canon _ _ _ (cover4_A_8 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S1x10) hz, View.readCov_unit_zero (S := S1x10) _ hz]
  simp only [View.readAt_eq_ld, h1.read_unread, h2.read_unread, h3.read_unread, h4.read_unread, h5.read_unread, h6.read_unread, View.ld_unit_zero (S := S5000x10) hz, View.ld_unit_zero (S := S10x10) hz, View.ld_unit_zero (S := S1x10) hz]

/-- The running row of sums of squares, at a later block. -/
theorem outB8 (c : Dev nD) (i : grid4.Coords) (a1 : Memref sig .tc .vmem S5000x10 .f32) (h1 : a1.IsWhole) (a2 : Memref sig .tc .vmem S5000x10 .f32) (h2 : a2.IsWhole) (a3 : Memref sig .tc .vmem S10x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : ¬cond4_0 i)
    (x0 : Vec F S5000x10 .f32) (x1 : Vec F S5000x10 .f32) (x2 : Vec F S10x10 .f32) (x3 : Vec F S1x10 .f32) (x4 : Vec F S10x10 .f32) (x5 : Vec F S1x10 .f32) (xo7 : Vec F S1x10 .f32) (xo8 : Vec F S1x10 .f32) :
    out4_B_8 c i a1 h1 a2 h2 a3 h3 a4 h4 a5 h5 a6 h6 a7 h7 a8 h8 a9 h9 hc x0 x1 x2 x3 x4 x5 xo7 xo8 = k4_pay1 (k4_pay4 x0 x1 x2 x3 x4 x5) xo8 := by
  unfold out4_B_8
  rw [View.read_writes_eq_canon _ _ _ (cover4_B_8 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x10) hz, View.ld_unit_zero (S := S10x10) hz, View.ld_unit_zero (S := S1x10) hz]

end Pieces

/-! ## The body's arithmetic over the extended reals -/

section Values

/-- Zero against every entry, entry by entry, is `relu` of every row. -/
theorem relu_rows {N C : ℕ} (y : FVec Ideal (S2 N C) .f32) :
    maximumf y (broadcast (S2 N C) (Scalar.ofBits .f32 0x00000000#32)) = mapRows (C := C) relu y := by
  funext i
  obtain ⟨p, q, rfl⟩ : ∃ (p : Fin N) (q : Fin C), i = ix2 p q := ⟨i 0, i 1, eq_ix2 i⟩
  rfl

/-- The two dense stages of a tile of rows, as the vector unit spells them (operands rounded to half precision,
    which changes nothing of an exact number; products into a zero accumulator; the bias row repeated down the
    tile; the maximum with zero), are `ginRow` of every row. -/
theorem ginBody_rows {N K H C : ℕ} (d1 : DotDims (S2 N K) (S2 K H) (S2 N H)) (hd1 : Cert.LibPlainDot.Plain d1)
    (d2 : DotDims (S2 N H) (S2 H C) (S2 N C)) (hd2 : Cert.LibPlainDot.Plain d2)
    (x : FVec Ideal (S2 N K) .f32) (w1 : FVec Ideal (S2 K H) .f32) (b1 : FVec Ideal (S2 1 H) .f32)
    (w2 : FVec Ideal (S2 H C) .f32) (b2 : FVec Ideal (S2 1 C) .f32) (hlt : FTy.bf16.bits < FTy.f32.bits)
    (h2 : (S2 1 H).ShapeCasts (S2 1 H)) (h3 : (S2 1 H).Broadcasts (S2 N H))
    (h2' : (S2 1 C).ShapeCasts (S2 1 C)) (h3' : (S2 1 C).Broadcasts (S2 N C)) :
    maximumf (addf (matmul d2 none (truncf .bf16 (maximumf (addf (matmul d1 none (truncf .bf16 x hlt) (truncf .bf16 w1 hlt)
        (constant (S2 N H) .f32 0x00000000#32)) (broadcastTo (S2 N H) (shapeCast (S2 1 H) b1 h2) h3))
        (broadcast (S2 N H) (Scalar.ofBits .f32 0x00000000#32))) hlt) (truncf .bf16 w2 hlt)
        (constant (S2 N C) .f32 0x00000000#32)) (broadcastTo (S2 N C) (shapeCast (S2 1 C) b2 h2') h3'))
        (broadcast (S2 N C) (Scalar.ofBits .f32 0x00000000#32))
      = mapRows (ginRow w1 b1 w2 b2) x := by
  have e1 := unitLin_rows d1 hd1 x w1 b1 hlt h2 h3
  unfold unitLin at e1
  rw [e1, relu_rows (mapRows (fun r => addRow b1 (lin w1 r)) x)]
  have e2 := unitLin_rows d2 hd2 (mapRows (C := H) relu (mapRows (fun r => addRow b1 (lin w1 r)) x)) w2 b2 hlt h2' h3'
  unfold unitLin at e2
  rw [e2, relu_rows]
  rfl

/-- A running row plus the column sums of a tile, as the vector unit spells it (the sum over the rows kept as a
    vector, the vector cast to one row), at a column. -/
theorem colAcc_apply {N C : ℕ} (Y : FVec Ideal (S2 N C) .f32) (acc : FVec Ideal (S2 1 C) .f32)
    (hr : (S2 N C).Reduces [0] (Cert.Rows.S1 C)) (hφ : FKind.Formats .f32) (hacc : (0x00000000#32 : BitVec 32) = FKind.add.neutral .f32 hφ)
    (hc : (Cert.Rows.S1 C).ShapeCasts (S2 1 C)) (hs : (S2 1 C).ShapeCasts (S2 1 C)) (u : Fin 1) (q : Fin C) :
    addf (shapeCast (S2 1 C) acc hs) (shapeCast (S2 1 C) (multiReduction .add [0] (Cert.Rows.S1 C) Y 0x00000000#32 hr hφ hacc) hc) (ix2 u q)
      = acc (ix2 u q) + ∑ n : Fin N, Y (ix2 n q) := by
  rw [shapeCast_self]
  show acc (ix2 u q) + shapeCast (S2 1 C) (multiReduction .add [0] (Cert.Rows.S1 C) Y 0x00000000#32 hr hφ hacc) hc (ix2 u q) = _
  rw [shapeCast_a_1a_apply]
  refine congrArg (fun s => acc (ix2 u q) + s) ?_
  refine (Ideal.multiReduction_add_single Y 0x00000000#32 hr hφ hacc (ix1 q)).trans ?_
  refine Finset.sum_congr rfl fun k _ => ?_
  have e : hr.lift (ix1 q) k = ix2 k q := funext fun a => Fin.ext (by
    match a with
    | ⟨0, _⟩ => rfl
    | ⟨1, _⟩ => rfl)
  exact congrArg Y e

variable (x0 x1 : Vec Ideal S5000x10 .f32) (w1 : Vec Ideal S10x10 .f32) (b1 : Vec Ideal S1x10 .f32)
  (w2 : Vec Ideal S10x10 .f32) (b2 : Vec Ideal S1x10 .f32)

/-- The block of results: `ginRow` of every row of the sum of the two loaded blocks. -/
theorem pay4_eq : k4_pay4 (F := Ideal) x0 x1 w1 b1 w2 b2 = mapRows (ginRow w1 b1 w2 b2) (fun i => x0 i + x1 i) := by
  unfold k4_pay4
  refine (ginBody_rows dot_S5000x10_S10x10_S5000x10_1_0_0_1_n_n ⟨rfl, rfl, rfl, rfl, rfl, rfl⟩ dot_S5000x10_S10x10_S5000x10_1_0_0_1_n_n ⟨rfl, rfl, rfl, rfl, rfl, rfl⟩ _ w1 b1 w2 b2 _ _ _ _ _).trans ?_
  simp only [shapeCast_self]
  rfl

/-- The running row of sums after a block, at a column. -/
theorem pay5_apply (acc : Vec Ideal S1x10 .f32) (u : Fin 1) (q : Fin 10) :
    k4_pay5 (F := Ideal) x0 x1 w1 b1 w2 b2 acc (ix2 u q) = acc (ix2 u q) + ∑ n : Fin 5000, k4_pay4 (F := Ideal) x0 x1 w1 b1 w2 b2 (ix2 n q) := by
  unfold k4_pay5
  exact colAcc_apply (N := 5000) (C := 10) (k4_pay4 (F := Ideal) x0 x1 w1 b1 w2 b2) acc _ _ _ _ _ u q

/-- The running row of sums of squares after a block, at a column. -/
theorem pay1_apply (Y : FVec Ideal S5000x10 .f32) (acc : Vec Ideal S1x10 .f32) (u : Fin 1) (q : Fin 10) :
    k4_pay1 (F := Ideal) Y acc (ix2 u q) = acc (ix2 u q) + ∑ n : Fin 5000, Y (ix2 n q) * Y (ix2 n q) := by
  unfold k4_pay1
  exact colAcc_apply (N := 5000) (C := 10) (mulf Y Y) acc _ _ _ _ _ u q

/-- The running rows start at zero. -/
theorem pay2_apply (j : S1x10.Idx) : k4_pay2 (F := Ideal) j = 0 := Ideal.ofBits_zero_f32
theorem pay3_apply (j : S1x10.Idx) : k4_pay3 (F := Ideal) j = 0 := Ideal.ofBits_zero_f32

end Values

/-! ## One block, read: the results, and what is added to the running rows -/

section Points

theorem ptA6 (c : Dev nD) (i : grid4.Coords) (a1 : Memref sig .tc .vmem S5000x10 .f32) (h1 : a1.IsWhole) (a2 : Memref sig .tc .vmem S5000x10 .f32) (h2 : a2.IsWhole) (a3 : Memref sig .tc .vmem S10x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : cond4_0 i)
    (x0 : Vec Ideal S5000x10 .f32) (x1 : Vec Ideal S5000x10 .f32) (x2 : Vec Ideal S10x10 .f32) (x3 : Vec Ideal S1x10 .f32) (x4 : Vec Ideal S10x10 .f32) (x5 : Vec Ideal S1x10 .f32) :
    out4_A_6 c i a1 h1 a2 h2 a3 h3 a4 h4 a5 h5 a6 h6 a7 h7 a8 h8 a9 h9 hc x0 x1 x2 x3 x4 x5 = mapRows (ginRow x2 x3 x4 x5) (fun i => x0 i + x1 i) := by
  rw [outA6, pay4_eq]

theorem ptB6 (c : Dev nD) (i : grid4.Coords) (a1 : Memref sig .tc .vmem S5000x10 .f32) (h1 : a1.IsWhole) (a2 : Memref sig .tc .vmem S5000x10 .f32) (h2 : a2.IsWhole) (a3 : Memref sig .tc .vmem S10x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : ¬cond4_0 i)
    (x0 : Vec Ideal S5000x10 .f32) (x1 : Vec Ideal S5000x10 .f32) (x2 : Vec Ideal S10x10 .f32) (x3 : Vec Ideal S1x10 .f32) (x4 : Vec Ideal S10x10 .f32) (x5 : Vec Ideal S1x10 .f32) (xo7 : Vec Ideal S1x10 .f32) (xo8 : Vec Ideal S1x10 .f32) :
    out4_B_6 c i a1 h1 a2 h2 a3 h3 a4 h4 a5 h5 a6 h6 a7 h7 a8 h8 a9 h9 hc x0 x1 x2 x3 x4 x5 xo7 xo8 = mapRows (ginRow x2 x3 x4 x5) (fun i => x0 i + x1 i) := by
  rw [outB6, pay4_eq]

theorem ptA7 (c : Dev nD) (i : grid4.Coords) (a1 : Memref sig .tc .vmem S5000x10 .f32) (h1 : a1.IsWhole) (a2 : Memref sig .tc .vmem S5000x10 .f32) (h2 : a2.IsWhole) (a3 : Memref sig .tc .vmem S10x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : cond4_0 i)
    (x0 : Vec Ideal S5000x10 .f32) (x1 : Vec Ideal S5000x10 .f32) (x2 : Vec Ideal S10x10 .f32) (x3 : Vec Ideal S1x10 .f32) (x4 : Vec Ideal S10x10 .f32) (x5 : Vec Ideal S1x10 .f32) (u : Fin 1) (q : Fin 10) :
    out4_A_7 c i a1 h1 a2 h2 a3 h3 a4 h4 a5 h5 a6 h6 a7 h7 a8 h8 a9 h9 hc x0 x1 x2 x3 x4 x5 (ix2 u q) = ∑ n : Fin 5000, mapRows (ginRow x2 x3 x4 x5) (fun i => x0 i + x1 i) (ix2 n q) := by
  rw [outA7, pay5_apply, pay2_apply, zero_add, pay4_eq]

theorem ptB7 (c : Dev nD) (i : grid4.Coords) (a1 : Memref sig .tc .vmem S5000x10 .f32) (h1 : a1.IsWhole) (a2 : Memref sig .tc .vmem S5000x10 .f32) (h2 : a2.IsWhole) (a3 : Memref sig .tc .vmem S10x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : ¬cond4_0 i)
    (x0 : Vec Ideal S5000x10 .f32) (x1 : Vec Ideal S5000x10 .f32) (x2 : Vec Ideal S10x10 .f32) (x3 : Vec Ideal S1x10 .f32) (x4 : Vec Ideal S10x10 .f32) (x5 : Vec Ideal S1x10 .f32) (xo7 : Vec Ideal S1x10 .f32) (xo8 : Vec Ideal S1x10 .f32) (u : Fin 1) (q : Fin 10) :
    out4_B_7 c i a1 h1 a2 h2 a3 h3 a4 h4 a5 h5 a6 h6 a7 h7 a8 h8 a9 h9 hc x0 x1 x2 x3 x4 x5 xo7 xo8 (ix2 u q) = xo7 (ix2 u q) + ∑ n : Fin 5000, mapRows (ginRow x2 x3 x4 x5) (fun i => x0 i + x1 i) (ix2 n q) := by
  rw [outB7, pay5_apply, pay4_eq]

theorem ptA8 (c : Dev nD) (i : grid4.Coords) (a1 : Memref sig .tc .vmem S5000x10 .f32) (h1 : a1.IsWhole) (a2 : Memref sig .tc .vmem S5000x10 .f32) (h2 : a2.IsWhole) (a3 : Memref sig .tc .vmem S10x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : cond4_0 i)
    (x0 : Vec Ideal S5000x10 .f32) (x1 : Vec Ideal S5000x10 .f32) (x2 : Vec Ideal S10x10 .f32) (x3 : Vec Ideal S1x10 .f32) (x4 : Vec Ideal S10x10 .f32) (x5 : Vec Ideal S1x10 .f32) (u : Fin 1) (q : Fin 10) :
    out4_A_8 c i a1 h1 a2 h2 a3 h3 a4 h4 a5 h5 a6 h6 a7 h7 a8 h8 a9 h9 hc x0 x1 x2 x3 x4 x5 (ix2 u q) = ∑ n : Fin 5000, mapRows (ginRow x2 x3 x4 x5) (fun i => x0 i + x1 i) (ix2 n q) * mapRows (ginRow x2 x3 x4 x5) (fun i => x0 i + x1 i) (ix2 n q) := by
  rw [outA8, pay1_apply, pay3_apply, zero_add, pay4_eq]

theorem ptB8 (c : Dev nD) (i : grid4.Coords) (a1 : Memref sig .tc .vmem S5000x10 .f32) (h1 : a1.IsWhole) (a2 : Memref sig .tc .vmem S5000x10 .f32) (h2 : a2.IsWhole) (a3 : Memref sig .tc .vmem S10x10 .f32) (h3 : a3.IsWhole) (a4 : Memref sig .tc .vmem S1x10 .f32) (h4 : a4.IsWhole) (a5 : Memref sig .tc .vmem S10x10 .f32) (h5 : a5.IsWhole) (a6 : Memref sig .tc .vmem S1x10 .f32) (h6 : a6.IsWhole) (a7 : Memref sig .tc .vmem S5000x10 .f32) (h7 : a7.IsWhole) (a8 : Memref sig .tc .vmem S1x10 .f32) (h8 : a8.IsWhole) (a9 : Memref sig .tc .vmem S1x10 .f32) (h9 : a9.IsWhole) (hc : ¬cond4_0 i)
    (x0 : Vec Ideal S5000x10 .f32) (x1 : Vec Ideal S5000x10 .f32) (x2 : Vec Ideal S10x10 .f32) (x3 : Vec Ideal S1x10 .f32) (x4 : Vec Ideal S10x10 .f32) (x5 : Vec Ideal S1x10 .f32) (xo7 : Vec Ideal S1x10 .f32) (xo8 : Vec Ideal S1x10 .f32) (u : Fin 1) (q : Fin 10) :
    out4_B_8 c i a1 h1 a2 h2 a3 h3 a4 h4 a5 h5 a6 h6 a7 h7 a8 h8 a9 h9 hc x0 x1 x2 x3 x4 x5 xo7 xo8 (ix2 u q) = xo8 (ix2 u q) + ∑ n : Fin 5000, mapRows (ginRow x2 x3 x4 x5) (fun i => x0 i + x1 i) (ix2 n q) * mapRows (ginRow x2 x3 x4 x5) (fun i => x0 i + x1 i) (ix2 n q) := by
  rw [outB8, pay1_apply, pay4_eq]

end Points

/-! ## The blocks are the rows of one array -/

section Blocks

variable (V : (c : Dev nD) → (b : Ref sig .tc) → Buf (Elt Ideal) ((c : Thread nD τ).loc b)) (c : Dev nD)

/-- The layer on all the rows at once. -/
def Y : S500000x10.Idx → EReal :=
  gin (V c main_arg12 : S10x10.Idx → EReal) (V c main_v68 : S1x10.Idx → EReal) (V c main_arg14 : S10x10.Idx → EReal) (V c main_v69 : S1x10.Idx → EReal) (V c main_v57 : S500000x10.Idx → EReal) (V c main_v67 : S500000x10.Idx → EReal)

/-- Row `p` of block `t`. -/
def row (t : Fin cfg4.N) (p : Fin 5000) : Fin 500000 :=
  ⟨5000 * t.val + p.val, by have := lt_of_lt_of_eq t.isLt (show cfg4.N = 100 from N_4); have := p.isLt; omega⟩

/-- The block indices, decided over the hundred points: the two row operands and the block of results move down
    the rows, every other window stays on its one block. -/
theorem idx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = t.val
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0 :=
  (by decide +kernel : ∀ t : Fin grid4.N, _)

/-- Window 0's block at point `t` is rows `5000 t … 5000 t + 4999` of its array. -/
theorem blk_h (t : Fin cfg4.N) (p : Fin 5000) (k : Fin 10) :
    (iblk4 V c 0 t : S5000x10.Idx → EReal) (ix2 p k) = (V c main_v57 : S500000x10.Idx → EReal) (ix2 (row t p) k) := by
  unfold iblk4
  rw [View.read_apply]
  show (V c main_v57 : S500000x10.Idx → EReal) (((cfg4.win 0).blk t).view.emb (ix2 p k)) = (V c main_v57 : S500000x10.Idx → EReal) (ix2 (row t p) k)
  refine congrArg _ (funext fun a => Fin.ext ?_)
  obtain ⟨e00, e01, e10, e11, e20, e21, e30, e31, e40, e41, e50, e51, e60, e61, e70, e71, e80, e81⟩ := idx_facts t
  match a with
  | ⟨0, _⟩ => show win4_0.index t (0 : Fin 2) * 5000 + 1 * p.val = 5000 * t.val + p.val; rw [e00]; omega
  | ⟨1, _⟩ => show win4_0.index t (1 : Fin 2) * 10 + 1 * k.val = k.val; rw [e01]; omega

/-- Window 1's block at point `t` is rows `5000 t … 5000 t + 4999` of its array. -/
theorem blk_agg (t : Fin cfg4.N) (p : Fin 5000) (k : Fin 10) :
    (iblk4 V c 1 t : S5000x10.Idx → EReal) (ix2 p k) = (V c main_v67 : S500000x10.Idx → EReal) (ix2 (row t p) k) := by
  unfold iblk4
  rw [View.read_apply]
  show (V c main_v67 : S500000x10.Idx → EReal) (((cfg4.win 1).blk t).view.emb (ix2 p k)) = (V c main_v67 : S500000x10.Idx → EReal) (ix2 (row t p) k)
  refine congrArg _ (funext fun a => Fin.ext ?_)
  obtain ⟨e00, e01, e10, e11, e20, e21, e30, e31, e40, e41, e50, e51, e60, e61, e70, e71, e80, e81⟩ := idx_facts t
  match a with
  | ⟨0, _⟩ => show win4_1.index t (0 : Fin 2) * 5000 + 1 * p.val = 5000 * t.val + p.val; rw [e10]; omega
  | ⟨1, _⟩ => show win4_1.index t (1 : Fin 2) * 10 + 1 * k.val = k.val; rw [e11]; omega

/-- Window 2 is one block, the whole array, at every point. -/
theorem blk_w1 (t : Fin cfg4.N) : (iblk4 V c 2 t : S10x10.Idx → EReal) = (V c main_arg12 : S10x10.Idx → EReal) := by
  funext j
  unfold iblk4
  rw [View.read_apply]
  show (V c main_arg12 : S10x10.Idx → EReal) (((cfg4.win 2).blk t).view.emb j) = (V c main_arg12 : S10x10.Idx → EReal) j
  refine congrArg _ (funext fun a => Fin.ext ?_)
  obtain ⟨e00, e01, e10, e11, e20, e21, e30, e31, e40, e41, e50, e51, e60, e61, e70, e71, e80, e81⟩ := idx_facts t
  match a with
  | ⟨0, _⟩ => show win4_2.index t (0 : Fin 2) * 10 + 1 * (j 0).val = (j 0).val; rw [e20]; omega
  | ⟨1, _⟩ => show win4_2.index t (1 : Fin 2) * 10 + 1 * (j 1).val = (j 1).val; rw [e21]; omega

/-- Window 3 is one block, the whole array, at every point. -/
theorem blk_b1 (t : Fin cfg4.N) : (iblk4 V c 3 t : S1x10.Idx → EReal) = (V c main_v68 : S1x10.Idx → EReal) := by
  funext j
  unfold iblk4
  rw [View.read_apply]
  show (V c main_v68 : S1x10.Idx → EReal) (((cfg4.win 3).blk t).view.emb j) = (V c main_v68 : S1x10.Idx → EReal) j
  refine congrArg _ (funext fun a => Fin.ext ?_)
  obtain ⟨e00, e01, e10, e11, e20, e21, e30, e31, e40, e41, e50, e51, e60, e61, e70, e71, e80, e81⟩ := idx_facts t
  match a with
  | ⟨0, _⟩ => show win4_3.index t (0 : Fin 2) * 1 + 1 * (j 0).val = (j 0).val; rw [e30]; omega
  | ⟨1, _⟩ => show win4_3.index t (1 : Fin 2) * 10 + 1 * (j 1).val = (j 1).val; rw [e31]; omega

/-- Window 4 is one block, the whole array, at every point. -/
theorem blk_w2 (t : Fin cfg4.N) : (iblk4 V c 4 t : S10x10.Idx → EReal) = (V c main_arg14 : S10x10.Idx → EReal) := by
  funext j
  unfold iblk4
  rw [View.read_apply]
  show (V c main_arg14 : S10x10.Idx → EReal) (((cfg4.win 4).blk t).view.emb j) = (V c main_arg14 : S10x10.Idx → EReal) j
  refine congrArg _ (funext fun a => Fin.ext ?_)
  obtain ⟨e00, e01, e10, e11, e20, e21, e30, e31, e40, e41, e50, e51, e60, e61, e70, e71, e80, e81⟩ := idx_facts t
  match a with
  | ⟨0, _⟩ => show win4_4.index t (0 : Fin 2) * 10 + 1 * (j 0).val = (j 0).val; rw [e40]; omega
  | ⟨1, _⟩ => show win4_4.index t (1 : Fin 2) * 10 + 1 * (j 1).val = (j 1).val; rw [e41]; omega

/-- Window 5 is one block, the whole array, at every point. -/
theorem blk_b2 (t : Fin cfg4.N) : (iblk4 V c 5 t : S1x10.Idx → EReal) = (V c main_v69 : S1x10.Idx → EReal) := by
  funext j
  unfold iblk4
  rw [View.read_apply]
  show (V c main_v69 : S1x10.Idx → EReal) (((cfg4.win 5).blk t).view.emb j) = (V c main_v69 : S1x10.Idx → EReal) j
  refine congrArg _ (funext fun a => Fin.ext ?_)
  obtain ⟨e00, e01, e10, e11, e20, e21, e30, e31, e40, e41, e50, e51, e60, e61, e70, e71, e80, e81⟩ := idx_facts t
  match a with
  | ⟨0, _⟩ => show win4_5.index t (0 : Fin 2) * 1 + 1 * (j 0).val = (j 0).val; rw [e50]; omega
  | ⟨1, _⟩ => show win4_5.index t (1 : Fin 2) * 10 + 1 * (j 1).val = (j 1).val; rw [e51]; omega

/-- The two row operands as arrays of extended reals, whole and by blocks. -/
abbrev Ah : S500000x10.Idx → EReal := V c main_v57
abbrev Aagg : S500000x10.Idx → EReal := V c main_v67
abbrev B0 (t : Fin cfg4.N) : S5000x10.Idx → EReal := iblk4 V c 0 t
abbrev B1 (t : Fin cfg4.N) : S5000x10.Idx → EReal := iblk4 V c 1 t

/-- A tile of rows through the layer, with the weights read through another name. -/
theorem tile_eq {N T K' H' C' : ℕ} (w1 w1' : (S2 K' H').Idx → EReal) (b1 b1' : (S2 1 H').Idx → EReal)
    (w2 w2' : (S2 H' C').Idx → EReal) (b2 b2' : (S2 1 C').Idx → EReal)
    (hw1 : w1' = w1) (hb1 : b1' = b1) (hw2 : w2' = w2) (hb2 : b2' = b2)
    (A : (S2 N K').Idx → EReal) (X : (S2 T K').Idx → EReal) (o : ℕ) (ho : ∀ p : Fin T, o + p.val < N)
    (hX : ∀ (p : Fin T) (k : Fin K'), X (ix2 p k) = A (ix2 ⟨o + p.val, ho p⟩ k)) (p : Fin T) (q : Fin C') :
    mapRows (ginRow w1' b1' w2' b2') X (ix2 p q) = mapRows (ginRow w1 b1 w2 b2) A (ix2 ⟨o + p.val, ho p⟩ q) := by
  subst hw1 hb1 hw2 hb2
  exact mapRows_tile _ A X o ho hX p q

/-- The layer on block `t` is rows `5000 t …` of the layer on all the rows. -/
theorem blockY (t : Fin cfg4.N) (p : Fin 5000) (q : Fin 10) :
    mapRows (ginRow (iblk4 V c 2 t : S10x10.Idx → EReal) (iblk4 V c 3 t : S1x10.Idx → EReal) (iblk4 V c 4 t : S10x10.Idx → EReal) (iblk4 V c 5 t : S1x10.Idx → EReal))
      (fun i => B0 V c t i + B1 V c t i) (ix2 p q) = Y V c (ix2 (row t p) q) :=
  tile_eq (V c main_arg12 : S10x10.Idx → EReal) (iblk4 V c 2 t : S10x10.Idx → EReal) (V c main_v68 : S1x10.Idx → EReal) (iblk4 V c 3 t : S1x10.Idx → EReal)
    (V c main_arg14 : S10x10.Idx → EReal) (iblk4 V c 4 t : S10x10.Idx → EReal) (V c main_v69 : S1x10.Idx → EReal) (iblk4 V c 5 t : S1x10.Idx → EReal)
    (blk_w1 V c t) (blk_b1 V c t) (blk_w2 V c t) (blk_b2 V c t)
    (fun i => Ah V c i + Aagg V c i) (fun i => B0 V c t i + B1 V c t i) (5000 * t.val)
    (fun p' => by have := lt_of_lt_of_eq t.isLt (show cfg4.N = 100 from N_4); have := p'.isLt; omega)
    (fun p' k => congrArg₂ (· + ·) (blk_h V c t p' k) (blk_agg V c t p' k)) p q

/-- An index of the block of results sits at its row of the whole array. -/
theorem emb6 (t : Fin cfg4.N) (j : S5000x10.Idx) : ((cfg4.win 6).blk t).view.emb j = ix2 (row t (j 0)) (j 1) := by
  funext a
  apply Fin.ext
  obtain ⟨e00, e01, e10, e11, e20, e21, e30, e31, e40, e41, e50, e51, e60, e61, e70, e71, e80, e81⟩ := idx_facts t
  match a with
  | ⟨0, _⟩ => show win4_6.index t (0 : Fin 2) * 5000 + 1 * (j 0).val = 5000 * t.val + (j 0).val; rw [e60]; omega
  | ⟨1, _⟩ => show win4_6.index t (1 : Fin 2) * 10 + 1 * (j 1).val = (j 1).val; rw [e61]; omega

/-- What every point leaves in the block of results: its rows of the layer on all the rows. -/
theorem after6 (t : Fin cfg4.N) :
    (outsAt4 V c t.val t.isLt).1 = fun j : S5000x10.Idx => Y V c (ix2 (row t (j 0)) (j 1)) := by
  by_cases h0 : t.val % 100 = 0
  · rw [outsAt4_A V c t h0]
    dsimp only
    refine (ptA6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)).trans ?_
    funext j
    obtain ⟨p, q, rfl⟩ : ∃ (p : Fin 5000) (q : Fin 10), j = ix2 p q := ⟨j 0, j 1, eq_ix2 j⟩
    exact blockY V c t p q
  · rw [outsAt4_B V c t h0]
    dsimp only
    refine (ptB6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun hcnd => h0 ((hcond4_0 t).mp hcnd)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2).trans ?_
    funext j
    obtain ⟨p, q, rfl⟩ : ∃ (p : Fin 5000) (q : Fin 10), j = ix2 p q := ⟨j 0, j 1, eq_ix2 j⟩
    exact blockY V c t p q

/-- What point `t` writes back of the results is block `t` of the layer on all the rows. -/
theorem flushed6_eq (t : Fin cfg4.N) :
    (dat4 V c).flushed 6 t = ((cfg4.win 6).blk t).view.read (Elt Ideal) (Y V c) := by
  show (cfg4.win 6).cut (grid4.coords t) ((dat4 V c).after 6 t) = _
  rw [after4_6, after6 V c t]
  funext j
  rw [View.read_apply]
  exact (congrArg (Y V c) (emb6 t j)).symm

/-- Every row is in some block. -/
theorem cover6 (i : S500000x10.Idx) : ∃ t : Fin cfg4.N, (cfg4.win 6).flush t = true ∧ i ∈ ((cfg4.win 6).blk t).view.set := by
  have hN : cfg4.N = 100 := N_4
  have h0 : (i 0 : Nat) < 500000 := (i 0).isLt
  have h1 : (i 1 : Nat) < 10 := (i 1).isLt
  refine ⟨⟨(i 0 : Nat) / 5000, by omega⟩, flush4_6 _, ?_⟩
  generalize ht : (⟨(i 0 : Nat) / 5000, by omega⟩ : Fin cfg4.N) = t
  have htv : t.val = (i 0 : Nat) / 5000 := by rw [← ht]
  show i ∈ ((View.whole main_v70_0).slice (win4_6.rect t)).set
  rw [View.set_slice_whole, Rect.mem_set_unit]
  intro a
  obtain ⟨e00, e01, e10, e11, e20, e21, e30, e31, e40, e41, e50, e51, e60, e61, e70, e71, e80, e81⟩ := idx_facts t
  match a with
  | ⟨0, _⟩ => show win4_6.index t (0 : Fin 2) * 5000 ≤ (i 0 : Nat) ∧ (i 0 : Nat) < win4_6.index t (0 : Fin 2) * 5000 + 5000
              rw [e60]; omega
  | ⟨1, _⟩ => show win4_6.index t (1 : Fin 2) * 10 ≤ (i 1 : Nat) ∧ (i 1 : Nat) < win4_6.index t (1 : Fin 2) * 10 + 10
              rw [e61]; omega

/-- The array of results after the run is the layer on all the rows. -/
theorem out : (Gen.dat4 (F := Ideal) V c).arrAt 6 cfg4.N
    = Cert.Net.gin (V c main_arg12 : S10x10.Idx → EReal) (V c main_v68 : S1x10.Idx → EReal) (V c main_arg14 : S10x10.Idx → EReal) (V c main_v69 : S1x10.Idx → EReal) (V c main_v57 : S500000x10.Idx → EReal) (V c main_v67 : S500000x10.Idx → EReal) :=
  (dat4 V c).arrAt_eq_of_cover 6 (Y V c) (fun t _ => flushed6_eq V c t) cover6

/-! ## The running rows -/

/-- The part of a sum over all the rows that block `s` contributes. -/
def part (g : Fin 500000 → EReal) (s : ℕ) : EReal :=
  if h : s < 100 then ∑ p : Fin 5000, g ⟨5000 * s + p.val, by have := p.isLt; omega⟩ else 0

theorem part_row (g : Fin 500000 → EReal) (t : Fin cfg4.N) : part g t.val = ∑ p : Fin 5000, g (row t p) :=
  dif_pos (lt_of_lt_of_eq t.isLt (show cfg4.N = 100 from N_4))

/-- The hundred blocks' parts make up the sum over all the rows. -/
theorem sum_parts (g : Fin 500000 → EReal) : ∑ s ∈ Finset.range 100, part g s = ∑ r : Fin 500000, g r := by
  rw [Finset.sum_range]
  have e : ∀ s : Fin 100, part g s.val = ∑ p : Fin 5000, g ⟨5000 * s.val + p.val, by have := s.isLt; have := p.isLt; omega⟩ :=
    fun s => dif_pos s.isLt
  rw [Finset.sum_congr rfl fun s _ => e s]
  rw [← Fintype.sum_prod_type' (fun (s : Fin 100) (p : Fin 5000) => g ⟨5000 * s.val + p.val, by have := s.isLt; have := p.isLt; omega⟩)]
  exact Fintype.sum_equiv (finProdFinEquiv (m := 100) (n := 5000)) _ (fun r : Fin (100 * 5000) => g r)
    fun x => congrArg g (Fin.ext (by show 5000 * x.1.val + x.2.val = x.2.val + 5000 * x.1.val; omega))

/-- The running row of sums after block `n`: the parts of blocks `0 … n`. -/
def accS (n : ℕ) : S1x10.Idx → EReal := fun j => ∑ s ∈ Finset.range (n + 1), part (fun r => Y V c (ix2 r (j 1))) s

/-- The running row of sums of squares after block `n`. -/
def accQ (n : ℕ) : S1x10.Idx → EReal :=
  fun j => ∑ s ∈ Finset.range (n + 1), part (fun r => Y V c (ix2 r (j 1)) * Y V c (ix2 r (j 1))) s

/-- What the two running rows hold after each point, by induction on the point. -/
theorem running : ∀ (n : ℕ) (h : n < cfg4.N),
    (outsAt4 V c n h).2.1 = accS V c n ∧ (outsAt4 V c n h).2.2 = accQ V c n
  | 0, h => by
    rw [outsAt4_A V c ⟨0, h⟩ rfl]
    dsimp only
    constructor
    · funext j
      obtain ⟨u, q, rfl⟩ : ∃ (u : Fin 1) (q : Fin 10), j = ix2 u q := ⟨j 0, j 1, eq_ix2 j⟩
      refine (ptA7 c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) (ms4_7 ⟨0, h⟩) (hs4_7 ⟨0, h⟩) (ms4_8 ⟨0, h⟩) (hs4_8 ⟨0, h⟩) ((hcond4_0 ⟨0, h⟩).mpr (Nat.zero_mod _)) (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩) u q).trans ?_
      show _ = ∑ s ∈ Finset.range 1, part (fun r => Y V c (ix2 r q)) s
      rw [Finset.sum_range_one, part_row _ ⟨0, h⟩]
      exact Finset.sum_congr rfl fun p _ => blockY V c ⟨0, h⟩ p q
    · funext j
      obtain ⟨u, q, rfl⟩ : ∃ (u : Fin 1) (q : Fin 10), j = ix2 u q := ⟨j 0, j 1, eq_ix2 j⟩
      refine (ptA8 c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) (ms4_7 ⟨0, h⟩) (hs4_7 ⟨0, h⟩) (ms4_8 ⟨0, h⟩) (hs4_8 ⟨0, h⟩) ((hcond4_0 ⟨0, h⟩).mpr (Nat.zero_mod _)) (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩) u q).trans ?_
      show _ = ∑ s ∈ Finset.range 1, part (fun r => Y V c (ix2 r q) * Y V c (ix2 r q)) s
      rw [Finset.sum_range_one, part_row _ ⟨0, h⟩]
      exact Finset.sum_congr rfl fun p _ => congrArg₂ (· * ·) (blockY V c ⟨0, h⟩ p q) (blockY V c ⟨0, h⟩ p q)
  | n + 1, h => by
    have hN : cfg4.N = 100 := N_4
    have hB : ¬(⟨n + 1, h⟩ : Fin cfg4.N).val % 100 = 0 := by dsimp only; omega
    obtain ⟨ih1, ih2⟩ := running n (Nat.lt_of_succ_lt h)
    rw [outsAt4_B V c ⟨n + 1, h⟩ hB]
    dsimp only
    constructor
    · funext j
      obtain ⟨u, q, rfl⟩ : ∃ (u : Fin 1) (q : Fin 10), j = ix2 u q := ⟨j 0, j 1, eq_ix2 j⟩
      refine (ptB7 c (grid4.coords (⟨n + 1, h⟩ : Fin cfg4.N)) (ms4_0 (⟨n + 1, h⟩ : Fin cfg4.N)) (hs4_0 (⟨n + 1, h⟩ : Fin cfg4.N)) (ms4_1 (⟨n + 1, h⟩ : Fin cfg4.N)) (hs4_1 (⟨n + 1, h⟩ : Fin cfg4.N)) (ms4_2 (⟨n + 1, h⟩ : Fin cfg4.N)) (hs4_2 (⟨n + 1, h⟩ : Fin cfg4.N)) (ms4_3 (⟨n + 1, h⟩ : Fin cfg4.N)) (hs4_3 (⟨n + 1, h⟩ : Fin cfg4.N)) (ms4_4 (⟨n + 1, h⟩ : Fin cfg4.N)) (hs4_4 (⟨n + 1, h⟩ : Fin cfg4.N)) (ms4_5 (⟨n + 1, h⟩ : Fin cfg4.N)) (hs4_5 (⟨n + 1, h⟩ : Fin cfg4.N)) (ms4_6 (⟨n + 1, h⟩ : Fin cfg4.N)) (hs4_6 (⟨n + 1, h⟩ : Fin cfg4.N)) (ms4_7 (⟨n + 1, h⟩ : Fin cfg4.N)) (hs4_7 (⟨n + 1, h⟩ : Fin cfg4.N)) (ms4_8 (⟨n + 1, h⟩ : Fin cfg4.N)) (hs4_8 (⟨n + 1, h⟩ : Fin cfg4.N)) (fun hcnd => hB ((hcond4_0 (⟨n + 1, h⟩ : Fin cfg4.N)).mp hcnd)) (iblk4 V c 0 (⟨n + 1, h⟩ : Fin cfg4.N)) (iblk4 V c 1 (⟨n + 1, h⟩ : Fin cfg4.N)) (iblk4 V c 2 (⟨n + 1, h⟩ : Fin cfg4.N)) (iblk4 V c 3 (⟨n + 1, h⟩ : Fin cfg4.N)) (iblk4 V c 4 (⟨n + 1, h⟩ : Fin cfg4.N)) (iblk4 V c 5 (⟨n + 1, h⟩ : Fin cfg4.N)) (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2 u q).trans ?_
      show (outsAt4 V c n (Nat.lt_of_succ_lt h)).2.1 (ix2 u q) + _ = ∑ s ∈ Finset.range (n + 1 + 1), part (fun r => Y V c (ix2 r q)) s
      rw [ih1, Finset.sum_range_succ _ (n + 1), part_row _ ⟨n + 1, h⟩]
      exact congrArg (fun s => accS V c n (ix2 u q) + s) (Finset.sum_congr rfl fun p _ => blockY V c ⟨n + 1, h⟩ p q)
    · funext j
      obtain ⟨u, q, rfl⟩ : ∃ (u : Fin 1) (q : Fin 10), j = ix2 u q := ⟨j 0, j 1, eq_ix2 j⟩
      refine (ptB8 c (grid4.coords (⟨n + 1, h⟩ : Fin cfg4.N)) (ms4_0 (⟨n + 1, h⟩ : Fin cfg4.N)) (hs4_0 (⟨n + 1, h⟩ : Fin cfg4.N)) (ms4_1 (⟨n + 1, h⟩ : Fin cfg4.N)) (hs4_1 (⟨n + 1, h⟩ : Fin cfg4.N)) (ms4_2 (⟨n + 1, h⟩ : Fin cfg4.N)) (hs4_2 (⟨n + 1, h⟩ : Fin cfg4.N)) (ms4_3 (⟨n + 1, h⟩ : Fin cfg4.N)) (hs4_3 (⟨n + 1, h⟩ : Fin cfg4.N)) (ms4_4 (⟨n + 1, h⟩ : Fin cfg4.N)) (hs4_4 (⟨n + 1, h⟩ : Fin cfg4.N)) (ms4_5 (⟨n + 1, h⟩ : Fin cfg4.N)) (hs4_5 (⟨n + 1, h⟩ : Fin cfg4.N)) (ms4_6 (⟨n + 1, h⟩ : Fin cfg4.N)) (hs4_6 (⟨n + 1, h⟩ : Fin cfg4.N)) (ms4_7 (⟨n + 1, h⟩ : Fin cfg4.N)) (hs4_7 (⟨n + 1, h⟩ : Fin cfg4.N)) (ms4_8 (⟨n + 1, h⟩ : Fin cfg4.N)) (hs4_8 (⟨n + 1, h⟩ : Fin cfg4.N)) (fun hcnd => hB ((hcond4_0 (⟨n + 1, h⟩ : Fin cfg4.N)).mp hcnd)) (iblk4 V c 0 (⟨n + 1, h⟩ : Fin cfg4.N)) (iblk4 V c 1 (⟨n + 1, h⟩ : Fin cfg4.N)) (iblk4 V c 2 (⟨n + 1, h⟩ : Fin cfg4.N)) (iblk4 V c 3 (⟨n + 1, h⟩ : Fin cfg4.N)) (iblk4 V c 4 (⟨n + 1, h⟩ : Fin cfg4.N)) (iblk4 V c 5 (⟨n + 1, h⟩ : Fin cfg4.N)) (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2 u q).trans ?_
      show (outsAt4 V c n (Nat.lt_of_succ_lt h)).2.2 (ix2 u q) + _ = ∑ s ∈ Finset.range (n + 1 + 1), part (fun r => Y V c (ix2 r q) * Y V c (ix2 r q)) s
      rw [ih2, Finset.sum_range_succ _ (n + 1), part_row _ ⟨n + 1, h⟩]
      exact congrArg (fun s => accQ V c n (ix2 u q) + s) (Finset.sum_congr rfl fun p _ => congrArg₂ (· * ·) (blockY V c ⟨n + 1, h⟩ p q) (blockY V c ⟨n + 1, h⟩ p q))

/-- The one block of a running row's window is the whole row. -/
theorem emb7 (t : Fin cfg4.N) (j : S1x10.Idx) : ((cfg4.win 7).blk t).view.emb j = j := by
  funext a
  apply Fin.ext
  obtain ⟨e00, e01, e10, e11, e20, e21, e30, e31, e40, e41, e50, e51, e60, e61, e70, e71, e80, e81⟩ := idx_facts t
  match a with
  | ⟨0, _⟩ => show win4_7.index t (0 : Fin 2) * 1 + 1 * (j 0).val = (j 0).val; rw [e70]; omega
  | ⟨1, _⟩ => show win4_7.index t (1 : Fin 2) * 10 + 1 * (j 1).val = (j 1).val; rw [e71]; omega

theorem emb8 (t : Fin cfg4.N) (j : S1x10.Idx) : ((cfg4.win 8).blk t).view.emb j = j := by
  funext a
  apply Fin.ext
  obtain ⟨e00, e01, e10, e11, e20, e21, e30, e31, e40, e41, e50, e51, e60, e61, e70, e71, e80, e81⟩ := idx_facts t
  match a with
  | ⟨0, _⟩ => show win4_8.index t (0 : Fin 2) * 1 + 1 * (j 0).val = (j 0).val; rw [e80]; omega
  | ⟨1, _⟩ => show win4_8.index t (1 : Fin 2) * 10 + 1 * (j 1).val = (j 1).val; rw [e81]; omega

/-- The last point, the only one that writes the running rows back, writes the column sums of the whole array. -/
theorem flushed7_eq (t : Fin cfg4.N) (hf : (cfg4.win 7).flush t = true) :
    (dat4 V c).flushed 7 t = ((cfg4.win 7).blk t).view.read (Elt Ideal) (sumRow (Y V c)) := by
  have hN : cfg4.N = 100 := N_4
  have h99 : t.val = 99 := by have := (flush4_7 t).mp hf; have := t.isLt; omega
  show (cfg4.win 7).cut (grid4.coords t) ((dat4 V c).after 7 t) = _
  rw [after4_7, (running V c t.val t.isLt).1]
  have key : ∀ X G : S1x10.Idx → EReal, (∀ j, X j = G j) →
      (cfg4.win 7).cut (grid4.coords t) X = ((cfg4.win 7).blk t).view.read (Elt Ideal) G := by
    intro X G hXG
    funext j
    rw [View.read_apply]
    exact (hXG _).trans (congrArg G (emb7 t j).symm)
  refine key (accS V c t.val) (sumRow (Y V c)) fun j => ?_
  rw [h99]
  exact sum_parts (fun r => Y V c (ix2 r (j 1)))

theorem flushed8_eq (t : Fin cfg4.N) (hf : (cfg4.win 8).flush t = true) :
    (dat4 V c).flushed 8 t = ((cfg4.win 8).blk t).view.read (Elt Ideal) (sumSqRow (Y V c)) := by
  have hN : cfg4.N = 100 := N_4
  have h99 : t.val = 99 := by have := (flush4_8 t).mp hf; have := t.isLt; omega
  show (cfg4.win 8).cut (grid4.coords t) ((dat4 V c).after 8 t) = _
  rw [after4_8, (running V c t.val t.isLt).2]
  have key : ∀ X G : S1x10.Idx → EReal, (∀ j, X j = G j) →
      (cfg4.win 8).cut (grid4.coords t) X = ((cfg4.win 8).blk t).view.read (Elt Ideal) G := by
    intro X G hXG
    funext j
    rw [View.read_apply]
    exact (hXG _).trans (congrArg G (emb8 t j).symm)
  refine key (accQ V c t.val) (sumSqRow (Y V c)) fun j => ?_
  rw [h99]
  exact sum_parts (fun r => Y V c (ix2 r (j 1)) * Y V c (ix2 r (j 1)))

/-- The last point's block covers a running row. -/
theorem cover7 (i : S1x10.Idx) : ∃ t : Fin cfg4.N, (cfg4.win 7).flush t = true ∧ i ∈ ((cfg4.win 7).blk t).view.set := by
  have hN : cfg4.N = 100 := N_4
  have h0 : (i 0 : Nat) < 1 := (i 0).isLt
  have h1 : (i 1 : Nat) < 10 := (i 1).isLt
  refine ⟨⟨99, by omega⟩, (flush4_7 _).mpr rfl, ?_⟩
  generalize (⟨99, by omega⟩ : Fin cfg4.N) = t
  show i ∈ ((View.whole main_v70_1).slice (win4_7.rect t)).set
  rw [View.set_slice_whole, Rect.mem_set_unit]
  intro a
  obtain ⟨e00, e01, e10, e11, e20, e21, e30, e31, e40, e41, e50, e51, e60, e61, e70, e71, e80, e81⟩ := idx_facts t
  match a with
  | ⟨0, _⟩ => show win4_7.index t (0 : Fin 2) * 1 ≤ (i 0 : Nat) ∧ (i 0 : Nat) < win4_7.index t (0 : Fin 2) * 1 + 1
              rw [e70]; omega
  | ⟨1, _⟩ => show win4_7.index t (1 : Fin 2) * 10 ≤ (i 1 : Nat) ∧ (i 1 : Nat) < win4_7.index t (1 : Fin 2) * 10 + 10
              rw [e71]; omega

theorem cover8 (i : S1x10.Idx) : ∃ t : Fin cfg4.N, (cfg4.win 8).flush t = true ∧ i ∈ ((cfg4.win 8).blk t).view.set := by
  have hN : cfg4.N = 100 := N_4
  have h0 : (i 0 : Nat) < 1 := (i 0).isLt
  have h1 : (i 1 : Nat) < 10 := (i 1).isLt
  refine ⟨⟨99, by omega⟩, (flush4_8 _).mpr rfl, ?_⟩
  generalize (⟨99, by omega⟩ : Fin cfg4.N) = t
  show i ∈ ((View.whole main_v70_2).slice (win4_8.rect t)).set
  rw [View.set_slice_whole, Rect.mem_set_unit]
  intro a
  obtain ⟨e00, e01, e10, e11, e20, e21, e30, e31, e40, e41, e50, e51, e60, e61, e70, e71, e80, e81⟩ := idx_facts t
  match a with
  | ⟨0, _⟩ => show win4_8.index t (0 : Fin 2) * 1 ≤ (i 0 : Nat) ∧ (i 0 : Nat) < win4_8.index t (0 : Fin 2) * 1 + 1
              rw [e80]; omega
  | ⟨1, _⟩ => show win4_8.index t (1 : Fin 2) * 10 ≤ (i 1 : Nat) ∧ (i 1 : Nat) < win4_8.index t (1 : Fin 2) * 10 + 10
              rw [e81]; omega

/-- The row of column sums after the run. -/
theorem sum : (Gen.dat4 (F := Ideal) V c).arrAt 7 cfg4.N
    = Cert.Net.sumRow (Cert.Net.gin (V c main_arg12 : S10x10.Idx → EReal) (V c main_v68 : S1x10.Idx → EReal) (V c main_arg14 : S10x10.Idx → EReal) (V c main_v69 : S1x10.Idx → EReal) (V c main_v57 : S500000x10.Idx → EReal) (V c main_v67 : S500000x10.Idx → EReal)) :=
  (dat4 V c).arrAt_eq_of_cover 7 (sumRow (Y V c)) (flushed7_eq V c) cover7

/-- The row of column sums of squares after the run. -/
theorem sumsq : (Gen.dat4 (F := Ideal) V c).arrAt 8 cfg4.N
    = Cert.Net.sumSqRow (Cert.Net.gin (V c main_arg12 : S10x10.Idx → EReal) (V c main_v68 : S1x10.Idx → EReal) (V c main_arg14 : S10x10.Idx → EReal) (V c main_v69 : S1x10.Idx → EReal) (V c main_v57 : S500000x10.Idx → EReal) (V c main_v67 : S500000x10.Idx → EReal)) :=
  (dat4 V c).arrAt_eq_of_cover 8 (sumSqRow (Y V c)) (flushed8_eq V c) cover8

end Blocks

end Cert.KernelIdeal.Gin4

end
-- ==== Proof.Bn5.lean ====
import proofs.«132165_j27702539059447_2_alg».proof.Proof.Gen.KernelIdeal.Frame
import proofs.«132165_j27702539059447_2_alg».proof.Proof.Net
import Idealize.ShloMosaic.Lib.Pipeline.Value

/-!
# The third normalisation's result, as one array

The array has 500000 rows of 10 entries and is produced in 100 blocks of 5000 consecutive rows. Block `t` is
computed from rows `5000 t … 5000 t + 4999` of the operand and from four one-row matrices (the mean, the factor, the
gain and the shift), which every block reads whole. At the entry `(p, q)` of a block the result is
`(x (p, q) - mean q) · factor q · gain q + shift q`: it depends on the operand only through the entry in the same
place. So block `t` of the result is the restriction to those rows of one function of the whole operand, and the 100
blocks fill the array: row `r` lies in block `r / 5000`.
-/

noncomputable section

namespace Cert.KernelIdeal.Bn5

open Cert.KernelIdeal Cert.KernelIdeal.Gen Idealize.ShloMosaic Idealize.ShloMosaic.TcCoe Idealize.SL.Sem
open Idealize.ShloMosaic.Pipeline (Dat)
open Idealize.ShloMosaic.ValueIdx Cert.Rows

variable (V : (c : Dev nD) → (b : Ref sig .tc) → Buf (Elt Ideal) ((c : Thread nD τ).loc b))

/-- Every access of the body starts at the origin of its buffer. -/
theorem zero_offsets : (![0, 0] : Fin 2 → Nat) = fun _ => 0 := funext fun a => by fin_cases a <;> rfl

/-- The affine map at the entry `(n, q)`. -/
theorem bnApply_entry {N C : ℕ} (x : (S2 N C).Idx → EReal) (mu inv g be : (S2 1 C).Idx → EReal) (n : Fin N) (q : Fin C) :
    Cert.Net.bnApply x mu inv g be (ix2 n q)
      = (x (ix2 n q) - mu (ix2 (0 : Fin 1) q)) * inv (ix2 (0 : Fin 1) q) * g (ix2 (0 : Fin 1) q) + be (ix2 (0 : Fin 1) q) := rfl

/-- The body on one block: the affine map of the normalisation, entry by entry. -/
theorem body_eq (x : Vec Ideal S5000x10 .f32) (mu inv g be : Vec Ideal S1x10 .f32) :
    k5_pay1 x mu inv g be = Cert.Net.bnApply x mu inv g be := by
  funext i
  obtain ⟨p, q, rfl⟩ : ∃ (p : Fin 5000) (q : Fin 10), i = ix2 p q := ⟨i 0, i 1, eq_ix2 i⟩
  unfold k5_pay1
  simp only [shapeCast_self]
  rw [addf_apply, mulf_apply, mulf_apply, subf_apply, broadcastTo_1b_ab_apply, broadcastTo_1b_ab_apply,
    broadcastTo_1b_ab_apply, broadcastTo_1b_ab_apply]
  rfl

/-- Where each block sits at point `t`: the operand's and the result's blocks are the `t`-th block of rows, the four
    one-row matrices are read whole. -/
theorem index_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The operand's block at point `t` is rows `5000 t + p` of the operand. -/
theorem x_block (c : Dev nD) (t : Fin cfg5.N) (p : Fin 5000) (q : Fin 10) (h : t.val * 5000 + p.val < 500000) :
    (iblk5 V c 0 t : Vec Ideal S5000x10 .f32) (ix2 p q) = (V c main_v70_0 : S500000x10.Idx → EReal) (ix2 ⟨t.val * 5000 + p.val, h⟩ q) := by
  obtain ⟨e00, e01, -⟩ := index_facts t
  show V c main_v70_0 (((cfg5.win 0).blk t).view.emb (ix2 p q)) = V c main_v70_0 (ix2 ⟨t.val * 5000 + p.val, h⟩ q)
  refine congrArg _ (funext fun a => Fin.ext ?_)
  match a with
  | ⟨0, _⟩ => show win5_0.index t (0 : Fin 2) * 5000 + 1 * p.val = t.val * 5000 + p.val; omega
  | ⟨1, _⟩ => show win5_0.index t (1 : Fin 2) * 10 + 1 * q.val = q.val; omega

/-- The mean's block is the mean. -/
theorem mu_block (c : Dev nD) (t : Fin cfg5.N) (q : Fin 10) :
    (iblk5 V c 1 t : Vec Ideal S1x10 .f32) (ix2 (0 : Fin 1) q) = (V c main_v72 : S1x10.Idx → EReal) (ix2 (0 : Fin 1) q) := by
  obtain ⟨-, -, e0, e1, -⟩ := index_facts t
  show V c main_v72 (((cfg5.win 1).blk t).view.emb (ix2 (0 : Fin 1) q)) = V c main_v72 (ix2 (0 : Fin 1) q)
  refine congrArg _ (funext fun a => Fin.ext ?_)
  match a with
  | ⟨0, _⟩ => show win5_1.index t (0 : Fin 2) * 1 + 1 * 0 = 0; omega
  | ⟨1, _⟩ => show win5_1.index t (1 : Fin 2) * 10 + 1 * q.val = q.val; omega

/-- The factor's block is the factor. -/
theorem inv_block (c : Dev nD) (t : Fin cfg5.N) (q : Fin 10) :
    (iblk5 V c 2 t : Vec Ideal S1x10 .f32) (ix2 (0 : Fin 1) q) = (V c main_v81 : S1x10.Idx → EReal) (ix2 (0 : Fin 1) q) := by
  obtain ⟨-, -, -, -, e0, e1, -⟩ := index_facts t
  show V c main_v81 (((cfg5.win 2).blk t).view.emb (ix2 (0 : Fin 1) q)) = V c main_v81 (ix2 (0 : Fin 1) q)
  refine congrArg _ (funext fun a => Fin.ext ?_)
  match a with
  | ⟨0, _⟩ => show win5_2.index t (0 : Fin 2) * 1 + 1 * 0 = 0; omega
  | ⟨1, _⟩ => show win5_2.index t (1 : Fin 2) * 10 + 1 * q.val = q.val; omega

/-- The gain's block is the gain. -/
theorem g_block (c : Dev nD) (t : Fin cfg5.N) (q : Fin 10) :
    (iblk5 V c 3 t : Vec Ideal S1x10 .f32) (ix2 (0 : Fin 1) q) = (V c main_v82 : S1x10.Idx → EReal) (ix2 (0 : Fin 1) q) := by
  obtain ⟨-, -, -, -, -, -, e0, e1, -⟩ := index_facts t
  show V c main_v82 (((cfg5.win 3).blk t).view.emb (ix2 (0 : Fin 1) q)) = V c main_v82 (ix2 (0 : Fin 1) q)
  refine congrArg _ (funext fun a => Fin.ext ?_)
  match a with
  | ⟨0, _⟩ => show win5_3.index t (0 : Fin 2) * 1 + 1 * 0 = 0; omega
  | ⟨1, _⟩ => show win5_3.index t (1 : Fin 2) * 10 + 1 * q.val = q.val; omega

/-- The shift's block is the shift. -/
theorem be_block (c : Dev nD) (t : Fin cfg5.N) (q : Fin 10) :
    (iblk5 V c 4 t : Vec Ideal S1x10 .f32) (ix2 (0 : Fin 1) q) = (V c main_v83 : S1x10.Idx → EReal) (ix2 (0 : Fin 1) q) := by
  obtain ⟨-, -, -, -, -, -, -, -, e0, e1, -⟩ := index_facts t
  show V c main_v83 (((cfg5.win 4).blk t).view.emb (ix2 (0 : Fin 1) q)) = V c main_v83 (ix2 (0 : Fin 1) q)
  refine congrArg _ (funext fun a => Fin.ext ?_)
  match a with
  | ⟨0, _⟩ => show win5_4.index t (0 : Fin 2) * 1 + 1 * 0 = 0; omega
  | ⟨1, _⟩ => show win5_4.index t (1 : Fin 2) * 10 + 1 * q.val = q.val; omega

/-- What point `t` writes back is block `t` of the normalisation of the whole operand. -/
theorem flushed_eq (c : Dev nD) (t : Fin cfg5.N) :
    (dat5 V c).flushed 5 t = ((cfg5.win 5).blk t).view.read (Elt Ideal)
      (Cert.Net.bnApply (V c main_v70_0) (V c main_v72) (V c main_v81) (V c main_v82) (V c main_v83)) := by
  show (cfg5.win 5).cut (grid5.coords t) ((dat5 V c).after 5 t) = _
  rw [after5_5]
  unfold out5_5
  rw [View.canon_unit_zero zero_offsets]
  simp only [View.ld_unit_zero (S := S5000x10) zero_offsets, View.ld_unit_zero (S := S1x10) zero_offsets]
  rw [body_eq]
  obtain ⟨-, -, -, -, -, -, -, -, -, -, e50, e51⟩ := index_facts t
  have hN : t.val < 100 := lt_of_lt_of_eq t.isLt N_5
  funext j
  obtain ⟨p, q, rfl⟩ : ∃ (p : Fin 5000) (q : Fin 10), j = ix2 p q := ⟨j 0, j 1, eq_ix2 j⟩
  have hp : t.val * 5000 + p.val < 500000 := by have := p.isLt; omega
  have hemb : ((cfg5.win 5).blk t).view.emb (ix2 p q) = (ix2 (⟨t.val * 5000 + p.val, hp⟩ : Fin 500000) q : S500000x10.Idx) :=
    funext fun a => Fin.ext (by
      match a with
      | ⟨0, _⟩ => show win5_5.index t (0 : Fin 2) * 5000 + 1 * p.val = t.val * 5000 + p.val; omega
      | ⟨1, _⟩ => show win5_5.index t (1 : Fin 2) * 10 + 1 * q.val = q.val; omega)
  show Cert.Net.bnApply (iblk5 V c 0 t) (iblk5 V c 1 t) (iblk5 V c 2 t) (iblk5 V c 3 t) (iblk5 V c 4 t) (ix2 p q)
    = Cert.Net.bnApply (V c main_v70_0) (V c main_v72) (V c main_v81) (V c main_v82) (V c main_v83) (((cfg5.win 5).blk t).view.emb (ix2 p q))
  rw [hemb]
  refine (bnApply_entry (iblk5 V c 0 t) (iblk5 V c 1 t) (iblk5 V c 2 t) (iblk5 V c 3 t) (iblk5 V c 4 t) p q).trans ?_
  refine Eq.trans ?_ (bnApply_entry (V c main_v70_0) (V c main_v72) (V c main_v81) (V c main_v82) (V c main_v83) ⟨t.val * 5000 + p.val, hp⟩ q).symm
  rw [x_block V c t p q hp, mu_block, inv_block, g_block, be_block]

/-- An entry of the array lies in point `t`'s block when each coordinate is in the block's range on its axis. -/
theorem mem_block (t : Fin cfg5.N) (i : S500000x10.Idx) :
    i ∈ ((cfg5.win 5).blk t).view.set ↔ ∀ a : Fin 2, win5_5.index t a * S5000x10.size a ≤ (i a).val
      ∧ (i a).val < win5_5.index t a * S5000x10.size a + S5000x10.size a := by
  show i ∈ ((View.whole main_v84).slice (win5_5.rect t)).set ↔ _
  rw [View.set_slice_whole, Rect.mem_set_unit]
  exact Iff.rfl

/-- Every entry lies in some block: row `r` in block `r / 5000`. -/
theorem covered (i : S500000x10.Idx) :
    ∃ t : Fin cfg5.N, (cfg5.win 5).flush t = true ∧ i ∈ ((cfg5.win 5).blk t).view.set := by
  have hi0 : (i 0).val < 500000 := (i 0).isLt
  have hi1 : (i 1).val < 10 := (i 1).isLt
  have hN : cfg5.N = 100 := N_5
  have ht : (i 0).val / 5000 < cfg5.N := by rw [hN]; omega
  obtain ⟨-, -, -, -, -, -, -, -, -, -, e50, e51⟩ := index_facts ⟨(i 0).val / 5000, ht⟩
  refine ⟨⟨(i 0).val / 5000, ht⟩, flush5_5 _, ?_⟩
  rw [mem_block]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win5_5.index ⟨(i 0).val / 5000, ht⟩ (1 : Fin 2) * 10 ≤ (i 1).val
      ∧ (i 1).val < win5_5.index ⟨(i 0).val / 5000, ht⟩ (1 : Fin 2) * 10 + 10
    rw [e51]; omega

/-- The array after the run: the normalisation's affine map of the whole operand, entry by entry. -/
theorem out (c : Dev nD) : (Gen.dat5 (F := Ideal) V c).arrAt 5 cfg5.N
    = Cert.Net.bnApply (V c main_v70_0) (V c main_v72) (V c main_v81) (V c main_v82) (V c main_v83) :=
  (dat5 V c).arrAt_eq_of_cover 5 _ (fun t _ => flushed_eq V c t) (covered)

end Cert.KernelIdeal.Bn5

end
-- ==== Proof.Chain3.lean ====
import proofs.«132165_j27702539059447_2_alg».proof.Proof.Gen.KernelIdeal.Frame
import proofs.«132165_j27702539059447_2_alg».proof.Proof.ReadP
import proofs.«132165_j27702539059447_2_alg».proof.Proof.Carry
import proofs.«132165_j27702539059447_2_alg».proof.Proof.NetHost
import proofs.«132165_j27702539059447_2_alg».proof.Proof.Gin4
import proofs.«132165_j27702539059447_2_alg».proof.Proof.Bn5
import proofs.«132165_j27702539059447_2_alg».proof.Proof.RefNet
import proofs.«132165_j27702539059447_2_alg».proof.Proof.NetLaws

/-!
The third layer of the kernel program, from the second layer's result: the same steps, at widths 10, 10, 10.
-/

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)
open Cert.ReferenceIdeal.Read (val_main_v1 val_main_v3 val_main_v13 val_main_v24 val_main_v49 val_main_v59 val_main_v70 val_main_v95 val_main_v105 val_main_v116 val_main_v141 val_main_v154 val_main_v168)

variable (m : (ℓ : Loc nD τ sig) → Buf (Elt Ideal) ℓ) (ρ : Dev nD → PrngReg)

/-! ## The first kernel's operands -/

theorem L3_v1 (c : Dev nD) : (W1 m ρ c (Proc.devRef .tc main_v1) : S8000000.Idx → BitVec 32) = val_main_v1 (F := Ideal) (m ((c : Thread nD τ).loc main_arg1)) := by
  show StableHlo.after hostOps0 (W0 m ρ c) (Proc.devRef .tc main_v1) = _
  after_results <;> rfl

theorem L3_v3 (c : Dev nD) : (W1 m ρ c (Proc.devRef .tc main_v3) : S8000000.Idx → BitVec 32) = val_main_v3 (F := Ideal) (m ((c : Thread nD τ).loc main_arg1)) := by
  show StableHlo.after hostOps0 (W0 m ρ c) (Proc.devRef .tc main_v3) = _
  after_results <;> rfl

theorem V9_agg (c : Dev nD)
    (hprev : (W8 m ρ c (Proc.devRef .tc main_v57) : S500000x10.Idx → EReal) = val_main_v95 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19))) :
    (V9 m ρ c main_v67 : S500000x10.Idx → EReal) = val_main_v105 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19)) := by
  show StableHlo.after hostOps4 (W8 m ρ c) (Proc.devRef .tc main_v67) = _
  after_results_simp
  rw [hprev, W8_main_v1 m ρ c, W8_main_v3 m ρ c, L3_v1 m ρ c, L3_v3 m ρ c]
  rfl

theorem V9_hin (c : Dev nD)
    (hprev : (W8 m ρ c (Proc.devRef .tc main_v57) : S500000x10.Idx → EReal) = val_main_v95 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19))) :
    (V9 m ρ c main_v57 : S500000x10.Idx → EReal) = val_main_v95 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19)) :=
  (W9_main_v57 m ρ c).trans hprev

theorem V9_b1 (c : Dev nD) :
    (V9 m ρ c main_v68 : S1x10.Idx → EReal) = shapeCast S1x10 (m ((c : Thread nD τ).loc main_arg13)) shapeCasts_S10_S1x10 := by
  show StableHlo.after hostOps4 (W8 m ρ c) (Proc.devRef .tc main_v68) = _
  after_results
  rw [W8_main_arg13 m ρ c]
  rfl

theorem V9_b2 (c : Dev nD) :
    (V9 m ρ c main_v69 : S1x10.Idx → EReal) = shapeCast S1x10 (m ((c : Thread nD τ).loc main_arg15)) shapeCasts_S10_S1x10 := by
  show StableHlo.after hostOps4 (W8 m ρ c) (Proc.devRef .tc main_v69) = _
  after_results
  rw [W8_main_arg15 m ρ c]
  rfl

/-! ## What the first kernel leaves -/

theorem gin3_eq (c : Dev nD)
    (hprev : (W8 m ρ c (Proc.devRef .tc main_v57) : S500000x10.Idx → EReal) = val_main_v95 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19))) :
    Cert.Net.gin (V9 m ρ c main_arg12 : S10x10.Idx → EReal) (V9 m ρ c main_v68) (V9 m ρ c main_arg14) (V9 m ρ c main_v69) (V9 m ρ c main_v57) (V9 m ρ c main_v67)
      = val_main_v116 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  rw [V9_agg m ρ c hprev, V9_b1 m ρ c, V9_b2 m ρ c, V9_hin m ρ c hprev,
    show (V9 m ρ c main_arg12 : S10x10.Idx → EReal) = (m ((c : Thread nD τ).loc main_arg12)) from W9_main_arg12 m ρ c,
    show (V9 m ρ c main_arg14 : S10x10.Idx → EReal) = (m ((c : Thread nD τ).loc main_arg14)) from W9_main_arg14 m ρ c]
  exact (Cert.ReferenceIdeal.RefNet.y3 _ _ _ _ _ _ _ _ _ _ _ _ _ _ _ _ _ _).symm

theorem W10_y (c : Dev nD)
    (hprev : (W8 m ρ c (Proc.devRef .tc main_v57) : S500000x10.Idx → EReal) = val_main_v95 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19))) :
    (W10 m ρ c (Proc.devRef .tc main_v70_0) : S500000x10.Idx → EReal) = val_main_v116 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  ((W10_arr m ρ c 6).trans (Cert.KernelIdeal.Gin4.out (V9 m ρ) c)).trans (gin3_eq m ρ c hprev)

theorem W10_s (c : Dev nD)
    (hprev : (W8 m ρ c (Proc.devRef .tc main_v57) : S500000x10.Idx → EReal) = val_main_v95 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19))) :
    (W10 m ρ c (Proc.devRef .tc main_v70_1) : S1x10.Idx → EReal) = Cert.Net.sumRow (val_main_v116 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) :=
  ((W10_arr m ρ c 7).trans (Cert.KernelIdeal.Gin4.sum (V9 m ρ) c)).trans (congrArg Cert.Net.sumRow (gin3_eq m ρ c hprev))

theorem W10_ss (c : Dev nD)
    (hprev : (W8 m ρ c (Proc.devRef .tc main_v57) : S500000x10.Idx → EReal) = val_main_v95 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19))) :
    (W10 m ρ c (Proc.devRef .tc main_v70_2) : S1x10.Idx → EReal) = Cert.Net.sumSqRow (val_main_v116 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) :=
  ((W10_arr m ρ c 8).trans (Cert.KernelIdeal.Gin4.sumsq (V9 m ρ) c)).trans (congrArg Cert.Net.sumSqRow (gin3_eq m ρ c hprev))

/-! ## The second kernel's operands -/

theorem V11_mean (c : Dev nD) :
    (V11 m ρ c main_v72 : S1x10.Idx → EReal)
      = Host.divf (F := Ideal) (φ := .f32) (W10 m ρ c (Proc.devRef .tc main_v70_1)) (broadcastInDim S1x10 ![] bcast_S_S1x10 (constant (F := Ideal) S_ .f32 0x48F42400#32)) := by
  show StableHlo.after hostOps5 (W10 m ρ c) (Proc.devRef .tc main_v72) = _
  after_results_simp <;> rfl

theorem V11_inv (c : Dev nD) :
    (V11 m ρ c main_v81 : S1x10.Idx → EReal)
      = Host.rsqrt (F := Ideal) (φ := .f32) (addf (maximumf
          (subf (Host.divf (F := Ideal) (φ := .f32) (W10 m ρ c (Proc.devRef .tc main_v70_2)) (broadcastInDim S1x10 ![] bcast_S_S1x10 (constant (F := Ideal) S_ .f32 0x48F42400#32)))
            (mulf (Host.divf (F := Ideal) (φ := .f32) (W10 m ρ c (Proc.devRef .tc main_v70_1)) (broadcastInDim S1x10 ![] bcast_S_S1x10 (constant (F := Ideal) S_ .f32 0x48F42400#32)))
              (Host.divf (F := Ideal) (φ := .f32) (W10 m ρ c (Proc.devRef .tc main_v70_1)) (broadcastInDim S1x10 ![] bcast_S_S1x10 (constant (F := Ideal) S_ .f32 0x48F42400#32)))))
          (broadcastInDim S1x10 ![] bcast_S_S1x10 (constant (F := Ideal) S_ .f32 0x00000000#32)))
          (broadcastInDim S1x10 ![] bcast_S_S1x10 (constant (F := Ideal) S_ .f32 0x3727C5AC#32))) := by
  show StableHlo.after hostOps5 (W10 m ρ c) (Proc.devRef .tc main_v81) = _
  after_results <;> rfl

theorem V11_g (c : Dev nD) :
    (V11 m ρ c main_v82 : S1x10.Idx → EReal) = shapeCast S1x10 (m ((c : Thread nD τ).loc main_arg20)) shapeCasts_S10_S1x10 := by
  show StableHlo.after hostOps5 (W10 m ρ c) (Proc.devRef .tc main_v82) = _
  after_results
  rw [W10_main_arg20 m ρ c]
  rfl

theorem V11_be (c : Dev nD) :
    (V11 m ρ c main_v83 : S1x10.Idx → EReal) = shapeCast S1x10 (m ((c : Thread nD τ).loc main_arg21)) shapeCasts_S10_S1x10 := by
  show StableHlo.after hostOps5 (W10 m ρ c) (Proc.devRef .tc main_v83) = _
  after_results
  rw [W10_main_arg21 m ρ c]
  rfl

/-! ## The layer -/

theorem layer3 (c : Dev nD)
    (hprev : (W8 m ρ c (Proc.devRef .tc main_v57) : S500000x10.Idx → EReal) = val_main_v95 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19)))
    (hY : ∀ i, ∃ r : ℝ, val_main_v116 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) i = (r : EReal)) :
    (W12 m ρ c (Proc.devRef .tc main_v84) : S500000x10.Idx → EReal)
      = val_main_v141 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  refine ((W12_arr m ρ c 5).trans (Cert.KernelIdeal.Bn5.out (V11 m ρ) c)).trans ?_
  rw [show (V11 m ρ c main_v70_0 : S500000x10.Idx → EReal) = _ from (W11_main_v70_0 m ρ c).trans (W10_y m ρ c hprev),
    V11_mean m ρ c, V11_inv m ρ c, V11_g m ρ c, V11_be m ρ c, W10_s m ρ c hprev, W10_ss m ρ c hprev]
  refine (Cert.Net.bnApply_host _ _ _ _).trans ?_
  rw [Cert.Net.bnSq_eq_bnDev _ hY]
  exact (Cert.ReferenceIdeal.RefNet.h3 _ _ _ _ _ _ _ _ _ _ _ _ _ _ _ _ _ _ _ _).symm

end Cert.KernelIdeal.Gen

end
-- ==== Proof.Head6.lean ====
import proofs.«132165_j27702539059447_2_alg».proof.Proof.Gen.KernelIdeal.Frame
import proofs.«132165_j27702539059447_2_alg».proof.Proof.Net
import Idealize.ShloMosaic.Lib.Pipeline.Value

/-!
# The dense head's result, as one array

The head takes 8192 rows of 20 entries to 8192 rows of one entry, in 8 blocks of 1024 consecutive rows. Every
block reads the three weight matrices and the three bias rows whole, and sends each of its rows `r` to
`relu (relu (r · w1 + b1) · w2 + b2) · w3 + b3`. Each product is written as a matrix product into a zero
accumulator of operands rounded to half precision first; over the extended reals the rounding changes nothing, so
the product at `(p, q)` is the plain sum `∑ k, x (p, k) · w (k, q)`. A row of the result only sees the same row of
the operand, so block `t` of the result is rows `1024 t … 1024 t + 1023` of the head of the whole operand, and the
8 blocks fill the array: row `r` lies in block `r / 1024`.
-/

noncomputable section

namespace Cert.KernelIdeal.Head6

open Cert.KernelIdeal Cert.KernelIdeal.Gen Idealize.ShloMosaic Idealize.ShloMosaic.TcCoe Idealize.SL.Sem
open Idealize.ShloMosaic.Pipeline (Dat)
open Idealize.ShloMosaic.ValueIdx Cert.Rows

variable (V : (c : Dev nD) → (b : Ref sig .tc) → Buf (Elt Ideal) ((c : Thread nD τ).loc b))

/-- Every access of the body starts at the origin of its buffer. -/
theorem zero_offsets : (![0, 0] : Fin 2 → Nat) = fun _ => 0 := funext fun a => by fin_cases a <;> rfl

/-- The larger of an entry and zero, on every entry of a tile, is `relu` of every row. -/
theorem relu_rows {N C : ℕ} (y : FVec Ideal (S2 N C) .f32) :
    maximumf y (broadcast (S2 N C) (Scalar.ofBits .f32 0x00000000#32)) = mapRows (Ci := C) (C := C) relu y := by
  funext i
  obtain ⟨p, q, rfl⟩ : ∃ (p : Fin N) (q : Fin C), i = ix2 p q := ⟨i 0, i 1, eq_ix2 i⟩
  rfl

/-- The three products contract the left operand's columns with the right operand's rows. -/
theorem plain1 : Cert.LibPlainDot.Plain dot_S1024x20_S20x128_S1024x128_1_0_0_1_n_n := ⟨rfl, rfl, rfl, rfl, rfl, rfl⟩
theorem plain2 : Cert.LibPlainDot.Plain dot_S1024x128_S128x64_S1024x64_1_0_0_1_n_n := ⟨rfl, rfl, rfl, rfl, rfl, rfl⟩
theorem plain3 : Cert.LibPlainDot.Plain dot_S1024x64_S64x1_S1024x1_1_0_0_1_n_n := ⟨rfl, rfl, rfl, rfl, rfl, rfl⟩

/-- The body on one block of rows: the head on every row of the block. -/
theorem body_eq (z : Vec Ideal S1024x20 .f32) (w1 : Vec Ideal S20x128 .f32) (b1 : Vec Ideal S1x128 .f32)
    (w2 : Vec Ideal S128x64 .f32) (b2 : Vec Ideal S1x64 .f32) (w3 : Vec Ideal S64x1 .f32) (b3 : Vec Ideal S1x1 .f32) :
    k6_pay1 z w1 b1 w2 b2 w3 b3 = Cert.Net.head w1 b1 w2 b2 w3 b3 z := by
  unfold k6_pay1
  show unitLin dot_S1024x64_S64x1_S1024x1_1_0_0_1_n_n
      (maximumf (unitLin dot_S1024x128_S128x64_S1024x64_1_0_0_1_n_n
        (maximumf (unitLin dot_S1024x20_S20x128_S1024x128_1_0_0_1_n_n (shapeCast S1024x20 z shapeCasts_S1024x20_S1024x20) w1 b1
            bitsLt_bf16_f32 shapeCasts_S1x128_S1x128 broadcasts_S1x128_S1024x128)
          (broadcast S1024x128 (Scalar.ofBits .f32 0x00000000#32)))
        w2 b2 bitsLt_bf16_f32 shapeCasts_S1x64_S1x64 broadcasts_S1x64_S1024x64)
        (broadcast S1024x64 (Scalar.ofBits .f32 0x00000000#32)))
      w3 b3 bitsLt_bf16_f32 shapeCasts_S1x1_S1x1 broadcasts_S1x1_S1024x1 = _
  rw [shapeCast_self z, unitLin_rows _ plain1, relu_rows, unitLin_rows _ plain2, relu_rows, unitLin_rows _ plain3]
  rfl

/-- Where each block sits at point `t`: the operand's and the result's blocks are the `t`-th block of rows, the
    weights and biases are read whole. -/
theorem index_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- The operand's block at point `t` is rows `1024 t + p` of the operand. -/
theorem z_block (c : Dev nD) (t : Fin cfg6.N) (p : Fin 1024) (k : Fin 20) (h : t.val * 1024 + p.val < 8192) :
    (iblk6 V c 0 t : Vec Ideal S1024x20 .f32) (ix2 p k) = (V c main_v97 : S8192x20.Idx → EReal) (ix2 ⟨t.val * 1024 + p.val, h⟩ k) := by
  obtain ⟨e00, e01, -⟩ := index_facts t
  show V c main_v97 (((cfg6.win 0).blk t).view.emb (ix2 p k)) = V c main_v97 (ix2 ⟨t.val * 1024 + p.val, h⟩ k)
  refine congrArg _ (funext fun a => Fin.ext ?_)
  match a with
  | ⟨0, _⟩ => show win6_0.index t (0 : Fin 2) * 1024 + 1 * p.val = t.val * 1024 + p.val; omega
  | ⟨1, _⟩ => show win6_0.index t (1 : Fin 2) * 20 + 1 * k.val = k.val; omega

/-- The first weight matrix is read whole at every point. -/
theorem w1_block (c : Dev nD) (t : Fin cfg6.N) : (iblk6 V c 1 t : Vec Ideal S20x128 .f32) = (V c main_arg22 : S20x128.Idx → EReal) := by
  obtain ⟨-, -, e0, e1, -⟩ := index_facts t
  funext y
  show V c main_arg22 (((cfg6.win 1).blk t).view.emb y) = V c main_arg22 y
  refine congrArg _ (funext fun a => Fin.ext ?_)
  match a with
  | ⟨0, _⟩ => show win6_1.index t (0 : Fin 2) * 20 + 1 * (y 0).val = (y 0).val; omega
  | ⟨1, _⟩ => show win6_1.index t (1 : Fin 2) * 128 + 1 * (y 1).val = (y 1).val; omega

/-- The first bias row is read whole at every point. -/
theorem b1_block (c : Dev nD) (t : Fin cfg6.N) : (iblk6 V c 2 t : Vec Ideal S1x128 .f32) = (V c main_v98 : S1x128.Idx → EReal) := by
  obtain ⟨-, -, -, -, e0, e1, -⟩ := index_facts t
  funext y
  show V c main_v98 (((cfg6.win 2).blk t).view.emb y) = V c main_v98 y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- The second weight matrix is read whole at every point. -/
theorem w2_block (c : Dev nD) (t : Fin cfg6.N) : (iblk6 V c 3 t : Vec Ideal S128x64 .f32) = (V c main_arg24 : S128x64.Idx → EReal) := by
  obtain ⟨-, -, -, -, -, -, e0, e1, -⟩ := index_facts t
  funext y
  show V c main_arg24 (((cfg6.win 3).blk t).view.emb y) = V c main_arg24 y
  refine congrArg _ (funext fun a => Fin.ext ?_)
  match a with
  | ⟨0, _⟩ => show win6_3.index t (0 : Fin 2) * 128 + 1 * (y 0).val = (y 0).val; omega
  | ⟨1, _⟩ => show win6_3.index t (1 : Fin 2) * 64 + 1 * (y 1).val = (y 1).val; omega

/-- The second bias row is read whole at every point. -/
theorem b2_block (c : Dev nD) (t : Fin cfg6.N) : (iblk6 V c 4 t : Vec Ideal S1x64 .f32) = (V c main_v99 : S1x64.Idx → EReal) := by
  obtain ⟨-, -, -, -, -, -, -, -, e0, e1, -⟩ := index_facts t
  funext y
  show V c main_v99 (((cfg6.win 4).blk t).view.emb y) = V c main_v99 y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 64 + 1 * (y 1).val = (y 1).val; omega

/-- The third weight matrix is read whole at every point. -/
theorem w3_block (c : Dev nD) (t : Fin cfg6.N) : (iblk6 V c 5 t : Vec Ideal S64x1 .f32) = (V c main_arg26 : S64x1.Idx → EReal) := by
  obtain ⟨-, -, -, -, -, -, -, -, -, -, e0, e1, -⟩ := index_facts t
  funext y
  show V c main_arg26 (((cfg6.win 5).blk t).view.emb y) = V c main_arg26 y
  refine congrArg _ (funext fun a => Fin.ext ?_)
  match a with
  | ⟨0, _⟩ => show win6_5.index t (0 : Fin 2) * 64 + 1 * (y 0).val = (y 0).val; omega
  | ⟨1, _⟩ => show win6_5.index t (1 : Fin 2) * 1 + 1 * (y 1).val = (y 1).val; omega

/-- The third bias is read whole at every point. -/
theorem b3_block (c : Dev nD) (t : Fin cfg6.N) : (iblk6 V c 6 t : Vec Ideal S1x1 .f32) = (V c main_v100 : S1x1.Idx → EReal) := by
  obtain ⟨-, -, -, -, -, -, -, -, -, -, -, -, e0, e1, -⟩ := index_facts t
  funext y
  show V c main_v100 (((cfg6.win 6).blk t).view.emb y) = V c main_v100 y
  refine congrArg _ (funext fun a => Fin.ext ?_)
  match a with
  | ⟨0, _⟩ => show win6_6.index t (0 : Fin 2) * 1 + 1 * (y 0).val = (y 0).val; omega
  | ⟨1, _⟩ => show win6_6.index t (1 : Fin 2) * 1 + 1 * (y 1).val = (y 1).val; omega

/-- What point `t` writes back is block `t` of the head of the whole operand. -/
theorem flushed_eq (c : Dev nD) (t : Fin cfg6.N) :
    (dat6 V c).flushed 7 t = ((cfg6.win 7).blk t).view.read (Elt Ideal)
      (Cert.Net.head (V c main_arg22) (V c main_v98) (V c main_arg24) (V c main_v99) (V c main_arg26) (V c main_v100) (V c main_v97)) := by
  show (cfg6.win 7).cut (grid6.coords t) ((dat6 V c).after 7 t) = _
  rw [after6_7]
  unfold out6_7
  rw [View.canon_unit_zero zero_offsets]
  simp only [View.ld_unit_zero (S := S1024x20) zero_offsets, View.ld_unit_zero (S := S20x128) zero_offsets,
    View.ld_unit_zero (S := S1x128) zero_offsets, View.ld_unit_zero (S := S128x64) zero_offsets,
    View.ld_unit_zero (S := S1x64) zero_offsets, View.ld_unit_zero (S := S64x1) zero_offsets,
    View.ld_unit_zero (S := S1x1) zero_offsets]
  rw [body_eq, w1_block, b1_block, w2_block, b2_block, w3_block, b3_block]
  obtain ⟨-, -, -, -, -, -, -, -, -, -, -, -, -, -, e70, e71⟩ := index_facts t
  have hN : t.val < 8 := lt_of_lt_of_eq t.isLt N_6
  have ho : ∀ p : Fin 1024, t.val * 1024 + p.val < 8192 := fun p => by have := p.isLt; omega
  funext j
  obtain ⟨p, q, rfl⟩ : ∃ (p : Fin 1024) (q : Fin 1), j = ix2 p q := ⟨j 0, j 1, eq_ix2 j⟩
  have hemb : ((cfg6.win 7).blk t).view.emb (ix2 p q) = (ix2 (⟨t.val * 1024 + p.val, ho p⟩ : Fin 8192) q : S8192x1.Idx) :=
    funext fun a => Fin.ext (by
      match a with
      | ⟨0, _⟩ => show win6_7.index t (0 : Fin 2) * 1024 + 1 * p.val = t.val * 1024 + p.val; omega
      | ⟨1, _⟩ => show win6_7.index t (1 : Fin 2) * 1 + 1 * q.val = q.val; omega)
  show Cert.Net.head (V c main_arg22) (V c main_v98) (V c main_arg24) (V c main_v99) (V c main_arg26) (V c main_v100) (iblk6 V c 0 t) (ix2 p q)
    = Cert.Net.head (V c main_arg22) (V c main_v98) (V c main_arg24) (V c main_v99) (V c main_arg26) (V c main_v100) (V c main_v97)
        (((cfg6.win 7).blk t).view.emb (ix2 p q))
  rw [hemb]
  unfold Cert.Net.head
  exact mapRows_tile _ (V c main_v97 : S8192x20.Idx → EReal) (iblk6 V c 0 t : Vec Ideal S1024x20 .f32) (t.val * 1024) ho
    (fun p k => z_block V c t p k (ho p)) p q

/-- An entry of the array lies in point `t`'s block when each coordinate is in the block's range on its axis. -/
theorem mem_block (t : Fin cfg6.N) (i : S8192x1.Idx) :
    i ∈ ((cfg6.win 7).blk t).view.set ↔ ∀ a : Fin 2, win6_7.index t a * S1024x1.size a ≤ (i a).val
      ∧ (i a).val < win6_7.index t a * S1024x1.size a + S1024x1.size a := by
  show i ∈ ((View.whole main_v101).slice (win6_7.rect t)).set ↔ _
  rw [View.set_slice_whole, Rect.mem_set_unit]
  exact Iff.rfl

/-- Every entry lies in some block: row `r` in block `r / 1024`. -/
theorem covered (i : S8192x1.Idx) :
    ∃ t : Fin cfg6.N, (cfg6.win 7).flush t = true ∧ i ∈ ((cfg6.win 7).blk t).view.set := by
  have hi0 : (i 0).val < 8192 := (i 0).isLt
  have hi1 : (i 1).val < 1 := (i 1).isLt
  have hN : cfg6.N = 8 := N_6
  have ht : (i 0).val / 1024 < cfg6.N := by rw [hN]; omega
  obtain ⟨-, -, -, -, -, -, -, -, -, -, -, -, -, -, e70, e71⟩ := index_facts ⟨(i 0).val / 1024, ht⟩
  refine ⟨⟨(i 0).val / 1024, ht⟩, flush6_7 _, ?_⟩
  rw [mem_block]
  intro a
  match a with
  | ⟨0, _⟩ =>
    show win6_7.index ⟨(i 0).val / 1024, ht⟩ (0 : Fin 2) * 1024 ≤ (i 0).val
      ∧ (i 0).val < win6_7.index ⟨(i 0).val / 1024, ht⟩ (0 : Fin 2) * 1024 + 1024
    rw [e70]; show (i 0).val / 1024 * 1024 ≤ (i 0).val ∧ (i 0).val < (i 0).val / 1024 * 1024 + 1024; omega
  | ⟨1, _⟩ =>
    show win6_7.index ⟨(i 0).val / 1024, ht⟩ (1 : Fin 2) * 1 ≤ (i 1).val
      ∧ (i 1).val < win6_7.index ⟨(i 0).val / 1024, ht⟩ (1 : Fin 2) * 1 + 1
    rw [e71]; omega

/-- The array after the run: the head of the whole operand, row by row. -/
theorem out (c : Dev nD) : (Gen.dat6 (F := Ideal) V c).arrAt 7 cfg6.N
    = Cert.Net.head (V c main_arg22) (V c main_v98) (V c main_arg24) (V c main_v99) (V c main_arg26) (V c main_v100) (V c main_v97) :=
  (dat6 V c).arrAt_eq_of_cover 7 _ (fun t _ => flushed_eq V c t) (covered)

end Cert.KernelIdeal.Head6

end
-- ==== Proof.ChainOut.lean ====
import proofs.«132165_j27702539059447_2_alg».proof.Proof.Gen.KernelIdeal.Frame
import proofs.«132165_j27702539059447_2_alg».proof.Proof.ReadP
import proofs.«132165_j27702539059447_2_alg».proof.Proof.Carry
import proofs.«132165_j27702539059447_2_alg».proof.Proof.Head6
import proofs.«132165_j27702539059447_2_alg».proof.Proof.RefNet

/-!
The last stage of the kernel program, read against the reference's stages. Once the third layer's normalised rows are
the reference's, the host pools them exactly as the reference does: the rows of each graph summed, the sums divided
by the larger of the graph's row count and one, and the result joined with the graph features. The last kernel then
applies the three dense stages of the head to every pooled row, and that is the reference's result.
-/

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)
open Cert.ReferenceIdeal.Read (val_main_v141 val_main_v153 val_main_v154 val_main_v168)

variable (m : (ℓ : Loc nD τ sig) → Buf (Elt Ideal) ℓ) (ρ : Dev nD → PrngReg)

/-! ## The last kernel's operands -/

/-- The first bias vector enters the kernel as a one-row matrix. -/
theorem V13_v98 (c : Dev nD) :
    (V13 m ρ c main_v98 : S1x128.Idx → EReal) = shapeCast S1x128 (m ((c : Thread nD τ).loc main_arg23)) shapeCasts_S128_S1x128 := by
  show StableHlo.after hostOps6 (W12 m ρ c) (Proc.devRef .tc main_v98) = _
  after_results
  rw [W12_main_arg23 m ρ c]
  rfl

/-- The second bias vector likewise. -/
theorem V13_v99 (c : Dev nD) :
    (V13 m ρ c main_v99 : S1x64.Idx → EReal) = shapeCast S1x64 (m ((c : Thread nD τ).loc main_arg25)) shapeCasts_S64_S1x64 := by
  show StableHlo.after hostOps6 (W12 m ρ c) (Proc.devRef .tc main_v99) = _
  after_results
  rw [W12_main_arg25 m ρ c]
  rfl

/-- The third bias vector likewise. -/
theorem V13_v100 (c : Dev nD) :
    (V13 m ρ c main_v100 : S1x1.Idx → EReal) = shapeCast S1x1 (m ((c : Thread nD τ).loc main_arg27)) shapeCasts_S1_S1x1 := by
  show StableHlo.after hostOps6 (W12 m ρ c) (Proc.devRef .tc main_v100) = _
  after_results
  rw [W12_main_arg27 m ρ c]
  rfl

/-- The pooled rows: the host's operations between the third layer and the head are, one for one, the reference's,
    so from the reference's third layer they give the reference's pooled rows. The two halves that are joined side by
    side are read each by itself: the graph means, and the graph features as they were at the start. -/
theorem V13_v97 (c : Dev nD)
    (h84 : (W12 m ρ c (Proc.devRef .tc main_v84) : S500000x10.Idx → EReal)
      = val_main_v141 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) :
    (V13 m ρ c main_v97 : S8192x20.Idx → EReal)
      = val_main_v154 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  show StableHlo.after hostOps6 (W12 m ρ c) (Proc.devRef .tc main_v97) = _
  after_results_simp
  refine (congrArg₂ (fun (a b : S8192x10.Idx → EReal) =>
      concatenate S8192x20 1 [⟨S8192x10, a⟩, ⟨S8192x10, b⟩] concatenates_S8192x10_S8192x10_S8192x20_d1)
    (?_ : _ = val_main_v153 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))
    (?_ : _ = (m ((c : Thread nD τ).loc main_arg3)))).trans ?_
  · after_results_simp
    rw [h84, W12_main_arg2 m ρ c]
    rfl
  · after_results_simp
    exact W12_main_arg3 m ρ c
  · rfl

/-! ## The result -/

/-- The last kernel's output is the reference's result. -/
theorem out_stage (c : Dev nD)
    (h84 : (W12 m ρ c (Proc.devRef .tc main_v84) : S500000x10.Idx → EReal)
      = val_main_v141 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) :
    (W14 m ρ c (Proc.devRef .tc main_v101) : S8192x1.Idx → EReal)
      = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  refine ((W14_arr m ρ c 7).trans (Cert.KernelIdeal.Head6.out (V13 m ρ) c)).trans ?_
  rw [V13_v97 m ρ c h84, V13_v98 m ρ c, V13_v99 m ρ c, V13_v100 m ρ c,
    show (V13 m ρ c main_arg22 : S20x128.Idx → EReal) = (m ((c : Thread nD τ).loc main_arg22)) from W13_main_arg22 m ρ c,
    show (V13 m ρ c main_arg24 : S128x64.Idx → EReal) = (m ((c : Thread nD τ).loc main_arg24)) from W13_main_arg24 m ρ c,
    show (V13 m ρ c main_arg26 : S64x1.Idx → EReal) = (m ((c : Thread nD τ).loc main_arg26)) from W13_main_arg26 m ρ c]
  exact (Cert.ReferenceIdeal.RefNet.out _ _ _ _ _ _ _ _ _ _ _ _ _ _ _ _ _ _ _ _ _ _ _ _ _ _ _ _).symm

end Cert.KernelIdeal.Gen

end
-- ==== Proof.PreReal.lean ====
import proofs.«132165_j27702539059447_2_alg».proof.Pre_finite_inputs
import Idealize.ShloMosaic.Lib.ReduceAll
import Idealize.ShloMosaic.PureOps.Ideal
import Idealize.ShloMosaic.Lib.ValueIdx

/-!
# Every entry of the float arguments is a real number

The precondition is a conjunction, one conjunct for each float array: the conjunction over all entries `x`
of `|x| < +∞`. Over the extended reals `|x| = max x (-x)` is below `⊤` exactly when `x` is neither `⊥` nor
`⊤`, that is, when `x` is a real number. The conjunction is taken apart once, and one lemma, general in the
shape of the array, reads each conjunct back.
-/

namespace Cert.PreReal

open Idealize.ShloMosaic Idealize.ShloMosaic.ValueIdx Cert.Pre_finite_inputs

instance : Subsingleton S_.Idx := ⟨fun a b => funext fun d => d.elim0⟩

/-- The pattern `0x7F800000` is the positive infinity. -/
theorem inf_eq_top : Ideal.ofBits .f32 0x7F800000#32 = (⊤ : EReal) := by
  simp [Ideal.ofBits, Ideal.ieee]

/-- An extended real whose absolute value is below the positive infinity is a real number. -/
theorem real_of_abs_lt (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- If the conjunction over all entries of `|x| < +inf` holds, every entry of `x` is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ValueIdx.ix0 = 1#1) :
    ∀ i, ∃ r : ℝ, x i = (r : EReal) := by
  intro i
  have hi := Host.reduce_andi_all _ _ hr hu _ e i
  exact real_of_abs_lt (x i) hi

/-- From the precondition, every entry of each of the seventeen arrays the network reads through its
    dense stages and normalisations is a real number. -/
theorem real_of_pre [Cert.Pre_finite_inputs.Facts]
    (a0 : FVec Ideal S500000x5 .f32) (a1 : IVec S2x8000000 32) (a2 : IVec S500000 32) (a3 : FVec Ideal S8192x10 .f32) (a4 : FVec Ideal S5x5 .f32) (a5 : FVec Ideal S5 .f32) (a6 : FVec Ideal S5x5 .f32) (a7 : FVec Ideal S5 .f32) (a8 : FVec Ideal S5x10 .f32) (a9 : FVec Ideal S10 .f32) (a10 : FVec Ideal S10x10 .f32) (a11 : FVec Ideal S10 .f32) (a12 : FVec Ideal S10x10 .f32) (a13 : FVec Ideal S10 .f32) (a14 : FVec Ideal S10x10 .f32) (a15 : FVec Ideal S10 .f32) (a16 : FVec Ideal S5 .f32) (a17 : FVec Ideal S5 .f32) (a18 : FVec Ideal S10 .f32) (a19 : FVec Ideal S10 .f32) (a20 : FVec Ideal S10 .f32) (a21 : FVec Ideal S10 .f32) (a22 : FVec Ideal S20x128 .f32) (a23 : FVec Ideal S128 .f32) (a24 : FVec Ideal S128x64 .f32) (a25 : FVec Ideal S64 .f32) (a26 : FVec Ideal S64x1 .f32) (a27 : FVec Ideal S1 .f32)
    (h : Cert.Pre_finite_inputs.fn (F := Ideal) a0 a1 a2 a3 a4 a5 a6 a7 a8 a9 a10 a11 a12 a13 a14 a15 a16 a17 a18 a19 a20 a21 a22 a23 a24 a25 a26 a27 = fun _ => 1#1) :
    (∀ i, ∃ r : ℝ, a0 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) ∧
      (∀ i, ∃ r : ℝ, a16 i = (r : EReal)) ∧
      (∀ i, ∃ r : ℝ, a17 i = (r : EReal)) ∧
      (∀ i, ∃ r : ℝ, a18 i = (r : EReal)) ∧
      (∀ i, ∃ r : ℝ, a19 i = (r : EReal)) := by
  have h0 := congrFun h ValueIdx.ix0
  dsimp only [fn, fn_part1, fn_part2, fn_part3, fn_part4, fn_part5, fn_part6, fn_part7] at h0
  obtain ⟨h0, e27⟩ := IntOp.andi_eq_one.1 h0
  obtain ⟨h0, e26⟩ := IntOp.andi_eq_one.1 h0
  obtain ⟨h0, e25⟩ := IntOp.andi_eq_one.1 h0
  obtain ⟨h0, e24⟩ := IntOp.andi_eq_one.1 h0
  obtain ⟨h0, e23⟩ := IntOp.andi_eq_one.1 h0
  obtain ⟨h0, e22⟩ := IntOp.andi_eq_one.1 h0
  obtain ⟨h0, e21⟩ := IntOp.andi_eq_one.1 h0
  obtain ⟨h0, e20⟩ := IntOp.andi_eq_one.1 h0
  obtain ⟨h0, e19⟩ := IntOp.andi_eq_one.1 h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨real_of_all a0 _ _ _ e0,
    real_of_all a4 _ _ _ e4,
    real_of_all a5 _ _ _ e5,
    real_of_all a6 _ _ _ e6,
    real_of_all a7 _ _ _ e7,
    real_of_all a8 _ _ _ e8,
    real_of_all a9 _ _ _ e9,
    real_of_all a10 _ _ _ e10,
    real_of_all a11 _ _ _ e11,
    real_of_all a12 _ _ _ e12,
    real_of_all a13 _ _ _ e13,
    real_of_all a14 _ _ _ e14,
    real_of_all a15 _ _ _ e15,
    real_of_all a16 _ _ _ e16,
    real_of_all a17 _ _ _ e17,
    real_of_all a18 _ _ _ e18,
    real_of_all a19 _ _ _ e19⟩

/-- The same for the nine remaining float arrays. -/
theorem real_of_pre_rest [Cert.Pre_finite_inputs.Facts]
    (a0 : FVec Ideal S500000x5 .f32) (a1 : IVec S2x8000000 32) (a2 : IVec S500000 32) (a3 : FVec Ideal S8192x10 .f32) (a4 : FVec Ideal S5x5 .f32) (a5 : FVec Ideal S5 .f32) (a6 : FVec Ideal S5x5 .f32) (a7 : FVec Ideal S5 .f32) (a8 : FVec Ideal S5x10 .f32) (a9 : FVec Ideal S10 .f32) (a10 : FVec Ideal S10x10 .f32) (a11 : FVec Ideal S10 .f32) (a12 : FVec Ideal S10x10 .f32) (a13 : FVec Ideal S10 .f32) (a14 : FVec Ideal S10x10 .f32) (a15 : FVec Ideal S10 .f32) (a16 : FVec Ideal S5 .f32) (a17 : FVec Ideal S5 .f32) (a18 : FVec Ideal S10 .f32) (a19 : FVec Ideal S10 .f32) (a20 : FVec Ideal S10 .f32) (a21 : FVec Ideal S10 .f32) (a22 : FVec Ideal S20x128 .f32) (a23 : FVec Ideal S128 .f32) (a24 : FVec Ideal S128x64 .f32) (a25 : FVec Ideal S64 .f32) (a26 : FVec Ideal S64x1 .f32) (a27 : FVec Ideal S1 .f32)
    (h : Cert.Pre_finite_inputs.fn (F := Ideal) a0 a1 a2 a3 a4 a5 a6 a7 a8 a9 a10 a11 a12 a13 a14 a15 a16 a17 a18 a19 a20 a21 a22 a23 a24 a25 a26 a27 = fun _ => 1#1) :
    (∀ i, ∃ r : ℝ, a3 i = (r : EReal)) ∧
      (∀ i, ∃ r : ℝ, a20 i = (r : EReal)) ∧
      (∀ i, ∃ r : ℝ, a21 i = (r : EReal)) ∧
      (∀ i, ∃ r : ℝ, a22 i = (r : EReal)) ∧
      (∀ i, ∃ r : ℝ, a23 i = (r : EReal)) ∧
      (∀ i, ∃ r : ℝ, a24 i = (r : EReal)) ∧
      (∀ i, ∃ r : ℝ, a25 i = (r : EReal)) ∧
      (∀ i, ∃ r : ℝ, a26 i = (r : EReal)) ∧
      (∀ i, ∃ r : ℝ, a27 i = (r : EReal)) := by
  have h0 := congrFun h ValueIdx.ix0
  dsimp only [fn, fn_part1, fn_part2, fn_part3, fn_part4, fn_part5, fn_part6, fn_part7] at h0
  obtain ⟨h0, e27⟩ := IntOp.andi_eq_one.1 h0
  obtain ⟨h0, e26⟩ := IntOp.andi_eq_one.1 h0
  obtain ⟨h0, e25⟩ := IntOp.andi_eq_one.1 h0
  obtain ⟨h0, e24⟩ := IntOp.andi_eq_one.1 h0
  obtain ⟨h0, e23⟩ := IntOp.andi_eq_one.1 h0
  obtain ⟨h0, e22⟩ := IntOp.andi_eq_one.1 h0
  obtain ⟨h0, e21⟩ := IntOp.andi_eq_one.1 h0
  obtain ⟨h0, e20⟩ := IntOp.andi_eq_one.1 h0
  obtain ⟨h0, e19⟩ := IntOp.andi_eq_one.1 h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨real_of_all a3 _ _ _ e3,
    real_of_all a20 _ _ _ e20,
    real_of_all a21 _ _ _ e21,
    real_of_all a22 _ _ _ e22,
    real_of_all a23 _ _ _ e23,
    real_of_all a24 _ _ _ e24,
    real_of_all a25 _ _ _ e25,
    real_of_all a26 _ _ _ e26,
    real_of_all a27 _ _ _ e27⟩

end Cert.PreReal
-- ==== Proof.LibScatterSet.lean ====
import Idealize.ShloMosaic.PureOps
import Idealize.ShloMosaic.Lib.ValueIdx

namespace Cert.Lib

open Idealize.ShloMosaic Idealize.ShloMosaic.ValueIdx

/-! ## A left fold of pointwise overwrites, read at one position -/

/-- A left fold whose every step leaves position `i` alone leaves the accumulator's value at `i`. -/
theorem foldl_apply_of_keep {β ι γ : Type} (step : (ι → γ) → β → (ι → γ)) (i : ι) (l : List β)
    (h : ∀ n ∈ l, ∀ r, step r n i = r i) (r : ι → γ) : l.foldl step r i = r i := by
  induction l generalizing r with
  | nil => rfl
  | cons n l ih =>
    rw [List.foldl_cons, ih (fun m hm => h m (List.mem_cons_of_mem _ hm)), h n List.mem_cons_self]

section General
variable {s si u : Shape} {α : Type} {w : Nat}

/-- An update index lands on `i` exactly when, on every axis, its start plus its window coordinate is
    `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro e a
      have h1 := congrArg (fun f => (f a).val) e
      have h2 := h a
      simp only at h1
      omega
    · intro e
      funext a
      apply Fin.ext
      have h1 := e a
      have h2 := h a
      simp only
      omega
  · next h =>
    constructor
    · intro e; cases e
    · intro e
      exact absurd (fun a => by have h1 := e a; have h2 := (i a).isLt; omega) h

/-- A position no update index lands on keeps the operand's value. -/
theorem scatter_set_miss (d : ScatterDims s si u) (x : s.Idx → α) (idx : IVec si w) (upd : u.Idx → α)
    (i : s.Idx) (hmiss : ∀ j, d.resultIdx? j idx ≠ some i) : Host.scatter d (fun _ b => b) x idx upd i = x i := by
  unfold Host.scatter
  refine foldl_apply_of_keep _ i _ (fun n _ r => ?_) x
  generalize ho : d.resultIdx? (u.rowMajor.symm n) idx = o
  cases o with
  | none => rfl
  | some i0 => exact if_neg (fun e => hmiss _ (e ▸ ho))

/-- When the body returns the update and exactly one update index lands on a position, the result there is that
    update's value. -/
theorem scatter_set_hit (d : ScatterDims s si u) (x : s.Idx → α) (idx : IVec si w) (upd : u.Idx → α)
    (i : s.Idx) (j₀ : u.Idx) (h₀ : d.resultIdx? j₀ idx = some i) (huniq : ∀ j, d.resultIdx? j idx = some i → j = j₀) :
    Host.scatter d (fun _ b => b) x idx upd i = upd j₀ := by
  unfold Host.scatter
  have hmem : u.rowMajor j₀ ∈ List.finRange u.numel := List.mem_finRange _
  have hnd := List.nodup_finRange u.numel
  generalize List.finRange u.numel = l at hmem hnd
  induction l generalizing x with
  | nil => cases hmem
  | cons n l ih =>
    rw [List.foldl_cons]
    rw [List.nodup_cons] at hnd
    by_cases hn : n = u.rowMajor j₀
    · subst hn
      rw [foldl_apply_of_keep _ i l (fun m hm r => ?_)]
      · simp only [Equiv.symm_apply_apply, h₀, if_true]
      · generalize ho : d.resultIdx? (u.rowMajor.symm m) idx = o
        cases o with
        | none => rfl
        | some i0 =>
          refine if_neg (fun e => ?_)
          subst e
          have := huniq _ ho
          exact hnd.1 (by rw [← this, Equiv.apply_symm_apply]; exact hm)
    · rcases List.mem_cons.1 hmem with e | hm
      · exact absurd e.symm hn
      · exact ih _ hm hnd.2

end General

/-! ## A block of channels written into `[16, 64, 256, 256]` at a run-time first channel -/

section Channels

/-- The dimension numbers of writing a `[16, C, 256, 256]` block into a `[16, 64, 256, 256]` array at one scatter
    index that names the first channel: every update axis is a window axis, nothing is inserted, and the one
    component of the start index goes to axis 1. -/
abbrev chanDims (C : Nat)
    (wf : ScatterDims.WF ⟨4, ![16, 64, 256, 256]⟩ ⟨1, ![1]⟩ ⟨4, ![16, C, 256, 256]⟩ [0, 1, 2, 3] [] [1] 0) :
    ScatterDims ⟨4, ![16, 64, 256, 256]⟩ ⟨1, ![1]⟩ ⟨4, ![16, C, 256, 256]⟩ :=
  ⟨[0, 1, 2, 3], [], [1], 0, wf⟩

/-- The window coordinate on every axis is the update index's own coordinate. -/
theorem chanDims_window (C : Nat)
    (wf : ScatterDims.WF ⟨4, ![16, 64, 256, 256]⟩ ⟨1, ![1]⟩ ⟨4, ![16, C, 256, 256]⟩ [0, 1, 2, 3] [] [1] 0)
    (j : (⟨4, ![16, C, 256, 256]⟩ : Shape).Idx) (a : Fin 4) : (chanDims C wf).window j a = (j a).val := by
  have hk : ∀ a : Fin 4, a ∈ Shape.kept ⟨4, ![16, 64, 256, 256]⟩ [] := by decide
  unfold ScatterDims.window
  rw [dif_pos (show a ∈ (chanDims C wf).sKept from hk a)]
  match a with
  | ⟨0, _⟩ => rfl
  | ⟨1, _⟩ => rfl
  | ⟨2, _⟩ => rfl
  | ⟨3, _⟩ => rfl

/-- The window starts at the scatter index's value on the channel axis and at `0` on the others. -/
theorem chanDims_start (C : Nat)
    (wf : ScatterDims.WF ⟨4, ![16, 64, 256, 256]⟩ ⟨1, ![1]⟩ ⟨4, ![16, C, 256, 256]⟩ [0, 1, 2, 3] [] [1] 0)
    (j : (⟨4, ![16, C, 256, 256]⟩ : Shape).Idx) {w : Nat} (idx : IVec ⟨1, ![1]⟩ w) (a : Fin 4) :
    (chanDims C wf).start j idx a = if a = 1 then (idx (ix1 0)).toInt else 0 := by
  unfold ScatterDims.start
  by_cases ha : a = 1
  · subst ha
    rw [dif_pos (show (1 : Fin 4) ∈ (chanDims C wf).scatterDimsToOperandDims from List.mem_singleton.mpr rfl),
      if_pos rfl]
    have hsi : (chanDims C wf).siIdx j ⟨List.idxOf (1 : Fin 4) (chanDims C wf).scatterDimsToOperandDims,
        List.idxOf_lt_length_iff.2 (List.mem_singleton.mpr rfl)⟩ = ix1 0 := by
      funext b; refine Fin.ext ?_
      match b with
      | ⟨0, _⟩ => rfl
    rw [hsi]
  · rw [dif_neg (show a ∉ (chanDims C wf).scatterDimsToOperandDims from fun h => ha (List.mem_singleton.mp h)),
      if_neg ha]

/-- An update index lands on `(n, ch, h, w)` exactly when its coordinates are `n`, `ch - k`, `h`, `w`, `k` the first
    channel the scatter index names. -/
theorem chanDims_resultIdx?_iff (C : Nat)
    (wf : ScatterDims.WF ⟨4, ![16, 64, 256, 256]⟩ ⟨1, ![1]⟩ ⟨4, ![16, C, 256, 256]⟩ [0, 1, 2, 3] [] [1] 0)
    {v : Nat} (idx : IVec ⟨1, ![1]⟩ v) (k : Nat) (hidx : (idx (ix1 0)).toInt = (k : Int))
    (j : (⟨4, ![16, C, 256, 256]⟩ : Shape).Idx) (n : Fin 16) (ch : Fin 64) (h : Fin 256) (w : Fin 256) :
    (chanDims C wf).resultIdx? j idx = some (ix4 n ch h w) ↔
      (j 0).val = n.val ∧ k + (j 1).val = ch.val ∧ (j 2).val = h.val ∧ (j 3).val = w.val := by
  rw [resultIdx?_eq_some_iff]
  have key : ∀ a : Fin 4, (chanDims C wf).start j idx a + ((chanDims C wf).window j a : Int)
      = (if a = 1 then (k : Int) else 0) + ((j a).val : Int) := by
    intro a; rw [chanDims_start, chanDims_window, hidx]
  constructor
  · intro e
    have e0 : (0 : Int) + ((j 0).val : Int) = (n.val : Int) := (key 0).symm.trans (e (0 : Fin 4))
    have e1 : (k : Int) + ((j 1).val : Int) = (ch.val : Int) := (key 1).symm.trans (e (1 : Fin 4))
    have e2 : (0 : Int) + ((j 2).val : Int) = (h.val : Int) := (key 2).symm.trans (e (2 : Fin 4))
    have e3 : (0 : Int) + ((j 3).val : Int) = (w.val : Int) := (key 3).symm.trans (e (3 : Fin 4))
    omega
  · rintro ⟨e0, e1, e2, e3⟩ a
    refine (key a).trans ?_
    match a with
    | ⟨0, _⟩ => show (0 : Int) + ((j 0).val : Int) = (n.val : Int); omega
    | ⟨1, _⟩ => show (k : Int) + ((j 1).val : Int) = (ch.val : Int); omega
    | ⟨2, _⟩ => show (0 : Int) + ((j 2).val : Int) = (h.val : Int); omega
    | ⟨3, _⟩ => show (0 : Int) + ((j 3).val : Int) = (w.val : Int); omega

/-- THE SCATTER READ AT `(n, ch, h, w)`: inside the written block of channels `[k, k + C)` it is the update at
    channel `ch - k`, outside it the operand. -/
theorem scatter_channels_apply {α : Type} (C : Nat)
    (wf : ScatterDims.WF ⟨4, ![16, 64, 256, 256]⟩ ⟨1, ![1]⟩ ⟨4, ![16, C, 256, 256]⟩ [0, 1, 2, 3] [] [1] 0)
    (x : (⟨4, ![16, 64, 256, 256]⟩ : Shape).Idx → α) (idx : IVec ⟨1, ![1]⟩ 32) (k : Nat)
    (hidx : (idx (ix1 0)).toInt = (k : Int)) (hk : k + C ≤ 64)
    (upd : (⟨4, ![16, C, 256, 256]⟩ : Shape).Idx → α) (n : Fin 16) (ch : Fin 64) (h : Fin 256) (w : Fin 256) :
    Host.scatter (⟨[0, 1, 2, 3], [], [1], 0, wf⟩ : ScatterDims ⟨4, ![16, 64, 256, 256]⟩ ⟨1, ![1]⟩ ⟨4, ![16, C, 256, 256]⟩)
        (fun _ b => b) x idx upd (ix4 n ch h w)
      = if hc : k ≤ ch.val ∧ ch.val < k + C then upd (ix4 n ⟨ch.val - k, by omega⟩ h w) else x (ix4 n ch h w) := by
  have hiff := fun j => chanDims_resultIdx?_iff C wf idx k hidx j n ch h w
  split
  · next hc =>
    refine scatter_set_hit (chanDims C wf) x idx upd _ _ ((hiff _).2 ⟨rfl, ?_, rfl, rfl⟩) (fun j hj => ?_)
    · show k + (ch.val - k) = ch.val
      omega
    · obtain ⟨e0, e1, e2, e3⟩ := (hiff j).1 hj
      funext a
      refine Fin.ext ?_
      match a with
      | ⟨0, _⟩ => exact e0
      | ⟨1, _⟩ => show (j 1).val = ch.val - k; omega
      | ⟨2, _⟩ => exact e2
      | ⟨3, _⟩ => exact e3
  · next hc =>
    refine scatter_set_miss (chanDims C wf) x idx upd _ (fun j hj => hc ?_)
    obtain ⟨e0, e1, e2, e3⟩ := (hiff j).1 hj
    have hj1 : (j 1).val < C := (j 1).isLt
    omega

end Channels

end Cert.Lib
-- ==== Proof.LibScatterRows.lean ====
import proofs.«132165_j27702539059447_2_alg».proof.Proof.LibScatterSet

/-!
# An accumulating scatter of rows, read at an index

An `[N, C]` operand receives the rows of an `[E, C]` array of updates: row `e` of the updates is added into the operand's
row named by the `e`-th scatter index, an entry of an `[E, 1]` array of integer words read signed. Several rows may name
the same operand row, and a row whose index is negative or at least `N` lands nowhere.

For the dimension numbers of such a scatter (update axis 1 the window axis, operand axis 0 inserted, the one component
of the start index sent to operand axis 0, the index vector on axis 1 of the scatter indices):

* update index `j` lands on `(n, c)` exactly when the scatter index of row `j 0` is `n` and `j 1 = c`
  (`rows_resultIdx?_iff`);
* at the ideal instance the result at `(n, c)` is the operand there plus the sum, over the rows `e` whose scatter index
  is `n`, of the update at `(e, c)` (`scatterAdd_rows_apply`, `host_scatterAdd_rows_apply`).

The sizes `N`, `C`, `E` and the index width are arbitrary.
-/

open scoped BigOperators

namespace Cert.LibScatterRows

open Idealize.ShloMosaic Idealize.ShloMosaic.ValueIdx

/-! ## The literal dimension numbers of a row scatter -/

section Literal
variable {N C E : Nat}

/-- The dimension numbers of adding the rows of an `[E, C]` array of updates into an `[N, C]` operand at `E` scatter
    indices held in an `[E, 1]` array: update axis 1 is the window axis, operand axis 0 is inserted, and the one
    component of each start index goes to operand axis 0. -/
abbrev rowDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  ⟨[1], [0], [0], 1, wf⟩

/-- The operand's axes that are not inserted: the column axis alone. -/
theorem rowDims_sKept (wf : ScatterDims.WF ⟨2, ![N, C]⟩ ⟨2, ![E, 1]⟩ ⟨2, ![E, C]⟩ [1] [0] [0] 1) :
    (rowDims N C E wf).sKept = [(1 : Fin 2)] :=
  (by decide : (List.finRange 2).filter (fun a => a ∉ [(0 : Fin 2)]) = [1])

/-- The window coordinate on the row axis is `0`: that axis is inserted. -/
theorem rowDims_window_row (wf : ScatterDims.WF ⟨2, ![N, C]⟩ ⟨2, ![E, 1]⟩ ⟨2, ![E, C]⟩ [1] [0] [0] 1)
    (j : (⟨2, ![E, C]⟩ : Shape).Idx) : (rowDims N C E wf).window j 0 = 0 := by
  unfold ScatterDims.window
  refine dif_neg ?_
  rw [rowDims_sKept]
  exact (by decide : (0 : Fin 2) ∉ [(1 : Fin 2)])

/-- The window coordinate on the column axis is the update index's column. -/
theorem rowDims_window_col (wf : ScatterDims.WF ⟨2, ![N, C]⟩ ⟨2, ![E, 1]⟩ ⟨2, ![E, C]⟩ [1] [0] [0] 1)
    (j : (⟨2, ![E, C]⟩ : Shape).Idx) : (rowDims N C E wf).window j 1 = (j 1).val := by
  unfold ScatterDims.window
  refine (dif_pos ?_).trans rfl
  rw [rowDims_sKept]
  exact List.mem_singleton.mpr rfl

/-- On the row axis the window starts at the row the update's scatter index names, read signed. -/
theorem rowDims_start_row (wf : ScatterDims.WF ⟨2, ![N, C]⟩ ⟨2, ![E, 1]⟩ ⟨2, ![E, C]⟩ [1] [0] [0] 1)
    (j : (⟨2, ![E, C]⟩ : Shape).Idx) {w : Nat} (idx : IVec ⟨2, ![E, 1]⟩ w) :
    (rowDims N C E wf).start j idx 0 = (idx (ix2 ⟨(j 0).val, (j 0).isLt⟩ (0 : Fin 1))).toInt := by
  unfold ScatterDims.start
  have hmem : (0 : Fin 2) ∈ (rowDims N C E wf).scatterDimsToOperandDims := List.mem_singleton.mpr rfl
  refine (dif_pos hmem).trans ?_
  have hsi : (rowDims N C E wf).siIdx j ⟨List.idxOf (0 : Fin 2) (rowDims N C E wf).scatterDimsToOperandDims,
      List.idxOf_lt_length_iff.2 hmem⟩ = ix2 ⟨(j 0).val, (j 0).isLt⟩ (0 : Fin 1) := by
    funext b; refine Fin.ext ?_
    match b with
    | ⟨0, _⟩ => rfl
    | ⟨1, _⟩ => rfl
  exact congrArg (fun i => (idx i).toInt) hsi

/-- On the column axis the window starts at `0`: no component of the start index goes there. -/
theorem rowDims_start_col (wf : ScatterDims.WF ⟨2, ![N, C]⟩ ⟨2, ![E, 1]⟩ ⟨2, ![E, C]⟩ [1] [0] [0] 1)
    (j : (⟨2, ![E, C]⟩ : Shape).Idx) {w : Nat} (idx : IVec ⟨2, ![E, 1]⟩ w) :
    (rowDims N C E wf).start j idx 1 = 0 := by
  unfold ScatterDims.start
  refine dif_neg (fun h => ?_)
  exact absurd (List.mem_singleton.mp h) (by decide : ¬ (1 : Fin 2) = 0)

/-- An update index lands on `(n, c)` exactly when its row's scatter index, read signed, is `n` and its column is
    `c`. -/
theorem rowDims_resultIdx?_iff (wf : ScatterDims.WF ⟨2, ![N, C]⟩ ⟨2, ![E, 1]⟩ ⟨2, ![E, C]⟩ [1] [0] [0] 1)
    {w : Nat} (idx : IVec ⟨2, ![E, 1]⟩ w) (j : (⟨2, ![E, C]⟩ : Shape).Idx) (n : Fin N) (c : Fin C) :
    (rowDims N C E wf).resultIdx? j idx = some (ix2 n c) ↔
      (idx (ix2 ⟨(j 0).val, (j 0).isLt⟩ (0 : Fin 1))).toInt = (n.val : Int) ∧ (j 1).val = c.val := by
  rw [Cert.Lib.resultIdx?_eq_some_iff]
  have k0 : (rowDims N C E wf).start j idx 0 + ((rowDims N C E wf).window j 0 : Int)
      = (idx (ix2 ⟨(j 0).val, (j 0).isLt⟩ (0 : Fin 1))).toInt := by
    rw [rowDims_start_row, rowDims_window_row]; simp
  have k1 : (rowDims N C E wf).start j idx 1 + ((rowDims N C E wf).window j 1 : Int) = ((j 1).val : Int) := by
    rw [rowDims_start_col, rowDims_window_col]; simp
  constructor
  · intro e
    have e0 : (idx (ix2 ⟨(j 0).val, (j 0).isLt⟩ (0 : Fin 1))).toInt = (n.val : Int) := k0.symm.trans (e (0 : Fin 2))
    have e1 : ((j 1).val : Int) = (c.val : Int) := k1.symm.trans (e (1 : Fin 2))
    exact ⟨e0, by exact_mod_cast e1⟩
  · rintro ⟨e0, e1⟩ a
    match a with
    | ⟨0, _⟩ => exact k0.trans e0
    | ⟨1, _⟩ =>
      refine k1.trans ?_
      show ((j 1).val : Int) = (c.val : Int)
      exact_mod_cast e1

end Literal

/-! ## Any dimension numbers with those four lists -/

section Rows
variable {N C E : Nat}

/-- The dimension numbers `d` are those of a row scatter: update axis 1 the window axis, operand axis 0 inserted,
    the start index's one component sent to operand axis 0, and the index vector on axis 1 of the scatter
    indices. -/
structure Rows (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  iv : d.indexVectorDim = 1

/-- For a row scatter, update index `j` lands on `(n, c)` exactly when the scatter index of row `j 0`, read
    signed, is `n` and `j`'s column is `c`. -/
theorem rows_resultIdx?_iff (d : ScatterDims ⟨2, ![N, C]⟩ ⟨2, ![E, 1]⟩ ⟨2, ![E, C]⟩) (h : Rows d) {w : Nat}
    (idx : IVec ⟨2, ![E, 1]⟩ w) (j : (⟨2, ![E, C]⟩ : Shape).Idx) (n : Fin N) (c : Fin C) :
    d.resultIdx? j idx = some (ix2 n c) ↔
      (idx (ix2 ⟨(j 0).val, (j 0).isLt⟩ (0 : Fin 1))).toInt = (n.val : Int) ∧ (j 1).val = c.val := by
  obtain ⟨uw, iw, sd, iv, wf⟩ := d
  obtain ⟨h1, h2, h3, h4⟩ := h
  dsimp only at h1 h2 h3 h4
  subst h1 h2 h3 h4
  exact rowDims_resultIdx?_iff wf idx j n c

/-- THE ACCUMULATING ROW SCATTER READ AT `(n, c)`: the operand there plus the sum, over the rows `e` of the updates
    whose scatter index read signed is `n`, of the update at `(e, c)`. Rows whose index is negative or at least
    `N` contribute to no position. -/
theorem scatterAdd_rows_apply (d : ScatterDims ⟨2, ![N, C]⟩ ⟨2, ![E, 1]⟩ ⟨2, ![E, C]⟩) (h : Rows d) {w : Nat}
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  symm
  refine Finset.sum_bij (fun e _ => ix2 e c) ?_ ?_ ?_ ?_
  · intro e he
    rw [Finset.mem_filter] at he ⊢
    exact ⟨Finset.mem_univ _, (rows_resultIdx?_iff d h idx (ix2 e c) n c).2 ⟨he.2, rfl⟩⟩
  · intro e₁ _ e₂ _ heq
    exact congrFun heq (0 : Fin 2)
  · intro j hj
    rw [Finset.mem_filter] at hj
    obtain ⟨h0, h1⟩ := (rows_resultIdx?_iff d h idx j n c).1 hj.2
    refine ⟨⟨(j 0).val, (j 0).isLt⟩, Finset.mem_filter.2 ⟨Finset.mem_univ _, h0⟩, ?_⟩
    funext a
    match a with
    | ⟨0, _⟩ => rfl
    | ⟨1, _⟩ => exact Fin.ext h1.symm
  · intro e _
    rfl

/-- The same reading of the host's accumulating scatter operation at the ideal instance. -/
theorem host_scatterAdd_rows_apply (d : ScatterDims ⟨2, ![N, C]⟩ ⟨2, ![E, 1]⟩ ⟨2, ![E, C]⟩) (h : Rows d) {w : Nat}
    (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (φ := .f32) d x idx upd (ix2 n c)
      = x (ix2 n c) + ∑ e ∈ Finset.univ.filter (fun e : Fin E => (idx (ix2 e (0 : Fin 1))).toInt = (n.val : Int)),
          upd (ix2 e c) :=
  scatterAdd_rows_apply d h x idx upd n c

end Rows

end Cert.LibScatterRows
-- ==== Proof.RefReal.lean ====
import proofs.«132165_j27702539059447_2_alg».proof.Proof.ReadP
import proofs.«132165_j27702539059447_2_alg».proof.Proof.LibScatterRows
import proofs.«132165_j27702539059447_2_alg».proof.Proof.LibBatchNormFold

/-!
# The neighbour sums of real features are real

A layer's neighbour sums are an accumulating scatter of rows into an array of zeros: row `e` of the updates,
itself a row of the features picked out by an index, is added into the row the `e`-th scatter index names.
Every entry of the result is the operand's entry plus a finite sum of entries of the updates, and every entry
of the updates is an entry of the features. So the neighbour sums of real features are real, whatever the
index words are.
-/

noncomputable section

namespace Cert.ReferenceIdeal.RefReal

open Cert.ReferenceIdeal Cert.ReferenceIdeal.Gen Idealize.ShloMosaic Idealize.ShloMosaic.ValueIdx
open scoped BigOperators

/-- A sum of two reals is a real. -/
theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

/-- A finite sum of reals is a real. -/
theorem real_sum {α : Type} (s : Finset α) (f : α → EReal) (hf : ∀ a, ∃ r : ℝ, f a = (r : EReal)) :
    ∃ r : ℝ, ∑ a ∈ s, f a = (r : EReal) := by
  choose g hg using hf
  exact ⟨∑ a ∈ s, g a, by rw [LibBatchNormFold.coe_sum]; exact Finset.sum_congr rfl fun a _ => hg a⟩

/-- Every entry of a gather is an entry of its operand: a gather of a real array is real. -/
theorem gather_real {s si t : Shape} {w : ℕ} (d : GatherDims s si t) (x : s.Idx → EReal) (idx : IVec si w)
    (hx : ∀ i, ∃ r : ℝ, x i = (r : EReal)) : ∀ j, ∃ r : ℝ, Host.gather d x idx j = (r : EReal) :=
  fun j => hx (d.operandIdx j idx)

/-- An accumulating scatter of real rows into a real operand is real: each entry is the operand's plus a finite
    sum of entries of the updates. -/
theorem scatterAdd_real {N C E w : ℕ} (d : ScatterDims ⟨2, ![N, C]⟩ ⟨2, ![E, 1]⟩ ⟨2, ![E, C]⟩)
    (h : Cert.LibScatterRows.Rows d) (x : FVec Ideal ⟨2, ![N, C]⟩ .f32) (idx : IVec ⟨2, ![E, 1]⟩ w)
    (upd : FVec Ideal ⟨2, ![E, C]⟩ .f32) (hx : ∀ i, ∃ r : ℝ, x i = (r : EReal))
    (hu : ∀ i, ∃ r : ℝ, upd i = (r : EReal)) :
    ∀ i, ∃ r : ℝ, Host.scatterAdd (F := Ideal) (φ := .f32) d x idx upd i = (r : EReal) := by
  intro i
  obtain ⟨n, c, rfl⟩ : ∃ (n : Fin N) (c : Fin C), i = ix2 n c := ⟨i 0, i 1, eq_ix2 i⟩
  rw [Cert.LibScatterRows.host_scatterAdd_rows_apply d h]
  exact real_add (hx _) (real_sum _ _ fun e => hu _)

/-- The zero word denotes the real `0`. -/
theorem zero_word_real : ∃ r : ℝ, FloatOps.ofBits (F := Ideal) .f32 0x00000000#32 = (r : EReal) :=
  ⟨0, by rw [Ideal.ofBits_def, Ideal.ofBits_zero_f32, EReal.coe_zero]⟩

/-- The first layer's neighbour sums of real features are real. -/
theorem v13_real (x0 : (⟨S500000x5, .f32⟩ : BufTy).Contents (Elt Ideal))
    (x1 : (⟨S2x8000000, .i32⟩ : BufTy).Contents (Elt Ideal)) (hx0 : ∀ i, ∃ r : ℝ, x0 i = (r : EReal)) :
    ∀ i, ∃ r : ℝ, Read.val_main_v13 (F := Ideal) x0 x1 i = (r : EReal) := by
  have hz : ∀ i, ∃ r : ℝ, Read.val_main_v11 (F := Ideal) i = (r : EReal) := fun i => by
    rw [Read.val_main_v11_apply, Read.val_main_cst_apply]; exact zero_word_real
  have hg : ∀ j, ∃ r : ℝ, Read.val_main_v10 (F := Ideal) x0 x1 j = (r : EReal) := fun j => by
    unfold Read.val_main_v10; exact gather_real _ _ _ hx0 j
  unfold Read.val_main_v13
  exact scatterAdd_real scatter_S500000x5_S8000000x1_S8000000x5_1_0_0_1 ⟨rfl, rfl, rfl, rfl⟩ _ _ _ hz hg

/-- The second layer's neighbour sums are real when the first layer's normalised output is. -/
theorem v59_real (x0 : (⟨S500000x5, .f32⟩ : BufTy).Contents (Elt Ideal))
    (x1 : (⟨S2x8000000, .i32⟩ : BufTy).Contents (Elt Ideal)) (x4 : (⟨S5x5, .f32⟩ : BufTy).Contents (Elt Ideal))
    (x5 : (⟨S5, .f32⟩ : BufTy).Contents (Elt Ideal)) (x6 : (⟨S5x5, .f32⟩ : BufTy).Contents (Elt Ideal))
    (x7 x16 x17 : (⟨S5, .f32⟩ : BufTy).Contents (Elt Ideal))
    (h49 : ∀ i, ∃ r : ℝ, Read.val_main_v49 (F := Ideal) x0 x1 x4 x5 x6 x7 x16 x17 i = (r : EReal)) :
    ∀ i, ∃ r : ℝ, Read.val_main_v59 (F := Ideal) x0 x1 x4 x5 x6 x7 x16 x17 i = (r : EReal) := by
  have hz : ∀ i, ∃ r : ℝ, Read.val_main_v57 (F := Ideal) i = (r : EReal) := fun i => by
    rw [Read.val_main_v57_apply, Read.val_main_cst_8_apply]; exact zero_word_real
  have hg : ∀ j, ∃ r : ℝ, Read.val_main_v56 (F := Ideal) x0 x1 x4 x5 x6 x7 x16 x17 j = (r : EReal) := fun j => by
    unfold Read.val_main_v56; exact gather_real _ _ _ h49 j
  unfold Read.val_main_v59
  exact scatterAdd_real scatter_S500000x5_S8000000x1_S8000000x5_1_0_0_1 ⟨rfl, rfl, rfl, rfl⟩ _ _ _ hz hg

/-- The third layer's neighbour sums are real when the second layer's normalised output is. -/
theorem v105_real (x0 : (⟨S500000x5, .f32⟩ : BufTy).Contents (Elt Ideal))
    (x1 : (⟨S2x8000000, .i32⟩ : BufTy).Contents (Elt Ideal)) (x4 : (⟨S5x5, .f32⟩ : BufTy).Contents (Elt Ideal))
    (x5 : (⟨S5, .f32⟩ : BufTy).Contents (Elt Ideal)) (x6 : (⟨S5x5, .f32⟩ : BufTy).Contents (Elt Ideal))
    (x7 : (⟨S5, .f32⟩ : BufTy).Contents (Elt Ideal)) (x8 : (⟨S5x10, .f32⟩ : BufTy).Contents (Elt Ideal))
    (x9 : (⟨S10, .f32⟩ : BufTy).Contents (Elt Ideal)) (x10 : (⟨S10x10, .f32⟩ : BufTy).Contents (Elt Ideal))
    (x11 : (⟨S10, .f32⟩ : BufTy).Contents (Elt Ideal)) (x16 x17 : (⟨S5, .f32⟩ : BufTy).Contents (Elt Ideal))
    (x18 x19 : (⟨S10, .f32⟩ : BufTy).Contents (Elt Ideal))
    (h95 : ∀ i, ∃ r : ℝ, Read.val_main_v95 (F := Ideal) x0 x1 x4 x5 x6 x7 x8 x9 x10 x11 x16 x17 x18 x19 i = (r : EReal)) :
    ∀ i, ∃ r : ℝ, Read.val_main_v105 (F := Ideal) x0 x1 x4 x5 x6 x7 x8 x9 x10 x11 x16 x17 x18 x19 i = (r : EReal) := by
  have hz : ∀ i, ∃ r : ℝ, Read.val_main_v103 (F := Ideal) i = (r : EReal) := fun i => by
    rw [Read.val_main_v103_apply, Read.val_main_cst_16_apply]; exact zero_word_real
  have hg : ∀ j, ∃ r : ℝ,
      Read.val_main_v102 (F := Ideal) x0 x1 x4 x5 x6 x7 x8 x9 x10 x11 x16 x17 x18 x19 j = (r : EReal) := fun j => by
    unfold Read.val_main_v102; exact gather_real _ _ _ h95 j
  unfold Read.val_main_v105
  exact scatterAdd_real scatter_S500000x10_S8000000x1_S8000000x10_1_0_0_1 ⟨rfl, rfl, rfl, rfl⟩ _ _ _ hz hg

end Cert.ReferenceIdeal.RefReal

end
-- ==== Proof.Reals.lean ====
import proofs.«132165_j27702539059447_2_alg».proof.Proof.ReadP
import proofs.«132165_j27702539059447_2_alg».proof.Proof.Net
import proofs.«132165_j27702539059447_2_alg».proof.Proof.NetLaws
import proofs.«132165_j27702539059447_2_alg».proof.Proof.RefReal
import proofs.«132165_j27702539059447_2_alg».proof.Proof.RefNet

/-!
# The reference's layers are real on real arguments

Each layer of the reference, before its normalisation, is `gin` of its weights, the previous layer's
normalised output and that output's neighbour sums; each normalisation is `bnDev` of the layer's result, a
gain and a shift. A layer sends real data to real data, a normalisation over 500000 rows does, neighbour
sums of real features are real, and a vector reshaped to a one-row matrix has the vector's entries. So, by
going down the three layers in order, every entry of each layer's result is a real number as soon as every
entry of the arguments it depends on is.
-/

namespace Cert.ReferenceIdeal.Reals

open Cert.ReferenceIdeal Cert.ReferenceIdeal.Gen Idealize.ShloMosaic Idealize.ShloMosaic.ValueIdx

/-- A reshaped array has the entries of the array it reshapes: it is real when that one is. -/
theorem shapeCast_real {s t : Shape} (x : s.Idx → EReal) (h : s.ShapeCasts t)
    (hx : ∀ i, ∃ r : ℝ, x i = (r : EReal)) : ∀ j, ∃ r : ℝ, shapeCast t x h j = (r : EReal) :=
  fun j => hx (Shape.reshapeEquiv h j)

/-- The first layer's result, before its normalisation, is real. -/
theorem y1_real
    (x0 : (⟨S500000x5, .f32⟩ : BufTy).Contents (Elt Ideal)) (x1 : (⟨S2x8000000, .i32⟩ : BufTy).Contents (Elt Ideal))
    (x4 : (⟨S5x5, .f32⟩ : BufTy).Contents (Elt Ideal)) (x5 : (⟨S5, .f32⟩ : BufTy).Contents (Elt Ideal))
    (x6 : (⟨S5x5, .f32⟩ : BufTy).Contents (Elt Ideal)) (x7 : (⟨S5, .f32⟩ : BufTy).Contents (Elt Ideal))
    (h0 : ∀ i, ∃ r : ℝ, x0 i = (r : EReal)) (h4 : ∀ i, ∃ r : ℝ, x4 i = (r : EReal))
    (h5 : ∀ i, ∃ r : ℝ, x5 i = (r : EReal)) (h6 : ∀ i, ∃ r : ℝ, x6 i = (r : EReal))
    (h7 : ∀ i, ∃ r : ℝ, x7 i = (r : EReal)) :
    ∀ i, ∃ r : ℝ, Read.val_main_v24 (F := Ideal) x0 x1 x4 x5 x6 x7 i = (r : EReal) := by
  rw [RefNet.y1]
  exact Cert.Net.gin_real _ _ _ _ _ _ h4 (shapeCast_real _ _ h5) h6 (shapeCast_real _ _ h7) h0
    (RefReal.v13_real x0 x1 h0)

/-- The first layer's normalised result is real. -/
theorem h1_real
    (x0 : (⟨S500000x5, .f32⟩ : BufTy).Contents (Elt Ideal)) (x1 : (⟨S2x8000000, .i32⟩ : BufTy).Contents (Elt Ideal))
    (x4 : (⟨S5x5, .f32⟩ : BufTy).Contents (Elt Ideal)) (x5 : (⟨S5, .f32⟩ : BufTy).Contents (Elt Ideal))
    (x6 : (⟨S5x5, .f32⟩ : BufTy).Contents (Elt Ideal)) (x7 : (⟨S5, .f32⟩ : BufTy).Contents (Elt Ideal))
    (x16 : (⟨S5, .f32⟩ : BufTy).Contents (Elt Ideal)) (x17 : (⟨S5, .f32⟩ : BufTy).Contents (Elt Ideal))
    (h0 : ∀ i, ∃ r : ℝ, x0 i = (r : EReal)) (h4 : ∀ i, ∃ r : ℝ, x4 i = (r : EReal))
    (h5 : ∀ i, ∃ r : ℝ, x5 i = (r : EReal)) (h6 : ∀ i, ∃ r : ℝ, x6 i = (r : EReal))
    (h7 : ∀ i, ∃ r : ℝ, x7 i = (r : EReal)) (h16 : ∀ i, ∃ r : ℝ, x16 i = (r : EReal))
    (h17 : ∀ i, ∃ r : ℝ, x17 i = (r : EReal)) :
    ∀ i, ∃ r : ℝ, Read.val_main_v49 (F := Ideal) x0 x1 x4 x5 x6 x7 x16 x17 i = (r : EReal) := by
  rw [RefNet.h1]
  exact Cert.Net.bnDev_real _ (y1_real x0 x1 x4 x5 x6 x7 h0 h4 h5 h6 h7) _ _
    (shapeCast_real _ _ h16) (shapeCast_real _ _ h17)

/-- The second layer's result, before its normalisation, is real. -/
theorem y2_real
    (x0 : (⟨S500000x5, .f32⟩ : BufTy).Contents (Elt Ideal)) (x1 : (⟨S2x8000000, .i32⟩ : BufTy).Contents (Elt Ideal))
    (x4 : (⟨S5x5, .f32⟩ : BufTy).Contents (Elt Ideal)) (x5 : (⟨S5, .f32⟩ : BufTy).Contents (Elt Ideal))
    (x6 : (⟨S5x5, .f32⟩ : BufTy).Contents (Elt Ideal)) (x7 : (⟨S5, .f32⟩ : BufTy).Contents (Elt Ideal))
    (x8 : (⟨S5x10, .f32⟩ : BufTy).Contents (Elt Ideal)) (x9 : (⟨S10, .f32⟩ : BufTy).Contents (Elt Ideal))
    (x10 : (⟨S10x10, .f32⟩ : BufTy).Contents (Elt Ideal)) (x11 : (⟨S10, .f32⟩ : BufTy).Contents (Elt Ideal))
    (x16 : (⟨S5, .f32⟩ : BufTy).Contents (Elt Ideal)) (x17 : (⟨S5, .f32⟩ : BufTy).Contents (Elt Ideal))
    (h0 : ∀ i, ∃ r : ℝ, x0 i = (r : EReal)) (h4 : ∀ i, ∃ r : ℝ, x4 i = (r : EReal))
    (h5 : ∀ i, ∃ r : ℝ, x5 i = (r : EReal)) (h6 : ∀ i, ∃ r : ℝ, x6 i = (r : EReal))
    (h7 : ∀ i, ∃ r : ℝ, x7 i = (r : EReal)) (h8 : ∀ i, ∃ r : ℝ, x8 i = (r : EReal))
    (h9 : ∀ i, ∃ r : ℝ, x9 i = (r : EReal)) (h10 : ∀ i, ∃ r : ℝ, x10 i = (r : EReal))
    (h11 : ∀ i, ∃ r : ℝ, x11 i = (r : EReal)) (h16 : ∀ i, ∃ r : ℝ, x16 i = (r : EReal))
    (h17 : ∀ i, ∃ r : ℝ, x17 i = (r : EReal)) :
    ∀ i, ∃ r : ℝ, Read.val_main_v70 (F := Ideal) x0 x1 x4 x5 x6 x7 x8 x9 x10 x11 x16 x17 i = (r : EReal) := by
  have h49 := h1_real x0 x1 x4 x5 x6 x7 x16 x17 h0 h4 h5 h6 h7 h16 h17
  rw [RefNet.y2]
  exact Cert.Net.gin_real _ _ _ _ _ _ h8 (shapeCast_real _ _ h9) h10 (shapeCast_real _ _ h11) h49
    (RefReal.v59_real x0 x1 x4 x5 x6 x7 x16 x17 h49)

/-- The second layer's normalised result is real. -/
theorem h2_real
    (x0 : (⟨S500000x5, .f32⟩ : BufTy).Contents (Elt Ideal)) (x1 : (⟨S2x8000000, .i32⟩ : BufTy).Contents (Elt Ideal))
    (x4 : (⟨S5x5, .f32⟩ : BufTy).Contents (Elt Ideal)) (x5 : (⟨S5, .f32⟩ : BufTy).Contents (Elt Ideal))
    (x6 : (⟨S5x5, .f32⟩ : BufTy).Contents (Elt Ideal)) (x7 : (⟨S5, .f32⟩ : BufTy).Contents (Elt Ideal))
    (x8 : (⟨S5x10, .f32⟩ : BufTy).Contents (Elt Ideal)) (x9 : (⟨S10, .f32⟩ : BufTy).Contents (Elt Ideal))
    (x10 : (⟨S10x10, .f32⟩ : BufTy).Contents (Elt Ideal)) (x11 : (⟨S10, .f32⟩ : BufTy).Contents (Elt Ideal))
    (x16 : (⟨S5, .f32⟩ : BufTy).Contents (Elt Ideal)) (x17 : (⟨S5, .f32⟩ : BufTy).Contents (Elt Ideal))
    (x18 : (⟨S10, .f32⟩ : BufTy).Contents (Elt Ideal)) (x19 : (⟨S10, .f32⟩ : BufTy).Contents (Elt Ideal))
    (h0 : ∀ i, ∃ r : ℝ, x0 i = (r : EReal)) (h4 : ∀ i, ∃ r : ℝ, x4 i = (r : EReal))
    (h5 : ∀ i, ∃ r : ℝ, x5 i = (r : EReal)) (h6 : ∀ i, ∃ r : ℝ, x6 i = (r : EReal))
    (h7 : ∀ i, ∃ r : ℝ, x7 i = (r : EReal)) (h8 : ∀ i, ∃ r : ℝ, x8 i = (r : EReal))
    (h9 : ∀ i, ∃ r : ℝ, x9 i = (r : EReal)) (h10 : ∀ i, ∃ r : ℝ, x10 i = (r : EReal))
    (h11 : ∀ i, ∃ r : ℝ, x11 i = (r : EReal)) (h16 : ∀ i, ∃ r : ℝ, x16 i = (r : EReal))
    (h17 : ∀ i, ∃ r : ℝ, x17 i = (r : EReal)) (h18 : ∀ i, ∃ r : ℝ, x18 i = (r : EReal))
    (h19 : ∀ i, ∃ r : ℝ, x19 i = (r : EReal)) :
    ∀ i, ∃ r : ℝ, Read.val_main_v95 (F := Ideal) x0 x1 x4 x5 x6 x7 x8 x9 x10 x11 x16 x17 x18 x19 i = (r : EReal) := by
  rw [RefNet.h2]
  exact Cert.Net.bnDev_real _ (y2_real x0 x1 x4 x5 x6 x7 x8 x9 x10 x11 x16 x17 h0 h4 h5 h6 h7 h8 h9 h10 h11 h16 h17) _ _
    (shapeCast_real _ _ h18) (shapeCast_real _ _ h19)

/-- The third layer's result, before its normalisation, is real. -/
theorem y3_real
    (x0 : (⟨S500000x5, .f32⟩ : BufTy).Contents (Elt Ideal)) (x1 : (⟨S2x8000000, .i32⟩ : BufTy).Contents (Elt Ideal))
    (x4 : (⟨S5x5, .f32⟩ : BufTy).Contents (Elt Ideal)) (x5 : (⟨S5, .f32⟩ : BufTy).Contents (Elt Ideal))
    (x6 : (⟨S5x5, .f32⟩ : BufTy).Contents (Elt Ideal)) (x7 : (⟨S5, .f32⟩ : BufTy).Contents (Elt Ideal))
    (x8 : (⟨S5x10, .f32⟩ : BufTy).Contents (Elt Ideal)) (x9 : (⟨S10, .f32⟩ : BufTy).Contents (Elt Ideal))
    (x10 : (⟨S10x10, .f32⟩ : BufTy).Contents (Elt Ideal)) (x11 : (⟨S10, .f32⟩ : BufTy).Contents (Elt Ideal))
    (x12 : (⟨S10x10, .f32⟩ : BufTy).Contents (Elt Ideal)) (x13 : (⟨S10, .f32⟩ : BufTy).Contents (Elt Ideal))
    (x14 : (⟨S10x10, .f32⟩ : BufTy).Contents (Elt Ideal)) (x15 : (⟨S10, .f32⟩ : BufTy).Contents (Elt Ideal))
    (x16 : (⟨S5, .f32⟩ : BufTy).Contents (Elt Ideal)) (x17 : (⟨S5, .f32⟩ : BufTy).Contents (Elt Ideal))
    (x18 : (⟨S10, .f32⟩ : BufTy).Contents (Elt Ideal)) (x19 : (⟨S10, .f32⟩ : BufTy).Contents (Elt Ideal))
    (h0 : ∀ i, ∃ r : ℝ, x0 i = (r : EReal)) (h4 : ∀ i, ∃ r : ℝ, x4 i = (r : EReal))
    (h5 : ∀ i, ∃ r : ℝ, x5 i = (r : EReal)) (h6 : ∀ i, ∃ r : ℝ, x6 i = (r : EReal))
    (h7 : ∀ i, ∃ r : ℝ, x7 i = (r : EReal)) (h8 : ∀ i, ∃ r : ℝ, x8 i = (r : EReal))
    (h9 : ∀ i, ∃ r : ℝ, x9 i = (r : EReal)) (h10 : ∀ i, ∃ r : ℝ, x10 i = (r : EReal))
    (h11 : ∀ i, ∃ r : ℝ, x11 i = (r : EReal)) (h12 : ∀ i, ∃ r : ℝ, x12 i = (r : EReal))
    (h13 : ∀ i, ∃ r : ℝ, x13 i = (r : EReal)) (h14 : ∀ i, ∃ r : ℝ, x14 i = (r : EReal))
    (h15 : ∀ i, ∃ r : ℝ, x15 i = (r : EReal)) (h16 : ∀ i, ∃ r : ℝ, x16 i = (r : EReal))
    (h17 : ∀ i, ∃ r : ℝ, x17 i = (r : EReal)) (h18 : ∀ i, ∃ r : ℝ, x18 i = (r : EReal))
    (h19 : ∀ i, ∃ r : ℝ, x19 i = (r : EReal)) :
    ∀ i, ∃ r : ℝ, Read.val_main_v116 (F := Ideal) x0 x1 x4 x5 x6 x7 x8 x9 x10 x11 x12 x13 x14 x15 x16 x17 x18 x19 i = (r : EReal) := by
  have h95 := h2_real x0 x1 x4 x5 x6 x7 x8 x9 x10 x11 x16 x17 x18 x19 h0 h4 h5 h6 h7 h8 h9 h10 h11 h16 h17 h18 h19
  rw [RefNet.y3]
  exact Cert.Net.gin_real _ _ _ _ _ _ h12 (shapeCast_real _ _ h13) h14 (shapeCast_real _ _ h15) h95
    (RefReal.v105_real x0 x1 x4 x5 x6 x7 x8 x9 x10 x11 x16 x17 x18 x19 h95)

end Cert.ReferenceIdeal.Reals
-- ==== Proof.ChainAll.lean ====
import proofs.«132165_j27702539059447_2_alg».proof.Defs
import proofs.«132165_j27702539059447_2_alg».proof.Proof.Chain1
import proofs.«132165_j27702539059447_2_alg».proof.Proof.Chain2
import proofs.«132165_j27702539059447_2_alg».proof.Proof.Chain3
import proofs.«132165_j27702539059447_2_alg».proof.Proof.ChainOut
import proofs.«132165_j27702539059447_2_alg».proof.Proof.PreReal
import proofs.«132165_j27702539059447_2_alg».proof.Proof.Reals

/-!
The kernel program's result is the reference's last stage at the kernel program's own arguments: the three layers
one after the other, then the pooled head. The precondition makes every entry of the arguments a real number, hence
every entry of each layer before its normalisation, which is what lets the two forms of the variance agree.
-/

set_option maxRecDepth 16384

noncomputable section

namespace Cert.KernelIdeal.Gen

open Idealize.ShloMosaic Idealize.ShloMosaic.TcCoe Idealize.SL.Sem
open Cert.ReferenceIdeal.Read (val_main_v168)

theorem value [Cert.Pre_finite_inputs.Facts] (m : (ℓ : Loc nD τ sig) → Buf (Elt Ideal) ℓ) (ρ : Dev nD → PrngReg)
    (hpre : Cert.Pre_KernelIdeal m) (c : Dev nD) :
    (W14 m ρ c (Proc.devRef .tc main_v101) : S8192x1.Idx → EReal)
      = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  obtain ⟨r0, r4, r5, r6, r7, r8, r9, r10, r11, r12, r13, r14, r15, r16, r17, r18, r19⟩ :=
    Cert.PreReal.real_of_pre _ _ _ _ _ _ _ _ _ _ _ _ _ _ _ _ _ _ _ _ _ _ _ _ _ _ _ _ (hpre c)
  have h1 := layer1 m ρ c (Cert.ReferenceIdeal.Reals.y1_real _ _ _ _ _ _ r0 r4 r5 r6 r7)
  have h2 := layer2 m ρ c h1 (Cert.ReferenceIdeal.Reals.y2_real _ _ _ _ _ _ _ _ _ _ _ _ r0 r4 r5 r6 r7 r8 r9 r10 r11 r16 r17)
  have h3 := layer3 m ρ c h2 (Cert.ReferenceIdeal.Reals.y3_real _ _ _ _ _ _ _ _ _ _ _ _ _ _ _ _ _ _ r0 r4 r5 r6 r7 r8 r9 r10 r11 r12 r13 r14 r15 r16 r17 r18 r19)
  exact out_stage m ρ c h3

end Cert.KernelIdeal.Gen

end
-- ==== Proof.lean ====
/- The proof of `Cert.Claim`. Over the extended reals the idealized kernel program and the idealized reference are one
   function of the argument arrays: three message-passing layers — every row of the node features plus their neighbour
   sums through two dense stages with the negative entries replaced by zero, then each column normalised over all 500000
   rows — and a three-stage dense head on the pooled rows. The kernel normalises with the mean of the squares minus the
   squared mean, cut off below at zero, the reference with the mean of the squared deviations; on real data with the
   divisor the number of rows the two agree and are not negative. Each program terminates without fault and leaves its
   arguments as they were, and the two results are one term of the arguments. -/
import proofs.«132165_j27702539059447_2_alg».proof.Defs
import proofs.«132165_j27702539059447_2_alg».proof.Proof.Gen.Kernel
import proofs.«132165_j27702539059447_2_alg».proof.Proof.Gen.Kernel.Skeleton
import proofs.«132165_j27702539059447_2_alg».proof.Proof.Gen.Kernel.Launch
import proofs.«132165_j27702539059447_2_alg».proof.Proof.Gen.Kernel.Points
import proofs.«132165_j27702539059447_2_alg».proof.Proof.Gen.Kernel.Frame
import proofs.«132165_j27702539059447_2_alg».proof.Proof.Gen.KernelIdeal
import proofs.«132165_j27702539059447_2_alg».proof.Proof.Gen.KernelIdeal.Skeleton
import proofs.«132165_j27702539059447_2_alg».proof.Proof.Gen.KernelIdeal.Launch
import proofs.«132165_j27702539059447_2_alg».proof.Proof.Gen.KernelIdeal.Points
import proofs.«132165_j27702539059447_2_alg».proof.Proof.Gen.KernelIdeal.Frame
import proofs.«132165_j27702539059447_2_alg».proof.Proof.Gen.ReferenceIdeal
import proofs.«132165_j27702539059447_2_alg».proof.Proof.Gen.Pre_finite_inputs
import Idealize.ShloMosaic.Adequacy
import Idealize.ShloMosaic.Init
import proofs.«132165_j27702539059447_2_alg».proof.Proof.ReadP
import proofs.«132165_j27702539059447_2_alg».proof.Proof.RunOut
import proofs.«132165_j27702539059447_2_alg».proof.Proof.RefRun
import proofs.«132165_j27702539059447_2_alg».proof.Proof.ChainAll

noncomputable section

namespace Cert.Proof

open Idealize.ShloMosaic Idealize.SL.Sem Cert.Kernel

/-- The kernel program runs and leaves its arguments as they were. -/
theorem frame_k : Cert.frame_Kernel := fun m ρ _ => Cert.Kernel.Gen.frame m ρ

/-- The idealized kernel program runs and leaves its arguments as they were. -/
theorem frame_ki : Cert.frame_KernelIdeal := fun m ρ _ => Cert.KernelIdeal.Gen.frame m ρ

/-- The idealized reference runs and leaves its arguments as they were: its run with the result dropped. -/
theorem frame_ri : Cert.frame_ReferenceIdeal := fun m ρ _ =>
  (θ_run Cert.ReferenceIdeal.defs _ _).mono (fun _ h c => (h c).2) (Cert.ReferenceIdeal.RefRun.run m ρ)

/-- This claim is `True`. -/
theorem preserves : Cert.preserves_Kernel_KernelIdeal := trivial

/-- From memories that agree on the arguments both runs end with the result at the reference's last stage of the
    kernel's arguments: the kernel's by the value of its last boundary, the reference's by its own run read at
    arguments that are the kernel's. -/
theorem algebraic : Cert.algebraic_KernelIdeal_ReferenceIdeal := by
  intro m ρ m' ρ' hpre hagree
  refine ⟨fun c => Cert.ReferenceIdeal.Read.val_main_v168 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      (m ((c.tc : Thread Cert.KernelIdeal.nD Cert.KernelIdeal.τ).loc Cert.KernelIdeal.main_arg18)) (m ((c.tc : Thread Cert.KernelIdeal.nD Cert.KernelIdeal.τ).loc Cert.KernelIdeal.main_arg19))
      (m ((c.tc : Thread Cert.KernelIdeal.nD Cert.KernelIdeal.τ).loc Cert.KernelIdeal.main_arg20)) (m ((c.tc : Thread Cert.KernelIdeal.nD Cert.KernelIdeal.τ).loc Cert.KernelIdeal.main_arg21))
      (m ((c.tc : Thread Cert.KernelIdeal.nD Cert.KernelIdeal.τ).loc Cert.KernelIdeal.main_arg22)) (m ((c.tc : Thread Cert.KernelIdeal.nD Cert.KernelIdeal.τ).loc Cert.KernelIdeal.main_arg23))
      (m ((c.tc : Thread Cert.KernelIdeal.nD Cert.KernelIdeal.τ).loc Cert.KernelIdeal.main_arg24)) (m ((c.tc : Thread Cert.KernelIdeal.nD Cert.KernelIdeal.τ).loc Cert.KernelIdeal.main_arg25))
      (m ((c.tc : Thread Cert.KernelIdeal.nD Cert.KernelIdeal.τ).loc Cert.KernelIdeal.main_arg26)) (m ((c.tc : Thread Cert.KernelIdeal.nD Cert.KernelIdeal.τ).loc Cert.KernelIdeal.main_arg27)), ?_, ?_⟩
  · exact (θ_run Cert.KernelIdeal.defs _ _).mono
      (fun r h c => ⟨(h c).1.trans (Cert.KernelIdeal.Gen.value m ρ hpre c), (h c).2⟩)
      (Cert.KernelIdeal.Gen.run_out (F := Ideal) m ρ)
  · refine (θ_run Cert.ReferenceIdeal.defs _ _).mono (fun _ h c => ⟨?_, (h c).2⟩)
      (Cert.ReferenceIdeal.RefRun.run m' ρ')
    obtain ⟨h0, h1, h2, h3, h4, h5, h6, h7, h8, h9, h10, h11, h12, h13, h14, h15, h16, h17, h18, h19, h20, h21, h22, h23, h24, h25, h26, h27⟩ := hagree c
    refine (h c).1.trans ?_
    rw [h0, h1, h2, h3, h4, h5, h6, h7, h8, h9, h10, h11, h12, h13, h14, h15, h16, h17, h18, h19, h20, h21, h22, h23, h24, h25, h26, h27]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
